-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S200000x512 : Shape := ⟨2, ![200000, 512]⟩
abbrev S10000x512 : Shape := ⟨2, ![10000, 512]⟩
abbrev S512 : Shape := ⟨1, ![512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S200000x512 : S_.BroadcastsInDim S200000x512 (![] : Fin 0 → Fin S200000x512.rank)
  reducesTo_S200000x512_S_d0_1 : S200000x512.ReducesTo [0, 1] S_
  bcast_S_S10000x512 : S_.BroadcastsInDim S10000x512 (![] : Fin 0 → Fin S10000x512.rank)
  reducesTo_S10000x512_S_d0_1 : S10000x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S10000x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S200000x512 1) : IVec S_ 1 :=
  let main_c_5 : IVec S_ 1 := constantI S_ 1 1#1
  let main_v17 : IVec S_ 1 := (fun x v => Host.reduce IntOp.andi x v reducesTo_S200000x512_S_d0_1 h_S_) main_v16 main_c_5
  let main_v18 : IVec S_ 1 := andi main_v13 main_v17
  let main_v19 : FVec F S10000x512 .f32 := Host.absf main_arg4
  let main_cst_6 : FVec F S_ .f32 := constant S_ .f32 0x7F800000#32
  let main_v20 : FVec F S10000x512 .f32 := broadcastInDim S10000x512 ![] bcast_S_S10000x512 main_cst_6
  let main_v21 : IVec S10000x512 1 := cmpf .olt main_v19 main_v20
  let main_c_7 : IVec S_ 1 := constantI S_ 1 1#1
  let main_v22 : IVec S_ 1 := (fun x v => Host.reduce IntOp.andi x v reducesTo_S10000x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S512x512 .f32) (main_arg1 : FVec F S512x512 .f32) (main_arg2 : FVec F S512x512 .f32) (main_arg3 : FVec F S200000x512 .f32) (main_arg4 : FVec F S10000x512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S200000x512 .f32 := Host.absf main_arg3
  let main_cst_4 : FVec F S_ .f32 := constant S_ .f32 0x7F800000#32
  let main_v15 : FVec F S200000x512 .f32 := broadcastInDim S200000x512 ![] bcast_S_S200000x512 main_cst_4
  let main_v16 : IVec S200000x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S512x512 : Shape := ⟨2, ![512, 512]⟩
abbrev S200000x512 : Shape := ⟨2, ![200000, 512]⟩
abbrev S10000x512 : Shape := ⟨2, ![10000, 512]⟩
abbrev S512 : Shape := ⟨1, ![512]⟩
abbrev S1x512 : Shape := ⟨2, ![1, 512]⟩
abbrev S_ : Shape := ⟨0, ![]⟩
abbrev S200704x512 : Shape := ⟨2, ![200704, 512]⟩
abbrev S10240x512 : Shape := ⟨2, ![10240, 512]⟩
abbrev S2048x512 : Shape := ⟨2, ![2048, 512]⟩
abbrev S1x512x512 : Shape := ⟨3, ![1, 512, 512]⟩
abbrev S2x512x512 : Shape := ⟨3, ![2, 512, 512]⟩
abbrev S512x1 : Shape := ⟨2, ![512, 1]⟩
abbrev S512x2048 : Shape := ⟨2, ![512, 2048]⟩
abbrev S3x512x512 : Shape := ⟨3, ![3, 512, 512]⟩

abbrev nBuf : Space → Nat
  | .hbm => 64
  | .vmem => 40
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S200000x512, .f32⟩
  | .hbm, ⟨4, _⟩ => ⟨S10000x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S1x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S1x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S_, .i32⟩
  | .hbm, ⟨32, _⟩ => ⟨S_, .f32⟩
  | .hbm, ⟨33, _⟩ => ⟨S200704x512, .f32⟩
  | .hbm, ⟨34, _⟩ => ⟨S_, .i32⟩
  | .hbm, ⟨35, _⟩ => ⟨S_, .f32⟩
  | .hbm, ⟨36, _⟩ => ⟨S10240x512, .f32⟩
  | .hbm, ⟨37, _⟩ => ⟨S512x512, .f32⟩
  | .hbm, ⟨38, _⟩ => ⟨S512x512, .bf16⟩
  | .hbm, ⟨39, _⟩ => ⟨S512x512, .f32⟩
  | .hbm, ⟨40, _⟩ => ⟨S512x512, .bf16⟩
  | .hbm, ⟨41, _⟩ => ⟨S200704x512, .f32⟩
  | .hbm, ⟨42, _⟩ => ⟨S200704x512, .bf16⟩
  | .hbm, ⟨43, _⟩ => ⟨S512x512, .f32⟩
  | .hbm, ⟨44, _⟩ => ⟨S512x512, .bf16⟩
  | .hbm, ⟨45, _⟩ => ⟨S512x512, .f32⟩
  | .hbm, ⟨46, _⟩ => ⟨S512x512, .bf16⟩
  | .hbm, ⟨47, _⟩ => ⟨S10240x512, .f32⟩
  | .hbm, ⟨48, _⟩ => ⟨S10240x512, .bf16⟩
  | .hbm, ⟨49, _⟩ => ⟨S1x512x512, .f32⟩
  | .hbm, ⟨50, _⟩ => ⟨S1x512x512, .f32⟩
  | .hbm, ⟨51, _⟩ => ⟨S2x512x512, .f32⟩
  | .hbm, ⟨52, _⟩ => ⟨S1x512x512, .f32⟩
  | .hbm, ⟨53, _⟩ => ⟨S2x512x512, .f32⟩
  | .hbm, ⟨54, _⟩ => ⟨S1x512x512, .f32⟩
  | .hbm, ⟨55, _⟩ => ⟨S1x512x512, .f32⟩
  | .hbm, ⟨56, _⟩ => ⟨S512x512, .f32⟩
  | .hbm, ⟨57, _⟩ => ⟨S1x512x512, .f32⟩
  | .hbm, ⟨58, _⟩ => ⟨S512x512, .f32⟩
  | .hbm, ⟨59, _⟩ => ⟨S512x512, .f32⟩
  | .hbm, ⟨60, _⟩ => ⟨S1x512x512, .f32⟩
  | .hbm, ⟨61, _⟩ => ⟨S1x512x512, .f32⟩
  | .hbm, ⟨62, _⟩ => ⟨S1x512x512, .f32⟩
  | .hbm, ⟨63, _⟩ => ⟨S3x512x512, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512, .f32⟩
  | .local _ .vmem, ⟨4, _⟩ => ⟨S512x512, .bf16⟩
  | .local _ .vmem, ⟨5, _⟩ => ⟨S512, .f32⟩
  | .local _ .vmem, ⟨6, _⟩ => ⟨S2048x512, .f32⟩
  | .local _ .vmem, ⟨7, _⟩ => ⟨S2048x512, .f32⟩
  | .local _ .vmem, ⟨8, _⟩ => ⟨S2048x512, .bf16⟩
  | .local _ .vmem, ⟨9, _⟩ => ⟨S2048x512, .bf16⟩
  | .local _ .vmem, ⟨10, _⟩ => ⟨S2048x512, .f32⟩
  | .local _ .vmem, ⟨11, _⟩ => ⟨S2048x512, .f32⟩
  | .local _ .vmem, ⟨12, _⟩ => ⟨S512x512, .bf16⟩
  | .local _ .vmem, ⟨13, _⟩ => ⟨S512, .f32⟩
  | .local _ .vmem, ⟨14, _⟩ => ⟨S512x512, .bf16⟩
  | .local _ .vmem, ⟨15, _⟩ => ⟨S512, .f32⟩
  | .local _ .vmem, ⟨16, _⟩ => ⟨S2048x512, .f32⟩
  | .local _ .vmem, ⟨17, _⟩ => ⟨S2048x512, .f32⟩
  | .local _ .vmem, ⟨18, _⟩ => ⟨S2048x512, .bf16⟩
  | .local _ .vmem, ⟨19, _⟩ => ⟨S2048x512, .bf16⟩
  | .local _ .vmem, ⟨20, _⟩ => ⟨S1x512x512, .f32⟩
  | .local _ .vmem, ⟨21, _⟩ => ⟨S1x512x512, .f32⟩
  | .local _ .vmem, ⟨22, _⟩ => ⟨S2048x512, .f32⟩
  | .local _ .vmem, ⟨23, _⟩ => ⟨S2048x512, .f32⟩
  | .local _ .vmem, ⟨24, _⟩ => ⟨S2048x512, .bf16⟩
  | .local _ .vmem, ⟨25, _⟩ => ⟨S2048x512, .bf16⟩
  | .local _ .vmem, ⟨26, _⟩ => ⟨S1x512x512, .f32⟩
  | .local _ .vmem, ⟨27, _⟩ => ⟨S1x512x512, .f32⟩
  | .local _ .vmem, ⟨28, _⟩ => ⟨S512x1, .f32⟩
  | .local _ .vmem, ⟨29, _⟩ => ⟨S512x1, .f32⟩
  | .local _ .vmem, ⟨30, _⟩ => ⟨S512x512, .f32⟩
  | .local _ .vmem, ⟨31, _⟩ => ⟨S1x512x512, .f32⟩
  | .local _ .vmem, ⟨32, _⟩ => ⟨S2048x512, .f32⟩
  | .local _ .vmem, ⟨33, _⟩ => ⟨S2048x512, .f32⟩
  | .local _ .vmem, ⟨34, _⟩ => ⟨S2048x512, .bf16⟩
  | .local _ .vmem, ⟨35, _⟩ => ⟨S2048x512, .bf16⟩
  | .local _ .vmem, ⟨36, _⟩ => ⟨S1x512x512, .f32⟩
  | .local _ .vmem, ⟨37, _⟩ => ⟨S512x1, .f32⟩
  | .local _ .vmem, ⟨38, _⟩ => ⟨S512x1, .f32⟩
  | .local _ .vmem, ⟨39, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c : Ref sig .tc := ⟨.hbm, 31, rfl⟩
abbrev main_call0_v0 : Ref sig .tc := ⟨.hbm, 32, rfl⟩
abbrev main_v12 : Ref sig .tc := ⟨.hbm, 33, rfl⟩
abbrev main_c_0 : Ref sig .tc := ⟨.hbm, 34, rfl⟩
abbrev main_call1_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18_0 : Ref sig .tc := ⟨.hbm, 41, rfl⟩
abbrev main_v18_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23_0 : Ref sig .tc := ⟨.hbm, 47, rfl⟩
abbrev main_v23_1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc2_scratch1 : Ref sig .tc := ⟨.vmem, 29, rfl⟩
abbrev cc2_scratch2 : Ref sig .tc := ⟨.vmem, 30, rfl⟩
abbrev cc3_stg0_0 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_scratch0 : Ref sig .tc := ⟨.vmem, 37, rfl⟩
abbrev cc3_scratch1 : Ref sig .tc := ⟨.vmem, 38, rfl⟩
abbrev cc3_scratch2 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc3_sem0_0 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2048x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 98], ![false, false]⟩

def k2_cond2 (i : grid2.Coords) : BitVec 1 :=
  let arg1 : BitVec 32 := BitVec.ofNat 32 (i 1).val
  let c97_i32 : BitVec 32 := 97#32
  let v48 : BitVec 1 := Scalar.cmpi .eq arg1 c97_i32
  let v49 : BitVec 32 := Scalar.extui v48
  let c0_i32_25 : BitVec 32 := 0#32
  let v50 : BitVec 1 := Scalar.cmpi .ne v49 c0_i32_25
  v50

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![1, 5], ![false, false]⟩

def k3_cond2 (i : grid3.Coords) : BitVec 1 :=
  let arg1 : BitVec 32 := BitVec.ofNat 32 (i 1).val
  let c4_i32 : BitVec 32 := 4#32
  let v48 : BitVec 1 := Scalar.cmpi .eq arg1 c4_i32
  let v49 : BitVec 32 := Scalar.extui v48
  let c0_i32_25 : BitVec 32 := 0#32
  let v50 : BitVec 1 := Scalar.cmpi .ne v49 c0_i32_25
  v50

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 1 → Memref sig .tc .vmem S1x512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S2048x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 1 → Memref sig .tc .vmem S1x512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true, false]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  pads_S200000x512_S200704x512_07040_000 : S200000x512.Pads (![0, 0] : Fin 2 → Nat) ![704, 0] ![0, 0] S200704x512
  h_S_ : 0 < S_.numel
  pads_S10000x512_S10240x512_02400_000 : S10000x512.Pads (![0, 0] : Fin 2 → Nat) ![240, 0] ![0, 0] S10240x512
  transposes_S512x512_S512x512_1_0 : S512x512.Transposes [1, 0] S512x512
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S2048x512 : S1x512.Broadcasts S2048x512
  packedbf16_S2048x512_S2048x512_0_0 : (Rect.unit (s := S2048x512) ![0, 0] S2048x512.size inb_S2048x512_S2048x512_0_0).PackedRows (EltTy.packing .bf16)
  bcast_S512x512_S1x512x512_1_2 : S512x512.BroadcastsInDim S1x512x512 (![1, 2] : Fin 2 → Fin S1x512x512.rank)
  concatenates_S1x512x512_S1x512x512_S2x512x512_d0 : Shape.Concatenates [S1x512x512, S1x512x512] S2x512x512 0
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  broadcasts_S512x1_S512x512 : S512x1.Broadcasts S512x512
  shapeCasts_S512x512_S1x512x512 : S512x512.ShapeCasts S1x512x512
  slices_S2x512x512_S1x512x512_0_0_0 : S2x512x512.Slices ![0, 0, 0] S1x512x512
  slices_S2x512x512_S1x512x512_1_0_0 : S2x512x512.Slices ![1, 0, 0] S1x512x512
  concatenates_S1x512x512_S1x512x512_S1x512x512_S3x512x512_d0 : Shape.Concatenates [S1x512x512, S1x512x512, S1x512x512] S3x512x512 0
  dot_S512x512_S512x512_S512x512_1_1_0_0_n_n_wf : DotDims.WF S512x512 S512x512 S512x512 [1] [1] [0] [0] [] []
  dot_S2048x512_S512x512_S2048x512_1_0_0_1_n_n_wf : DotDims.WF S2048x512 S512x512 S2048x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S200704x512.size a
  hwx0_0 : ∀ i : grid0.Coords, EltTy.bits .f32 = 32 ∨ (Rect.block (s := S200704x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S200704x512.size a
  hwx0_5 : ∀ i : grid0.Coords, EltTy.bits .f32 = 32 ∨ (Rect.block (s := S200704x512) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x512.size a ≤ S200704x512.size a
  hwx0_6 : ∀ i : grid0.Coords, EltTy.bits .bf16 = 32 ∨ (Rect.block (s := S200704x512) S2048x512.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S10240x512.size a
  hwx1_0 : ∀ i : grid1.Coords, EltTy.bits .f32 = 32 ∨ (Rect.block (s := S10240x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .bf16 = 32 ∨ (Rect.block (s := S512x512) S512x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .bf16 = 32 ∨ (Rect.block (s := S512x512) S512x512.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S512.size a ≤ S512.size a
  hwx1_4 : ∀ i : grid1.Coords, EltTy.bits .f32 = 32 ∨ (Rect.block (s := S512) S512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x512.size a ≤ S10240x512.size a
  hwx1_5 : ∀ i : grid1.Coords, EltTy.bits .f32 = 32 ∨ (Rect.block (s := S10240x512) S2048x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x512.size a ≤ S10240x512.size a
  hwx1_6 : ∀ i : grid1.Coords, EltTy.bits .bf16 = 32 ∨ (Rect.block (s := S10240x512) S2048x512.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x512.size a ≤ S2x512x512.size a
  hwx2_0 : ∀ i : grid2.Coords, EltTy.bits .f32 = 32 ∨ (Rect.block (s := S2x512x512) S1x512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x512.size a ≤ S200704x512.size a
  hwx2_1 : ∀ i : grid2.Coords, EltTy.bits .f32 = 32 ∨ (Rect.block (s := S200704x512) S2048x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x512.size a ≤ S200704x512.size a
  hwx2_2 : ∀ i : grid2.Coords, EltTy.bits .bf16 = 32 ∨ (Rect.block (s := S200704x512) S2048x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x512.size a ≤ S2x512x512.size a
  hwx2_3 : ∀ i : grid2.Coords, EltTy.bits .f32 = 32 ∨ (Rect.block (s := S2x512x512) S1x512x512.size (cc2_transform_3 i) (hinb2_3 i)).WholeWords (EltTy.packing .f32)
  hrank3 : 0 < grid3.rank
  hstage3_0 : ∀ j, (stage3_0 j).IsWhole
  nbuf3_0 : grid3.bufCount reads3_0 false = 1
  hreads3_0 : ∀ i i' : grid3.Coords, (∀ a, reads3_0 a = true → i a = i' a) → cc3_transform_0 i = cc3_transform_0 i'
  hinb3_0 : ∀ (i : grid3.Coords) a, (cc3_transform_0 i a + 1) * S1x512x512.size a ≤ S1x512x512.size a
  hwx3_0 : ∀ i : grid3.Coords, EltTy.bits .f32 = 32 ∨ (Rect.block (s := S1x512x512) S1x512x512.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x512.size a ≤ S10240x512.size a
  hwx3_1 : ∀ i : grid3.Coords, EltTy.bits .f32 = 32 ∨ (Rect.block (s := S10240x512) S2048x512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S10240x512.size a
  hwx3_2 : ∀ i : grid3.Coords, EltTy.bits .bf16 = 32 ∨ (Rect.block (s := S10240x512) S2048x512.size (cc3_transform_2 i) (hinb3_2 i)).WholeWords (EltTy.packing .bf16)
  hstage3_3 : ∀ j, (stage3_3 j).IsWhole
  nbuf3_3 : grid3.bufCount reads3_3 false = 1
  hreads3_3 : ∀ i i' : grid3.Coords, (∀ a, reads3_3 a = true → i a = i' a) → cc3_transform_3 i = cc3_transform_3 i'
  hinb3_3 : ∀ (i : grid3.Coords) a, (cc3_transform_3 i a + 1) * S1x512x512.size a ≤ S1x512x512.size a
  hwx3_3 : ∀ i : grid3.Coords, EltTy.bits .f32 = 32 ∨ (Rect.block (s := S1x512x512) S1x512x512.size (cc3_transform_3 i) (hinb3_3 i)).WholeWords (EltTy.packing .f32)

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v12) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg12) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg14) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18_1) S2048x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg16) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg18) S512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23_0) S2048x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v23_1) S2048x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v26) S1x512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18_0) S2048x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18_1) S2048x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v27) S1x512x512.size cc3_transform_0 reads3_0 false false 1 stage3_0 sem3_0
    hrank3 hreads3_0 hinb3_0 nbuf3_0 (Memref.isWhole_whole _) hwx3_0 hstage3_0

abbrev win3_1 : Pipeline.Window sig grid3 :=
  Pipeline.Window.ofSpec (Memref.whole main_v23_0) S2048x512.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v23_1) S2048x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v29) S1x512x512.size cc3_transform_3 reads3_3 true false 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S512x512 : Shape := ⟨2, ![512, 512]⟩
abbrev S200000x512 : Shape := ⟨2, ![200000, 512]⟩
abbrev S10000x512 : Shape := ⟨2, ![10000, 512]⟩
abbrev S512 : Shape := ⟨1, ![512]⟩
abbrev S1x512 : Shape := ⟨2, ![1, 512]⟩
abbrev S512x200000 : Shape := ⟨2, ![512, 200000]⟩
abbrev S_ : Shape := ⟨0, ![]⟩
abbrev S512x1 : Shape := ⟨2, ![512, 1]⟩
abbrev S512x10000 : Shape := ⟨2, ![512, 10000]⟩
abbrev S1x512x512 : Shape := ⟨3, ![1, 512, 512]⟩
abbrev S3x512x512 : Shape := ⟨3, ![3, 512, 512]⟩

abbrev nBuf : Space → Nat
  | .hbm => 107
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .hbm, ⟨2, _⟩ => ⟨S512x512, .f32⟩
  | .hbm, ⟨3, _⟩ => ⟨S200000x512, .f32⟩
  | .hbm, ⟨4, _⟩ => ⟨S10000x512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x512, .f32⟩
  | .hbm, ⟨20, _⟩ => ⟨S1x512, .f32⟩
  | .hbm, ⟨21, _⟩ => ⟨S512x512, .f32⟩
  | .hbm, ⟨22, _⟩ => ⟨S512x512, .f32⟩
  | .hbm, ⟨23, _⟩ => ⟨S512x512, .f32⟩
  | .hbm, ⟨24, _⟩ => ⟨S1x512, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S1x512, .f32⟩
  | .hbm, ⟨29, _⟩ => ⟨S512x512, .f32⟩
  | .hbm, ⟨30, _⟩ => ⟨S512x512, .f32⟩
  | .hbm, ⟨31, _⟩ => ⟨S200000x512, .f32⟩
  | .hbm, ⟨32, _⟩ => ⟨S1x512, .f32⟩
  | .hbm, ⟨33, _⟩ => ⟨S200000x512, .f32⟩
  | .hbm, ⟨34, _⟩ => ⟨S200000x512, .f32⟩
  | .hbm, ⟨35, _⟩ => ⟨S200000x512, .f32⟩
  | .hbm, ⟨36, _⟩ => ⟨S1x512, .f32⟩
  | .hbm, ⟨37, _⟩ => ⟨S200000x512, .f32⟩
  | .hbm, ⟨38, _⟩ => ⟨S200000x512, .f32⟩
  | .hbm, ⟨39, _⟩ => ⟨S512x200000, .f32⟩
  | .hbm, ⟨40, _⟩ => ⟨S_, .f32⟩
  | .hbm, ⟨41, _⟩ => ⟨S512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S512x1, .f32⟩
  | .hbm, ⟨46, _⟩ => ⟨S512x200000, .f32⟩
  | .hbm, ⟨47, _⟩ => ⟨S512x200000, .f32⟩
  | .hbm, ⟨48, _⟩ => ⟨S512x200000, .f32⟩
  | .hbm, ⟨49, _⟩ => ⟨S_, .f32⟩
  | .hbm, ⟨50, _⟩ => ⟨S512, .f32⟩
  | .hbm, ⟨51, _⟩ => ⟨S512x1, .f32⟩
  | .hbm, ⟨52, _⟩ => ⟨S512x200000, .f32⟩
  | .hbm, ⟨53, _⟩ => ⟨S512x200000, .f32⟩
  | .hbm, ⟨54, _⟩ => ⟨S512x512, .f32⟩
  | .hbm, ⟨55, _⟩ => ⟨S200000x512, .f32⟩
  | .hbm, ⟨56, _⟩ => ⟨S1x512, .f32⟩
  | .hbm, ⟨57, _⟩ => ⟨S200000x512, .f32⟩
  | .hbm, ⟨58, _⟩ => ⟨S200000x512, .f32⟩
  | .hbm, ⟨59, _⟩ => ⟨S200000x512, .f32⟩
  | .hbm, ⟨60, _⟩ => ⟨S1x512, .f32⟩
  | .hbm, ⟨61, _⟩ => ⟨S200000x512, .f32⟩
  | .hbm, ⟨62, _⟩ => ⟨S200000x512, .f32⟩
  | .hbm, ⟨63, _⟩ => ⟨S512x200000, .f32⟩
  | .hbm, ⟨64, _⟩ => ⟨S_, .f32⟩
  | .hbm, ⟨65, _⟩ => ⟨S512, .f32⟩
  | .hbm, ⟨66, _⟩ => ⟨S_, .f32⟩
  | .hbm, ⟨67, _⟩ => ⟨S512, .f32⟩
  | .hbm, ⟨68, _⟩ => ⟨S512, .f32⟩
  | .hbm, ⟨69, _⟩ => ⟨S512x1, .f32⟩
  | .hbm, ⟨70, _⟩ => ⟨S512x200000, .f32⟩
  | .hbm, ⟨71, _⟩ => ⟨S512x200000, .f32⟩
  | .hbm, ⟨72, _⟩ => ⟨S512x200000, .f32⟩
  | .hbm, ⟨73, _⟩ => ⟨S_, .f32⟩
  | .hbm, ⟨74, _⟩ => ⟨S512, .f32⟩
  | .hbm, ⟨75, _⟩ => ⟨S512x1, .f32⟩
  | .hbm, ⟨76, _⟩ => ⟨S512x200000, .f32⟩
  | .hbm, ⟨77, _⟩ => ⟨S512x200000, .f32⟩
  | .hbm, ⟨78, _⟩ => ⟨S512x512, .f32⟩
  | .hbm, ⟨79, _⟩ => ⟨S10000x512, .f32⟩
  | .hbm, ⟨80, _⟩ => ⟨S1x512, .f32⟩
  | .hbm, ⟨81, _⟩ => ⟨S10000x512, .f32⟩
  | .hbm, ⟨82, _⟩ => ⟨S10000x512, .f32⟩
  | .hbm, ⟨83, _⟩ => ⟨S10000x512, .f32⟩
  | .hbm, ⟨84, _⟩ => ⟨S1x512, .f32⟩
  | .hbm, ⟨85, _⟩ => ⟨S10000x512, .f32⟩
  | .hbm, ⟨86, _⟩ => ⟨S10000x512, .f32⟩
  | .hbm, ⟨87, _⟩ => ⟨S512x10000, .f32⟩
  | .hbm, ⟨88, _⟩ => ⟨S_, .f32⟩
  | .hbm, ⟨89, _⟩ => ⟨S512, .f32⟩
  | .hbm, ⟨90, _⟩ => ⟨S_, .f32⟩
  | .hbm, ⟨91, _⟩ => ⟨S512, .f32⟩
  | .hbm, ⟨92, _⟩ => ⟨S512, .f32⟩
  | .hbm, ⟨93, _⟩ => ⟨S512x1, .f32⟩
  | .hbm, ⟨94, _⟩ => ⟨S512x10000, .f32⟩
  | .hbm, ⟨95, _⟩ => ⟨S512x10000, .f32⟩
  | .hbm, ⟨96, _⟩ => ⟨S512x10000, .f32⟩
  | .hbm, ⟨97, _⟩ => ⟨S_, .f32⟩
  | .hbm, ⟨98, _⟩ => ⟨S512, .f32⟩
  | .hbm, ⟨99, _⟩ => ⟨S512x1, .f32⟩
  | .hbm, ⟨100, _⟩ => ⟨S512x10000, .f32⟩
  | .hbm, ⟨101, _⟩ => ⟨S512x10000, .f32⟩
  | .hbm, ⟨102, _⟩ => ⟨S512x512, .f32⟩
  | .hbm, ⟨103, _⟩ => ⟨S1x512x512, .f32⟩
  | .hbm, ⟨104, _⟩ => ⟨S1x512x512, .f32⟩
  | .hbm, ⟨105, _⟩ => ⟨S1x512x512, .f32⟩
  | .hbm, ⟨106, _⟩ => ⟨S3x512x512, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_1 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_2 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_4 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_5 : Ref sig .tc := ⟨.hbm, 88, rfl⟩
abbrev main_v63 : Ref sig .tc := ⟨.hbm, 89, rfl⟩
abbrev main_cst_6 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_7 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S1x512_S200000x512_0_1 : S1x512.BroadcastsInDim S200000x512 (![0, 1] : Fin 2 → Fin S200000x512.rank)
  reducesTo_S512x200000_S512_d1 : S512x200000.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x200000_0_1 : S512x1.BroadcastsInDim S512x200000 (![0, 1] : Fin 2 → Fin S512x200000.rank)
  bcast_S1x512_S10000x512_0_1 : S1x512.BroadcastsInDim S10000x512 (![0, 1] : Fin 2 → Fin S10000x512.rank)
  reducesTo_S512x10000_S512_d1 : S512x10000.ReducesTo [1] S512
  bcast_S512x1_S512x10000_0_1 : S512x1.BroadcastsInDim S512x10000 (![0, 1] : Fin 2 → Fin S512x10000.rank)
  bcast_S512x512_S1x512x512_1_2 : S512x512.BroadcastsInDim S1x512x512 (![1, 2] : Fin 2 → Fin S1x512x512.rank)
  concatenates_S1x512x512_S1x512x512_S1x512x512_S3x512x512_d0 : Shape.Concatenates [S1x512x512, S1x512x512, S1x512x512] S3x512x512 0
  dot_S512x512_S512x512_S512x512_1_1_0_0_n_n_wf : DotDims.WF S512x512 S512x512 S512x512 [1] [1] [0] [0] [] []
  dot_S200000x512_S512x512_S200000x512_1_1_0_0_n_n_wf : DotDims.WF S200000x512 S512x512 S200000x512 [1] [1] [0] [0] [] []
  dot_S512x512_S200000x512_S512x200000_1_1_0_0_n_n_wf : DotDims.WF S512x512 S200000x512 S512x200000 [1] [1] [0] [0] [] []
  dot_S512x200000_S200000x512_S512x512_1_0_0_1_n_n_wf : DotDims.WF S512x200000 S200000x512 S512x512 [1] [0] [0] [1] [] []
  dot_S10000x512_S512x512_S10000x512_1_1_0_0_n_n_wf : DotDims.WF S10000x512 S512x512 S10000x512 [1] [1] [0] [0] [] []
  dot_S512x512_S10000x512_S512x10000_1_1_0_0_n_n_wf : DotDims.WF S512x512 S10000x512 S512x10000 [1] [1] [0] [0] [] []
  dot_S512x10000_S10000x512_S512x512_1_0_0_1_n_n_wf : DotDims.WF S512x10000 S10000x512 S512x512 [1] [0] [0] [1] [] []

variable [Facts₀]

def dot_S512x512_S512x512_S512x512_1_1_0_0_n_n : DotDims S512x512 S512x512 S512x512 where
  lhsContracting := [1]
  rhsContracting := [1]
  lhsNonContracting := [0]
  rhsNonContracting := [0]
  lhsBatch := []
  rhsBatch := []
  wf := dot_S512x512_S512x512_S512x512_1_1_0_0_n_n_wf
def dot_S200000x512_S512x512_S200000x512_1_1_0_0_n_n : DotDims S200000x512 S512x512 S200000x512 where
  lhsContracting := [1]
  rhsContracting := [1]
  lhsNonContracting := [0]
  rhsNonContracting := [0]
  lhsBatch := []
  rhsBatch := []
  wf := dot_S200000x512_S512x512_S200000x512_1_1_0_0_n_n_wf
def dot_S512x512_S200000x512_S512x200000_1_1_0_0_n_n : DotDims S512x512 S200000x512 S512x200000 where
  lhsContracting := [1]
  rhsContracting := [1]
  lhsNonContracting := [0]
  rhsNonContracting := [0]
  lhsBatch := []
  rhsBatch := []
  wf := dot_S512x512_S200000x512_S512x200000_1_1_0_0_n_n_wf
def dot_S512x200000_S200000x512_S512x512_1_0_0_1_n_n : DotDims S512x200000 S200000x512 S512x512 where
  lhsContracting := [1]
  rhsContracting := [0]
  lhsNonContracting := [0]
  rhsNonContracting := [1]
  lhsBatch := []
  rhsBatch := []
  wf := dot_S512x200000_S200000x512_S512x512_1_0_0_1_n_n_wf
def dot_S10000x512_S512x512_S10000x512_1_1_0_0_n_n : DotDims S10000x512 S512x512 S10000x512 where
  lhsContracting := [1]
  rhsContracting := [1]
  lhsNonContracting := [0]
  rhsNonContracting := [0]
  lhsBatch := []
  rhsBatch := []
  wf := dot_S10000x512_S512x512_S10000x512_1_1_0_0_n_n_wf
def dot_S512x512_S10000x512_S512x10000_1_1_0_0_n_n : DotDims S512x512 S10000x512 S512x10000 where
  lhsContracting := [1]
  rhsContracting := [1]
  lhsNonContracting := [0]
  rhsNonContracting := [0]
  lhsBatch := []
  rhsBatch := []
  wf := dot_S512x512_S10000x512_S512x10000_1_1_0_0_n_n_wf
def dot_S512x10000_S10000x512_S512x512_1_0_0_1_n_n : DotDims S512x10000 S10000x512 S512x512 where
  lhsContracting := [1]
  rhsContracting := [0]
  lhsNonContracting := [0]
  rhsNonContracting := [1]
  lhsBatch := []
  rhsBatch := []
  wf := dot_S512x10000_S10000x512_S512x512_1_0_0_1_n_n_wf

class Facts : Prop extends Facts₀ where

variable [Facts]
-- ==== Proof.KProj0.lean ====
import proofs.«157278_j31636729102421_2_alg».proof.Proof.Gen.Kernel.Launch
import proofs.«157278_j31636729102421_2_alg».proof.Proof.Gen.Kernel.Skeleton
import proofs.«157278_j31636729102421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The key/value projection call number 0 at a parameter `V`, the buffer contents the region is entered
    from. At grid point `t` the body reads a 2048-row block of the padded bank and the two transposed weight
    matrices with their bias rows, and stores, whole, the block's key rows `x · Wkᵀ + bk` and value rows
    `x · Wvᵀ + bv`. Here: each window's block, what the two output buffers hold after the body, the body's
    triple, the proof data and the body obligation at every point. -/

set_option maxRecDepth 16384

noncomputable section

namespace Cert.Kernel.Proj0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not
    fetched its block index has not moved. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBank : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S512 := Rect.unit (s := S512) ![0] S512.size inb_S512_S512_0

/-- The key block after the body: one whole store of `x · Wkᵀ + bk`. -/
def outK (x0 : Vec F S2048x512 .f32) (x1 : Vec F S512x512 .bf16) (x2 : Vec F S512 .f32) : Vec F S2048x512 .f32 :=
  View.canon [⟨rBank, k0_pay2 (View.ld x0 rBank) (View.ld x1 rW) (View.ld x2 rB)⟩]
/-- The value block after the body: one whole store of `x · Wvᵀ + bv`. -/
def outV (x0 : Vec F S2048x512 .f32) (x3 : Vec F S512x512 .bf16) (x4 : Vec F S512 .f32) : Vec F S2048x512 .bf16 :=
  View.canon [⟨rBank, k0_pay3 (View.ld x0 rBank) (View.ld x3 rW) (View.ld x4 rB)⟩]

theorem coverK (p0 : Vec F S2048x512 .f32) (y : S2048x512.Idx) :
    ∃ pc ∈ ([⟨rBank, p0⟩] : List (View.Piece (Elt F) S2048x512 .f32)), y ∈ pc.1.set :=
  View.cover_of_tiled [⟨rBank, p0⟩] S2048x512.size (by rfl) y
theorem coverV (p0 : Vec F S2048x512 .bf16) (y : S2048x512.Idx) :
    ∃ pc ∈ ([⟨rBank, p0⟩] : List (View.Piece (Elt F) S2048x512 .bf16)), y ∈ pc.1.set :=
  View.cover_of_tiled [⟨rBank, p0⟩] S2048x512.size (by rfl) y

set_option maxHeartbeats 1000000 in
/-- The body on whole staging memrefs, the inputs' at read contents and the outputs' at anything, runs to the
    continuation with the inputs as they were and the outputs at `outK`, `outV` of the inputs. -/
theorem sound_kernel (c : Dev nD) (E : Set ℕ) (i : grid0.Coords) (arg1 : Memref sig .tc .vmem S2048x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2048x512 .f32) (harg6 : arg6.IsWhole) (arg7 : Memref sig .tc .vmem S2048x512 .bf16) (harg7 : arg7.IsWhole)
    (x0 : Vec F S2048x512 .f32) (x1 : Vec F S512x512 .bf16) (x2 : Vec F S512 .f32) (x3 : Vec F S512x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outK x0 x1 x2) ∗ owns (c : Thread nD τ) arg7 fullShare (outV x0 x3 x4)) -∗ K ⟨⟩))
      ⊢ wp frame (wpE (defs₀ (F := F)) Variants.none c none) E (cc0__project_kv_kernel i arg1 harg1 arg2 harg2 arg3 harg3 arg4 harg4 arg5 harg5 arg6 harg6 arg7 harg7) K := by
  simp only [cc0__project_kv_kernel_eq_skeleton]; unfold cc0__project_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverK _)
  iexists _; isplitr
  swap; · iexact H6
  ipureintro
  exact View.read_writes_eq_canon _ _ _ (coverV _)

/-- The proof data of this call on core `c`: the arrays as the region finds them; after the body at point `t`
    each input's buffer at its block and the two outputs' at `outK`, `outV` of the input blocks; the invariant
    is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outK (iblk V c 0 t) (iblk V c 1 t) (iblk V c 2 t)
    | ⟨6, _⟩ => outV (iblk V c 0 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outK (iblk V c 0 t) (iblk V c 1 t) (iblk V c 2 t) := by dsimp only [dat]
theorem after_6 (c : Dev nD) (t : Fin cfg0.N) : (dat V c).after 6 t = outV (iblk V c 0 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Proj0

end
-- ==== Proof.KProj1.lean ====
import proofs.«157278_j31636729102421_2_alg».proof.Proof.Gen.Kernel.Launch
import proofs.«157278_j31636729102421_2_alg».proof.Proof.Gen.Kernel.Skeleton
import proofs.«157278_j31636729102421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The key/value projection call number 1 at a parameter `V`, the buffer contents the region is entered
    from. At grid point `t` the body reads a 2048-row block of the padded bank and the two transposed weight
    matrices with their bias rows, and stores, whole, the block's key rows `x · Wkᵀ + bk` and value rows
    `x · Wvᵀ + bv`. Here: each window's block, what the two output buffers hold after the body, the body's
    triple, the proof data and the body obligation at every point. -/

set_option maxRecDepth 16384

noncomputable section

namespace Cert.Kernel.Proj1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not
    fetched its block index has not moved. -/

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBank : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S512 := Rect.unit (s := S512) ![0] S512.size inb_S512_S512_0

/-- The key block after the body: one whole store of `x · Wkᵀ + bk`. -/
def outK (x0 : Vec F S2048x512 .f32) (x1 : Vec F S512x512 .bf16) (x2 : Vec F S512 .f32) : Vec F S2048x512 .f32 :=
  View.canon [⟨rBank, k1_pay2 (View.ld x0 rBank) (View.ld x1 rW) (View.ld x2 rB)⟩]
/-- The value block after the body: one whole store of `x · Wvᵀ + bv`. -/
def outV (x0 : Vec F S2048x512 .f32) (x3 : Vec F S512x512 .bf16) (x4 : Vec F S512 .f32) : Vec F S2048x512 .bf16 :=
  View.canon [⟨rBank, k1_pay3 (View.ld x0 rBank) (View.ld x3 rW) (View.ld x4 rB)⟩]

theorem coverK (p0 : Vec F S2048x512 .f32) (y : S2048x512.Idx) :
    ∃ pc ∈ ([⟨rBank, p0⟩] : List (View.Piece (Elt F) S2048x512 .f32)), y ∈ pc.1.set :=
  View.cover_of_tiled [⟨rBank, p0⟩] S2048x512.size (by rfl) y
theorem coverV (p0 : Vec F S2048x512 .bf16) (y : S2048x512.Idx) :
    ∃ pc ∈ ([⟨rBank, p0⟩] : List (View.Piece (Elt F) S2048x512 .bf16)), y ∈ pc.1.set :=
  View.cover_of_tiled [⟨rBank, p0⟩] S2048x512.size (by rfl) y

set_option maxHeartbeats 1000000 in
/-- The body on whole staging memrefs, the inputs' at read contents and the outputs' at anything, runs to the
    continuation with the inputs as they were and the outputs at `outK`, `outV` of the inputs. -/
theorem sound_kernel (c : Dev nD) (E : Set ℕ) (i : grid1.Coords) (arg1 : Memref sig .tc .vmem S2048x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2048x512 .f32) (harg6 : arg6.IsWhole) (arg7 : Memref sig .tc .vmem S2048x512 .bf16) (harg7 : arg7.IsWhole)
    (x0 : Vec F S2048x512 .f32) (x1 : Vec F S512x512 .bf16) (x2 : Vec F S512 .f32) (x3 : Vec F S512x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outK x0 x1 x2) ∗ owns (c : Thread nD τ) arg7 fullShare (outV x0 x3 x4)) -∗ K ⟨⟩))
      ⊢ wp frame (wpE (defs₀ (F := F)) Variants.none c none) E (cc1__project_kv_kernel i arg1 harg1 arg2 harg2 arg3 harg3 arg4 harg4 arg5 harg5 arg6 harg6 arg7 harg7) K := by
  simp only [cc1__project_kv_kernel_eq_skeleton]; unfold cc1__project_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverK _)
  iexists _; isplitr
  swap; · iexact H6
  ipureintro
  exact View.read_writes_eq_canon _ _ _ (coverV _)

/-- The proof data of this call on core `c`: the arrays as the region finds them; after the body at point `t`
    each input's buffer at its block and the two outputs' at `outK`, `outV` of the input blocks; the invariant
    is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outK (iblk V c 0 t) (iblk V c 1 t) (iblk V c 2 t)
    | ⟨6, _⟩ => outV (iblk V c 0 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outK (iblk V c 0 t) (iblk V c 1 t) (iblk V c 2 t) := by dsimp only [dat]
theorem after_6 (c : Dev nD) (t : Fin cfg1.N) : (dat V c).after 6 t = outV (iblk V c 0 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' memrefs hold their blocks, so `sound_kernel` applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.Proj1

end
-- ==== Proof.KFlash2Base.lean ====
import proofs.«157278_j31636729102421_2_alg».proof.Proof.Gen.Kernel.Launch
import proofs.«157278_j31636729102421_2_alg».proof.Proof.Gen.Kernel.Skeleton
import proofs.«157278_j31636729102421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention call number 2 at a parameter `V`, the buffer contents the region is entered from: what the
    three cases of its body share. The grid is (query group, key tile); the body keeps a running row maximum, a running
    normalizer and an unnormalized output in three scratch buffers across the key tiles of one group: it resets them at
    the first tile, updates them at every tile, and at the last tile stores their quotient into the output block. -/

set_option maxRecDepth 16384

noncomputable section

namespace Cert.Kernel.Flash2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body is at the first key tile of its group. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 98 = 0 :=
  (by decide +kernel : ∀ t : Fin grid2.N, cond0 (grid2.coords t) ↔ t.val % 98 = 0)
/-- The body is at the last key tile of its group. -/
abbrev cond1 (i : grid2.Coords) : Prop := k2_cond2 i = 1#1
theorem hcond1 : ∀ t : Fin cfg2.N, cond1 (grid2.coords t) ↔ t.val % 98 = 97 :=
  (by decide +kernel : ∀ t : Fin grid2.N, cond1 (grid2.coords t) ↔ t.val % 98 = 97)

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem idleAt_3_A : ∀ t : Fin cfg2.N, cond0 (grid2.coords t) → ¬cond1 (grid2.coords t) → cfg2.idle 3 (grid2.coords t) = true := by decide +kernel
theorem noFlush_3_A : ∀ t : Fin cfg2.N, cond0 (grid2.coords t) → ¬cond1 (grid2.coords t) → (cfg2.win 3).flush t = false := by decide +kernel
theorem idleAt_3_B : ∀ t : Fin cfg2.N, ¬cond0 (grid2.coords t) → ¬cond1 (grid2.coords t) → cfg2.idle 3 (grid2.coords t) = true := by decide +kernel
theorem noFlush_3_B : ∀ t : Fin cfg2.N, ¬cond0 (grid2.coords t) → ¬cond1 (grid2.coords t) → (cfg2.win 3).flush t = false := by decide +kernel
theorem liveAt_3_C : ∀ t : Fin cfg2.N, ¬cond0 (grid2.coords t) → cond1 (grid2.coords t) → cfg2.idle 3 (grid2.coords t) = false := by decide +kernel

/-- One staging buffer of the output window, through which its contents are stated. -/
abbrev VO : View sig .tc .vmem S1x512x512 .f32 := (Memref.whole cc2_stg3_0 : Memref sig .tc .vmem S1x512x512 .f32).view
abbrev ms_0 (t : Fin cfg2.N) : Memref sig .tc .vmem S1x512x512 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x512 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2048x512 .bf16 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x512x512 .f32 := win2_3.stage (cfg2.slots t 3)
abbrev hs_3 (t : Fin cfg2.N) : (ms_3 t).IsWhole := hstage2_3 ((cfg2.slots t 3).cast nbuf2_3)
/-- The three scratch buffers: the running maximum, the running normalizer, the unnormalized output. -/
abbrev scM0 : Memref sig .tc .vmem S512x1 .f32 := Memref.whole cc2_scratch0
abbrev scM1 : Memref sig .tc .vmem S512x1 .f32 := Memref.whole cc2_scratch1
abbrev scM2 : Memref sig .tc .vmem S512x512 .f32 := Memref.whole cc2_scratch2
abbrev VS0 : View sig .tc .vmem S512x1 .f32 := (scM0).view
abbrev VS1 : View sig .tc .vmem S512x1 .f32 := (scM1).view
abbrev VS2 : View sig .tc .vmem S512x512 .f32 := (scM2).view

/-- Every scoped buffer but the three scratch buffers, at contents not named. -/
abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant before the first point: the three scratch buffers at anything, the other scoped buffers,
    the generator register at some state. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest2_split]; simp only [scM0, scM1, scM2, owns_whole]; try rfl

end Cert.Kernel.Flash2

end
-- ==== Proof.KFlash2A.lean ====
import proofs.«157278_j31636729102421_2_alg».proof.Proof.KFlash2Base

/-! The body of the attention call at the FIRST key tile of a group (the scratch buffers are reset, then updated; nothing is stored into the output block): its run on whole staging memrefs, the pieces each scratch buffer ends with found by running it. -/

set_option maxRecDepth 16384

noncomputable section

namespace Cert.Kernel.Flash2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_A (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨[], ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Flash2

end
-- ==== Proof.KFlash2B.lean ====
import proofs.«157278_j31636729102421_2_alg».proof.Proof.KFlash2Base

/-! The body of the attention call at a MIDDLE key tile (the scratch buffers are read as the tile before left them and updated; nothing is stored into the output block): its run, the pieces each scratch buffer ends with found by running it. -/

set_option maxRecDepth 16384

noncomputable section

namespace Cert.Kernel.Flash2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_B (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨[], ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Flash2

end
-- ==== Proof.KFlash2C.lean ====
import proofs.«157278_j31636729102421_2_alg».proof.Proof.KFlash2Base

/-! The body of the attention call at the LAST key tile of a group (the scratch buffers are updated and their quotient stored into the output block): its run, the pieces the scratch buffers and the output end with found by running it. -/

set_option maxRecDepth 16384

noncomputable section

namespace Cert.Kernel.Flash2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨?_, ?_, ?_, ?_, fun E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    isplitl [HS1]; · iexists _; iexact HS1
    iexists _; iexact HS2

end Cert.Kernel.Flash2

end
-- ==== Proof.KFlash2.lean ====
import proofs.«157278_j31636729102421_2_alg».proof.Proof.KFlash2A
import proofs.«157278_j31636729102421_2_alg».proof.Proof.KFlash2B
import proofs.«157278_j31636729102421_2_alg».proof.Proof.KFlash2C

/-! The attention call number 2 at a parameter `V`: what the output block's buffer and the three scratch buffers hold after every grid point (by recursion on the point: the first key tile of a group resets, every later one reads what the tile before left), the proof data, the invariant carrying the scratch buffers' contents from point to point, and the body obligation at every point. -/

set_option maxRecDepth 16384

noncomputable section

namespace Cert.Kernel.Flash2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What this case leaves in the output block's buffer: its pieces read back over junk (no piece where the case stores nothing there). -/
def out_A (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S1x512x512 .f32 :=
  VO.read (Elt F) (VO.writes (Elt F) VO.junk (kernelRun_A c i arg2 harg2 arg3 harg3 arg4 harg4 arg5 harg5 arg6 harg6 arg7 harg7 arg8 harg8 hc0 hc1 x0 x1 x2).1)

theorem scover_A_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.1, y ∈ pc.1.set :=
  View.cover_of_tiledL (kernelRun_A c i arg2 harg2 arg3 harg3 arg4 harg4 arg5 harg5 arg6 harg6 arg7 harg7 arg8 harg8 hc0 hc1 x0 x1 x2).2.1 S512x1.size (by sl_kernel_rfl) y
/-- What this case leaves in scratch buffer 0: its pieces read back. -/
def sout_A_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2).2.1)

theorem scover_A_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.2.1, y ∈ pc.1.set :=
  View.cover_of_tiledL (kernelRun_A c i arg2 harg2 arg3 harg3 arg4 harg4 arg5 harg5 arg6 harg6 arg7 harg7 arg8 harg8 hc0 hc1 x0 x1 x2).2.2.1 S512x1.size (by sl_kernel_rfl) y
/-- What this case leaves in scratch buffer 1: its pieces read back. -/
def sout_A_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2).2.2.1)

theorem scover_A_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x512.Idx) :
    ∃ pc ∈ (kernelRun_A c i arg2 harg2 arg3 harg3 arg4 harg4 arg5 harg5 arg6 harg6 arg7 harg7 arg8 harg8 hc0 hc1 x0 x1 x2).2.2.2.1, y ∈ pc.1.set :=
  View.cover_of_tiledL (kernelRun_A c i arg2 harg2 arg3 harg3 arg4 harg4 arg5 harg5 arg6 harg6 arg7 harg7 arg8 harg8 hc0 hc1 x0 x1 x2).2.2.2.1 S512x512.size (by sl_kernel_rfl) y
/-- What this case leaves in scratch buffer 2: its pieces read back. -/
def sout_A_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x512 .f32 :=
  VS2.read (Elt F) (VS2.writes (Elt F) VS2.junk (kernelRun_A c i arg2 harg2 arg3 harg3 arg4 harg4 arg5 harg5 arg6 harg6 arg7 harg7 arg8 harg8 hc0 hc1 x0 x1 x2).2.2.2.1)

/-- What this case leaves in the output block's buffer: its pieces read back over junk (no piece where the case stores nothing there). -/
def out_B (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_B c i arg2 harg2 arg3 harg3 arg4 harg4 arg5 harg5 arg6 harg6 arg7 harg7 arg8 harg8 hc0 hc1 x0 x1 x2 xs0 xs1 xs2).1)

theorem scover_B_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_B_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 xs0 xs1 xs2).2.1)

theorem scover_B_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_B_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 xs0 xs1 xs2).2.2.1)

theorem scover_B_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_B_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_B c i arg2 harg2 arg3 harg3 arg4 harg4 arg5 harg5 arg6 harg6 arg7 harg7 arg8 harg8 hc0 hc1 x0 x1 x2 xs0 xs1 xs2).2.2.2.1)

/-- What this case leaves in the output block's buffer: its pieces read back over junk (no piece where the case stores nothing there). -/
def out_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_C c i arg2 harg2 arg3 harg3 arg4 harg4 arg5 harg5 arg6 harg6 arg7 harg7 arg8 harg8 hc0 hc1 x0 x1 x2 xs0 xs1 xs2).1)

theorem cover_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S1x512x512.Idx) :
    ∃ pc ∈ (kernelRun_C c i arg2 harg2 arg3 harg3 arg4 harg4 arg5 harg5 arg6 harg6 arg7 harg7 arg8 harg8 hc0 hc1 x0 x1 x2 xs0 xs1 xs2).1, y ∈ pc.1.set :=
  View.cover_of_tiledL (kernelRun_C c i arg2 harg2 arg3 harg3 arg4 harg4 arg5 harg5 arg6 harg6 arg7 harg7 arg8 harg8 hc0 hc1 x0 x1 x2 xs0 xs1 xs2).1 S1x512x512.size (by sl_kernel_rfl) y

theorem scover_C_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_C_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 xs0 xs1 xs2).2.1)

theorem scover_C_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_C_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 xs0 xs1 xs2).2.2.1)

theorem scover_C_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_C_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_C c i arg2 harg2 arg3 harg3 arg4 harg4 arg5 harg5 arg6 harg6 arg7 harg7 arg8 harg8 hc0 hc1 x0 x1 x2 xs0 xs1 xs2).2.2.2.1)

/-- THE ACCUMULATION. What the output block's buffer and the three scratch buffers hold after the body at position `n`:
    the case the position is in, run at the point's memrefs and input blocks, the scratch buffers read as position
    `n - 1` left them (nothing in between touches them). -/
def outsAt (c : Dev nD) : (n : ℕ) → n < cfg2.N → Vec F S1x512x512 .f32 × Vec F S512x1 .f32 × Vec F S512x1 .f32 × Vec F S512x512 .f32
  | 0, hn => (out_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 98 = 0 then
      if h1 : (n + 1) % 98 = 97 then
        False.elim (by omega)
      else
        (out_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 98 = 97 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (out_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg2.N) (h0 : t.val % 98 = 0) (h1 : ¬t.val % 98 = 97) :
    outsAt V c t.val t.isLt = (out_A c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 98 = 0) (h1 : ¬t.val % 98 = 97) :
    outsAt V c t.val t.isLt = (out_B c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 98 = 0) (h1 : t.val % 98 = 97) :
    outsAt V c t.val t.isLt = (out_C c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the three scratch buffers at anything; afterwards each at what
    the point before left in it; beside them the other scoped buffers and the generator register. -/
def PhiS (c : Dev nD) : (n : ℕ) → n ≤ cfg2.N → sProp 𝕄
  | 0, _ => Pipeline.ΦA spec2 c
  | n + 1, hn => iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ restBut (F := F) c) ∗ (∃ r, prngReg c r)) := by
  cases n with
  | zero => exact absurd rfl hz
  | succ n => rfl

/-- The proof data of this call on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms of the two conditions say which case the
    point is in; the invariant hands the body the scratch buffers at what the point before left (at anything at the very
    first point) and takes them back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 196 := lt_of_lt_of_eq t.isLt (show cfg2.N = 196 from N_2)
  by_cases h0 : t.val % 98 = 0
  · by_cases h1 : t.val % 98 = 97
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond0 t).mpr h0) (fun h => h1 ((hcond1 t).mp h))) (noFlush_3_A t ((hcond0 t).mpr h0) (fun h => h1 ((hcond1 t).mp h)))]
      rw [outsAt_A V c t h0 h1]
      unfold sout_A_0 sout_A_1 sout_A_2; (try dsimp only)
      by_cases hz : t.val = 0
      ·
        rw [PhiS_castSucc V c t, PhiS_zero V c _ _ hz, PhiA_eq]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 98 = 97
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond0 t).mp h)) ((hcond1 t).mpr h1)], after_3]
      rw [outsAt_C V c t h0 h1]
      unfold out_C sout_C_0 sout_C_1 sout_C_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_C c (grid2.coords t) _ _ _ _ _ _ _ _ _ _ _ _ _ _ (fun h => h0 ((hcond0 t).mp h)) ((hcond1 t).mpr h1) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_C_1 c _ _ _ _ _ _ _ _ _ _ _ _ _ _ _ _ _ _ _ _ _ _ _)
              unfold owns; iexists _; isplitr
              swap; · iexact HS2
              ipureintro; exact View.read_writes_of_cover _ _ _ _ _ (scover_C_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond0 t).mp h)) (fun h => h1 ((hcond1 t).mp h))) (noFlush_3_B t (fun h => h0 ((hcond0 t).mp h)) (fun h => h1 ((hcond1 t).mp h)))]
      rw [outsAt_B V c t h0 h1]
      unfold sout_B_0 sout_B_1 sout_B_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_B c (grid2.coords t) _ _ _ _ _ _ _ _ _ _ _ _ _ _ (fun h => h0 ((hcond0 t).mp h)) (fun h => h1 ((hcond1 t).mp h)) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_B_1 c _ _ _ _ _ _ _ _ _ _ _ _ _ _ _ _ _ _ _ _ _ _ _)
              unfold owns; iexists _; isplitr
              swap; · iexact HS2
              ipureintro; exact View.read_writes_of_cover _ _ _ _ _ (scover_B_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout (c : Dev nD) : (dat V c).Φ (Fin.last cfg2.N) ⊢ Pipeline.ΦA spec2 c :=
  Phi_out V c _ (by rw [Fin.val_last]; have : cfg2.N = 196 := N_2; omega)

end Cert.Kernel.Flash2

end
-- ==== Proof.KFlash3Base.lean ====
import proofs.«157278_j31636729102421_2_alg».proof.Proof.Gen.Kernel.Launch
import proofs.«157278_j31636729102421_2_alg».proof.Proof.Gen.Kernel.Skeleton
import proofs.«157278_j31636729102421_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention call number 3 at a parameter `V`, the buffer contents the region is entered from: what the
    three cases of its body share. The grid is (query group, key tile); the body keeps a running row maximum, a running
    normalizer and an unnormalized output in three scratch buffers across the key tiles of one group: it resets them at
    the first tile, updates them at every tile, and at the last tile stores their quotient into the output block. -/

set_option maxRecDepth 16384

noncomputable section

namespace Cert.Kernel.Flash3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body is at the first key tile of its group. -/
abbrev cond0 (i : grid3.Coords) : Prop := (Scalar.cmpi .ne (Scalar.extui (Scalar.cmpi .eq (BitVec.ofNat 32 (i 1).val) 0#32)) 0#32) = 1#1
theorem hcond0 : ∀ t : Fin cfg3.N, cond0 (grid3.coords t) ↔ t.val % 5 = 0 :=
  (by decide +kernel : ∀ t : Fin grid3.N, cond0 (grid3.coords t) ↔ t.val % 5 = 0)
/-- The body is at the last key tile of its group. -/
abbrev cond1 (i : grid3.Coords) : Prop := k3_cond2 i = 1#1
theorem hcond1 : ∀ t : Fin cfg3.N, cond1 (grid3.coords t) ↔ t.val % 5 = 4 :=
  (by decide +kernel : ∀ t : Fin grid3.N, cond1 (grid3.coords t) ↔ t.val % 5 = 4)

theorem liveAt_0 : ∀ t : Fin cfg3.N, cfg3.idle 0 (grid3.coords t) = false := by decide +kernel
theorem liveAt_1 : ∀ t : Fin cfg3.N, cfg3.idle 1 (grid3.coords t) = false := by decide +kernel
theorem liveAt_2 : ∀ t : Fin cfg3.N, cfg3.idle 2 (grid3.coords t) = false := by decide +kernel
theorem idleAt_3_A : ∀ t : Fin cfg3.N, cond0 (grid3.coords t) → ¬cond1 (grid3.coords t) → cfg3.idle 3 (grid3.coords t) = true := by decide +kernel
theorem noFlush_3_A : ∀ t : Fin cfg3.N, cond0 (grid3.coords t) → ¬cond1 (grid3.coords t) → (cfg3.win 3).flush t = false := by decide +kernel
theorem idleAt_3_B : ∀ t : Fin cfg3.N, ¬cond0 (grid3.coords t) → ¬cond1 (grid3.coords t) → cfg3.idle 3 (grid3.coords t) = true := by decide +kernel
theorem noFlush_3_B : ∀ t : Fin cfg3.N, ¬cond0 (grid3.coords t) → ¬cond1 (grid3.coords t) → (cfg3.win 3).flush t = false := by decide +kernel
theorem liveAt_3_C : ∀ t : Fin cfg3.N, ¬cond0 (grid3.coords t) → cond1 (grid3.coords t) → cfg3.idle 3 (grid3.coords t) = false := by decide +kernel

/-- One staging buffer of the output window, through which its contents are stated. -/
abbrev VO : View sig .tc .vmem S1x512x512 .f32 := (Memref.whole cc3_stg3_0 : Memref sig .tc .vmem S1x512x512 .f32).view
abbrev ms_0 (t : Fin cfg3.N) : Memref sig .tc .vmem S1x512x512 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x512 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S2048x512 .bf16 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x512x512 .f32 := win3_3.stage (cfg3.slots t 3)
abbrev hs_3 (t : Fin cfg3.N) : (ms_3 t).IsWhole := hstage3_3 ((cfg3.slots t 3).cast nbuf3_3)
/-- The three scratch buffers: the running maximum, the running normalizer, the unnormalized output. -/
abbrev scM0 : Memref sig .tc .vmem S512x1 .f32 := Memref.whole cc3_scratch0
abbrev scM1 : Memref sig .tc .vmem S512x1 .f32 := Memref.whole cc3_scratch1
abbrev scM2 : Memref sig .tc .vmem S512x512 .f32 := Memref.whole cc3_scratch2
abbrev VS0 : View sig .tc .vmem S512x1 .f32 := (scM0).view
abbrev VS1 : View sig .tc .vmem S512x1 .f32 := (scM1).view
abbrev VS2 : View sig .tc .vmem S512x512 .f32 := (scM2).view

/-- Every scoped buffer but the three scratch buffers, at contents not named. -/
abbrev restBut (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant before the first point: the three scratch buffers at anything, the other scoped buffers,
    the generator register at some state. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest3_split]; simp only [scM0, scM1, scM2, owns_whole]; try rfl

end Cert.Kernel.Flash3

end
-- ==== Proof.KFlash3A.lean ====
import proofs.«157278_j31636729102421_2_alg».proof.Proof.KFlash3Base

/-! The body of the attention call at the FIRST key tile of a group (the scratch buffers are reset, then updated; nothing is stored into the output block): its run on whole staging memrefs, the pieces each scratch buffer ends with found by running it. -/

set_option maxRecDepth 16384

noncomputable section

namespace Cert.Kernel.Flash3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_A (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨[], ?_, ?_, ?_, fun xi3 E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Flash3

end
-- ==== Proof.KFlash3B.lean ====
import proofs.«157278_j31636729102421_2_alg».proof.Proof.KFlash3Base

/-! The body of the attention call at a MIDDLE key tile (the scratch buffers are read as the tile before left them and updated; nothing is stored into the output block): its run, the pieces each scratch buffer ends with found by running it. -/

set_option maxRecDepth 16384

noncomputable section

namespace Cert.Kernel.Flash3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_B (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨[], ?_, ?_, ?_, fun xi3 E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Flash3

end
-- ==== Proof.KFlash3C.lean ====
import proofs.«157278_j31636729102421_2_alg».proof.Proof.KFlash3Base

/-! The body of the attention call at the LAST key tile of a group (the scratch buffers are updated and their quotient stored into the output block): its run, the pieces the scratch buffers and the output end with found by running it. -/

set_option maxRecDepth 16384

noncomputable section

namespace Cert.Kernel.Flash3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, ?_, fun E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    isplitl [HS1]; · iexists _; iexact HS1
    iexists _; iexact HS2

end Cert.Kernel.Flash3

end
-- ==== Proof.KFlash3.lean ====
import proofs.«157278_j31636729102421_2_alg».proof.Proof.KFlash3A
import proofs.«157278_j31636729102421_2_alg».proof.Proof.KFlash3B
import proofs.«157278_j31636729102421_2_alg».proof.Proof.KFlash3C

/-! The attention call number 3 at a parameter `V`: what the output block's buffer and the three scratch buffers hold after every grid point (by recursion on the point: the first key tile of a group resets, every later one reads what the tile before left), the proof data, the invariant carrying the scratch buffers' contents from point to point, and the body obligation at every point. -/

set_option maxRecDepth 16384

noncomputable section

namespace Cert.Kernel.Flash3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What this case leaves in the output block's buffer: its pieces read back over junk (no piece where the case stores nothing there). -/
def out_A (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S1x512x512 .f32 :=
  VO.read (Elt F) (VO.writes (Elt F) VO.junk (kernelRun_A c i arg2 harg2 arg3 harg3 arg4 harg4 arg5 harg5 arg6 harg6 arg7 harg7 arg8 harg8 hc0 hc1 x0 x1 x2).1)

theorem scover_A_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.1, y ∈ pc.1.set :=
  View.cover_of_tiledL (kernelRun_A c i arg2 harg2 arg3 harg3 arg4 harg4 arg5 harg5 arg6 harg6 arg7 harg7 arg8 harg8 hc0 hc1 x0 x1 x2).2.1 S512x1.size (by sl_kernel_rfl) y
/-- What this case leaves in scratch buffer 0: its pieces read back. -/
def sout_A_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2).2.1)

theorem scover_A_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.2.1, y ∈ pc.1.set :=
  View.cover_of_tiledL (kernelRun_A c i arg2 harg2 arg3 harg3 arg4 harg4 arg5 harg5 arg6 harg6 arg7 harg7 arg8 harg8 hc0 hc1 x0 x1 x2).2.2.1 S512x1.size (by sl_kernel_rfl) y
/-- What this case leaves in scratch buffer 1: its pieces read back. -/
def sout_A_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2).2.2.1)

theorem scover_A_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x512.Idx) :
    ∃ pc ∈ (kernelRun_A c i arg2 harg2 arg3 harg3 arg4 harg4 arg5 harg5 arg6 harg6 arg7 harg7 arg8 harg8 hc0 hc1 x0 x1 x2).2.2.2.1, y ∈ pc.1.set :=
  View.cover_of_tiledL (kernelRun_A c i arg2 harg2 arg3 harg3 arg4 harg4 arg5 harg5 arg6 harg6 arg7 harg7 arg8 harg8 hc0 hc1 x0 x1 x2).2.2.2.1 S512x512.size (by sl_kernel_rfl) y
/-- What this case leaves in scratch buffer 2: its pieces read back. -/
def sout_A_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x512 .f32 :=
  VS2.read (Elt F) (VS2.writes (Elt F) VS2.junk (kernelRun_A c i arg2 harg2 arg3 harg3 arg4 harg4 arg5 harg5 arg6 harg6 arg7 harg7 arg8 harg8 hc0 hc1 x0 x1 x2).2.2.2.1)

/-- What this case leaves in the output block's buffer: its pieces read back over junk (no piece where the case stores nothing there). -/
def out_B (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_B c i arg2 harg2 arg3 harg3 arg4 harg4 arg5 harg5 arg6 harg6 arg7 harg7 arg8 harg8 hc0 hc1 x0 x1 x2 xs0 xs1 xs2).1)

theorem scover_B_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_B_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 xs0 xs1 xs2).2.1)

theorem scover_B_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_B_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 xs0 xs1 xs2).2.2.1)

theorem scover_B_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_B_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_B c i arg2 harg2 arg3 harg3 arg4 harg4 arg5 harg5 arg6 harg6 arg7 harg7 arg8 harg8 hc0 hc1 x0 x1 x2 xs0 xs1 xs2).2.2.2.1)

/-- What this case leaves in the output block's buffer: its pieces read back over junk (no piece where the case stores nothing there). -/
def out_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_C c i arg2 harg2 arg3 harg3 arg4 harg4 arg5 harg5 arg6 harg6 arg7 harg7 arg8 harg8 hc0 hc1 x0 x1 x2 xs0 xs1 xs2).1)

theorem cover_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S1x512x512.Idx) :
    ∃ pc ∈ (kernelRun_C c i arg2 harg2 arg3 harg3 arg4 harg4 arg5 harg5 arg6 harg6 arg7 harg7 arg8 harg8 hc0 hc1 x0 x1 x2 xs0 xs1 xs2).1, y ∈ pc.1.set :=
  View.cover_of_tiledL (kernelRun_C c i arg2 harg2 arg3 harg3 arg4 harg4 arg5 harg5 arg6 harg6 arg7 harg7 arg8 harg8 hc0 hc1 x0 x1 x2 xs0 xs1 xs2).1 S1x512x512.size (by sl_kernel_rfl) y

theorem scover_C_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_C_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 xs0 xs1 xs2).2.1)

theorem scover_C_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_C_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 xs0 xs1 xs2).2.2.1)

theorem scover_C_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_C_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_C c i arg2 harg2 arg3 harg3 arg4 harg4 arg5 harg5 arg6 harg6 arg7 harg7 arg8 harg8 hc0 hc1 x0 x1 x2 xs0 xs1 xs2).2.2.2.1)

/-- THE ACCUMULATION. What the output block's buffer and the three scratch buffers hold after the body at position `n`:
    the case the position is in, run at the point's memrefs and input blocks, the scratch buffers read as position
    `n - 1` left them (nothing in between touches them). -/
def outsAt (c : Dev nD) : (n : ℕ) → n < cfg3.N → Vec F S1x512x512 .f32 × Vec F S512x1 .f32 × Vec F S512x1 .f32 × Vec F S512x512 .f32
  | 0, hn => (out_A c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_0 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_1 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_2 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 5 = 0 then
      if h1 : (n + 1) % 5 = 4 then
        False.elim (by omega)
      else
        (out_A c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 5 = 4 then
        (out_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (out_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg3.N) (h0 : t.val % 5 = 0) (h1 : ¬t.val % 5 = 4) :
    outsAt V c t.val t.isLt = (out_A c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg3.N) (h0 : ¬t.val % 5 = 0) (h1 : ¬t.val % 5 = 4) :
    outsAt V c t.val t.isLt = (out_B c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 5 = 0) (h1 : t.val % 5 = 4) :
    outsAt V c t.val t.isLt = (out_C c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the three scratch buffers at anything; afterwards each at what
    the point before left in it; beside them the other scoped buffers and the generator register. -/
def PhiS (c : Dev nD) : (n : ℕ) → n ≤ cfg3.N → sProp 𝕄
  | 0, _ => Pipeline.ΦA spec3 c
  | n + 1, hn => iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ restBut (F := F) c) ∗ (∃ r, prngReg c r)) := by
  cases n with
  | zero => exact absurd rfl hz
  | succ n => rfl

/-- The proof data of this call on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms of the two conditions say which case the
    point is in; the invariant hands the body the scratch buffers at what the point before left (at anything at the very
    first point) and takes them back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 5 := lt_of_lt_of_eq t.isLt (show cfg3.N = 5 from N_3)
  by_cases h0 : t.val % 5 = 0
  · by_cases h1 : t.val % 5 = 4
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond0 t).mpr h0) (fun h => h1 ((hcond1 t).mp h))) (noFlush_3_A t ((hcond0 t).mpr h0) (fun h => h1 ((hcond1 t).mp h)))]
      rw [outsAt_A V c t h0 h1]
      unfold sout_A_0 sout_A_1 sout_A_2; (try dsimp only)
      by_cases hz : t.val = 0
      ·
        rw [PhiS_castSucc V c t, PhiS_zero V c _ _ hz, PhiA_eq]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid3.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid3.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 5 = 4
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond0 t).mp h)) ((hcond1 t).mpr h1)], after_3]
      rw [outsAt_C V c t h0 h1]
      unfold out_C sout_C_0 sout_C_1 sout_C_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_C c (grid3.coords t) _ _ _ _ _ _ _ _ _ _ _ _ _ _ (fun h => h0 ((hcond0 t).mp h)) ((hcond1 t).mpr h1) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_C_1 c _ _ _ _ _ _ _ _ _ _ _ _ _ _ _ _ _ _ _ _ _ _ _)
              unfold owns; iexists _; isplitr
              swap; · iexact HS2
              ipureintro; exact View.read_writes_of_cover _ _ _ _ _ (scover_C_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond0 t).mp h)) (fun h => h1 ((hcond1 t).mp h))) (noFlush_3_B t (fun h => h0 ((hcond0 t).mp h)) (fun h => h1 ((hcond1 t).mp h)))]
      rw [outsAt_B V c t h0 h1]
      unfold sout_B_0 sout_B_1 sout_B_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_B c (grid3.coords t) _ _ _ _ _ _ _ _ _ _ _ _ _ _ (fun h => h0 ((hcond0 t).mp h)) (fun h => h1 ((hcond1 t).mp h)) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_B_1 c _ _ _ _ _ _ _ _ _ _ _ _ _ _ _ _ _ _ _ _ _ _ _)
              unfold owns; iexists _; isplitr
              swap; · iexact HS2
              ipureintro; exact View.read_writes_of_cover _ _ _ _ _ (scover_B_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout (c : Dev nD) : (dat V c).Φ (Fin.last cfg3.N) ⊢ Pipeline.ΦA spec3 c :=
  Phi_out V c _ (by rw [Fin.val_last]; have : cfg3.N = 5 := N_3; omega)

end Cert.Kernel.Flash3

end
-- ==== Proof.KRun.lean ====
import proofs.«157278_j31636729102421_2_alg».proof.Proof.Gen.Kernel.Regions
import proofs.«157278_j31636729102421_2_alg».proof.Proof.KProj0
import proofs.«157278_j31636729102421_2_alg».proof.Proof.KProj1
import proofs.«157278_j31636729102421_2_alg».proof.Proof.KFlash2
import proofs.«157278_j31636729102421_2_alg».proof.Proof.KFlash3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole run of the program: the buffer contents at every boundary between two items of the main function (a fold
    from the launch memory: a stretch of host operations applies them; a kernel call leaves its arrays at what its
    write-backs make of them and everything else as it found it), the four kernel calls as segments over those contents,
    and the run: every weakly fair execution terminates, nothing faulting, with every unscoped buffer at the last
    boundary's contents. The nineteen argument arrays walk back through the fold to the launch memory unchanged. -/

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev Vr2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev Vr3 : (c : Dev nD) → (b : Ref sig .tc) → Buf (Elt F) ((c : Thread nD τ).loc b) := fun c b => W3 m ρ c b
abbrev W4 : Dev nD → Valuation τ sig (Elt F) := fun c => StableHlo.after hostOps0_3 (W3 m ρ c)
abbrev Vr4 : (c : Dev nD) → (b : Ref sig .tc) → Buf (Elt F) ((c : Thread nD τ).loc b) := fun c b => W4 m ρ c b
abbrev W5 : Dev nD → Valuation τ sig (Elt F) := fun c => StableHlo.after hostOps0_4 (W4 m ρ c)
abbrev Vr5 : (c : Dev nD) → (b : Ref sig .tc) → Buf (Elt F) ((c : Thread nD τ).loc b) := fun c b => W5 m ρ c b
/-- After the call number 0: its arrays at what its write-backs leave, every other buffer as entered. -/
def W6 (c : Dev nD) : Valuation τ sig (Elt F) :=
  Pipeline.withArrays spec0 c (W5 m ρ c) fun w => (Proj0.dat (Vr5 m ρ) c).arrAt w cfg0.N
theorem W6_arr (c : Dev nD) (w : Fin cfg0.W) :
    W6 m ρ c (Proc.devRef .tc (Pipeline.arrRef spec0 w)) = (Proj0.dat (Vr5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev Vr6 : (c : Dev nD) → (b : Ref sig .tc) → Buf (Elt F) ((c : Thread nD τ).loc b) := fun c b => W6 m ρ c b
theorem hF0 (c : Dev nD) (w : Fin cfg0.W) : (Proj0.dat (Vr5 m ρ) c).arrAt w cfg0.N = Vr6 m ρ c (Pipeline.arrRef spec0 w) :=
  (W6_arr m ρ c w).symm
theorem hrest0 (c : Dev nD) : ∀ b, b ∉ Finset.univ.image (Pipeline.arrRef spec0) → Vr6 m ρ c b = Vr5 m ρ c b :=
  fun b hb => W6_of_ne m ρ c b fun w e => hb (Finset.mem_image.mpr ⟨w, Finset.mem_univ _, e⟩)
abbrev W7 : Dev nD → Valuation τ sig (Elt F) := fun c => StableHlo.after hostOps1 (W6 m ρ c)
abbrev Vr7 : (c : Dev nD) → (b : Ref sig .tc) → Buf (Elt F) ((c : Thread nD τ).loc b) := fun c b => W7 m ρ c b
/-- After the call number 1: its arrays at what its write-backs leave, every other buffer as entered. -/
def W8 (c : Dev nD) : Valuation τ sig (Elt F) :=
  Pipeline.withArrays spec1 c (W7 m ρ c) fun w => (Proj1.dat (Vr7 m ρ) c).arrAt w cfg1.N
theorem W8_arr (c : Dev nD) (w : Fin cfg1.W) :
    W8 m ρ c (Proc.devRef .tc (Pipeline.arrRef spec1 w)) = (Proj1.dat (Vr7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev Vr8 : (c : Dev nD) → (b : Ref sig .tc) → Buf (Elt F) ((c : Thread nD τ).loc b) := fun c b => W8 m ρ c b
theorem hF1 (c : Dev nD) (w : Fin cfg1.W) : (Proj1.dat (Vr7 m ρ) c).arrAt w cfg1.N = Vr8 m ρ c (Pipeline.arrRef spec1 w) :=
  (W8_arr m ρ c w).symm
theorem hrest1 (c : Dev nD) : ∀ b, b ∉ Finset.univ.image (Pipeline.arrRef spec1) → Vr8 m ρ c b = Vr7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)
abbrev Vr9 : (c : Dev nD) → (b : Ref sig .tc) → Buf (Elt F) ((c : Thread nD τ).loc b) := fun c b => W9 m ρ c b
/-- After the call number 2: its arrays at what its write-backs leave, every other buffer as entered. -/
def W10 (c : Dev nD) : Valuation τ sig (Elt F) :=
  Pipeline.withArrays spec2 c (W9 m ρ c) fun w => (Flash2.dat (Vr9 m ρ) c).arrAt w cfg2.N
theorem W10_arr (c : Dev nD) (w : Fin cfg2.W) :
    W10 m ρ c (Proc.devRef .tc (Pipeline.arrRef spec2 w)) = (Flash2.dat (Vr9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev Vr10 : (c : Dev nD) → (b : Ref sig .tc) → Buf (Elt F) ((c : Thread nD τ).loc b) := fun c b => W10 m ρ c b
theorem hF2 (c : Dev nD) (w : Fin cfg2.W) : (Flash2.dat (Vr9 m ρ) c).arrAt w cfg2.N = Vr10 m ρ c (Pipeline.arrRef spec2 w) :=
  (W10_arr m ρ c w).symm
theorem hrest2 (c : Dev nD) : ∀ b, b ∉ Finset.univ.image (Pipeline.arrRef spec2) → Vr10 m ρ c b = Vr9 m ρ c b :=
  fun b hb => W10_of_ne m ρ c b fun w e => hb (Finset.mem_image.mpr ⟨w, Finset.mem_univ _, e⟩)
/-- After the call number 3: its arrays at what its write-backs leave, every other buffer as entered. -/
def W11 (c : Dev nD) : Valuation τ sig (Elt F) :=
  Pipeline.withArrays spec3 c (W10 m ρ c) fun w => (Flash3.dat (Vr10 m ρ) c).arrAt w cfg3.N
theorem W11_arr (c : Dev nD) (w : Fin cfg3.W) :
    W11 m ρ c (Proc.devRef .tc (Pipeline.arrRef spec3 w)) = (Flash3.dat (Vr10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev Vr11 : (c : Dev nD) → (b : Ref sig .tc) → Buf (Elt F) ((c : Thread nD τ).loc b) := fun c b => W11 m ρ c b
theorem hF3 (c : Dev nD) (w : Fin cfg3.W) : (Flash3.dat (Vr10 m ρ) c).arrAt w cfg3.N = Vr11 m ρ c (Pipeline.arrRef spec3 w) :=
  (W11_arr m ρ c w).symm
theorem hrest3 (c : Dev nD) : ∀ b, b ∉ Finset.univ.image (Pipeline.arrRef spec3) → Vr11 m ρ c b = Vr10 m ρ c b :=
  fun b hb => W11_of_ne m ρ c b fun w e => hb (Finset.mem_image.mpr ⟨w, Finset.mem_univ _, e⟩)
abbrev W12 : Dev nD → Valuation τ sig (Elt F) := fun c => StableHlo.after hostOps4 (W11 m ρ c)
abbrev Vr12 : (c : Dev nD) → (b : Ref sig .tc) → Buf (Elt F) ((c : Thread nD τ).loc b) := fun c b => W12 m ρ c b

/-! The arguments end as launched: no host operation writes one and no call writes one back. -/
theorem W12_main_arg0 (c : Dev nD) : W12 m ρ c (Proc.devRef .tc main_arg0) = m ((c : Thread nD τ).loc main_arg0) :=
  (StableHlo.after_of_writes_sub hostOps4 _ hostOps4_writes (by decide) : W12 m ρ c (Proc.devRef .tc main_arg0) = W11 m ρ c (Proc.devRef .tc main_arg0)).trans <|
  (W11_of_ne m ρ c main_arg0 (by decide)).trans <|
  (W10_of_ne m ρ c main_arg0 (by decide)).trans <|
  (StableHlo.after_of_writes_sub hostOps2 _ hostOps2_writes (by decide) : W9 m ρ c (Proc.devRef .tc main_arg0) = W8 m ρ c (Proc.devRef .tc main_arg0)).trans <|
  (W8_of_ne m ρ c main_arg0 (by decide)).trans <|
  (StableHlo.after_of_writes_sub hostOps1 _ hostOps1_writes (by decide) : W7 m ρ c (Proc.devRef .tc main_arg0) = W6 m ρ c (Proc.devRef .tc main_arg0)).trans <|
  (W6_of_ne m ρ c main_arg0 (by decide)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <| rfl
theorem W12_main_arg1 (c : Dev nD) : W12 m ρ c (Proc.devRef .tc main_arg1) = m ((c : Thread nD τ).loc main_arg1) :=
  (StableHlo.after_of_writes_sub hostOps4 _ hostOps4_writes (by decide) : W12 m ρ c (Proc.devRef .tc main_arg1) = W11 m ρ c (Proc.devRef .tc main_arg1)).trans <|
  (W11_of_ne m ρ c main_arg1 (by decide)).trans <|
  (W10_of_ne m ρ c main_arg1 (by decide)).trans <|
  (StableHlo.after_of_writes_sub hostOps2 _ hostOps2_writes (by decide) : W9 m ρ c (Proc.devRef .tc main_arg1) = W8 m ρ c (Proc.devRef .tc main_arg1)).trans <|
  (W8_of_ne m ρ c main_arg1 (by decide)).trans <|
  (StableHlo.after_of_writes_sub hostOps1 _ hostOps1_writes (by decide) : W7 m ρ c (Proc.devRef .tc main_arg1) = W6 m ρ c (Proc.devRef .tc main_arg1)).trans <|
  (W6_of_ne m ρ c main_arg1 (by decide)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <| rfl
theorem W12_main_arg2 (c : Dev nD) : W12 m ρ c (Proc.devRef .tc main_arg2) = m ((c : Thread nD τ).loc main_arg2) :=
  (StableHlo.after_of_writes_sub hostOps4 _ hostOps4_writes (by decide) : W12 m ρ c (Proc.devRef .tc main_arg2) = W11 m ρ c (Proc.devRef .tc main_arg2)).trans <|
  (W11_of_ne m ρ c main_arg2 (by decide)).trans <|
  (W10_of_ne m ρ c main_arg2 (by decide)).trans <|
  (StableHlo.after_of_writes_sub hostOps2 _ hostOps2_writes (by decide) : W9 m ρ c (Proc.devRef .tc main_arg2) = W8 m ρ c (Proc.devRef .tc main_arg2)).trans <|
  (W8_of_ne m ρ c main_arg2 (by decide)).trans <|
  (StableHlo.after_of_writes_sub hostOps1 _ hostOps1_writes (by decide) : W7 m ρ c (Proc.devRef .tc main_arg2) = W6 m ρ c (Proc.devRef .tc main_arg2)).trans <|
  (W6_of_ne m ρ c main_arg2 (by decide)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <| rfl
theorem W12_main_arg3 (c : Dev nD) : W12 m ρ c (Proc.devRef .tc main_arg3) = m ((c : Thread nD τ).loc main_arg3) :=
  (StableHlo.after_of_writes_sub hostOps4 _ hostOps4_writes (by decide) : W12 m ρ c (Proc.devRef .tc main_arg3) = W11 m ρ c (Proc.devRef .tc main_arg3)).trans <|
  (W11_of_ne m ρ c main_arg3 (by decide)).trans <|
  (W10_of_ne m ρ c main_arg3 (by decide)).trans <|
  (StableHlo.after_of_writes_sub hostOps2 _ hostOps2_writes (by decide) : W9 m ρ c (Proc.devRef .tc main_arg3) = W8 m ρ c (Proc.devRef .tc main_arg3)).trans <|
  (W8_of_ne m ρ c main_arg3 (by decide)).trans <|
  (StableHlo.after_of_writes_sub hostOps1 _ hostOps1_writes (by decide) : W7 m ρ c (Proc.devRef .tc main_arg3) = W6 m ρ c (Proc.devRef .tc main_arg3)).trans <|
  (W6_of_ne m ρ c main_arg3 (by decide)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <| rfl
theorem W12_main_arg4 (c : Dev nD) : W12 m ρ c (Proc.devRef .tc main_arg4) = m ((c : Thread nD τ).loc main_arg4) :=
  (StableHlo.after_of_writes_sub hostOps4 _ hostOps4_writes (by decide) : W12 m ρ c (Proc.devRef .tc main_arg4) = W11 m ρ c (Proc.devRef .tc main_arg4)).trans <|
  (W11_of_ne m ρ c main_arg4 (by decide)).trans <|
  (W10_of_ne m ρ c main_arg4 (by decide)).trans <|
  (StableHlo.after_of_writes_sub hostOps2 _ hostOps2_writes (by decide) : W9 m ρ c (Proc.devRef .tc main_arg4) = W8 m ρ c (Proc.devRef .tc main_arg4)).trans <|
  (W8_of_ne m ρ c main_arg4 (by decide)).trans <|
  (StableHlo.after_of_writes_sub hostOps1 _ hostOps1_writes (by decide) : W7 m ρ c (Proc.devRef .tc main_arg4) = W6 m ρ c (Proc.devRef .tc main_arg4)).trans <|
  (W6_of_ne m ρ c main_arg4 (by decide)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <| rfl
theorem W12_main_arg5 (c : Dev nD) : W12 m ρ c (Proc.devRef .tc main_arg5) = m ((c : Thread nD τ).loc main_arg5) :=
  (StableHlo.after_of_writes_sub hostOps4 _ hostOps4_writes (by decide) : W12 m ρ c (Proc.devRef .tc main_arg5) = W11 m ρ c (Proc.devRef .tc main_arg5)).trans <|
  (W11_of_ne m ρ c main_arg5 (by decide)).trans <|
  (W10_of_ne m ρ c main_arg5 (by decide)).trans <|
  (StableHlo.after_of_writes_sub hostOps2 _ hostOps2_writes (by decide) : W9 m ρ c (Proc.devRef .tc main_arg5) = W8 m ρ c (Proc.devRef .tc main_arg5)).trans <|
  (W8_of_ne m ρ c main_arg5 (by decide)).trans <|
  (StableHlo.after_of_writes_sub hostOps1 _ hostOps1_writes (by decide) : W7 m ρ c (Proc.devRef .tc main_arg5) = W6 m ρ c (Proc.devRef .tc main_arg5)).trans <|
  (W6_of_ne m ρ c main_arg5 (by decide)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <| rfl
theorem W12_main_arg6 (c : Dev nD) : W12 m ρ c (Proc.devRef .tc main_arg6) = m ((c : Thread nD τ).loc main_arg6) :=
  (StableHlo.after_of_writes_sub hostOps4 _ hostOps4_writes (by decide) : W12 m ρ c (Proc.devRef .tc main_arg6) = W11 m ρ c (Proc.devRef .tc main_arg6)).trans <|
  (W11_of_ne m ρ c main_arg6 (by decide)).trans <|
  (W10_of_ne m ρ c main_arg6 (by decide)).trans <|
  (StableHlo.after_of_writes_sub hostOps2 _ hostOps2_writes (by decide) : W9 m ρ c (Proc.devRef .tc main_arg6) = W8 m ρ c (Proc.devRef .tc main_arg6)).trans <|
  (W8_of_ne m ρ c main_arg6 (by decide)).trans <|
  (StableHlo.after_of_writes_sub hostOps1 _ hostOps1_writes (by decide) : W7 m ρ c (Proc.devRef .tc main_arg6) = W6 m ρ c (Proc.devRef .tc main_arg6)).trans <|
  (W6_of_ne m ρ c main_arg6 (by decide)).trans <|
  (StableHlo.after_of_writes_sub hostOps0_4 _ hostOps0_4_writes (by decide) : W5 m ρ c (Proc.devRef .tc main_arg6) = W4 m ρ c (Proc.devRef .tc main_arg6)).trans <|
  (StableHlo.after_of_writes_sub hostOps0_3 _ hostOps0_3_writes (by decide) : W4 m ρ c (Proc.devRef .tc main_arg6) = W3 m ρ c (Proc.devRef .tc main_arg6)).trans <|
  (StableHlo.after_of_writes_sub hostOps0_2 _ hostOps0_2_writes (by decide) : W3 m ρ c (Proc.devRef .tc main_arg6) = W2 m ρ c (Proc.devRef .tc main_arg6)).trans <|
  (StableHlo.after_of_writes_sub hostOps0_1 _ hostOps0_1_writes (by decide) : W2 m ρ c (Proc.devRef .tc main_arg6) = W1 m ρ c (Proc.devRef .tc main_arg6)).trans <|
  (StableHlo.after_of_writes_sub hostOps0 _ hostOps0_writes (by decide) : W1 m ρ c (Proc.devRef .tc main_arg6) = W0 m ρ c (Proc.devRef .tc main_arg6)).trans <| rfl
theorem W12_main_arg7 (c : Dev nD) : W12 m ρ c (Proc.devRef .tc main_arg7) = m ((c : Thread nD τ).loc main_arg7) :=
  (StableHlo.after_of_writes_sub hostOps4 _ hostOps4_writes (by decide) : W12 m ρ c (Proc.devRef .tc main_arg7) = W11 m ρ c (Proc.devRef .tc main_arg7)).trans <|
  (W11_of_ne m ρ c main_arg7 (by decide)).trans <|
  (W10_of_ne m ρ c main_arg7 (by decide)).trans <|
  (StableHlo.after_of_writes_sub hostOps2 _ hostOps2_writes (by decide) : W9 m ρ c (Proc.devRef .tc main_arg7) = W8 m ρ c (Proc.devRef .tc main_arg7)).trans <|
  (W8_of_ne m ρ c main_arg7 (by decide)).trans <|
  (StableHlo.after_of_writes_sub hostOps1 _ hostOps1_writes (by decide) : W7 m ρ c (Proc.devRef .tc main_arg7) = W6 m ρ c (Proc.devRef .tc main_arg7)).trans <|
  (W6_of_ne m ρ c main_arg7 (by decide)).trans <|
  (StableHlo.after_of_writes_sub hostOps0_4 _ hostOps0_4_writes (by decide) : W5 m ρ c (Proc.devRef .tc main_arg7) = W4 m ρ c (Proc.devRef .tc main_arg7)).trans <|
  (StableHlo.after_of_writes_sub hostOps0_3 _ hostOps0_3_writes (by decide) : W4 m ρ c (Proc.devRef .tc main_arg7) = W3 m ρ c (Proc.devRef .tc main_arg7)).trans <|
  (StableHlo.after_of_writes_sub hostOps0_2 _ hostOps0_2_writes (by decide) : W3 m ρ c (Proc.devRef .tc main_arg7) = W2 m ρ c (Proc.devRef .tc main_arg7)).trans <|
  (StableHlo.after_of_writes_sub hostOps0_1 _ hostOps0_1_writes (by decide) : W2 m ρ c (Proc.devRef .tc main_arg7) = W1 m ρ c (Proc.devRef .tc main_arg7)).trans <|
  (StableHlo.after_of_writes_sub hostOps0 _ hostOps0_writes (by decide) : W1 m ρ c (Proc.devRef .tc main_arg7) = W0 m ρ c (Proc.devRef .tc main_arg7)).trans <| rfl
theorem W12_main_arg8 (c : Dev nD) : W12 m ρ c (Proc.devRef .tc main_arg8) = m ((c : Thread nD τ).loc main_arg8) :=
  (StableHlo.after_of_writes_sub hostOps4 _ hostOps4_writes (by decide) : W12 m ρ c (Proc.devRef .tc main_arg8) = W11 m ρ c (Proc.devRef .tc main_arg8)).trans <|
  (W11_of_ne m ρ c main_arg8 (by decide)).trans <|
  (W10_of_ne m ρ c main_arg8 (by decide)).trans <|
  (StableHlo.after_of_writes_sub hostOps2 _ hostOps2_writes (by decide) : W9 m ρ c (Proc.devRef .tc main_arg8) = W8 m ρ c (Proc.devRef .tc main_arg8)).trans <|
  (W8_of_ne m ρ c main_arg8 (by decide)).trans <|
  (StableHlo.after_of_writes_sub hostOps1 _ hostOps1_writes (by decide) : W7 m ρ c (Proc.devRef .tc main_arg8) = W6 m ρ c (Proc.devRef .tc main_arg8)).trans <|
  (W6_of_ne m ρ c main_arg8 (by decide)).trans <|
  (StableHlo.after_of_writes_sub hostOps0_4 _ hostOps0_4_writes (by decide) : W5 m ρ c (Proc.devRef .tc main_arg8) = W4 m ρ c (Proc.devRef .tc main_arg8)).trans <|
  (StableHlo.after_of_writes_sub hostOps0_3 _ hostOps0_3_writes (by decide) : W4 m ρ c (Proc.devRef .tc main_arg8) = W3 m ρ c (Proc.devRef .tc main_arg8)).trans <|
  (StableHlo.after_of_writes_sub hostOps0_2 _ hostOps0_2_writes (by decide) : W3 m ρ c (Proc.devRef .tc main_arg8) = W2 m ρ c (Proc.devRef .tc main_arg8)).trans <|
  (StableHlo.after_of_writes_sub hostOps0_1 _ hostOps0_1_writes (by decide) : W2 m ρ c (Proc.devRef .tc main_arg8) = W1 m ρ c (Proc.devRef .tc main_arg8)).trans <|
  (StableHlo.after_of_writes_sub hostOps0 _ hostOps0_writes (by decide) : W1 m ρ c (Proc.devRef .tc main_arg8) = W0 m ρ c (Proc.devRef .tc main_arg8)).trans <| rfl
theorem W12_main_arg9 (c : Dev nD) : W12 m ρ c (Proc.devRef .tc main_arg9) = m ((c : Thread nD τ).loc main_arg9) :=
  (StableHlo.after_of_writes_sub hostOps4 _ hostOps4_writes (by decide) : W12 m ρ c (Proc.devRef .tc main_arg9) = W11 m ρ c (Proc.devRef .tc main_arg9)).trans <|
  (W11_of_ne m ρ c main_arg9 (by decide)).trans <|
  (W10_of_ne m ρ c main_arg9 (by decide)).trans <|
  (StableHlo.after_of_writes_sub hostOps2 _ hostOps2_writes (by decide) : W9 m ρ c (Proc.devRef .tc main_arg9) = W8 m ρ c (Proc.devRef .tc main_arg9)).trans <|
  (W8_of_ne m ρ c main_arg9 (by decide)).trans <|
  (StableHlo.after_of_writes_sub hostOps1 _ hostOps1_writes (by decide) : W7 m ρ c (Proc.devRef .tc main_arg9) = W6 m ρ c (Proc.devRef .tc main_arg9)).trans <|
  (W6_of_ne m ρ c main_arg9 (by decide)).trans <|
  (StableHlo.after_of_writes_sub hostOps0_4 _ hostOps0_4_writes (by decide) : W5 m ρ c (Proc.devRef .tc main_arg9) = W4 m ρ c (Proc.devRef .tc main_arg9)).trans <|
  (StableHlo.after_of_writes_sub hostOps0_3 _ hostOps0_3_writes (by decide) : W4 m ρ c (Proc.devRef .tc main_arg9) = W3 m ρ c (Proc.devRef .tc main_arg9)).trans <|
  (StableHlo.after_of_writes_sub hostOps0_2 _ hostOps0_2_writes (by decide) : W3 m ρ c (Proc.devRef .tc main_arg9) = W2 m ρ c (Proc.devRef .tc main_arg9)).trans <|
  (StableHlo.after_of_writes_sub hostOps0_1 _ hostOps0_1_writes (by decide) : W2 m ρ c (Proc.devRef .tc main_arg9) = W1 m ρ c (Proc.devRef .tc main_arg9)).trans <|
  (StableHlo.after_of_writes_sub hostOps0 _ hostOps0_writes (by decide) : W1 m ρ c (Proc.devRef .tc main_arg9) = W0 m ρ c (Proc.devRef .tc main_arg9)).trans <| rfl
theorem W12_main_arg10 (c : Dev nD) : W12 m ρ c (Proc.devRef .tc main_arg10) = m ((c : Thread nD τ).loc main_arg10) :=
  (StableHlo.after_of_writes_sub hostOps4 _ hostOps4_writes (by decide) : W12 m ρ c (Proc.devRef .tc main_arg10) = W11 m ρ c (Proc.devRef .tc main_arg10)).trans <|
  (W11_of_ne m ρ c main_arg10 (by decide)).trans <|
  (W10_of_ne m ρ c main_arg10 (by decide)).trans <|
  (StableHlo.after_of_writes_sub hostOps2 _ hostOps2_writes (by decide) : W9 m ρ c (Proc.devRef .tc main_arg10) = W8 m ρ c (Proc.devRef .tc main_arg10)).trans <|
  (W8_of_ne m ρ c main_arg10 (by decide)).trans <|
  (StableHlo.after_of_writes_sub hostOps1 _ hostOps1_writes (by decide) : W7 m ρ c (Proc.devRef .tc main_arg10) = W6 m ρ c (Proc.devRef .tc main_arg10)).trans <|
  (W6_of_ne m ρ c main_arg10 (by decide)).trans <|
  (StableHlo.after_of_writes_sub hostOps0_4 _ hostOps0_4_writes (by decide) : W5 m ρ c (Proc.devRef .tc main_arg10) = W4 m ρ c (Proc.devRef .tc main_arg10)).trans <|
  (StableHlo.after_of_writes_sub hostOps0_3 _ hostOps0_3_writes (by decide) : W4 m ρ c (Proc.devRef .tc main_arg10) = W3 m ρ c (Proc.devRef .tc main_arg10)).trans <|
  (StableHlo.after_of_writes_sub hostOps0_2 _ hostOps0_2_writes (by decide) : W3 m ρ c (Proc.devRef .tc main_arg10) = W2 m ρ c (Proc.devRef .tc main_arg10)).trans <|
  (StableHlo.after_of_writes_sub hostOps0_1 _ hostOps0_1_writes (by decide) : W2 m ρ c (Proc.devRef .tc main_arg10) = W1 m ρ c (Proc.devRef .tc main_arg10)).trans <|
  (StableHlo.after_of_writes_sub hostOps0 _ hostOps0_writes (by decide) : W1 m ρ c (Proc.devRef .tc main_arg10) = W0 m ρ c (Proc.devRef .tc main_arg10)).trans <| rfl
theorem W12_main_arg11 (c : Dev nD) : W12 m ρ c (Proc.devRef .tc main_arg11) = m ((c : Thread nD τ).loc main_arg11) :=
  (StableHlo.after_of_writes_sub hostOps4 _ hostOps4_writes (by decide) : W12 m ρ c (Proc.devRef .tc main_arg11) = W11 m ρ c (Proc.devRef .tc main_arg11)).trans <|
  (W11_of_ne m ρ c main_arg11 (by decide)).trans <|
  (W10_of_ne m ρ c main_arg11 (by decide)).trans <|
  (StableHlo.after_of_writes_sub hostOps2 _ hostOps2_writes (by decide) : W9 m ρ c (Proc.devRef .tc main_arg11) = W8 m ρ c (Proc.devRef .tc main_arg11)).trans <|
  (W8_of_ne m ρ c main_arg11 (by decide)).trans <|
  (StableHlo.after_of_writes_sub hostOps1 _ hostOps1_writes (by decide) : W7 m ρ c (Proc.devRef .tc main_arg11) = W6 m ρ c (Proc.devRef .tc main_arg11)).trans <|
  (W6_of_ne m ρ c main_arg11 (by decide)).trans <|
  (StableHlo.after_of_writes_sub hostOps0_4 _ hostOps0_4_writes (by decide) : W5 m ρ c (Proc.devRef .tc main_arg11) = W4 m ρ c (Proc.devRef .tc main_arg11)).trans <|
  (StableHlo.after_of_writes_sub hostOps0_3 _ hostOps0_3_writes (by decide) : W4 m ρ c (Proc.devRef .tc main_arg11) = W3 m ρ c (Proc.devRef .tc main_arg11)).trans <|
  (StableHlo.after_of_writes_sub hostOps0_2 _ hostOps0_2_writes (by decide) : W3 m ρ c (Proc.devRef .tc main_arg11) = W2 m ρ c (Proc.devRef .tc main_arg11)).trans <|
  (StableHlo.after_of_writes_sub hostOps0_1 _ hostOps0_1_writes (by decide) : W2 m ρ c (Proc.devRef .tc main_arg11) = W1 m ρ c (Proc.devRef .tc main_arg11)).trans <|
  (StableHlo.after_of_writes_sub hostOps0 _ hostOps0_writes (by decide) : W1 m ρ c (Proc.devRef .tc main_arg11) = W0 m ρ c (Proc.devRef .tc main_arg11)).trans <| rfl
theorem W12_main_arg12 (c : Dev nD) : W12 m ρ c (Proc.devRef .tc main_arg12) = m ((c : Thread nD τ).loc main_arg12) :=
  (StableHlo.after_of_writes_sub hostOps4 _ hostOps4_writes (by decide) : W12 m ρ c (Proc.devRef .tc main_arg12) = W11 m ρ c (Proc.devRef .tc main_arg12)).trans <|
  (W11_of_ne m ρ c main_arg12 (by decide)).trans <|
  (W10_of_ne m ρ c main_arg12 (by decide)).trans <|
  (StableHlo.after_of_writes_sub hostOps2 _ hostOps2_writes (by decide) : W9 m ρ c (Proc.devRef .tc main_arg12) = W8 m ρ c (Proc.devRef .tc main_arg12)).trans <|
  (W8_of_ne m ρ c main_arg12 (by decide)).trans <|
  (StableHlo.after_of_writes_sub hostOps1 _ hostOps1_writes (by decide) : W7 m ρ c (Proc.devRef .tc main_arg12) = W6 m ρ c (Proc.devRef .tc main_arg12)).trans <|
  ((W6_arr m ρ c 2).trans (((Proj0.dat (Vr5 m ρ) c).arrAt_in 2 rfl _).trans (Proj0.A_eq (Vr5 m ρ) c 2)) : W6 m ρ c (Proc.devRef .tc main_arg12) = W5 m ρ c (Proc.devRef .tc main_arg12)).trans <|
  (StableHlo.after_of_writes_sub hostOps0_4 _ hostOps0_4_writes (by decide) : W5 m ρ c (Proc.devRef .tc main_arg12) = W4 m ρ c (Proc.devRef .tc main_arg12)).trans <|
  (StableHlo.after_of_writes_sub hostOps0_3 _ hostOps0_3_writes (by decide) : W4 m ρ c (Proc.devRef .tc main_arg12) = W3 m ρ c (Proc.devRef .tc main_arg12)).trans <|
  (StableHlo.after_of_writes_sub hostOps0_2 _ hostOps0_2_writes (by decide) : W3 m ρ c (Proc.devRef .tc main_arg12) = W2 m ρ c (Proc.devRef .tc main_arg12)).trans <|
  (StableHlo.after_of_writes_sub hostOps0_1 _ hostOps0_1_writes (by decide) : W2 m ρ c (Proc.devRef .tc main_arg12) = W1 m ρ c (Proc.devRef .tc main_arg12)).trans <|
  (StableHlo.after_of_writes_sub hostOps0 _ hostOps0_writes (by decide) : W1 m ρ c (Proc.devRef .tc main_arg12) = W0 m ρ c (Proc.devRef .tc main_arg12)).trans <| rfl
theorem W12_main_arg13 (c : Dev nD) : W12 m ρ c (Proc.devRef .tc main_arg13) = m ((c : Thread nD τ).loc main_arg13) :=
  (StableHlo.after_of_writes_sub hostOps4 _ hostOps4_writes (by decide) : W12 m ρ c (Proc.devRef .tc main_arg13) = W11 m ρ c (Proc.devRef .tc main_arg13)).trans <|
  (W11_of_ne m ρ c main_arg13 (by decide)).trans <|
  (W10_of_ne m ρ c main_arg13 (by decide)).trans <|
  (StableHlo.after_of_writes_sub hostOps2 _ hostOps2_writes (by decide) : W9 m ρ c (Proc.devRef .tc main_arg13) = W8 m ρ c (Proc.devRef .tc main_arg13)).trans <|
  (W8_of_ne m ρ c main_arg13 (by decide)).trans <|
  (StableHlo.after_of_writes_sub hostOps1 _ hostOps1_writes (by decide) : W7 m ρ c (Proc.devRef .tc main_arg13) = W6 m ρ c (Proc.devRef .tc main_arg13)).trans <|
  (W6_of_ne m ρ c main_arg13 (by decide)).trans <|
  (StableHlo.after_of_writes_sub hostOps0_4 _ hostOps0_4_writes (by decide) : W5 m ρ c (Proc.devRef .tc main_arg13) = W4 m ρ c (Proc.devRef .tc main_arg13)).trans <|
  (StableHlo.after_of_writes_sub hostOps0_3 _ hostOps0_3_writes (by decide) : W4 m ρ c (Proc.devRef .tc main_arg13) = W3 m ρ c (Proc.devRef .tc main_arg13)).trans <|
  (StableHlo.after_of_writes_sub hostOps0_2 _ hostOps0_2_writes (by decide) : W3 m ρ c (Proc.devRef .tc main_arg13) = W2 m ρ c (Proc.devRef .tc main_arg13)).trans <|
  (StableHlo.after_of_writes_sub hostOps0_1 _ hostOps0_1_writes (by decide) : W2 m ρ c (Proc.devRef .tc main_arg13) = W1 m ρ c (Proc.devRef .tc main_arg13)).trans <|
  (StableHlo.after_of_writes_sub hostOps0 _ hostOps0_writes (by decide) : W1 m ρ c (Proc.devRef .tc main_arg13) = W0 m ρ c (Proc.devRef .tc main_arg13)).trans <| rfl
theorem W12_main_arg14 (c : Dev nD) : W12 m ρ c (Proc.devRef .tc main_arg14) = m ((c : Thread nD τ).loc main_arg14) :=
  (StableHlo.after_of_writes_sub hostOps4 _ hostOps4_writes (by decide) : W12 m ρ c (Proc.devRef .tc main_arg14) = W11 m ρ c (Proc.devRef .tc main_arg14)).trans <|
  (W11_of_ne m ρ c main_arg14 (by decide)).trans <|
  (W10_of_ne m ρ c main_arg14 (by decide)).trans <|
  (StableHlo.after_of_writes_sub hostOps2 _ hostOps2_writes (by decide) : W9 m ρ c (Proc.devRef .tc main_arg14) = W8 m ρ c (Proc.devRef .tc main_arg14)).trans <|
  (W8_of_ne m ρ c main_arg14 (by decide)).trans <|
  (StableHlo.after_of_writes_sub hostOps1 _ hostOps1_writes (by decide) : W7 m ρ c (Proc.devRef .tc main_arg14) = W6 m ρ c (Proc.devRef .tc main_arg14)).trans <|
  ((W6_arr m ρ c 4).trans (((Proj0.dat (Vr5 m ρ) c).arrAt_in 4 rfl _).trans (Proj0.A_eq (Vr5 m ρ) c 4)) : W6 m ρ c (Proc.devRef .tc main_arg14) = W5 m ρ c (Proc.devRef .tc main_arg14)).trans <|
  (StableHlo.after_of_writes_sub hostOps0_4 _ hostOps0_4_writes (by decide) : W5 m ρ c (Proc.devRef .tc main_arg14) = W4 m ρ c (Proc.devRef .tc main_arg14)).trans <|
  (StableHlo.after_of_writes_sub hostOps0_3 _ hostOps0_3_writes (by decide) : W4 m ρ c (Proc.devRef .tc main_arg14) = W3 m ρ c (Proc.devRef .tc main_arg14)).trans <|
  (StableHlo.after_of_writes_sub hostOps0_2 _ hostOps0_2_writes (by decide) : W3 m ρ c (Proc.devRef .tc main_arg14) = W2 m ρ c (Proc.devRef .tc main_arg14)).trans <|
  (StableHlo.after_of_writes_sub hostOps0_1 _ hostOps0_1_writes (by decide) : W2 m ρ c (Proc.devRef .tc main_arg14) = W1 m ρ c (Proc.devRef .tc main_arg14)).trans <|
  (StableHlo.after_of_writes_sub hostOps0 _ hostOps0_writes (by decide) : W1 m ρ c (Proc.devRef .tc main_arg14) = W0 m ρ c (Proc.devRef .tc main_arg14)).trans <| rfl
theorem W12_main_arg15 (c : Dev nD) : W12 m ρ c (Proc.devRef .tc main_arg15) = m ((c : Thread nD τ).loc main_arg15) :=
  (StableHlo.after_of_writes_sub hostOps4 _ hostOps4_writes (by decide) : W12 m ρ c (Proc.devRef .tc main_arg15) = W11 m ρ c (Proc.devRef .tc main_arg15)).trans <|
  (W11_of_ne m ρ c main_arg15 (by decide)).trans <|
  (W10_of_ne m ρ c main_arg15 (by decide)).trans <|
  (StableHlo.after_of_writes_sub hostOps2 _ hostOps2_writes (by decide) : W9 m ρ c (Proc.devRef .tc main_arg15) = W8 m ρ c (Proc.devRef .tc main_arg15)).trans <|
  (W8_of_ne m ρ c main_arg15 (by decide)).trans <|
  (StableHlo.after_of_writes_sub hostOps1 _ hostOps1_writes (by decide) : W7 m ρ c (Proc.devRef .tc main_arg15) = W6 m ρ c (Proc.devRef .tc main_arg15)).trans <|
  (W6_of_ne m ρ c main_arg15 (by decide)).trans <|
  (StableHlo.after_of_writes_sub hostOps0_4 _ hostOps0_4_writes (by decide) : W5 m ρ c (Proc.devRef .tc main_arg15) = W4 m ρ c (Proc.devRef .tc main_arg15)).trans <|
  (StableHlo.after_of_writes_sub hostOps0_3 _ hostOps0_3_writes (by decide) : W4 m ρ c (Proc.devRef .tc main_arg15) = W3 m ρ c (Proc.devRef .tc main_arg15)).trans <|
  (StableHlo.after_of_writes_sub hostOps0_2 _ hostOps0_2_writes (by decide) : W3 m ρ c (Proc.devRef .tc main_arg15) = W2 m ρ c (Proc.devRef .tc main_arg15)).trans <|
  (StableHlo.after_of_writes_sub hostOps0_1 _ hostOps0_1_writes (by decide) : W2 m ρ c (Proc.devRef .tc main_arg15) = W1 m ρ c (Proc.devRef .tc main_arg15)).trans <|
  (StableHlo.after_of_writes_sub hostOps0 _ hostOps0_writes (by decide) : W1 m ρ c (Proc.devRef .tc main_arg15) = W0 m ρ c (Proc.devRef .tc main_arg15)).trans <| rfl
theorem W12_main_arg16 (c : Dev nD) : W12 m ρ c (Proc.devRef .tc main_arg16) = m ((c : Thread nD τ).loc main_arg16) :=
  (StableHlo.after_of_writes_sub hostOps4 _ hostOps4_writes (by decide) : W12 m ρ c (Proc.devRef .tc main_arg16) = W11 m ρ c (Proc.devRef .tc main_arg16)).trans <|
  (W11_of_ne m ρ c main_arg16 (by decide)).trans <|
  (W10_of_ne m ρ c main_arg16 (by decide)).trans <|
  (StableHlo.after_of_writes_sub hostOps2 _ hostOps2_writes (by decide) : W9 m ρ c (Proc.devRef .tc main_arg16) = W8 m ρ c (Proc.devRef .tc main_arg16)).trans <|
  ((W8_arr m ρ c 2).trans (((Proj1.dat (Vr7 m ρ) c).arrAt_in 2 rfl _).trans (Proj1.A_eq (Vr7 m ρ) c 2)) : W8 m ρ c (Proc.devRef .tc main_arg16) = W7 m ρ c (Proc.devRef .tc main_arg16)).trans <|
  (StableHlo.after_of_writes_sub hostOps1 _ hostOps1_writes (by decide) : W7 m ρ c (Proc.devRef .tc main_arg16) = W6 m ρ c (Proc.devRef .tc main_arg16)).trans <|
  (W6_of_ne m ρ c main_arg16 (by decide)).trans <|
  (StableHlo.after_of_writes_sub hostOps0_4 _ hostOps0_4_writes (by decide) : W5 m ρ c (Proc.devRef .tc main_arg16) = W4 m ρ c (Proc.devRef .tc main_arg16)).trans <|
  (StableHlo.after_of_writes_sub hostOps0_3 _ hostOps0_3_writes (by decide) : W4 m ρ c (Proc.devRef .tc main_arg16) = W3 m ρ c (Proc.devRef .tc main_arg16)).trans <|
  (StableHlo.after_of_writes_sub hostOps0_2 _ hostOps0_2_writes (by decide) : W3 m ρ c (Proc.devRef .tc main_arg16) = W2 m ρ c (Proc.devRef .tc main_arg16)).trans <|
  (StableHlo.after_of_writes_sub hostOps0_1 _ hostOps0_1_writes (by decide) : W2 m ρ c (Proc.devRef .tc main_arg16) = W1 m ρ c (Proc.devRef .tc main_arg16)).trans <|
  (StableHlo.after_of_writes_sub hostOps0 _ hostOps0_writes (by decide) : W1 m ρ c (Proc.devRef .tc main_arg16) = W0 m ρ c (Proc.devRef .tc main_arg16)).trans <| rfl
theorem W12_main_arg17 (c : Dev nD) : W12 m ρ c (Proc.devRef .tc main_arg17) = m ((c : Thread nD τ).loc main_arg17) :=
  (StableHlo.after_of_writes_sub hostOps4 _ hostOps4_writes (by decide) : W12 m ρ c (Proc.devRef .tc main_arg17) = W11 m ρ c (Proc.devRef .tc main_arg17)).trans <|
  (W11_of_ne m ρ c main_arg17 (by decide)).trans <|
  (W10_of_ne m ρ c main_arg17 (by decide)).trans <|
  (StableHlo.after_of_writes_sub hostOps2 _ hostOps2_writes (by decide) : W9 m ρ c (Proc.devRef .tc main_arg17) = W8 m ρ c (Proc.devRef .tc main_arg17)).trans <|
  (W8_of_ne m ρ c main_arg17 (by decide)).trans <|
  (StableHlo.after_of_writes_sub hostOps1 _ hostOps1_writes (by decide) : W7 m ρ c (Proc.devRef .tc main_arg17) = W6 m ρ c (Proc.devRef .tc main_arg17)).trans <|
  (W6_of_ne m ρ c main_arg17 (by decide)).trans <|
  (StableHlo.after_of_writes_sub hostOps0_4 _ hostOps0_4_writes (by decide) : W5 m ρ c (Proc.devRef .tc main_arg17) = W4 m ρ c (Proc.devRef .tc main_arg17)).trans <|
  (StableHlo.after_of_writes_sub hostOps0_3 _ hostOps0_3_writes (by decide) : W4 m ρ c (Proc.devRef .tc main_arg17) = W3 m ρ c (Proc.devRef .tc main_arg17)).trans <|
  (StableHlo.after_of_writes_sub hostOps0_2 _ hostOps0_2_writes (by decide) : W3 m ρ c (Proc.devRef .tc main_arg17) = W2 m ρ c (Proc.devRef .tc main_arg17)).trans <|
  (StableHlo.after_of_writes_sub hostOps0_1 _ hostOps0_1_writes (by decide) : W2 m ρ c (Proc.devRef .tc main_arg17) = W1 m ρ c (Proc.devRef .tc main_arg17)).trans <|
  (StableHlo.after_of_writes_sub hostOps0 _ hostOps0_writes (by decide) : W1 m ρ c (Proc.devRef .tc main_arg17) = W0 m ρ c (Proc.devRef .tc main_arg17)).trans <| rfl
theorem W12_main_arg18 (c : Dev nD) : W12 m ρ c (Proc.devRef .tc main_arg18) = m ((c : Thread nD τ).loc main_arg18) :=
  (StableHlo.after_of_writes_sub hostOps4 _ hostOps4_writes (by decide) : W12 m ρ c (Proc.devRef .tc main_arg18) = W11 m ρ c (Proc.devRef .tc main_arg18)).trans <|
  (W11_of_ne m ρ c main_arg18 (by decide)).trans <|
  (W10_of_ne m ρ c main_arg18 (by decide)).trans <|
  (StableHlo.after_of_writes_sub hostOps2 _ hostOps2_writes (by decide) : W9 m ρ c (Proc.devRef .tc main_arg18) = W8 m ρ c (Proc.devRef .tc main_arg18)).trans <|
  ((W8_arr m ρ c 4).trans (((Proj1.dat (Vr7 m ρ) c).arrAt_in 4 rfl _).trans (Proj1.A_eq (Vr7 m ρ) c 4)) : W8 m ρ c (Proc.devRef .tc main_arg18) = W7 m ρ c (Proc.devRef .tc main_arg18)).trans <|
  (StableHlo.after_of_writes_sub hostOps1 _ hostOps1_writes (by decide) : W7 m ρ c (Proc.devRef .tc main_arg18) = W6 m ρ c (Proc.devRef .tc main_arg18)).trans <|
  (W6_of_ne m ρ c main_arg18 (by decide)).trans <|
  (StableHlo.after_of_writes_sub hostOps0_4 _ hostOps0_4_writes (by decide) : W5 m ρ c (Proc.devRef .tc main_arg18) = W4 m ρ c (Proc.devRef .tc main_arg18)).trans <|
  (StableHlo.after_of_writes_sub hostOps0_3 _ hostOps0_3_writes (by decide) : W4 m ρ c (Proc.devRef .tc main_arg18) = W3 m ρ c (Proc.devRef .tc main_arg18)).trans <|
  (StableHlo.after_of_writes_sub hostOps0_2 _ hostOps0_2_writes (by decide) : W3 m ρ c (Proc.devRef .tc main_arg18) = W2 m ρ c (Proc.devRef .tc main_arg18)).trans <|
  (StableHlo.after_of_writes_sub hostOps0_1 _ hostOps0_1_writes (by decide) : W2 m ρ c (Proc.devRef .tc main_arg18) = W1 m ρ c (Proc.devRef .tc main_arg18)).trans <|
  (StableHlo.after_of_writes_sub hostOps0 _ hostOps0_writes (by decide) : W1 m ρ c (Proc.devRef .tc main_arg18) = W0 m ρ c (Proc.devRef .tc main_arg18)).trans <| rfl

/-- Every call's proof data, each at its region's entry contents. -/
def pdats : (p : Fin 4) → (c : Dev nD) → Dat τ (Elt F) Unit ℕ (UR sig nD τ) ℕ (Pipeline.pin (pcfgs (F := F)) adm p) c
  | ⟨0, _⟩ => fun c => Proj0.dat (Vr5 m ρ) c
  | ⟨1, _⟩ => fun c => Proj1.dat (Vr7 m ρ) c
  | ⟨2, _⟩ => fun c => Flash2.dat (Vr9 m ρ) c
  | ⟨3, _⟩ => fun c => Flash3.dat (Vr10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-- The invariant of the attention call number 2 before its first point gives back the generator register and the scoped buffers. -/
theorem PhiA_out2 (c : Dev nD) : (Pipeline.ΦA spec2 c : sProp 𝕄) ⊢ iprop((∃ r, prngReg c r) ∗ (BI.emp : sProp 𝕄) ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-- The invariant of the attention call number 3 before its first point gives back the generator register and the scoped buffers. -/
theorem PhiA_out3 (c : Dev nD) : (Pipeline.ΦA spec3 c : sProp 𝕄) ⊢ iprop((∃ r, prngReg c r) ∗ (BI.emp : sProp 𝕄) ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr
/-- The last thread state is the last host stretch's, regrouped. -/
theorem hlast (c : Dev nD) : iprop(StableHlo.held (c : Thread nD τ) (Pipeline.ucRefs τ sig) (W12 m ρ c) ∗ R (F := F) c) ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- The call number 0 over the thread state: entered from every unscoped buffer at `W5`, left at `W6`. Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj0.body_obligation (Vr5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr5 m ρ c) (Vr6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 1 over the thread state: entered from every unscoped buffer at `W7`, left at `W8`. Its arrays are
    split out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj1.body_obligation (Vr7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr7 m ρ c) (Vr8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 2 over the thread state: entered from every unscoped buffer at `W9`, left at `W10`. Its arrays are
    split out of the unscoped buffers and put back at the exit contents; the generator register goes into the invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Flash2.body_obligation (Vr9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (Flash2.hout (Vr9 m ρ) c).trans (PhiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr9 m ρ c) (Vr10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 3 over the thread state: entered from every unscoped buffer at `W10`, left at `W11`. Its arrays are
    split out of the unscoped buffers and put back at the exit contents; the generator register goes into the invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Flash3.body_obligation (Vr10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (Flash3.hout (Vr10 m ρ) c).trans (PhiA_out3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr10 m ρ c) (Vr11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .region (reg3 m ρ),
    .host (hseg hostOps4 hostOps4_sub hostOps4_fresh (W11 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c),
    (h c _ (mem_uc main_arg13 (by decide))).trans (W12_main_arg13 m ρ c),
    (h c _ (mem_uc main_arg14 (by decide))).trans (W12_main_arg14 m ρ c),
    (h c _ (mem_uc main_arg15 (by decide))).trans (W12_main_arg15 m ρ c),
    (h c _ (mem_uc main_arg16 (by decide))).trans (W12_main_arg16 m ρ c),
    (h c _ (mem_uc main_arg17 (by decide))).trans (W12_main_arg17 m ρ c),
    (h c _ (mem_uc main_arg18 (by decide))).trans (W12_main_arg18 m ρ c)⟩) (run_all m ρ)

end Cert.Kernel.Run

end
-- ==== Proof.KIProj0.lean ====
import proofs.«157278_j31636729102421_2_alg».proof.Proof.Gen.KernelIdeal.Launch
import proofs.«157278_j31636729102421_2_alg».proof.Proof.Gen.KernelIdeal.Skeleton
import proofs.«157278_j31636729102421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The key/value projection call number 0 at a parameter `V`, the buffer contents the region is entered
    from. At grid point `t` the body reads a 2048-row block of the padded bank and the two transposed weight
    matrices with their bias rows, and stores, whole, the block's key rows `x · Wkᵀ + bk` and value rows
    `x · Wvᵀ + bv`. Here: each window's block, what the two output buffers hold after the body, the body's
    triple, the proof data and the body obligation at every point. -/

set_option maxRecDepth 16384

noncomputable section

namespace Cert.KernelIdeal.Proj0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not
    fetched its block index has not moved. -/

theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBank : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S512 := Rect.unit (s := S512) ![0] S512.size inb_S512_S512_0

/-- The key block after the body: one whole store of `x · Wkᵀ + bk`. -/
def outK (x0 : Vec F S2048x512 .f32) (x1 : Vec F S512x512 .bf16) (x2 : Vec F S512 .f32) : Vec F S2048x512 .f32 :=
  View.canon [⟨rBank, k0_pay2 (View.ld x0 rBank) (View.ld x1 rW) (View.ld x2 rB)⟩]
/-- The value block after the body: one whole store of `x · Wvᵀ + bv`. -/
def outV (x0 : Vec F S2048x512 .f32) (x3 : Vec F S512x512 .bf16) (x4 : Vec F S512 .f32) : Vec F S2048x512 .bf16 :=
  View.canon [⟨rBank, k0_pay3 (View.ld x0 rBank) (View.ld x3 rW) (View.ld x4 rB)⟩]

theorem coverK (p0 : Vec F S2048x512 .f32) (y : S2048x512.Idx) :
    ∃ pc ∈ ([⟨rBank, p0⟩] : List (View.Piece (Elt F) S2048x512 .f32)), y ∈ pc.1.set :=
  View.cover_of_tiled [⟨rBank, p0⟩] S2048x512.size (by rfl) y
theorem coverV (p0 : Vec F S2048x512 .bf16) (y : S2048x512.Idx) :
    ∃ pc ∈ ([⟨rBank, p0⟩] : List (View.Piece (Elt F) S2048x512 .bf16)), y ∈ pc.1.set :=
  View.cover_of_tiled [⟨rBank, p0⟩] S2048x512.size (by rfl) y

set_option maxHeartbeats 1000000 in
/-- The body on whole staging memrefs, the inputs' at read contents and the outputs' at anything, runs to the
    continuation with the inputs as they were and the outputs at `outK`, `outV` of the inputs. -/
theorem sound_kernel (c : Dev nD) (E : Set ℕ) (i : grid0.Coords) (arg1 : Memref sig .tc .vmem S2048x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2048x512 .f32) (harg6 : arg6.IsWhole) (arg7 : Memref sig .tc .vmem S2048x512 .bf16) (harg7 : arg7.IsWhole)
    (x0 : Vec F S2048x512 .f32) (x1 : Vec F S512x512 .bf16) (x2 : Vec F S512 .f32) (x3 : Vec F S512x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outK x0 x1 x2) ∗ owns (c : Thread nD τ) arg7 fullShare (outV x0 x3 x4)) -∗ K ⟨⟩))
      ⊢ wp frame (wpE (defs₀ (F := F)) Variants.none c none) E (cc0__project_kv_kernel i arg1 harg1 arg2 harg2 arg3 harg3 arg4 harg4 arg5 harg5 arg6 harg6 arg7 harg7) K := by
  simp only [cc0__project_kv_kernel_eq_skeleton]; unfold cc0__project_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverK _)
  iexists _; isplitr
  swap; · iexact H6
  ipureintro
  exact View.read_writes_eq_canon _ _ _ (coverV _)

/-- The proof data of this call on core `c`: the arrays as the region finds them; after the body at point `t`
    each input's buffer at its block and the two outputs' at `outK`, `outV` of the input blocks; the invariant
    is the scoped rest and the generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outK (iblk V c 0 t) (iblk V c 1 t) (iblk V c 2 t)
    | ⟨6, _⟩ => outV (iblk V c 0 t) (iblk V c 3 t) (iblk V c 4 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = outK (iblk V c 0 t) (iblk V c 1 t) (iblk V c 2 t) := by dsimp only [dat]
theorem after_6 (c : Dev nD) (t : Fin cfg0.N) : (dat V c).after 6 t = outV (iblk V c 0 t) (iblk V c 3 t) (iblk V c 4 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the inputs' memrefs hold their blocks, so `sound_kernel` applies; the invariant and
    the core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj0

end
-- ==== Proof.KIProj1.lean ====
import proofs.«157278_j31636729102421_2_alg».proof.Proof.Gen.KernelIdeal.Launch
import proofs.«157278_j31636729102421_2_alg».proof.Proof.Gen.KernelIdeal.Skeleton
import proofs.«157278_j31636729102421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The key/value projection call number 1 at a parameter `V`, the buffer contents the region is entered
    from. At grid point `t` the body reads a 2048-row block of the padded bank and the two transposed weight
    matrices with their bias rows, and stores, whole, the block's key rows `x · Wkᵀ + bk` and value rows
    `x · Wvᵀ + bv`. Here: each window's block, what the two output buffers hold after the body, the body's
    triple, the proof data and the body obligation at every point. -/

set_option maxRecDepth 16384

noncomputable section

namespace Cert.KernelIdeal.Proj1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not
    fetched its block index has not moved. -/

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev rBank : Rect S2048x512 := Rect.unit (s := S2048x512) ![0, 0] S2048x512.size inb_S2048x512_S2048x512_0_0
abbrev rW : Rect S512x512 := Rect.unit (s := S512x512) ![0, 0] S512x512.size inb_S512x512_S512x512_0_0
abbrev rB : Rect S512 := Rect.unit (s := S512) ![0] S512.size inb_S512_S512_0

/-- The key block after the body: one whole store of `x · Wkᵀ + bk`. -/
def outK (x0 : Vec F S2048x512 .f32) (x1 : Vec F S512x512 .bf16) (x2 : Vec F S512 .f32) : Vec F S2048x512 .f32 :=
  View.canon [⟨rBank, k1_pay2 (View.ld x0 rBank) (View.ld x1 rW) (View.ld x2 rB)⟩]
/-- The value block after the body: one whole store of `x · Wvᵀ + bv`. -/
def outV (x0 : Vec F S2048x512 .f32) (x3 : Vec F S512x512 .bf16) (x4 : Vec F S512 .f32) : Vec F S2048x512 .bf16 :=
  View.canon [⟨rBank, k1_pay3 (View.ld x0 rBank) (View.ld x3 rW) (View.ld x4 rB)⟩]

theorem coverK (p0 : Vec F S2048x512 .f32) (y : S2048x512.Idx) :
    ∃ pc ∈ ([⟨rBank, p0⟩] : List (View.Piece (Elt F) S2048x512 .f32)), y ∈ pc.1.set :=
  View.cover_of_tiled [⟨rBank, p0⟩] S2048x512.size (by rfl) y
theorem coverV (p0 : Vec F S2048x512 .bf16) (y : S2048x512.Idx) :
    ∃ pc ∈ ([⟨rBank, p0⟩] : List (View.Piece (Elt F) S2048x512 .bf16)), y ∈ pc.1.set :=
  View.cover_of_tiled [⟨rBank, p0⟩] S2048x512.size (by rfl) y

set_option maxHeartbeats 1000000 in
/-- The body on whole staging memrefs, the inputs' at read contents and the outputs' at anything, runs to the
    continuation with the inputs as they were and the outputs at `outK`, `outV` of the inputs. -/
theorem sound_kernel (c : Dev nD) (E : Set ℕ) (i : grid1.Coords) (arg1 : Memref sig .tc .vmem S2048x512 .f32) (harg1 : arg1.IsWhole) (arg2 : Memref sig .tc .vmem S512x512 .bf16) (harg2 : arg2.IsWhole) (arg3 : Memref sig .tc .vmem S512 .f32) (harg3 : arg3.IsWhole) (arg4 : Memref sig .tc .vmem S512x512 .bf16) (harg4 : arg4.IsWhole) (arg5 : Memref sig .tc .vmem S512 .f32) (harg5 : arg5.IsWhole) (arg6 : Memref sig .tc .vmem S2048x512 .f32) (harg6 : arg6.IsWhole) (arg7 : Memref sig .tc .vmem S2048x512 .bf16) (harg7 : arg7.IsWhole)
    (x0 : Vec F S2048x512 .f32) (x1 : Vec F S512x512 .bf16) (x2 : Vec F S512 .f32) (x3 : Vec F S512x512 .bf16) (x4 : Vec F S512 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outK x0 x1 x2) ∗ owns (c : Thread nD τ) arg7 fullShare (outV x0 x3 x4)) -∗ K ⟨⟩))
      ⊢ wp frame (wpE (defs₀ (F := F)) Variants.none c none) E (cc1__project_kv_kernel i arg1 harg1 arg2 harg2 arg3 harg3 arg4 harg4 arg5 harg5 arg6 harg6 arg7 harg7) K := by
  simp only [cc1__project_kv_kernel_eq_skeleton]; unfold cc1__project_kv_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverK _)
  iexists _; isplitr
  swap; · iexact H6
  ipureintro
  exact View.read_writes_eq_canon _ _ _ (coverV _)

/-- The proof data of this call on core `c`: the arrays as the region finds them; after the body at point `t`
    each input's buffer at its block and the two outputs' at `outK`, `outV` of the input blocks; the invariant
    is the scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => outK (iblk V c 0 t) (iblk V c 1 t) (iblk V c 2 t)
    | ⟨6, _⟩ => outV (iblk V c 0 t) (iblk V c 3 t) (iblk V c 4 t)
  Φ _ := Pipeline.ΦA spec1 c
  q _ := fullShare
  owed _ := 0

theorem A_eq (c : Dev nD) (w : Fin cfg1.W) : (dat V c).A w = V c (Pipeline.arrRef spec1 w) := by
  dsimp only [dat]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = outK (iblk V c 0 t) (iblk V c 1 t) (iblk V c 2 t) := by dsimp only [dat]
theorem after_6 (c : Dev nD) (t : Fin cfg1.N) : (dat V c).after 6 t = outV (iblk V c 0 t) (iblk V c 3 t) (iblk V c 4 t) := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d
theorem before_4 (c : Dev nD) (t : Fin cfg1.N) (d) : (dat V c).before 4 t d = iblk V c 4 t :=
  before_4_of V (dat V c) (A_eq V c 4) (after_4 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t))

/-- The body at any point: the inputs' memrefs hold their blocks, so `sound_kernel` applies; the invariant and
    the core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.Proj1

end
-- ==== Proof.KIFlash2Base.lean ====
import proofs.«157278_j31636729102421_2_alg».proof.Proof.Gen.KernelIdeal.Launch
import proofs.«157278_j31636729102421_2_alg».proof.Proof.Gen.KernelIdeal.Skeleton
import proofs.«157278_j31636729102421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention call number 2 at a parameter `V`, the buffer contents the region is entered from: what the
    three cases of its body share. The grid is (query group, key tile); the body keeps a running row maximum, a running
    normalizer and an unnormalized output in three scratch buffers across the key tiles of one group: it resets them at
    the first tile, updates them at every tile, and at the last tile stores their quotient into the output block. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body is at the first key tile of its group. -/
abbrev cond0 (i : grid2.Coords) : Prop := (Scalar.cmpi .ne (Scalar.extui (Scalar.cmpi .eq (BitVec.ofNat 32 (i 1).val) 0#32)) 0#32) = 1#1
theorem hcond0 : ∀ t : Fin cfg2.N, cond0 (grid2.coords t) ↔ t.val % 98 = 0 :=
  (by decide +kernel : ∀ t : Fin grid2.N, cond0 (grid2.coords t) ↔ t.val % 98 = 0)
/-- The body is at the last key tile of its group. -/
abbrev cond1 (i : grid2.Coords) : Prop := k2_cond2 i = 1#1
theorem hcond1 : ∀ t : Fin cfg2.N, cond1 (grid2.coords t) ↔ t.val % 98 = 97 :=
  (by decide +kernel : ∀ t : Fin grid2.N, cond1 (grid2.coords t) ↔ t.val % 98 = 97)

theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
theorem idleAt_3_A : ∀ t : Fin cfg2.N, cond0 (grid2.coords t) → ¬cond1 (grid2.coords t) → cfg2.idle 3 (grid2.coords t) = true := by decide +kernel
theorem noFlush_3_A : ∀ t : Fin cfg2.N, cond0 (grid2.coords t) → ¬cond1 (grid2.coords t) → (cfg2.win 3).flush t = false := by decide +kernel
theorem idleAt_3_B : ∀ t : Fin cfg2.N, ¬cond0 (grid2.coords t) → ¬cond1 (grid2.coords t) → cfg2.idle 3 (grid2.coords t) = true := by decide +kernel
theorem noFlush_3_B : ∀ t : Fin cfg2.N, ¬cond0 (grid2.coords t) → ¬cond1 (grid2.coords t) → (cfg2.win 3).flush t = false := by decide +kernel
theorem liveAt_3_C : ∀ t : Fin cfg2.N, ¬cond0 (grid2.coords t) → cond1 (grid2.coords t) → cfg2.idle 3 (grid2.coords t) = false := by decide +kernel

/-- One staging buffer of the output window, through which its contents are stated. -/
abbrev VO : View sig .tc .vmem S1x512x512 .f32 := (Memref.whole cc2_stg3_0 : Memref sig .tc .vmem S1x512x512 .f32).view
abbrev ms_0 (t : Fin cfg2.N) : Memref sig .tc .vmem S1x512x512 .f32 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x512 .f32 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S2048x512 .bf16 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S1x512x512 .f32 := win2_3.stage (cfg2.slots t 3)
abbrev hs_3 (t : Fin cfg2.N) : (ms_3 t).IsWhole := hstage2_3 ((cfg2.slots t 3).cast nbuf2_3)
/-- The three scratch buffers: the running maximum, the running normalizer, the unnormalized output. -/
abbrev scM0 : Memref sig .tc .vmem S512x1 .f32 := Memref.whole cc2_scratch0
abbrev scM1 : Memref sig .tc .vmem S512x1 .f32 := Memref.whole cc2_scratch1
abbrev scM2 : Memref sig .tc .vmem S512x512 .f32 := Memref.whole cc2_scratch2
abbrev VS0 : View sig .tc .vmem S512x1 .f32 := (scM0).view
abbrev VS1 : View sig .tc .vmem S512x1 .f32 := (scM1).view
abbrev VS2 : View sig .tc .vmem S512x512 .f32 := (scM2).view

/-- Every scoped buffer but the three scratch buffers, at contents not named. -/
abbrev restBut (c : Dev nD) : sProp 𝕄 :=
  Pipeline.scopedRestBut (Ix := Unit) (Name := ℕ) (U := UR sig nD τ) (Lvl := ℕ) (Val := Elt F) spec2 c [cc2_scratch0, cc2_scratch1, cc2_scratch2]

/-- The region's invariant before the first point: the three scratch buffers at anything, the other scoped buffers,
    the generator register at some state. -/
theorem PhiA_eq (c : Dev nD) :
    (Pipeline.ΦA spec2 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest2_split]; simp only [scM0, scM1, scM2, owns_whole]; try rfl

end Cert.KernelIdeal.Flash2

end
-- ==== Proof.KIFlash2A.lean ====
import proofs.«157278_j31636729102421_2_alg».proof.Proof.KIFlash2Base

/-! The body of the attention call at the FIRST key tile of a group (the scratch buffers are reset, then updated; nothing is stored into the output block): its run on whole staging memrefs, the pieces each scratch buffer ends with found by running it. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_A (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨[], ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Flash2

end
-- ==== Proof.KIFlash2B.lean ====
import proofs.«157278_j31636729102421_2_alg».proof.Proof.KIFlash2Base

/-! The body of the attention call at a MIDDLE key tile (the scratch buffers are read as the tile before left them and updated; nothing is stored into the output block): its run, the pieces each scratch buffer ends with found by running it. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_B (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨[], ?_, ?_, ?_, fun xi3 E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Flash2

end
-- ==== Proof.KIFlash2C.lean ====
import proofs.«157278_j31636729102421_2_alg».proof.Proof.KIFlash2Base

/-! The body of the attention call at the LAST key tile of a group (the scratch buffers are updated and their quotient stored into the output block): its run, the pieces the scratch buffers and the output end with found by running it. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc2__flash_kernel i arg2 harg2 arg3 harg3 arg4 harg4 arg5 harg5 arg6 harg6 arg7 harg7 arg8 harg8) K } := by
  refine ⟨?_, ?_, ?_, ?_, fun E K => ?run⟩
  case run =>
    simp only [cc2__flash_kernel_eq_skeleton]; unfold cc2__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    isplitl [HS1]; · iexists _; iexact HS1
    iexists _; iexact HS2

end Cert.KernelIdeal.Flash2

end
-- ==== Proof.KIFlash2.lean ====
import proofs.«157278_j31636729102421_2_alg».proof.Proof.KIFlash2A
import proofs.«157278_j31636729102421_2_alg».proof.Proof.KIFlash2B
import proofs.«157278_j31636729102421_2_alg».proof.Proof.KIFlash2C

/-! The attention call number 2 at a parameter `V`: what the output block's buffer and the three scratch buffers hold after every grid point (by recursion on the point: the first key tile of a group resets, every later one reads what the tile before left), the proof data, the invariant carrying the scratch buffers' contents from point to point, and the body obligation at every point. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What this case leaves in the output block's buffer: its pieces read back over junk (no piece where the case stores nothing there). -/
def out_A (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S1x512x512 .f32 :=
  VO.read (Elt F) (VO.writes (Elt F) VO.junk (kernelRun_A c i arg2 harg2 arg3 harg3 arg4 harg4 arg5 harg5 arg6 harg6 arg7 harg7 arg8 harg8 hc0 hc1 x0 x1 x2).1)

theorem scover_A_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.1, y ∈ pc.1.set :=
  View.cover_of_tiledL (kernelRun_A c i arg2 harg2 arg3 harg3 arg4 harg4 arg5 harg5 arg6 harg6 arg7 harg7 arg8 harg8 hc0 hc1 x0 x1 x2).2.1 S512x1.size (by sl_kernel_rfl) y
/-- What this case leaves in scratch buffer 0: its pieces read back. -/
def sout_A_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2).2.1)

theorem scover_A_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.2.1, y ∈ pc.1.set :=
  View.cover_of_tiledL (kernelRun_A c i arg2 harg2 arg3 harg3 arg4 harg4 arg5 harg5 arg6 harg6 arg7 harg7 arg8 harg8 hc0 hc1 x0 x1 x2).2.2.1 S512x1.size (by sl_kernel_rfl) y
/-- What this case leaves in scratch buffer 1: its pieces read back. -/
def sout_A_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2).2.2.1)

theorem scover_A_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x512.Idx) :
    ∃ pc ∈ (kernelRun_A c i arg2 harg2 arg3 harg3 arg4 harg4 arg5 harg5 arg6 harg6 arg7 harg7 arg8 harg8 hc0 hc1 x0 x1 x2).2.2.2.1, y ∈ pc.1.set :=
  View.cover_of_tiledL (kernelRun_A c i arg2 harg2 arg3 harg3 arg4 harg4 arg5 harg5 arg6 harg6 arg7 harg7 arg8 harg8 hc0 hc1 x0 x1 x2).2.2.2.1 S512x512.size (by sl_kernel_rfl) y
/-- What this case leaves in scratch buffer 2: its pieces read back. -/
def sout_A_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x512 .f32 :=
  VS2.read (Elt F) (VS2.writes (Elt F) VS2.junk (kernelRun_A c i arg2 harg2 arg3 harg3 arg4 harg4 arg5 harg5 arg6 harg6 arg7 harg7 arg8 harg8 hc0 hc1 x0 x1 x2).2.2.2.1)

/-- What this case leaves in the output block's buffer: its pieces read back over junk (no piece where the case stores nothing there). -/
def out_B (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_B c i arg2 harg2 arg3 harg3 arg4 harg4 arg5 harg5 arg6 harg6 arg7 harg7 arg8 harg8 hc0 hc1 x0 x1 x2 xs0 xs1 xs2).1)

theorem scover_B_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_B_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 xs0 xs1 xs2).2.1)

theorem scover_B_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_B_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 xs0 xs1 xs2).2.2.1)

theorem scover_B_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_B_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_B c i arg2 harg2 arg3 harg3 arg4 harg4 arg5 harg5 arg6 harg6 arg7 harg7 arg8 harg8 hc0 hc1 x0 x1 x2 xs0 xs1 xs2).2.2.2.1)

/-- What this case leaves in the output block's buffer: its pieces read back over junk (no piece where the case stores nothing there). -/
def out_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_C c i arg2 harg2 arg3 harg3 arg4 harg4 arg5 harg5 arg6 harg6 arg7 harg7 arg8 harg8 hc0 hc1 x0 x1 x2 xs0 xs1 xs2).1)

theorem cover_C (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S1x512x512.Idx) :
    ∃ pc ∈ (kernelRun_C c i arg2 harg2 arg3 harg3 arg4 harg4 arg5 harg5 arg6 harg6 arg7 harg7 arg8 harg8 hc0 hc1 x0 x1 x2 xs0 xs1 xs2).1, y ∈ pc.1.set :=
  View.cover_of_tiledL (kernelRun_C c i arg2 harg2 arg3 harg3 arg4 harg4 arg5 harg5 arg6 harg6 arg7 harg7 arg8 harg8 hc0 hc1 x0 x1 x2 xs0 xs1 xs2).1 S1x512x512.size (by sl_kernel_rfl) y

theorem scover_C_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_C_0 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 xs0 xs1 xs2).2.1)

theorem scover_C_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_C_1 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 xs0 xs1 xs2).2.2.1)

theorem scover_C_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_C_2 (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_C c i arg2 harg2 arg3 harg3 arg4 harg4 arg5 harg5 arg6 harg6 arg7 harg7 arg8 harg8 hc0 hc1 x0 x1 x2 xs0 xs1 xs2).2.2.2.1)

/-- THE ACCUMULATION. What the output block's buffer and the three scratch buffers hold after the body at position `n`:
    the case the position is in, run at the point's memrefs and input blocks, the scratch buffers read as position
    `n - 1` left them (nothing in between touches them). -/
def outsAt (c : Dev nD) : (n : ℕ) → n < cfg2.N → Vec F S1x512x512 .f32 × Vec F S512x1 .f32 × Vec F S512x1 .f32 × Vec F S512x512 .f32
  | 0, hn => (out_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_0 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_1 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_2 c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 98 = 0 then
      if h1 : (n + 1) % 98 = 97 then
        False.elim (by omega)
      else
        (out_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 98 = 97 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (out_B c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_0 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_1 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_2 c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg2.N) (h0 : t.val % 98 = 0) (h1 : ¬t.val % 98 = 97) :
    outsAt V c t.val t.isLt = (out_A c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg2.N) (h0 : ¬t.val % 98 = 0) (h1 : ¬t.val % 98 = 97) :
    outsAt V c t.val t.isLt = (out_B c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg2.N) (h0 : ¬t.val % 98 = 0) (h1 : t.val % 98 = 97) :
    outsAt V c t.val t.isLt = (out_C c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_2 c (grid2.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the three scratch buffers at anything; afterwards each at what
    the point before left in it; beside them the other scoped buffers and the generator register. -/
def PhiS (c : Dev nD) : (n : ℕ) → n ≤ cfg2.N → sProp 𝕄
  | 0, _ => Pipeline.ΦA spec2 c
  | n + 1, hn => iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r)) := rfl

theorem PhiS_pos (c : Dev nD) (n : ℕ) (h : n ≤ cfg2.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ restBut (F := F) c) ∗ (∃ r, prngReg c r)) := by
  cases n with
  | zero => exact absurd rfl hz
  | succ n => rfl

/-- The proof data of this call on core `c`. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]

theorem PhiS_castSucc (c : Dev nD) (t : Fin cfg2.N) :
    (dat V c).Φ t.castSucc = PhiS V c t.val (Nat.le_of_lt t.isLt) := by
  dsimp only [dat]; simp only [Fin.coe_castSucc]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms of the two conditions say which case the
    point is in; the invariant hands the body the scratch buffers at what the point before left (at anything at the very
    first point) and takes them back at this point's contents; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 196 := lt_of_lt_of_eq t.isLt (show cfg2.N = 196 from N_2)
  by_cases h0 : t.val % 98 = 0
  · by_cases h1 : t.val % 98 = 97
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond0 t).mpr h0) (fun h => h1 ((hcond1 t).mp h))) (noFlush_3_A t ((hcond0 t).mpr h0) (fun h => h1 ((hcond1 t).mp h)))]
      rw [outsAt_A V c t h0 h1]
      unfold sout_A_0 sout_A_1 sout_A_2; (try dsimp only)
      by_cases hz : t.val = 0
      ·
        rw [PhiS_castSucc V c t, PhiS_zero V c _ _ hz, PhiA_eq]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid2.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 98 = 97
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond0 t).mp h)) ((hcond1 t).mpr h1)], after_3]
      rw [outsAt_C V c t h0 h1]
      unfold out_C sout_C_0 sout_C_1 sout_C_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_C c (grid2.coords t) _ _ _ _ _ _ _ _ _ _ _ _ _ _ (fun h => h0 ((hcond0 t).mp h)) ((hcond1 t).mpr h1) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_C_1 c _ _ _ _ _ _ _ _ _ _ _ _ _ _ _ _ _ _ _ _ _ _ _)
              unfold owns; iexists _; isplitr
              swap; · iexact HS2
              ipureintro; exact View.read_writes_of_cover _ _ _ _ _ (scover_C_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond0 t).mp h)) (fun h => h1 ((hcond1 t).mp h))) (noFlush_3_B t (fun h => h0 ((hcond0 t).mp h)) (fun h => h1 ((hcond1 t).mp h)))]
      rw [outsAt_B V c t h0 h1]
      unfold sout_B_0 sout_B_1 sout_B_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_B c (grid2.coords t) _ _ _ _ _ _ _ _ _ _ _ _ _ _ (fun h => h0 ((hcond0 t).mp h)) (fun h => h1 ((hcond1 t).mp h)) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_B_1 c _ _ _ _ _ _ _ _ _ _ _ _ _ _ _ _ _ _ _ _ _ _ _)
              unfold owns; iexists _; isplitr
              swap; · iexact HS2
              ipureintro; exact View.read_writes_of_cover _ _ _ _ _ (scover_B_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout (c : Dev nD) : (dat V c).Φ (Fin.last cfg2.N) ⊢ Pipeline.ΦA spec2 c :=
  Phi_out V c _ (by rw [Fin.val_last]; have : cfg2.N = 196 := N_2; omega)

end Cert.KernelIdeal.Flash2

end
-- ==== Proof.KIFlash3Base.lean ====
import proofs.«157278_j31636729102421_2_alg».proof.Proof.Gen.KernelIdeal.Launch
import proofs.«157278_j31636729102421_2_alg».proof.Proof.Gen.KernelIdeal.Skeleton
import proofs.«157278_j31636729102421_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The attention call number 3 at a parameter `V`, the buffer contents the region is entered from: what the
    three cases of its body share. The grid is (query group, key tile); the body keeps a running row maximum, a running
    normalizer and an unnormalized output in three scratch buffers across the key tiles of one group: it resets them at
    the first tile, updates them at every tile, and at the last tile stores their quotient into the output block. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- The body is at the first key tile of its group. -/
abbrev cond0 (i : grid3.Coords) : Prop := (Scalar.cmpi .ne (Scalar.extui (Scalar.cmpi .eq (BitVec.ofNat 32 (i 1).val) 0#32)) 0#32) = 1#1
theorem hcond0 : ∀ t : Fin cfg3.N, cond0 (grid3.coords t) ↔ t.val % 5 = 0 :=
  (by decide +kernel : ∀ t : Fin grid3.N, cond0 (grid3.coords t) ↔ t.val % 5 = 0)
/-- The body is at the last key tile of its group. -/
abbrev cond1 (i : grid3.Coords) : Prop := k3_cond2 i = 1#1
theorem hcond1 : ∀ t : Fin cfg3.N, cond1 (grid3.coords t) ↔ t.val % 5 = 4 :=
  (by decide +kernel : ∀ t : Fin grid3.N, cond1 (grid3.coords t) ↔ t.val % 5 = 4)

theorem liveAt_0 : ∀ t : Fin cfg3.N, cfg3.idle 0 (grid3.coords t) = false := by decide +kernel
theorem liveAt_1 : ∀ t : Fin cfg3.N, cfg3.idle 1 (grid3.coords t) = false := by decide +kernel
theorem liveAt_2 : ∀ t : Fin cfg3.N, cfg3.idle 2 (grid3.coords t) = false := by decide +kernel
theorem idleAt_3_A : ∀ t : Fin cfg3.N, cond0 (grid3.coords t) → ¬cond1 (grid3.coords t) → cfg3.idle 3 (grid3.coords t) = true := by decide +kernel
theorem noFlush_3_A : ∀ t : Fin cfg3.N, cond0 (grid3.coords t) → ¬cond1 (grid3.coords t) → (cfg3.win 3).flush t = false := by decide +kernel
theorem idleAt_3_B : ∀ t : Fin cfg3.N, ¬cond0 (grid3.coords t) → ¬cond1 (grid3.coords t) → cfg3.idle 3 (grid3.coords t) = true := by decide +kernel
theorem noFlush_3_B : ∀ t : Fin cfg3.N, ¬cond0 (grid3.coords t) → ¬cond1 (grid3.coords t) → (cfg3.win 3).flush t = false := by decide +kernel
theorem liveAt_3_C : ∀ t : Fin cfg3.N, ¬cond0 (grid3.coords t) → cond1 (grid3.coords t) → cfg3.idle 3 (grid3.coords t) = false := by decide +kernel

/-- One staging buffer of the output window, through which its contents are stated. -/
abbrev VO : View sig .tc .vmem S1x512x512 .f32 := (Memref.whole cc3_stg3_0 : Memref sig .tc .vmem S1x512x512 .f32).view
abbrev ms_0 (t : Fin cfg3.N) : Memref sig .tc .vmem S1x512x512 .f32 := win3_0.stage (cfg3.slots t 0)
abbrev hs_0 (t : Fin cfg3.N) : (ms_0 t).IsWhole := hstage3_0 ((cfg3.slots t 0).cast nbuf3_0)
abbrev ms_1 (t : Fin cfg3.N) : Memref sig .tc .vmem S2048x512 .f32 := win3_1.stage (cfg3.slots t 1)
abbrev hs_1 (t : Fin cfg3.N) : (ms_1 t).IsWhole := hstage3_1 ((cfg3.slots t 1).cast nbuf3_1)
abbrev ms_2 (t : Fin cfg3.N) : Memref sig .tc .vmem S2048x512 .bf16 := win3_2.stage (cfg3.slots t 2)
abbrev hs_2 (t : Fin cfg3.N) : (ms_2 t).IsWhole := hstage3_2 ((cfg3.slots t 2).cast nbuf3_2)
abbrev ms_3 (t : Fin cfg3.N) : Memref sig .tc .vmem S1x512x512 .f32 := win3_3.stage (cfg3.slots t 3)
abbrev hs_3 (t : Fin cfg3.N) : (ms_3 t).IsWhole := hstage3_3 ((cfg3.slots t 3).cast nbuf3_3)
/-- The three scratch buffers: the running maximum, the running normalizer, the unnormalized output. -/
abbrev scM0 : Memref sig .tc .vmem S512x1 .f32 := Memref.whole cc3_scratch0
abbrev scM1 : Memref sig .tc .vmem S512x1 .f32 := Memref.whole cc3_scratch1
abbrev scM2 : Memref sig .tc .vmem S512x512 .f32 := Memref.whole cc3_scratch2
abbrev VS0 : View sig .tc .vmem S512x1 .f32 := (scM0).view
abbrev VS1 : View sig .tc .vmem S512x1 .f32 := (scM1).view
abbrev VS2 : View sig .tc .vmem S512x512 .f32 := (scM2).view

/-- Every scoped buffer but the three scratch buffers, at contents not named. -/
abbrev restBut (c : Dev nD) : sProp 𝕄 :=
  Pipeline.scopedRestBut (Ix := Unit) (Name := ℕ) (U := UR sig nD τ) (Lvl := ℕ) (Val := Elt F) spec3 c [cc3_scratch0, cc3_scratch1, cc3_scratch2]

/-- The region's invariant before the first point: the three scratch buffers at anything, the other scoped buffers,
    the generator register at some state. -/
theorem PhiA_eq (c : Dev nD) :
    (Pipeline.ΦA spec3 c : sProp 𝕄)
      = iprop(iprop(iprop((∃ d, owns (c : Thread nD τ) scM0 fullShare d) ∗ (∃ d, owns (c : Thread nD τ) scM1 fullShare d) ∗ (∃ d, owns (c : Thread nD τ) scM2 fullShare d)) ∗ restBut (F := F) c) ∗ (∃ r, prngReg c r)) := by
  unfold Pipeline.ΦA; rw [scopedRest3_split]; simp only [scM0, scM1, scM2, owns_whole]; try rfl

end Cert.KernelIdeal.Flash3

end
-- ==== Proof.KIFlash3A.lean ====
import proofs.«157278_j31636729102421_2_alg».proof.Proof.KIFlash3Base

/-! The body of the attention call at the FIRST key tile of a group (the scratch buffers are reset, then updated; nothing is stored into the output block): its run on whole staging memrefs, the pieces each scratch buffer ends with found by running it. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_A (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨[], ?_, ?_, ?_, fun xi3 E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Flash3

end
-- ==== Proof.KIFlash3B.lean ====
import proofs.«157278_j31636729102421_2_alg».proof.Proof.KIFlash3Base

/-! The body of the attention call at a MIDDLE key tile (the scratch buffers are read as the tile before left them and updated; nothing is stored into the output block): its run, the pieces each scratch buffer ends with found by running it. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_B (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (xi3 : Vec F S1x512x512 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨[], ?_, ?_, ?_, fun xi3 E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Flash3

end
-- ==== Proof.KIFlash3C.lean ====
import proofs.«157278_j31636729102421_2_alg».proof.Proof.KIFlash3Base

/-! The body of the attention call at the LAST key tile of a group (the scratch buffers are updated and their quotient stored into the output block): its run, the pieces the scratch buffers and the output end with found by running it. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- What the body's stores leave in the output's and the three scratch buffers' memrefs, as pieces (last first), in this
    case, with the proof that the body runs to the continuation holding them so written and the inputs as they were. -/
noncomputable def kernelRun_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    Σ' (L3 : List (View.Piece (Elt F) S1x512x512 .f32)) (LS0 : List (View.Piece (Elt F) S512x1 .f32)) (LS1 : List (View.Piece (Elt F) S512x1 .f32)), { LS2 : List (View.Piece (Elt F) S512x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc3__flash_kernel i arg2 harg2 arg3 harg3 arg4 harg4 arg5 harg5 arg6 harg6 arg7 harg7 arg8 harg8) K } := by
  refine ⟨?_, ?_, ?_, ?_, fun E K => ?run⟩
  case run =>
    simp only [cc3__flash_kernel_eq_skeleton]; unfold cc3__flash_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    isplitl [HS0]; · iexists _; iexact HS0
    isplitl [HS1]; · iexists _; iexact HS1
    iexists _; iexact HS2

end Cert.KernelIdeal.Flash3

end
-- ==== Proof.KIFlash3.lean ====
import proofs.«157278_j31636729102421_2_alg».proof.Proof.KIFlash3A
import proofs.«157278_j31636729102421_2_alg».proof.Proof.KIFlash3B
import proofs.«157278_j31636729102421_2_alg».proof.Proof.KIFlash3C

/-! The attention call number 3 at a parameter `V`: what the output block's buffer and the three scratch buffers hold after every grid point (by recursion on the point: the first key tile of a group resets, every later one reads what the tile before left), the proof data, the invariant carrying the scratch buffers' contents from point to point, and the body obligation at every point. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- What this case leaves in the output block's buffer: its pieces read back over junk (no piece where the case stores nothing there). -/
def out_A (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S1x512x512 .f32 :=
  VO.read (Elt F) (VO.writes (Elt F) VO.junk (kernelRun_A c i arg2 harg2 arg3 harg3 arg4 harg4 arg5 harg5 arg6 harg6 arg7 harg7 arg8 harg8 hc0 hc1 x0 x1 x2).1)

theorem scover_A_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.1, y ∈ pc.1.set :=
  View.cover_of_tiledL (kernelRun_A c i arg2 harg2 arg3 harg3 arg4 harg4 arg5 harg5 arg6 harg6 arg7 harg7 arg8 harg8 hc0 hc1 x0 x1 x2).2.1 S512x1.size (by sl_kernel_rfl) y
/-- What this case leaves in scratch buffer 0: its pieces read back. -/
def sout_A_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS0.read (Elt F) (VS0.writes (Elt F) VS0.junk (kernelRun_A c i arg2 harg2 arg3 harg3 arg4 harg4 arg5 harg5 arg6 harg6 arg7 harg7 arg8 harg8 hc0 hc1 x0 x1 x2).2.1)

theorem scover_A_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x1.Idx) :
    ∃ pc ∈ (kernelRun_A c i arg2 harg2 arg3 harg3 arg4 harg4 arg5 harg5 arg6 harg6 arg7 harg7 arg8 harg8 hc0 hc1 x0 x1 x2).2.2.1, y ∈ pc.1.set :=
  View.cover_of_tiledL (kernelRun_A c i arg2 harg2 arg3 harg3 arg4 harg4 arg5 harg5 arg6 harg6 arg7 harg7 arg8 harg8 hc0 hc1 x0 x1 x2).2.2.1 S512x1.size (by sl_kernel_rfl) y
/-- What this case leaves in scratch buffer 1: its pieces read back. -/
def sout_A_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x1 .f32 :=
  VS1.read (Elt F) (VS1.writes (Elt F) VS1.junk (kernelRun_A c i arg2 harg2 arg3 harg3 arg4 harg4 arg5 harg5 arg6 harg6 arg7 harg7 arg8 harg8 hc0 hc1 x0 x1 x2).2.2.1)

theorem scover_A_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) (y : S512x512.Idx) :
    ∃ pc ∈ (kernelRun_A c i arg2 harg2 arg3 harg3 arg4 harg4 arg5 harg5 arg6 harg6 arg7 harg7 arg8 harg8 hc0 hc1 x0 x1 x2).2.2.2.1, y ∈ pc.1.set :=
  View.cover_of_tiledL (kernelRun_A c i arg2 harg2 arg3 harg3 arg4 harg4 arg5 harg5 arg6 harg6 arg7 harg7 arg8 harg8 hc0 hc1 x0 x1 x2).2.2.2.1 S512x512.size (by sl_kernel_rfl) y
/-- What this case leaves in scratch buffer 2: its pieces read back. -/
def sout_A_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) : Vec F S512x512 .f32 :=
  VS2.read (Elt F) (VS2.writes (Elt F) VS2.junk (kernelRun_A c i arg2 harg2 arg3 harg3 arg4 harg4 arg5 harg5 arg6 harg6 arg7 harg7 arg8 harg8 hc0 hc1 x0 x1 x2).2.2.2.1)

/-- What this case leaves in the output block's buffer: its pieces read back over junk (no piece where the case stores nothing there). -/
def out_B (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_B c i arg2 harg2 arg3 harg3 arg4 harg4 arg5 harg5 arg6 harg6 arg7 harg7 arg8 harg8 hc0 hc1 x0 x1 x2 xs0 xs1 xs2).1)

theorem scover_B_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_B_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_B c i arg2 harg2 arg3 harg3 arg4 harg4 arg5 harg5 arg6 harg6 arg7 harg7 arg8 harg8 hc0 hc1 x0 x1 x2 xs0 xs1 xs2).2.1)

theorem scover_B_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_B_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_B c i arg2 harg2 arg3 harg3 arg4 harg4 arg5 harg5 arg6 harg6 arg7 harg7 arg8 harg8 hc0 hc1 x0 x1 x2 xs0 xs1 xs2).2.2.1)

theorem scover_B_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_B c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_B_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_B c i arg2 harg2 arg3 harg3 arg4 harg4 arg5 harg5 arg6 harg6 arg7 harg7 arg8 harg8 hc0 hc1 x0 x1 x2 xs0 xs1 xs2).2.2.2.1)

/-- What this case leaves in the output block's buffer: its pieces read back over junk (no piece where the case stores nothing there). -/
def out_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S1x512x512 .f32 :=
  VO.read (Elt F) (VO.writes (Elt F) VO.junk (kernelRun_C c i arg2 harg2 arg3 harg3 arg4 harg4 arg5 harg5 arg6 harg6 arg7 harg7 arg8 harg8 hc0 hc1 x0 x1 x2 xs0 xs1 xs2).1)

theorem cover_C (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S1x512x512.Idx) :
    ∃ pc ∈ (kernelRun_C c i arg2 harg2 arg3 harg3 arg4 harg4 arg5 harg5 arg6 harg6 arg7 harg7 arg8 harg8 hc0 hc1 x0 x1 x2 xs0 xs1 xs2).1, y ∈ pc.1.set :=
  View.cover_of_tiledL (kernelRun_C c i arg2 harg2 arg3 harg3 arg4 harg4 arg5 harg5 arg6 harg6 arg7 harg7 arg8 harg8 hc0 hc1 x0 x1 x2 xs0 xs1 xs2).1 S1x512x512.size (by sl_kernel_rfl) y

theorem scover_C_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.1 S512x1.size (by sl_kernel_rfl) y
/-- What this case leaves in scratch buffer 0: its pieces read back. -/
def sout_C_0 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS0.read (Elt F) (VS0.writes (Elt F) VS0.junk (kernelRun_C c i arg2 harg2 arg3 harg3 arg4 harg4 arg5 harg5 arg6 harg6 arg7 harg7 arg8 harg8 hc0 hc1 x0 x1 x2 xs0 xs1 xs2).2.1)

theorem scover_C_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x1.Idx) :
    ∃ pc ∈ (kernelRun_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.1 S512x1.size (by sl_kernel_rfl) y
/-- What this case leaves in scratch buffer 1: its pieces read back. -/
def sout_C_1 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x1 .f32 :=
  VS1.read (Elt F) (VS1.writes (Elt F) VS1.junk (kernelRun_C c i arg2 harg2 arg3 harg3 arg4 harg4 arg5 harg5 arg6 harg6 arg7 harg7 arg8 harg8 hc0 hc1 x0 x1 x2 xs0 xs1 xs2).2.2.1)

theorem scover_C_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) (y : S512x512.Idx) :
    ∃ pc ∈ (kernelRun_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun_C c i arg2 harg2 arg3 harg3 arg4 harg4 arg5 harg5 arg6 harg6 arg7 harg7 arg8 harg8 hc0 hc1 x0 x1 x2 xs0 xs1 xs2).2.2.2.1 S512x512.size (by sl_kernel_rfl) y
/-- What this case leaves in scratch buffer 2: its pieces read back. -/
def sout_C_2 (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) : Vec F S512x512 .f32 :=
  VS2.read (Elt F) (VS2.writes (Elt F) VS2.junk (kernelRun_C c i arg2 harg2 arg3 harg3 arg4 harg4 arg5 harg5 arg6 harg6 arg7 harg7 arg8 harg8 hc0 hc1 x0 x1 x2 xs0 xs1 xs2).2.2.2.1)

/-- THE ACCUMULATION. What the output block's buffer and the three scratch buffers hold after the body at position `n`:
    the case the position is in, run at the point's memrefs and input blocks, the scratch buffers read as position
    `n - 1` left them (nothing in between touches them). -/
def outsAt (c : Dev nD) : (n : ℕ) → n < cfg3.N → Vec F S1x512x512 .f32 × Vec F S512x1 .f32 × Vec F S512x1 .f32 × Vec F S512x512 .f32
  | 0, hn => (out_A c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_0 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_1 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩), sout_A_2 c (grid3.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scM0 (Memref.isWhole_whole _) scM1 (Memref.isWhole_whole _) scM2 (Memref.isWhole_whole _) ((hcond0 ⟨0, hn⟩).mpr (Nat.zero_mod _)) (fun h => (fun h => by (try dsimp only at h); omega) ((hcond1 ⟨0, hn⟩).mp h)) (iblk V c 0 ⟨0, hn⟩) (iblk V c 1 ⟨0, hn⟩) (iblk V c 2 ⟨0, hn⟩))
  | n + 1, hn =>
    if h0 : (n + 1) % 5 = 0 then
      if h1 : (n + 1) % 5 = 4 then
        False.elim (by omega)
      else
        (out_A c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩), sout_A_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) ((hcond0 ⟨n + 1, hn⟩).mpr h0) (fun h => h1 ((hcond1 ⟨n + 1, hn⟩).mp h)) (iblk V c 0 ⟨n + 1, hn⟩) (iblk V c 1 ⟨n + 1, hn⟩) (iblk V c 2 ⟨n + 1, hn⟩))
    else
      if h1 : (n + 1) % 5 = 4 then
        (out_C c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_C_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) ((hcond1 ⟨n + 1, hn⟩).mpr h1) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)
      else
        (out_B c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_0 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_1 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2, sout_B_2 c (grid3.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scM0 (Memref.isWhole_whole _) scM1 (Memref.isWhole_whole _) scM2 (Memref.isWhole_whole _) (fun h => h0 ((hcond0 ⟨n + 1, hn⟩).mp h)) (fun h => h1 ((hcond1 ⟨n + 1, hn⟩).mp h)) (iblk V c 0 ⟨n + 1, hn⟩) (iblk V c 1 ⟨n + 1, hn⟩) (iblk V c 2 ⟨n + 1, hn⟩) (outsAt c n (Nat.lt_of_succ_lt hn)).2.1 (outsAt c n (Nat.lt_of_succ_lt hn)).2.2.1 (outsAt c n (Nat.lt_of_succ_lt hn)).2.2.2)

theorem outsAt_A (c : Dev nD) (t : Fin cfg3.N) (h0 : t.val % 5 = 0) (h1 : ¬t.val % 5 = 4) :
    outsAt V c t.val t.isLt = (out_A c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t), sout_A_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) ((hcond0 t).mpr h0) (fun h => h1 ((hcond1 t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg3.N) (h0 : ¬t.val % 5 = 0) (h1 : ¬t.val % 5 = 4) :
    outsAt V c t.val t.isLt = (out_B c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_B_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) (fun h => h1 ((hcond1 t).mp h)) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg3.N) (h0 : ¬t.val % 5 = 0) (h1 : t.val % 5 = 4) :
    outsAt V c t.val t.isLt = (out_C c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_0 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_1 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2, sout_C_2 c (grid3.coords t) (ms_0 t) (hs_0 t) (ms_1 t) (hs_1 t) (ms_2 t) (hs_2 t) (ms_3 t) (hs_3 t) scM0 (Memref.isWhole_whole _) scM1 (Memref.isWhole_whole _) scM2 (Memref.isWhole_whole _) (fun h => h0 ((hcond0 t).mp h)) ((hcond1 t).mpr h1) (iblk V c 0 t) (iblk V c 1 t) (iblk V c 2 t) (outsAt V c (t.val - 1) (Nat.lt_of_le_of_lt (Nat.sub_le _ _) t.isLt)).2.1 (outsAt V c (t.val - 1) (Nat.lt_of_le_of_lt (Nat.sub_le _ _) t.isLt)).2.2.1 (outsAt V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The invariant before position `n`: before the first point the three scratch buffers at anything; afterwards each at what
    the point before left in it; beside them the other scoped buffers and the generator register. -/
def PhiS (c : Dev nD) : (n : ℕ) → n ≤ cfg3.N → sProp 𝕄
  | 0, _ => Pipeline.ΦA spec3 c
  | n + 1, hn => iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r))

theorem PhiS_zero (c : Dev nD) (n : ℕ) (h : n ≤ cfg3.N) (hz : n = 0) : PhiS V c n h = Pipeline.ΦA spec3 c := by
  subst hz; rfl

theorem PhiS_succ (c : Dev nD) (n : ℕ) (hn : n < cfg3.N) :
    PhiS V c (n + 1) hn = iprop(iprop(iprop(owns (c : Thread nD τ) scM0 fullShare ((outsAt V c n hn).2.1) ∗ owns (c : Thread nD τ) scM1 fullShare ((outsAt V c n hn).2.2.1) ∗ owns (c : Thread nD τ) scM2 fullShare ((outsAt V c n hn).2.2.2)) ∗ restBut (F := F) c) ∗ (∃ r, prngReg c r)) := rfl

theorem PhiS_pos (c : Dev nD) (n : ℕ) (h : n ≤ cfg3.N) (hz : n ≠ 0) :
    PhiS V c n h = iprop(iprop(iprop(owns (c : Thread nD τ) scM0 fullShare ((outsAt V c (n - 1) (by omega)).2.1) ∗ owns (c : Thread nD τ) scM1 fullShare ((outsAt V c (n - 1) (by omega)).2.2.1) ∗ owns (c : Thread nD τ) scM2 fullShare ((outsAt V c (n - 1) (by omega)).2.2.2)) ∗ restBut (F := F) c) ∗ (∃ r, prngReg c r)) := by
  cases n with
  | zero => exact absurd rfl hz
  | succ n => rfl

/-- The proof data of this call on core `c`. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg3.W) : (dat V c).A w = V c (Pipeline.arrRef spec3 w) := by
  dsimp only [dat]

theorem PhiS_castSucc (c : Dev nD) (t : Fin cfg3.N) :
    (dat V c).Φ t.castSucc = PhiS V c t.val (Nat.le_of_lt t.isLt) := by
  dsimp only [dat]; simp only [Fin.coe_castSucc]

theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = (outsAt V c t.val t.isLt).1 := by dsimp only [dat]

theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d

/-- What the body is called with at point `t`, -/
def bodyPre (c : Dev nD) (t : Fin cfg3.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg3.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: the inputs' memrefs hold their blocks; the closed forms of the two conditions say which case the
    point is in; the invariant hands the body the scratch buffers at what the point before left (at anything at the very
    first point) and takes them back at this point's contents; the core owes nothing throughout. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 5 := lt_of_lt_of_eq t.isLt (show cfg3.N = 5 from N_3)
  by_cases h0 : t.val % 5 = 0
  · by_cases h1 : t.val % 5 = 4
    · exfalso; omega
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_A t ((hcond0 t).mpr h0) (fun h => h1 ((hcond1 t).mp h))) (noFlush_3_A t ((hcond0 t).mpr h0) (fun h => h1 ((hcond1 t).mp h)))]
      rw [outsAt_A V c t h0 h1]
      unfold sout_A_0 sout_A_1 sout_A_2; (try dsimp only)
      by_cases hz : t.val = 0
      ·
        rw [PhiS_castSucc V c t, PhiS_zero V c _ _ hz, PhiA_eq]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid3.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_A c (grid3.coords t) _ _ _ _ _ _ _ _ _ _ _ _ _ _ ((hcond0 t).mpr h0) (fun h => h1 ((hcond1 t).mp h)) (iblk V c 0 t) (iblk V c 1 t) (iblk V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_A_0 c _ _ _ _ _ _ _ _ _ _ _ _ _ _ _ _ _ _ _ _)
              isplitl [HS1]
              · unfold owns; iexists _; isplitr
                swap; · iexact HS1
                ipureintro; exact View.read_writes_of_cover _ _ _ _ _ (scover_A_1 c _ _ _ _ _ _ _ _ _ _ _ _ _ _ _ _ _ _ _ _)
              unfold owns; iexists _; isplitr
              swap; · iexact HS2
              ipureintro; exact View.read_writes_of_cover _ _ _ _ _ (scover_A_2 c _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3
  · by_cases h1 : t.val % 5 = 4
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [show (dat V c).leavesExact 3 t = owns (c : Thread nD τ) (ms_3 t) fullShare ((dat V c).after 3 t) from by
        unfold Dat.leavesExact; rw [liveAt_3_C t (fun h => h0 ((hcond0 t).mp h)) ((hcond1 t).mpr h1)], after_3]
      rw [outsAt_C V c t h0 h1]
      unfold out_C sout_C_0 sout_C_1 sout_C_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_C c (grid3.coords t) _ _ _ _ _ _ _ _ _ _ _ _ _ _ (fun h => h0 ((hcond0 t).mp h)) ((hcond1 t).mpr h1) (iblk V c 0 t) (iblk V c 1 t) (iblk V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_C_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_C_1 c _ _ _ _ _ _ _ _ _ _ _ _ _ _ _ _ _ _ _ _ _ _ _)
              unfold owns; iexists _; isplitr
              swap; · iexact HS2
              ipureintro; exact View.read_writes_of_cover _ _ _ _ _ (scover_C_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_C c _ _ _ _ _ _ _ _ _ _ _ _ _ _ _ _ _ _ _ _ _ _ _)
    · rw [show (dat V c).leavesExact 0 t = owns (c : Thread nD τ) (ms_0 t) fullShare ((dat V c).after 0 t) from by
        unfold Dat.leavesExact; rw [liveAt_0 t], after_0]
      rw [show (dat V c).leavesExact 1 t = owns (c : Thread nD τ) (ms_1 t) fullShare ((dat V c).after 1 t) from by
        unfold Dat.leavesExact; rw [liveAt_1 t], after_1]
      rw [show (dat V c).leavesExact 2 t = owns (c : Thread nD τ) (ms_2 t) fullShare ((dat V c).after 2 t) from by
        unfold Dat.leavesExact; rw [liveAt_2 t], after_2]
      rw [Dat.leavesExact_idle (dat V c) 3 t (idleAt_3_B t (fun h => h0 ((hcond0 t).mp h)) (fun h => h1 ((hcond1 t).mp h))) (noFlush_3_B t (fun h => h0 ((hcond0 t).mp h)) (fun h => h1 ((hcond1 t).mp h)))]
      rw [outsAt_B V c t h0 h1]
      unfold sout_B_0 sout_B_1 sout_B_2; (try dsimp only)
      by_cases hz : t.val = 0
      · exfalso; omega
      ·
        rw [PhiS_castSucc V c t, PhiS_pos V c _ _ hz]
        iintro ⟨⟨⟨⟨HS0, HS1, HS2⟩, Hrb⟩, Hg⟩, Ho, ⟨%d0, H0⟩, ⟨%d1, H1⟩, ⟨%d2, H2⟩, ⟨%d3, H3⟩⟩
        iapply ((kernelRun_B c (grid3.coords t) _ _ _ _ _ _ _ _ _ _ _ _ _ _ (fun h => h0 ((hcond0 t).mp h)) (fun h => h1 ((hcond1 t).mp h)) (iblk V c 0 t) (iblk V c 1 t) (iblk V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrb Hg]
        · isplitl [HS0 HS1 HS2 Hrb]
          · isplitl [HS0 HS1 HS2]
            · isplitl [HS0]
              · unfold owns; iexists _; isplitr
                swap; · iexact HS0
                ipureintro; exact View.read_writes_of_cover _ _ _ _ _ (scover_B_0 c _ _ _ _ _ _ _ _ _ _ _ _ _ _ _ _ _ _ _ _ _ _ _)
              isplitl [HS1]
              · unfold owns; iexists _; isplitr
                swap; · iexact HS1
                ipureintro; exact View.read_writes_of_cover _ _ _ _ _ (scover_B_1 c _ _ _ _ _ _ _ _ _ _ _ _ _ _ _ _ _ _ _ _ _ _ _)
              unfold owns; iexists _; isplitr
              swap; · iexact HS2
              ipureintro; exact View.read_writes_of_cover _ _ _ _ _ (scover_B_2 c _ _ _ _ _ _ _ _ _ _ _ _ _ _ _ _ _ _ _ _ _ _ _)
            iexact Hrb
          iexact Hg
        isplitl [Ho]; · iexact Ho
        isplitl [H0]; · iexact H0
        isplitl [H1]; · iexact H1
        isplitl [H2]; · iexact H2
        iexists _; iexact H3

/-- The library's body obligation, at every point. -/
theorem body_obligation (c : Dev nD) : BodyObligation (dat (F := F) V c) (defs₀ (F := F)) Variants.none () Set.univ := fun t => by
  rw [bigSep_W3, bigSep_W3]
  exact sound_body V c t

/-- What the launch hands the region is the invariant before the first point. -/
theorem hin (c : Dev nD) : Pipeline.ΦA spec3 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the scratch buffers' named contents are forgotten. -/
theorem Phi_out (c : Dev nD) (t : Fin (cfg3.N + 1)) (ht : t.val ≠ 0) : (dat V c).Φ t ⊢ Pipeline.ΦA spec3 c := by
  rw [show (dat V c).Φ t = PhiS V c t.val (Nat.le_of_lt_succ t.isLt) from rfl, PhiS_pos V c _ _ ht, PhiA_eq]
  iintro ⟨⟨⟨HS0, HS1, HS2⟩, Hrb⟩, Hg⟩
  isplitl [HS0 HS1 HS2 Hrb]
  · isplitl [HS0 HS1 HS2]
    · isplitl [HS0]; · iexists _; iexact HS0
      isplitl [HS1]; · iexists _; iexact HS1
      iexists _; iexact HS2
    iexact Hrb
  iexact Hg

theorem hout (c : Dev nD) : (dat V c).Φ (Fin.last cfg3.N) ⊢ Pipeline.ΦA spec3 c :=
  Phi_out V c _ (by rw [Fin.val_last]; have : cfg3.N = 5 := N_3; omega)

end Cert.KernelIdeal.Flash3

end
-- ==== Proof.KIRun.lean ====
import proofs.«157278_j31636729102421_2_alg».proof.Proof.Gen.KernelIdeal.Regions
import proofs.«157278_j31636729102421_2_alg».proof.Proof.KIProj0
import proofs.«157278_j31636729102421_2_alg».proof.Proof.KIProj1
import proofs.«157278_j31636729102421_2_alg».proof.Proof.KIFlash2
import proofs.«157278_j31636729102421_2_alg».proof.Proof.KIFlash3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! The whole run of the program: the buffer contents at every boundary between two items of the main function (a fold
    from the launch memory: a stretch of host operations applies them; a kernel call leaves its arrays at what its
    write-backs make of them and everything else as it found it), the four kernel calls as segments over those contents,
    and the run: every weakly fair execution terminates, nothing faulting, with every unscoped buffer at the last
    boundary's contents. The nineteen argument arrays walk back through the fold to the launch memory unchanged. -/

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev W1 : Dev nD → Valuation τ sig (Elt F) := fun c => StableHlo.after hostOps0 (W0 m ρ c)
abbrev Vr1 : (c : Dev nD) → (b : Ref sig .tc) → Buf (Elt F) ((c : Thread nD τ).loc b) := fun c b => W1 m ρ c b
abbrev W2 : Dev nD → Valuation τ sig (Elt F) := fun c => StableHlo.after hostOps0_1 (W1 m ρ c)
abbrev Vr2 : (c : Dev nD) → (b : Ref sig .tc) → Buf (Elt F) ((c : Thread nD τ).loc b) := fun c b => W2 m ρ c b
abbrev W3 : Dev nD → Valuation τ sig (Elt F) := fun c => StableHlo.after hostOps0_2 (W2 m ρ c)
abbrev Vr3 : (c : Dev nD) → (b : Ref sig .tc) → Buf (Elt F) ((c : Thread nD τ).loc b) := fun c b => W3 m ρ c b
abbrev W4 : Dev nD → Valuation τ sig (Elt F) := fun c => StableHlo.after hostOps0_3 (W3 m ρ c)
abbrev Vr4 : (c : Dev nD) → (b : Ref sig .tc) → Buf (Elt F) ((c : Thread nD τ).loc b) := fun c b => W4 m ρ c b
abbrev W5 : Dev nD → Valuation τ sig (Elt F) := fun c => StableHlo.after hostOps0_4 (W4 m ρ c)
abbrev Vr5 : (c : Dev nD) → (b : Ref sig .tc) → Buf (Elt F) ((c : Thread nD τ).loc b) := fun c b => W5 m ρ c b
/-- After the call number 0: its arrays at what its write-backs leave, every other buffer as entered. -/
def W6 (c : Dev nD) : Valuation τ sig (Elt F) :=
  Pipeline.withArrays spec0 c (W5 m ρ c) fun w => (Proj0.dat (Vr5 m ρ) c).arrAt w cfg0.N
theorem W6_arr (c : Dev nD) (w : Fin cfg0.W) :
    W6 m ρ c (Proc.devRef .tc (Pipeline.arrRef spec0 w)) = (Proj0.dat (Vr5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev Vr6 : (c : Dev nD) → (b : Ref sig .tc) → Buf (Elt F) ((c : Thread nD τ).loc b) := fun c b => W6 m ρ c b
theorem hF0 (c : Dev nD) (w : Fin cfg0.W) : (Proj0.dat (Vr5 m ρ) c).arrAt w cfg0.N = Vr6 m ρ c (Pipeline.arrRef spec0 w) :=
  (W6_arr m ρ c w).symm
theorem hrest0 (c : Dev nD) : ∀ b, b ∉ Finset.univ.image (Pipeline.arrRef spec0) → Vr6 m ρ c b = Vr5 m ρ c b :=
  fun b hb => W6_of_ne m ρ c b fun w e => hb (Finset.mem_image.mpr ⟨w, Finset.mem_univ _, e⟩)
abbrev W7 : Dev nD → Valuation τ sig (Elt F) := fun c => StableHlo.after hostOps1 (W6 m ρ c)
abbrev Vr7 : (c : Dev nD) → (b : Ref sig .tc) → Buf (Elt F) ((c : Thread nD τ).loc b) := fun c b => W7 m ρ c b
/-- After the call number 1: its arrays at what its write-backs leave, every other buffer as entered. -/
def W8 (c : Dev nD) : Valuation τ sig (Elt F) :=
  Pipeline.withArrays spec1 c (W7 m ρ c) fun w => (Proj1.dat (Vr7 m ρ) c).arrAt w cfg1.N
theorem W8_arr (c : Dev nD) (w : Fin cfg1.W) :
    W8 m ρ c (Proc.devRef .tc (Pipeline.arrRef spec1 w)) = (Proj1.dat (Vr7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev Vr8 : (c : Dev nD) → (b : Ref sig .tc) → Buf (Elt F) ((c : Thread nD τ).loc b) := fun c b => W8 m ρ c b
theorem hF1 (c : Dev nD) (w : Fin cfg1.W) : (Proj1.dat (Vr7 m ρ) c).arrAt w cfg1.N = Vr8 m ρ c (Pipeline.arrRef spec1 w) :=
  (W8_arr m ρ c w).symm
theorem hrest1 (c : Dev nD) : ∀ b, b ∉ Finset.univ.image (Pipeline.arrRef spec1) → Vr8 m ρ c b = Vr7 m ρ c b :=
  fun b hb => W8_of_ne m ρ c b fun w e => hb (Finset.mem_image.mpr ⟨w, Finset.mem_univ _, e⟩)
abbrev W9 : Dev nD → Valuation τ sig (Elt F) := fun c => StableHlo.after hostOps2 (W8 m ρ c)
abbrev Vr9 : (c : Dev nD) → (b : Ref sig .tc) → Buf (Elt F) ((c : Thread nD τ).loc b) := fun c b => W9 m ρ c b
/-- After the call number 2: its arrays at what its write-backs leave, every other buffer as entered. -/
def W10 (c : Dev nD) : Valuation τ sig (Elt F) :=
  Pipeline.withArrays spec2 c (W9 m ρ c) fun w => (Flash2.dat (Vr9 m ρ) c).arrAt w cfg2.N
theorem W10_arr (c : Dev nD) (w : Fin cfg2.W) :
    W10 m ρ c (Proc.devRef .tc (Pipeline.arrRef spec2 w)) = (Flash2.dat (Vr9 m ρ) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m ρ c (Proc.devRef .tc b) = W9 m ρ c (Proc.devRef .tc b) := by
  unfold W10; exact Pipeline.withArrays_of_ne spec2 c _ _ b hb
abbrev Vr10 : (c : Dev nD) → (b : Ref sig .tc) → Buf (Elt F) ((c : Thread nD τ).loc b) := fun c b => W10 m ρ c b
theorem hF2 (c : Dev nD) (w : Fin cfg2.W) : (Flash2.dat (Vr9 m ρ) c).arrAt w cfg2.N = Vr10 m ρ c (Pipeline.arrRef spec2 w) :=
  (W10_arr m ρ c w).symm
theorem hrest2 (c : Dev nD) : ∀ b, b ∉ Finset.univ.image (Pipeline.arrRef spec2) → Vr10 m ρ c b = Vr9 m ρ c b :=
  fun b hb => W10_of_ne m ρ c b fun w e => hb (Finset.mem_image.mpr ⟨w, Finset.mem_univ _, e⟩)
/-- After the call number 3: its arrays at what its write-backs leave, every other buffer as entered. -/
def W11 (c : Dev nD) : Valuation τ sig (Elt F) :=
  Pipeline.withArrays spec3 c (W10 m ρ c) fun w => (Flash3.dat (Vr10 m ρ) c).arrAt w cfg3.N
theorem W11_arr (c : Dev nD) (w : Fin cfg3.W) :
    W11 m ρ c (Proc.devRef .tc (Pipeline.arrRef spec3 w)) = (Flash3.dat (Vr10 m ρ) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m ρ c (Proc.devRef .tc b) = W10 m ρ c (Proc.devRef .tc b) := by
  unfold W11; exact Pipeline.withArrays_of_ne spec3 c _ _ b hb
abbrev Vr11 : (c : Dev nD) → (b : Ref sig .tc) → Buf (Elt F) ((c : Thread nD τ).loc b) := fun c b => W11 m ρ c b
theorem hF3 (c : Dev nD) (w : Fin cfg3.W) : (Flash3.dat (Vr10 m ρ) c).arrAt w cfg3.N = Vr11 m ρ c (Pipeline.arrRef spec3 w) :=
  (W11_arr m ρ c w).symm
theorem hrest3 (c : Dev nD) : ∀ b, b ∉ Finset.univ.image (Pipeline.arrRef spec3) → Vr11 m ρ c b = Vr10 m ρ c b :=
  fun b hb => W11_of_ne m ρ c b fun w e => hb (Finset.mem_image.mpr ⟨w, Finset.mem_univ _, e⟩)
abbrev W12 : Dev nD → Valuation τ sig (Elt F) := fun c => StableHlo.after hostOps4 (W11 m ρ c)
abbrev Vr12 : (c : Dev nD) → (b : Ref sig .tc) → Buf (Elt F) ((c : Thread nD τ).loc b) := fun c b => W12 m ρ c b

/-! The arguments end as launched: no host operation writes one and no call writes one back. -/
theorem W12_main_arg0 (c : Dev nD) : W12 m ρ c (Proc.devRef .tc main_arg0) = m ((c : Thread nD τ).loc main_arg0) :=
  (StableHlo.after_of_writes_sub hostOps4 _ hostOps4_writes (by decide) : W12 m ρ c (Proc.devRef .tc main_arg0) = W11 m ρ c (Proc.devRef .tc main_arg0)).trans <|
  (W11_of_ne m ρ c main_arg0 (by decide)).trans <|
  (W10_of_ne m ρ c main_arg0 (by decide)).trans <|
  (StableHlo.after_of_writes_sub hostOps2 _ hostOps2_writes (by decide) : W9 m ρ c (Proc.devRef .tc main_arg0) = W8 m ρ c (Proc.devRef .tc main_arg0)).trans <|
  (W8_of_ne m ρ c main_arg0 (by decide)).trans <|
  (StableHlo.after_of_writes_sub hostOps1 _ hostOps1_writes (by decide) : W7 m ρ c (Proc.devRef .tc main_arg0) = W6 m ρ c (Proc.devRef .tc main_arg0)).trans <|
  (W6_of_ne m ρ c main_arg0 (by decide)).trans <|
  (StableHlo.after_of_writes_sub hostOps0_4 _ hostOps0_4_writes (by decide) : W5 m ρ c (Proc.devRef .tc main_arg0) = W4 m ρ c (Proc.devRef .tc main_arg0)).trans <|
  (StableHlo.after_of_writes_sub hostOps0_3 _ hostOps0_3_writes (by decide) : W4 m ρ c (Proc.devRef .tc main_arg0) = W3 m ρ c (Proc.devRef .tc main_arg0)).trans <|
  (StableHlo.after_of_writes_sub hostOps0_2 _ hostOps0_2_writes (by decide) : W3 m ρ c (Proc.devRef .tc main_arg0) = W2 m ρ c (Proc.devRef .tc main_arg0)).trans <|
  (StableHlo.after_of_writes_sub hostOps0_1 _ hostOps0_1_writes (by decide) : W2 m ρ c (Proc.devRef .tc main_arg0) = W1 m ρ c (Proc.devRef .tc main_arg0)).trans <|
  (StableHlo.after_of_writes_sub hostOps0 _ hostOps0_writes (by decide) : W1 m ρ c (Proc.devRef .tc main_arg0) = W0 m ρ c (Proc.devRef .tc main_arg0)).trans <| rfl
theorem W12_main_arg1 (c : Dev nD) : W12 m ρ c (Proc.devRef .tc main_arg1) = m ((c : Thread nD τ).loc main_arg1) :=
  (StableHlo.after_of_writes_sub hostOps4 _ hostOps4_writes (by decide) : W12 m ρ c (Proc.devRef .tc main_arg1) = W11 m ρ c (Proc.devRef .tc main_arg1)).trans <|
  (W11_of_ne m ρ c main_arg1 (by decide)).trans <|
  (W10_of_ne m ρ c main_arg1 (by decide)).trans <|
  (StableHlo.after_of_writes_sub hostOps2 _ hostOps2_writes (by decide) : W9 m ρ c (Proc.devRef .tc main_arg1) = W8 m ρ c (Proc.devRef .tc main_arg1)).trans <|
  (W8_of_ne m ρ c main_arg1 (by decide)).trans <|
  (StableHlo.after_of_writes_sub hostOps1 _ hostOps1_writes (by decide) : W7 m ρ c (Proc.devRef .tc main_arg1) = W6 m ρ c (Proc.devRef .tc main_arg1)).trans <|
  (W6_of_ne m ρ c main_arg1 (by decide)).trans <|
  (StableHlo.after_of_writes_sub hostOps0_4 _ hostOps0_4_writes (by decide) : W5 m ρ c (Proc.devRef .tc main_arg1) = W4 m ρ c (Proc.devRef .tc main_arg1)).trans <|
  (StableHlo.after_of_writes_sub hostOps0_3 _ hostOps0_3_writes (by decide) : W4 m ρ c (Proc.devRef .tc main_arg1) = W3 m ρ c (Proc.devRef .tc main_arg1)).trans <|
  (StableHlo.after_of_writes_sub hostOps0_2 _ hostOps0_2_writes (by decide) : W3 m ρ c (Proc.devRef .tc main_arg1) = W2 m ρ c (Proc.devRef .tc main_arg1)).trans <|
  (StableHlo.after_of_writes_sub hostOps0_1 _ hostOps0_1_writes (by decide) : W2 m ρ c (Proc.devRef .tc main_arg1) = W1 m ρ c (Proc.devRef .tc main_arg1)).trans <|
  (StableHlo.after_of_writes_sub hostOps0 _ hostOps0_writes (by decide) : W1 m ρ c (Proc.devRef .tc main_arg1) = W0 m ρ c (Proc.devRef .tc main_arg1)).trans <| rfl
theorem W12_main_arg2 (c : Dev nD) : W12 m ρ c (Proc.devRef .tc main_arg2) = m ((c : Thread nD τ).loc main_arg2) :=
  (StableHlo.after_of_writes_sub hostOps4 _ hostOps4_writes (by decide) : W12 m ρ c (Proc.devRef .tc main_arg2) = W11 m ρ c (Proc.devRef .tc main_arg2)).trans <|
  (W11_of_ne m ρ c main_arg2 (by decide)).trans <|
  (W10_of_ne m ρ c main_arg2 (by decide)).trans <|
  (StableHlo.after_of_writes_sub hostOps2 _ hostOps2_writes (by decide) : W9 m ρ c (Proc.devRef .tc main_arg2) = W8 m ρ c (Proc.devRef .tc main_arg2)).trans <|
  (W8_of_ne m ρ c main_arg2 (by decide)).trans <|
  (StableHlo.after_of_writes_sub hostOps1 _ hostOps1_writes (by decide) : W7 m ρ c (Proc.devRef .tc main_arg2) = W6 m ρ c (Proc.devRef .tc main_arg2)).trans <|
  (W6_of_ne m ρ c main_arg2 (by decide)).trans <|
  (StableHlo.after_of_writes_sub hostOps0_4 _ hostOps0_4_writes (by decide) : W5 m ρ c (Proc.devRef .tc main_arg2) = W4 m ρ c (Proc.devRef .tc main_arg2)).trans <|
  (StableHlo.after_of_writes_sub hostOps0_3 _ hostOps0_3_writes (by decide) : W4 m ρ c (Proc.devRef .tc main_arg2) = W3 m ρ c (Proc.devRef .tc main_arg2)).trans <|
  (StableHlo.after_of_writes_sub hostOps0_2 _ hostOps0_2_writes (by decide) : W3 m ρ c (Proc.devRef .tc main_arg2) = W2 m ρ c (Proc.devRef .tc main_arg2)).trans <|
  (StableHlo.after_of_writes_sub hostOps0_1 _ hostOps0_1_writes (by decide) : W2 m ρ c (Proc.devRef .tc main_arg2) = W1 m ρ c (Proc.devRef .tc main_arg2)).trans <|
  (StableHlo.after_of_writes_sub hostOps0 _ hostOps0_writes (by decide) : W1 m ρ c (Proc.devRef .tc main_arg2) = W0 m ρ c (Proc.devRef .tc main_arg2)).trans <| rfl
theorem W12_main_arg3 (c : Dev nD) : W12 m ρ c (Proc.devRef .tc main_arg3) = m ((c : Thread nD τ).loc main_arg3) :=
  (StableHlo.after_of_writes_sub hostOps4 _ hostOps4_writes (by decide) : W12 m ρ c (Proc.devRef .tc main_arg3) = W11 m ρ c (Proc.devRef .tc main_arg3)).trans <|
  (W11_of_ne m ρ c main_arg3 (by decide)).trans <|
  (W10_of_ne m ρ c main_arg3 (by decide)).trans <|
  (StableHlo.after_of_writes_sub hostOps2 _ hostOps2_writes (by decide) : W9 m ρ c (Proc.devRef .tc main_arg3) = W8 m ρ c (Proc.devRef .tc main_arg3)).trans <|
  (W8_of_ne m ρ c main_arg3 (by decide)).trans <|
  (StableHlo.after_of_writes_sub hostOps1 _ hostOps1_writes (by decide) : W7 m ρ c (Proc.devRef .tc main_arg3) = W6 m ρ c (Proc.devRef .tc main_arg3)).trans <|
  (W6_of_ne m ρ c main_arg3 (by decide)).trans <|
  (StableHlo.after_of_writes_sub hostOps0_4 _ hostOps0_4_writes (by decide) : W5 m ρ c (Proc.devRef .tc main_arg3) = W4 m ρ c (Proc.devRef .tc main_arg3)).trans <|
  (StableHlo.after_of_writes_sub hostOps0_3 _ hostOps0_3_writes (by decide) : W4 m ρ c (Proc.devRef .tc main_arg3) = W3 m ρ c (Proc.devRef .tc main_arg3)).trans <|
  (StableHlo.after_of_writes_sub hostOps0_2 _ hostOps0_2_writes (by decide) : W3 m ρ c (Proc.devRef .tc main_arg3) = W2 m ρ c (Proc.devRef .tc main_arg3)).trans <|
  (StableHlo.after_of_writes_sub hostOps0_1 _ hostOps0_1_writes (by decide) : W2 m ρ c (Proc.devRef .tc main_arg3) = W1 m ρ c (Proc.devRef .tc main_arg3)).trans <|
  (StableHlo.after_of_writes_sub hostOps0 _ hostOps0_writes (by decide) : W1 m ρ c (Proc.devRef .tc main_arg3) = W0 m ρ c (Proc.devRef .tc main_arg3)).trans <| rfl
theorem W12_main_arg4 (c : Dev nD) : W12 m ρ c (Proc.devRef .tc main_arg4) = m ((c : Thread nD τ).loc main_arg4) :=
  (StableHlo.after_of_writes_sub hostOps4 _ hostOps4_writes (by decide) : W12 m ρ c (Proc.devRef .tc main_arg4) = W11 m ρ c (Proc.devRef .tc main_arg4)).trans <|
  (W11_of_ne m ρ c main_arg4 (by decide)).trans <|
  (W10_of_ne m ρ c main_arg4 (by decide)).trans <|
  (StableHlo.after_of_writes_sub hostOps2 _ hostOps2_writes (by decide) : W9 m ρ c (Proc.devRef .tc main_arg4) = W8 m ρ c (Proc.devRef .tc main_arg4)).trans <|
  (W8_of_ne m ρ c main_arg4 (by decide)).trans <|
  (StableHlo.after_of_writes_sub hostOps1 _ hostOps1_writes (by decide) : W7 m ρ c (Proc.devRef .tc main_arg4) = W6 m ρ c (Proc.devRef .tc main_arg4)).trans <|
  (W6_of_ne m ρ c main_arg4 (by decide)).trans <|
  (StableHlo.after_of_writes_sub hostOps0_4 _ hostOps0_4_writes (by decide) : W5 m ρ c (Proc.devRef .tc main_arg4) = W4 m ρ c (Proc.devRef .tc main_arg4)).trans <|
  (StableHlo.after_of_writes_sub hostOps0_3 _ hostOps0_3_writes (by decide) : W4 m ρ c (Proc.devRef .tc main_arg4) = W3 m ρ c (Proc.devRef .tc main_arg4)).trans <|
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans <| rfl
theorem W12_main_arg5 (c : Dev nD) : W12 m ρ c (Proc.devRef .tc main_arg5) = m ((c : Thread nD τ).loc main_arg5) :=
  (StableHlo.after_of_writes_sub hostOps4 _ hostOps4_writes (by decide) : W12 m ρ c (Proc.devRef .tc main_arg5) = W11 m ρ c (Proc.devRef .tc main_arg5)).trans <|
  (W11_of_ne m ρ c main_arg5 (by decide)).trans <|
  (W10_of_ne m ρ c main_arg5 (by decide)).trans <|
  (StableHlo.after_of_writes_sub hostOps2 _ hostOps2_writes (by decide) : W9 m ρ c (Proc.devRef .tc main_arg5) = W8 m ρ c (Proc.devRef .tc main_arg5)).trans <|
  (W8_of_ne m ρ c main_arg5 (by decide)).trans <|
  (StableHlo.after_of_writes_sub hostOps1 _ hostOps1_writes (by decide) : W7 m ρ c (Proc.devRef .tc main_arg5) = W6 m ρ c (Proc.devRef .tc main_arg5)).trans <|
  (W6_of_ne m ρ c main_arg5 (by decide)).trans <|
  (StableHlo.after_of_writes_sub hostOps0_4 _ hostOps0_4_writes (by decide) : W5 m ρ c (Proc.devRef .tc main_arg5) = W4 m ρ c (Proc.devRef .tc main_arg5)).trans <|
  (StableHlo.after_of_writes_sub hostOps0_3 _ hostOps0_3_writes (by decide) : W4 m ρ c (Proc.devRef .tc main_arg5) = W3 m ρ c (Proc.devRef .tc main_arg5)).trans <|
  (StableHlo.after_of_writes_sub hostOps0_2 _ hostOps0_2_writes (by decide) : W3 m ρ c (Proc.devRef .tc main_arg5) = W2 m ρ c (Proc.devRef .tc main_arg5)).trans <|
  (StableHlo.after_of_writes_sub hostOps0_1 _ hostOps0_1_writes (by decide) : W2 m ρ c (Proc.devRef .tc main_arg5) = W1 m ρ c (Proc.devRef .tc main_arg5)).trans <|
  (StableHlo.after_of_writes_sub hostOps0 _ hostOps0_writes (by decide) : W1 m ρ c (Proc.devRef .tc main_arg5) = W0 m ρ c (Proc.devRef .tc main_arg5)).trans <| rfl
theorem W12_main_arg6 (c : Dev nD) : W12 m ρ c (Proc.devRef .tc main_arg6) = m ((c : Thread nD τ).loc main_arg6) :=
  (StableHlo.after_of_writes_sub hostOps4 _ hostOps4_writes (by decide) : W12 m ρ c (Proc.devRef .tc main_arg6) = W11 m ρ c (Proc.devRef .tc main_arg6)).trans <|
  (W11_of_ne m ρ c main_arg6 (by decide)).trans <|
  (W10_of_ne m ρ c main_arg6 (by decide)).trans <|
  (StableHlo.after_of_writes_sub hostOps2 _ hostOps2_writes (by decide) : W9 m ρ c (Proc.devRef .tc main_arg6) = W8 m ρ c (Proc.devRef .tc main_arg6)).trans <|
  (W8_of_ne m ρ c main_arg6 (by decide)).trans <|
  (StableHlo.after_of_writes_sub hostOps1 _ hostOps1_writes (by decide) : W7 m ρ c (Proc.devRef .tc main_arg6) = W6 m ρ c (Proc.devRef .tc main_arg6)).trans <|
  (W6_of_ne m ρ c main_arg6 (by decide)).trans <|
  (StableHlo.after_of_writes_sub hostOps0_4 _ hostOps0_4_writes (by decide) : W5 m ρ c (Proc.devRef .tc main_arg6) = W4 m ρ c (Proc.devRef .tc main_arg6)).trans <|
  (StableHlo.after_of_writes_sub hostOps0_3 _ hostOps0_3_writes (by decide) : W4 m ρ c (Proc.devRef .tc main_arg6) = W3 m ρ c (Proc.devRef .tc main_arg6)).trans <|
  (StableHlo.after_of_writes_sub hostOps0_2 _ hostOps0_2_writes (by decide) : W3 m ρ c (Proc.devRef .tc main_arg6) = W2 m ρ c (Proc.devRef .tc main_arg6)).trans <|
  (StableHlo.after_of_writes_sub hostOps0_1 _ hostOps0_1_writes (by decide) : W2 m ρ c (Proc.devRef .tc main_arg6) = W1 m ρ c (Proc.devRef .tc main_arg6)).trans <|
  (StableHlo.after_of_writes_sub hostOps0 _ hostOps0_writes (by decide) : W1 m ρ c (Proc.devRef .tc main_arg6) = W0 m ρ c (Proc.devRef .tc main_arg6)).trans <| rfl
theorem W12_main_arg7 (c : Dev nD) : W12 m ρ c (Proc.devRef .tc main_arg7) = m ((c : Thread nD τ).loc main_arg7) :=
  (StableHlo.after_of_writes_sub hostOps4 _ hostOps4_writes (by decide) : W12 m ρ c (Proc.devRef .tc main_arg7) = W11 m ρ c (Proc.devRef .tc main_arg7)).trans <|
  (W11_of_ne m ρ c main_arg7 (by decide)).trans <|
  (W10_of_ne m ρ c main_arg7 (by decide)).trans <|
  (StableHlo.after_of_writes_sub hostOps2 _ hostOps2_writes (by decide) : W9 m ρ c (Proc.devRef .tc main_arg7) = W8 m ρ c (Proc.devRef .tc main_arg7)).trans <|
  (W8_of_ne m ρ c main_arg7 (by decide)).trans <|
  (StableHlo.after_of_writes_sub hostOps1 _ hostOps1_writes (by decide) : W7 m ρ c (Proc.devRef .tc main_arg7) = W6 m ρ c (Proc.devRef .tc main_arg7)).trans <|
  (W6_of_ne m ρ c main_arg7 (by decide)).trans <|
  (StableHlo.after_of_writes_sub hostOps0_4 _ hostOps0_4_writes (by decide) : W5 m ρ c (Proc.devRef .tc main_arg7) = W4 m ρ c (Proc.devRef .tc main_arg7)).trans <|
  (StableHlo.after_of_writes_sub hostOps0_3 _ hostOps0_3_writes (by decide) : W4 m ρ c (Proc.devRef .tc main_arg7) = W3 m ρ c (Proc.devRef .tc main_arg7)).trans <|
  (StableHlo.after_of_writes_sub hostOps0_2 _ hostOps0_2_writes (by decide) : W3 m ρ c (Proc.devRef .tc main_arg7) = W2 m ρ c (Proc.devRef .tc main_arg7)).trans <|
  (StableHlo.after_of_writes_sub hostOps0_1 _ hostOps0_1_writes (by decide) : W2 m ρ c (Proc.devRef .tc main_arg7) = W1 m ρ c (Proc.devRef .tc main_arg7)).trans <|
  (StableHlo.after_of_writes_sub hostOps0 _ hostOps0_writes (by decide) : W1 m ρ c (Proc.devRef .tc main_arg7) = W0 m ρ c (Proc.devRef .tc main_arg7)).trans <| rfl
theorem W12_main_arg8 (c : Dev nD) : W12 m ρ c (Proc.devRef .tc main_arg8) = m ((c : Thread nD τ).loc main_arg8) :=
  (StableHlo.after_of_writes_sub hostOps4 _ hostOps4_writes (by decide) : W12 m ρ c (Proc.devRef .tc main_arg8) = W11 m ρ c (Proc.devRef .tc main_arg8)).trans <|
  (W11_of_ne m ρ c main_arg8 (by decide)).trans <|
  (W10_of_ne m ρ c main_arg8 (by decide)).trans <|
  (StableHlo.after_of_writes_sub hostOps2 _ hostOps2_writes (by decide) : W9 m ρ c (Proc.devRef .tc main_arg8) = W8 m ρ c (Proc.devRef .tc main_arg8)).trans <|
  (W8_of_ne m ρ c main_arg8 (by decide)).trans <|
  (StableHlo.after_of_writes_sub hostOps1 _ hostOps1_writes (by decide) : W7 m ρ c (Proc.devRef .tc main_arg8) = W6 m ρ c (Proc.devRef .tc main_arg8)).trans <|
  (W6_of_ne m ρ c main_arg8 (by decide)).trans <|
  (StableHlo.after_of_writes_sub hostOps0_4 _ hostOps0_4_writes (by decide) : W5 m ρ c (Proc.devRef .tc main_arg8) = W4 m ρ c (Proc.devRef .tc main_arg8)).trans <|
  (StableHlo.after_of_writes_sub hostOps0_3 _ hostOps0_3_writes (by decide) : W4 m ρ c (Proc.devRef .tc main_arg8) = W3 m ρ c (Proc.devRef .tc main_arg8)).trans <|
  (StableHlo.after_of_writes_sub hostOps0_2 _ hostOps0_2_writes (by decide) : W3 m ρ c (Proc.devRef .tc main_arg8) = W2 m ρ c (Proc.devRef .tc main_arg8)).trans <|
  (StableHlo.after_of_writes_sub hostOps0_1 _ hostOps0_1_writes (by decide) : W2 m ρ c (Proc.devRef .tc main_arg8) = W1 m ρ c (Proc.devRef .tc main_arg8)).trans <|
  (StableHlo.after_of_writes_sub hostOps0 _ hostOps0_writes (by decide) : W1 m ρ c (Proc.devRef .tc main_arg8) = W0 m ρ c (Proc.devRef .tc main_arg8)).trans <| rfl
theorem W12_main_arg9 (c : Dev nD) : W12 m ρ c (Proc.devRef .tc main_arg9) = m ((c : Thread nD τ).loc main_arg9) :=
  (StableHlo.after_of_writes_sub hostOps4 _ hostOps4_writes (by decide) : W12 m ρ c (Proc.devRef .tc main_arg9) = W11 m ρ c (Proc.devRef .tc main_arg9)).trans <|
  (W11_of_ne m ρ c main_arg9 (by decide)).trans <|
  (W10_of_ne m ρ c main_arg9 (by decide)).trans <|
  (StableHlo.after_of_writes_sub hostOps2 _ hostOps2_writes (by decide) : W9 m ρ c (Proc.devRef .tc main_arg9) = W8 m ρ c (Proc.devRef .tc main_arg9)).trans <|
  (W8_of_ne m ρ c main_arg9 (by decide)).trans <|
  (StableHlo.after_of_writes_sub hostOps1 _ hostOps1_writes (by decide) : W7 m ρ c (Proc.devRef .tc main_arg9) = W6 m ρ c (Proc.devRef .tc main_arg9)).trans <|
  (W6_of_ne m ρ c main_arg9 (by decide)).trans <|
  (StableHlo.after_of_writes_sub hostOps0_4 _ hostOps0_4_writes (by decide) : W5 m ρ c (Proc.devRef .tc main_arg9) = W4 m ρ c (Proc.devRef .tc main_arg9)).trans <|
  (StableHlo.after_of_writes_sub hostOps0_3 _ hostOps0_3_writes (by decide) : W4 m ρ c (Proc.devRef .tc main_arg9) = W3 m ρ c (Proc.devRef .tc main_arg9)).trans <|
  (StableHlo.after_of_writes_sub hostOps0_2 _ hostOps0_2_writes (by decide) : W3 m ρ c (Proc.devRef .tc main_arg9) = W2 m ρ c (Proc.devRef .tc main_arg9)).trans <|
  (StableHlo.after_of_writes_sub hostOps0_1 _ hostOps0_1_writes (by decide) : W2 m ρ c (Proc.devRef .tc main_arg9) = W1 m ρ c (Proc.devRef .tc main_arg9)).trans <|
  (StableHlo.after_of_writes_sub hostOps0 _ hostOps0_writes (by decide) : W1 m ρ c (Proc.devRef .tc main_arg9) = W0 m ρ c (Proc.devRef .tc main_arg9)).trans <| rfl
theorem W12_main_arg10 (c : Dev nD) : W12 m ρ c (Proc.devRef .tc main_arg10) = m ((c : Thread nD τ).loc main_arg10) :=
  (StableHlo.after_of_writes_sub hostOps4 _ hostOps4_writes (by decide) : W12 m ρ c (Proc.devRef .tc main_arg10) = W11 m ρ c (Proc.devRef .tc main_arg10)).trans <|
  (W11_of_ne m ρ c main_arg10 (by decide)).trans <|
  (W10_of_ne m ρ c main_arg10 (by decide)).trans <|
  (StableHlo.after_of_writes_sub hostOps2 _ hostOps2_writes (by decide) : W9 m ρ c (Proc.devRef .tc main_arg10) = W8 m ρ c (Proc.devRef .tc main_arg10)).trans <|
  (W8_of_ne m ρ c main_arg10 (by decide)).trans <|
  (StableHlo.after_of_writes_sub hostOps1 _ hostOps1_writes (by decide) : W7 m ρ c (Proc.devRef .tc main_arg10) = W6 m ρ c (Proc.devRef .tc main_arg10)).trans <|
  (W6_of_ne m ρ c main_arg10 (by decide)).trans <|
  (StableHlo.after_of_writes_sub hostOps0_4 _ hostOps0_4_writes (by decide) : W5 m ρ c (Proc.devRef .tc main_arg10) = W4 m ρ c (Proc.devRef .tc main_arg10)).trans <|
  (StableHlo.after_of_writes_sub hostOps0_3 _ hostOps0_3_writes (by decide) : W4 m ρ c (Proc.devRef .tc main_arg10) = W3 m ρ c (Proc.devRef .tc main_arg10)).trans <|
  (StableHlo.after_of_writes_sub hostOps0_2 _ hostOps0_2_writes (by decide) : W3 m ρ c (Proc.devRef .tc main_arg10) = W2 m ρ c (Proc.devRef .tc main_arg10)).trans <|
  (StableHlo.after_of_writes_sub hostOps0_1 _ hostOps0_1_writes (by decide) : W2 m ρ c (Proc.devRef .tc main_arg10) = W1 m ρ c (Proc.devRef .tc main_arg10)).trans <|
  (StableHlo.after_of_writes_sub hostOps0 _ hostOps0_writes (by decide) : W1 m ρ c (Proc.devRef .tc main_arg10) = W0 m ρ c (Proc.devRef .tc main_arg10)).trans <| rfl
theorem W12_main_arg11 (c : Dev nD) : W12 m ρ c (Proc.devRef .tc main_arg11) = m ((c : Thread nD τ).loc main_arg11) :=
  (StableHlo.after_of_writes_sub hostOps4 _ hostOps4_writes (by decide) : W12 m ρ c (Proc.devRef .tc main_arg11) = W11 m ρ c (Proc.devRef .tc main_arg11)).trans <|
  (W11_of_ne m ρ c main_arg11 (by decide)).trans <|
  (W10_of_ne m ρ c main_arg11 (by decide)).trans <|
  (StableHlo.after_of_writes_sub hostOps2 _ hostOps2_writes (by decide) : W9 m ρ c (Proc.devRef .tc main_arg11) = W8 m ρ c (Proc.devRef .tc main_arg11)).trans <|
  (W8_of_ne m ρ c main_arg11 (by decide)).trans <|
  (StableHlo.after_of_writes_sub hostOps1 _ hostOps1_writes (by decide) : W7 m ρ c (Proc.devRef .tc main_arg11) = W6 m ρ c (Proc.devRef .tc main_arg11)).trans <|
  (W6_of_ne m ρ c main_arg11 (by decide)).trans <|
  (StableHlo.after_of_writes_sub hostOps0_4 _ hostOps0_4_writes (by decide) : W5 m ρ c (Proc.devRef .tc main_arg11) = W4 m ρ c (Proc.devRef .tc main_arg11)).trans <|
  (StableHlo.after_of_writes_sub hostOps0_3 _ hostOps0_3_writes (by decide) : W4 m ρ c (Proc.devRef .tc main_arg11) = W3 m ρ c (Proc.devRef .tc main_arg11)).trans <|
  (StableHlo.after_of_writes_sub hostOps0_2 _ hostOps0_2_writes (by decide) : W3 m ρ c (Proc.devRef .tc main_arg11) = W2 m ρ c (Proc.devRef .tc main_arg11)).trans <|
  (StableHlo.after_of_writes_sub hostOps0_1 _ hostOps0_1_writes (by decide) : W2 m ρ c (Proc.devRef .tc main_arg11) = W1 m ρ c (Proc.devRef .tc main_arg11)).trans <|
  (StableHlo.after_of_writes_sub hostOps0 _ hostOps0_writes (by decide) : W1 m ρ c (Proc.devRef .tc main_arg11) = W0 m ρ c (Proc.devRef .tc main_arg11)).trans <| rfl
theorem W12_main_arg12 (c : Dev nD) : W12 m ρ c (Proc.devRef .tc main_arg12) = m ((c : Thread nD τ).loc main_arg12) :=
  (StableHlo.after_of_writes_sub hostOps4 _ hostOps4_writes (by decide) : W12 m ρ c (Proc.devRef .tc main_arg12) = W11 m ρ c (Proc.devRef .tc main_arg12)).trans <|
  (W11_of_ne m ρ c main_arg12 (by decide)).trans <|
  (W10_of_ne m ρ c main_arg12 (by decide)).trans <|
  (StableHlo.after_of_writes_sub hostOps2 _ hostOps2_writes (by decide) : W9 m ρ c (Proc.devRef .tc main_arg12) = W8 m ρ c (Proc.devRef .tc main_arg12)).trans <|
  (W8_of_ne m ρ c main_arg12 (by decide)).trans <|
  (StableHlo.after_of_writes_sub hostOps1 _ hostOps1_writes (by decide) : W7 m ρ c (Proc.devRef .tc main_arg12) = W6 m ρ c (Proc.devRef .tc main_arg12)).trans <|
  ((W6_arr m ρ c 2).trans (((Proj0.dat (Vr5 m ρ) c).arrAt_in 2 rfl _).trans (Proj0.A_eq (Vr5 m ρ) c 2)) : W6 m ρ c (Proc.devRef .tc main_arg12) = W5 m ρ c (Proc.devRef .tc main_arg12)).trans <|
  (StableHlo.after_of_writes_sub hostOps0_4 _ hostOps0_4_writes (by decide) : W5 m ρ c (Proc.devRef .tc main_arg12) = W4 m ρ c (Proc.devRef .tc main_arg12)).trans <|
  (StableHlo.after_of_writes_sub hostOps0_3 _ hostOps0_3_writes (by decide) : W4 m ρ c (Proc.devRef .tc main_arg12) = W3 m ρ c (Proc.devRef .tc main_arg12)).trans <|
  (StableHlo.after_of_writes_sub hostOps0_2 _ hostOps0_2_writes (by decide) : W3 m ρ c (Proc.devRef .tc main_arg12) = W2 m ρ c (Proc.devRef .tc main_arg12)).trans <|
  (StableHlo.after_of_writes_sub hostOps0_1 _ hostOps0_1_writes (by decide) : W2 m ρ c (Proc.devRef .tc main_arg12) = W1 m ρ c (Proc.devRef .tc main_arg12)).trans <|
  (StableHlo.after_of_writes_sub hostOps0 _ hostOps0_writes (by decide) : W1 m ρ c (Proc.devRef .tc main_arg12) = W0 m ρ c (Proc.devRef .tc main_arg12)).trans <| rfl
theorem W12_main_arg13 (c : Dev nD) : W12 m ρ c (Proc.devRef .tc main_arg13) = m ((c : Thread nD τ).loc main_arg13) :=
  (StableHlo.after_of_writes_sub hostOps4 _ hostOps4_writes (by decide) : W12 m ρ c (Proc.devRef .tc main_arg13) = W11 m ρ c (Proc.devRef .tc main_arg13)).trans <|
  (W11_of_ne m ρ c main_arg13 (by decide)).trans <|
  (W10_of_ne m ρ c main_arg13 (by decide)).trans <|
  (StableHlo.after_of_writes_sub hostOps2 _ hostOps2_writes (by decide) : W9 m ρ c (Proc.devRef .tc main_arg13) = W8 m ρ c (Proc.devRef .tc main_arg13)).trans <|
  (W8_of_ne m ρ c main_arg13 (by decide)).trans <|
  (StableHlo.after_of_writes_sub hostOps1 _ hostOps1_writes (by decide) : W7 m ρ c (Proc.devRef .tc main_arg13) = W6 m ρ c (Proc.devRef .tc main_arg13)).trans <|
  (W6_of_ne m ρ c main_arg13 (by decide)).trans <|
  (StableHlo.after_of_writes_sub hostOps0_4 _ hostOps0_4_writes (by decide) : W5 m ρ c (Proc.devRef .tc main_arg13) = W4 m ρ c (Proc.devRef .tc main_arg13)).trans <|
  (StableHlo.after_of_writes_sub hostOps0_3 _ hostOps0_3_writes (by decide) : W4 m ρ c (Proc.devRef .tc main_arg13) = W3 m ρ c (Proc.devRef .tc main_arg13)).trans <|
  (StableHlo.after_of_writes_sub hostOps0_2 _ hostOps0_2_writes (by decide) : W3 m ρ c (Proc.devRef .tc main_arg13) = W2 m ρ c (Proc.devRef .tc main_arg13)).trans <|
  (StableHlo.after_of_writes_sub hostOps0_1 _ hostOps0_1_writes (by decide) : W2 m ρ c (Proc.devRef .tc main_arg13) = W1 m ρ c (Proc.devRef .tc main_arg13)).trans <|
  (StableHlo.after_of_writes_sub hostOps0 _ hostOps0_writes (by decide) : W1 m ρ c (Proc.devRef .tc main_arg13) = W0 m ρ c (Proc.devRef .tc main_arg13)).trans <| rfl
theorem W12_main_arg14 (c : Dev nD) : W12 m ρ c (Proc.devRef .tc main_arg14) = m ((c : Thread nD τ).loc main_arg14) :=
  (StableHlo.after_of_writes_sub hostOps4 _ hostOps4_writes (by decide) : W12 m ρ c (Proc.devRef .tc main_arg14) = W11 m ρ c (Proc.devRef .tc main_arg14)).trans <|
  (W11_of_ne m ρ c main_arg14 (by decide)).trans <|
  (W10_of_ne m ρ c main_arg14 (by decide)).trans <|
  (StableHlo.after_of_writes_sub hostOps2 _ hostOps2_writes (by decide) : W9 m ρ c (Proc.devRef .tc main_arg14) = W8 m ρ c (Proc.devRef .tc main_arg14)).trans <|
  (W8_of_ne m ρ c main_arg14 (by decide)).trans <|
  (StableHlo.after_of_writes_sub hostOps1 _ hostOps1_writes (by decide) : W7 m ρ c (Proc.devRef .tc main_arg14) = W6 m ρ c (Proc.devRef .tc main_arg14)).trans <|
  ((W6_arr m ρ c 4).trans (((Proj0.dat (Vr5 m ρ) c).arrAt_in 4 rfl _).trans (Proj0.A_eq (Vr5 m ρ) c 4)) : W6 m ρ c (Proc.devRef .tc main_arg14) = W5 m ρ c (Proc.devRef .tc main_arg14)).trans <|
  (StableHlo.after_of_writes_sub hostOps0_4 _ hostOps0_4_writes (by decide) : W5 m ρ c (Proc.devRef .tc main_arg14) = W4 m ρ c (Proc.devRef .tc main_arg14)).trans <|
  (StableHlo.after_of_writes_sub hostOps0_3 _ hostOps0_3_writes (by decide) : W4 m ρ c (Proc.devRef .tc main_arg14) = W3 m ρ c (Proc.devRef .tc main_arg14)).trans <|
  (StableHlo.after_of_writes_sub hostOps0_2 _ hostOps0_2_writes (by decide) : W3 m ρ c (Proc.devRef .tc main_arg14) = W2 m ρ c (Proc.devRef .tc main_arg14)).trans <|
  (StableHlo.after_of_writes_sub hostOps0_1 _ hostOps0_1_writes (by decide) : W2 m ρ c (Proc.devRef .tc main_arg14) = W1 m ρ c (Proc.devRef .tc main_arg14)).trans <|
  (StableHlo.after_of_writes_sub hostOps0 _ hostOps0_writes (by decide) : W1 m ρ c (Proc.devRef .tc main_arg14) = W0 m ρ c (Proc.devRef .tc main_arg14)).trans <| rfl
theorem W12_main_arg15 (c : Dev nD) : W12 m ρ c (Proc.devRef .tc main_arg15) = m ((c : Thread nD τ).loc main_arg15) :=
  (StableHlo.after_of_writes_sub hostOps4 _ hostOps4_writes (by decide) : W12 m ρ c (Proc.devRef .tc main_arg15) = W11 m ρ c (Proc.devRef .tc main_arg15)).trans <|
  (W11_of_ne m ρ c main_arg15 (by decide)).trans <|
  (W10_of_ne m ρ c main_arg15 (by decide)).trans <|
  (StableHlo.after_of_writes_sub hostOps2 _ hostOps2_writes (by decide) : W9 m ρ c (Proc.devRef .tc main_arg15) = W8 m ρ c (Proc.devRef .tc main_arg15)).trans <|
  (W8_of_ne m ρ c main_arg15 (by decide)).trans <|
  (StableHlo.after_of_writes_sub hostOps1 _ hostOps1_writes (by decide) : W7 m ρ c (Proc.devRef .tc main_arg15) = W6 m ρ c (Proc.devRef .tc main_arg15)).trans <|
  (W6_of_ne m ρ c main_arg15 (by decide)).trans <|
  (StableHlo.after_of_writes_sub hostOps0_4 _ hostOps0_4_writes (by decide) : W5 m ρ c (Proc.devRef .tc main_arg15) = W4 m ρ c (Proc.devRef .tc main_arg15)).trans <|
  (StableHlo.after_of_writes_sub hostOps0_3 _ hostOps0_3_writes (by decide) : W4 m ρ c (Proc.devRef .tc main_arg15) = W3 m ρ c (Proc.devRef .tc main_arg15)).trans <|
  (StableHlo.after_of_writes_sub hostOps0_2 _ hostOps0_2_writes (by decide) : W3 m ρ c (Proc.devRef .tc main_arg15) = W2 m ρ c (Proc.devRef .tc main_arg15)).trans <|
  (StableHlo.after_of_writes_sub hostOps0_1 _ hostOps0_1_writes (by decide) : W2 m ρ c (Proc.devRef .tc main_arg15) = W1 m ρ c (Proc.devRef .tc main_arg15)).trans <|
  (StableHlo.after_of_writes_sub hostOps0 _ hostOps0_writes (by decide) : W1 m ρ c (Proc.devRef .tc main_arg15) = W0 m ρ c (Proc.devRef .tc main_arg15)).trans <| rfl
theorem W12_main_arg16 (c : Dev nD) : W12 m ρ c (Proc.devRef .tc main_arg16) = m ((c : Thread nD τ).loc main_arg16) :=
  (StableHlo.after_of_writes_sub hostOps4 _ hostOps4_writes (by decide) : W12 m ρ c (Proc.devRef .tc main_arg16) = W11 m ρ c (Proc.devRef .tc main_arg16)).trans <|
  (W11_of_ne m ρ c main_arg16 (by decide)).trans <|
  (W10_of_ne m ρ c main_arg16 (by decide)).trans <|
  (StableHlo.after_of_writes_sub hostOps2 _ hostOps2_writes (by decide) : W9 m ρ c (Proc.devRef .tc main_arg16) = W8 m ρ c (Proc.devRef .tc main_arg16)).trans <|
  ((W8_arr m ρ c 2).trans (((Proj1.dat (Vr7 m ρ) c).arrAt_in 2 rfl _).trans (Proj1.A_eq (Vr7 m ρ) c 2)) : W8 m ρ c (Proc.devRef .tc main_arg16) = W7 m ρ c (Proc.devRef .tc main_arg16)).trans <|
  (StableHlo.after_of_writes_sub hostOps1 _ hostOps1_writes (by decide) : W7 m ρ c (Proc.devRef .tc main_arg16) = W6 m ρ c (Proc.devRef .tc main_arg16)).trans <|
  (W6_of_ne m ρ c main_arg16 (by decide)).trans <|
  (StableHlo.after_of_writes_sub hostOps0_4 _ hostOps0_4_writes (by decide) : W5 m ρ c (Proc.devRef .tc main_arg16) = W4 m ρ c (Proc.devRef .tc main_arg16)).trans <|
  (StableHlo.after_of_writes_sub hostOps0_3 _ hostOps0_3_writes (by decide) : W4 m ρ c (Proc.devRef .tc main_arg16) = W3 m ρ c (Proc.devRef .tc main_arg16)).trans <|
  (StableHlo.after_of_writes_sub hostOps0_2 _ hostOps0_2_writes (by decide) : W3 m ρ c (Proc.devRef .tc main_arg16) = W2 m ρ c (Proc.devRef .tc main_arg16)).trans <|
  (StableHlo.after_of_writes_sub hostOps0_1 _ hostOps0_1_writes (by decide) : W2 m ρ c (Proc.devRef .tc main_arg16) = W1 m ρ c (Proc.devRef .tc main_arg16)).trans <|
  (StableHlo.after_of_writes_sub hostOps0 _ hostOps0_writes (by decide) : W1 m ρ c (Proc.devRef .tc main_arg16) = W0 m ρ c (Proc.devRef .tc main_arg16)).trans <| rfl
theorem W12_main_arg17 (c : Dev nD) : W12 m ρ c (Proc.devRef .tc main_arg17) = m ((c : Thread nD τ).loc main_arg17) :=
  (StableHlo.after_of_writes_sub hostOps4 _ hostOps4_writes (by decide) : W12 m ρ c (Proc.devRef .tc main_arg17) = W11 m ρ c (Proc.devRef .tc main_arg17)).trans <|
  (W11_of_ne m ρ c main_arg17 (by decide)).trans <|
  (W10_of_ne m ρ c main_arg17 (by decide)).trans <|
  (StableHlo.after_of_writes_sub hostOps2 _ hostOps2_writes (by decide) : W9 m ρ c (Proc.devRef .tc main_arg17) = W8 m ρ c (Proc.devRef .tc main_arg17)).trans <|
  (W8_of_ne m ρ c main_arg17 (by decide)).trans <|
  (StableHlo.after_of_writes_sub hostOps1 _ hostOps1_writes (by decide) : W7 m ρ c (Proc.devRef .tc main_arg17) = W6 m ρ c (Proc.devRef .tc main_arg17)).trans <|
  (W6_of_ne m ρ c main_arg17 (by decide)).trans <|
  (StableHlo.after_of_writes_sub hostOps0_4 _ hostOps0_4_writes (by decide) : W5 m ρ c (Proc.devRef .tc main_arg17) = W4 m ρ c (Proc.devRef .tc main_arg17)).trans <|
  (StableHlo.after_of_writes_sub hostOps0_3 _ hostOps0_3_writes (by decide) : W4 m ρ c (Proc.devRef .tc main_arg17) = W3 m ρ c (Proc.devRef .tc main_arg17)).trans <|
  (StableHlo.after_of_writes_sub hostOps0_2 _ hostOps0_2_writes (by decide) : W3 m ρ c (Proc.devRef .tc main_arg17) = W2 m ρ c (Proc.devRef .tc main_arg17)).trans <|
  (StableHlo.after_of_writes_sub hostOps0_1 _ hostOps0_1_writes (by decide) : W2 m ρ c (Proc.devRef .tc main_arg17) = W1 m ρ c (Proc.devRef .tc main_arg17)).trans <|
  (StableHlo.after_of_writes_sub hostOps0 _ hostOps0_writes (by decide) : W1 m ρ c (Proc.devRef .tc main_arg17) = W0 m ρ c (Proc.devRef .tc main_arg17)).trans <| rfl
theorem W12_main_arg18 (c : Dev nD) : W12 m ρ c (Proc.devRef .tc main_arg18) = m ((c : Thread nD τ).loc main_arg18) :=
  (StableHlo.after_of_writes_sub hostOps4 _ hostOps4_writes (by decide) : W12 m ρ c (Proc.devRef .tc main_arg18) = W11 m ρ c (Proc.devRef .tc main_arg18)).trans <|
  (W11_of_ne m ρ c main_arg18 (by decide)).trans <|
  (W10_of_ne m ρ c main_arg18 (by decide)).trans <|
  (StableHlo.after_of_writes_sub hostOps2 _ hostOps2_writes (by decide) : W9 m ρ c (Proc.devRef .tc main_arg18) = W8 m ρ c (Proc.devRef .tc main_arg18)).trans <|
  ((W8_arr m ρ c 4).trans (((Proj1.dat (Vr7 m ρ) c).arrAt_in 4 rfl _).trans (Proj1.A_eq (Vr7 m ρ) c 4)) : W8 m ρ c (Proc.devRef .tc main_arg18) = W7 m ρ c (Proc.devRef .tc main_arg18)).trans <|
  (StableHlo.after_of_writes_sub hostOps1 _ hostOps1_writes (by decide) : W7 m ρ c (Proc.devRef .tc main_arg18) = W6 m ρ c (Proc.devRef .tc main_arg18)).trans <|
  (W6_of_ne m ρ c main_arg18 (by decide)).trans <|
  (StableHlo.after_of_writes_sub hostOps0_4 _ hostOps0_4_writes (by decide) : W5 m ρ c (Proc.devRef .tc main_arg18) = W4 m ρ c (Proc.devRef .tc main_arg18)).trans <|
  (StableHlo.after_of_writes_sub hostOps0_3 _ hostOps0_3_writes (by decide) : W4 m ρ c (Proc.devRef .tc main_arg18) = W3 m ρ c (Proc.devRef .tc main_arg18)).trans <|
  (StableHlo.after_of_writes_sub hostOps0_2 _ hostOps0_2_writes (by decide) : W3 m ρ c (Proc.devRef .tc main_arg18) = W2 m ρ c (Proc.devRef .tc main_arg18)).trans <|
  (StableHlo.after_of_writes_sub hostOps0_1 _ hostOps0_1_writes (by decide) : W2 m ρ c (Proc.devRef .tc main_arg18) = W1 m ρ c (Proc.devRef .tc main_arg18)).trans <|
  (StableHlo.after_of_writes_sub hostOps0 _ hostOps0_writes (by decide) : W1 m ρ c (Proc.devRef .tc main_arg18) = W0 m ρ c (Proc.devRef .tc main_arg18)).trans <| rfl

/-- Every call's proof data, each at its region's entry contents. -/
def pdats : (p : Fin 4) → (c : Dev nD) → Dat τ (Elt F) Unit ℕ (UR sig nD τ) ℕ (Pipeline.pin (pcfgs (F := F)) adm p) c
  | ⟨0, _⟩ => fun c => Proj0.dat (Vr5 m ρ) c
  | ⟨1, _⟩ => fun c => Proj1.dat (Vr7 m ρ) c
  | ⟨2, _⟩ => fun c => Flash2.dat (Vr9 m ρ) c
  | ⟨3, _⟩ => fun c => Flash3.dat (Vr10 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-- The invariant of the attention call number 2 before its first point gives back the generator register and the scoped buffers. -/
theorem PhiA_out2 (c : Dev nD) : (Pipeline.ΦA spec2 c : sProp 𝕄) ⊢ iprop((∃ r, prngReg c r) ∗ (BI.emp : sProp 𝕄) ∗ Pipeline.scopedRest (Ix := Unit) (Name := ℕ) (U := UR sig nD τ) (Lvl := ℕ) (Val := Elt F) spec2 c) := by
  unfold Pipeline.ΦA
  iintro ⟨Hr, Hp⟩
  isplitl [Hp]; · iexact Hp
  isplitr; · iempintro
  iexact Hr

/-- The invariant of the attention call number 3 before its first point gives back the generator register and the scoped buffers. -/
theorem PhiA_out3 (c : Dev nD) : (Pipeline.ΦA spec3 c : sProp 𝕄) ⊢ iprop((∃ r, prngReg c r) ∗ (BI.emp : sProp 𝕄) ∗ Pipeline.scopedRest (Ix := Unit) (Name := ℕ) (U := UR sig nD τ) (Lvl := ℕ) (Val := Elt F) spec3 c) := by
  unfold Pipeline.ΦA
  iintro ⟨Hr, Hp⟩
  isplitl [Hp]; · iexact Hp
  isplitr; · iempintro
  iexact Hr
/-- The last thread state is the last host stretch's, regrouped. -/
theorem hlast (c : Dev nD) : iprop(StableHlo.held (c : Thread nD τ) (Pipeline.ucRefs τ sig) (W12 m ρ c) ∗ R (F := F) c) ⊢ iprop(Tₙ m ρ c ∗ ∃ W, owes (c : Thread nD τ) (0 : CellTallies nD τ sig Unit) W) := by
  iintro ⟨Hh, Hp, Ho⟩
  isplitl [Hh Hp]
  · isplitl [Hh]; · iexact Hh
    iexact Hp
  iexact Ho

set_option backward.isDefEq.respectTransparency.types false in
/-- The call number 0 over the thread state: entered from every unscoped buffer at `W5`, left at `W6`. Its arrays are
    split out of the unscoped buffers and put back at the exit contents; the generator register goes into the invariant
    and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj0.body_obligation (Vr5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr5 m ρ c) (Vr6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 1 over the thread state: entered from every unscoped buffer at `W7`, left at `W8`. Its arrays are
    split out of the unscoped buffers and put back at the exit contents; the generator register goes into the invariant
    and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Proj1.body_obligation (Vr7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (Vr7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr7 m ρ c) (Vr8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 2 over the thread state: entered from every unscoped buffer at `W9`, left at `W10`. Its arrays are
    split out of the unscoped buffers and put back at the exit contents; the generator register goes into the invariant
    and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Flash2.body_obligation (Vr9 m ρ) c).loose
  hwaits := Pipeline.hwaits_of_owed_zero _ _ _ _ L lv 2 fun _ _ => rfl
  pre c := iprop(StableHlo.held (c : Thread nD τ) (Pipeline.ucRefs τ sig) (W9 m ρ c) ∗ R c)
  post c := iprop(StableHlo.held (c : Thread nD τ) (Pipeline.ucRefs τ sig) (W10 m ρ c) ∗ R c)
  X c := iprop(∃ r, prngReg c r)
  Y c := iprop(∃ r, prngReg c r)
  Z c := Pipeline.unscopedRest (Ix := Unit) (Name := ℕ) (U := UR sig nD τ) (Lvl := ℕ) spec2 c (Vr9 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Vr9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    exact (Flash2.hout (Vr9 m ρ) c).trans (PhiA_out2 c)
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Vr9 m ρ c) (Vr10 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The call number 3 over the thread state: entered from every unscoped buffer at `W10`, left at `W11`. Its arrays are
    split out of the unscoped buffers and put back at the exit contents; the generator register goes into the invariant
    and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (Flash3.body_obligation (Vr10 m ρ) c).loose
  hwaits := Pipeline.hwaits_of_owed_zero _ _ _ _ L lv 3 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec3 c (Vr10 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (Vr10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none]
    exact (Flash3.hout (Vr10 m ρ) c).trans (PhiA_out3 c)
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (Vr10 m ρ c) (Vr11 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .host (hseg hostOps2 hostOps2_sub hostOps2_fresh (W8 m ρ)),
    .region (reg2 m ρ),
    .region (reg3 m ρ),
    .host (hseg hostOps4 hostOps4_sub hostOps4_fresh (W11 m ρ)) ]
theorem main_run (c : Dev nD) : main (F := F) c = Pipeline.Seg.run (segs m ρ) := (main_chain c).trans (by chain_rfl)

set_option backward.isDefEq.respectTransparency.types false in
/-- THE RUN: from any memory with zero counters every weakly fair execution of the main function on the TensorCores
    terminates, nothing faulting, and every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨(h c _ (mem_uc main_arg0 (by decide))).trans (W12_main_arg0 m ρ c),
    (h c _ (mem_uc main_arg1 (by decide))).trans (W12_main_arg1 m ρ c),
    (h c _ (mem_uc main_arg2 (by decide))).trans (W12_main_arg2 m ρ c),
    (h c _ (mem_uc main_arg3 (by decide))).trans (W12_main_arg3 m ρ c),
    (h c _ (mem_uc main_arg4 (by decide))).trans (W12_main_arg4 m ρ c),
    (h c _ (mem_uc main_arg5 (by decide))).trans (W12_main_arg5 m ρ c),
    (h c _ (mem_uc main_arg6 (by decide))).trans (W12_main_arg6 m ρ c),
    (h c _ (mem_uc main_arg7 (by decide))).trans (W12_main_arg7 m ρ c),
    (h c _ (mem_uc main_arg8 (by decide))).trans (W12_main_arg8 m ρ c),
    (h c _ (mem_uc main_arg9 (by decide))).trans (W12_main_arg9 m ρ c),
    (h c _ (mem_uc main_arg10 (by decide))).trans (W12_main_arg10 m ρ c),
    (h c _ (mem_uc main_arg11 (by decide))).trans (W12_main_arg11 m ρ c),
    (h c _ (mem_uc main_arg12 (by decide))).trans (W12_main_arg12 m ρ c),
    (h c _ (mem_uc main_arg13 (by decide))).trans (W12_main_arg13 m ρ c),
    (h c _ (mem_uc main_arg14 (by decide))).trans (W12_main_arg14 m ρ c),
    (h c _ (mem_uc main_arg15 (by decide))).trans (W12_main_arg15 m ρ c),
    (h c _ (mem_uc main_arg16 (by decide))).trans (W12_main_arg16 m ρ c),
    (h c _ (mem_uc main_arg17 (by decide))).trans (W12_main_arg17 m ρ c),
    (h c _ (mem_uc main_arg18 (by decide))).trans (W12_main_arg18 m ρ c)⟩) (run_all m ρ)

end Cert.KernelIdeal.Run

end
-- ==== Proof.KIFlash2Val.lean ====
import proofs.«157278_j31636729102421_2_alg».proof.Proof.KIFlash2
import Idealize.ShloMosaic.Lib.Pipeline.Value

/-! What each case of the attention call number 2 leaves in the three scratch buffers and in the output block, as the
    body's own arithmetic of the blocks it loads: the new running maximum, the new normalizer, the new unnormalized
    output (at the first key tile over the reset values −∞, 0, 0), and at the last key tile the quotient stored. -/

set_option maxRecDepth 16384

noncomputable section

namespace Cert.KernelIdeal.Flash2

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after this case. -/
theorem sout_A_0_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_0 (F := F) c i arg2 harg2 arg3 harg3 arg4 harg4 arg5 harg5 arg6 harg6 arg7 harg7 arg8 harg8 hc0 hc1 x0 x1 x2 = k2_pay3 (k2_pay10 i x0 x1 (k2_pay5 (F := F))) := by
  unfold sout_A_0
  rw [View.read_writes_eq_canon _ _ _ (scover_A_0 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_A_1_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_1 (F := F) c i arg2 harg2 arg3 harg3 arg4 harg4 arg5 harg5 arg6 harg6 arg7 harg7 arg8 harg8 hc0 hc1 x0 x1 x2 = k2_pay1 (k2_pay13 i x0 x1 (k2_pay5 (F := F)) (k2_pay5 (F := F)) (k2_pay6 (F := F))) := by
  unfold sout_A_1
  rw [View.read_writes_eq_canon _ _ _ (scover_A_1 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_A_2_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_2 (F := F) c i arg2 harg2 arg3 harg3 arg4 harg4 arg5 harg5 arg6 harg6 arg7 harg7 arg8 harg8 hc0 hc1 x0 x1 x2 = k2_pay2 (k2_pay8 x2) (k2_pay11 i x0 x1 (k2_pay5 (F := F)) (k2_pay5 (F := F))) (k2_pay12 i x0 x1 (k2_pay5 (F := F))) (k2_pay7 (F := F)) := by
  unfold sout_A_2
  rw [View.read_writes_eq_canon _ _ _ (scover_A_2 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The running maximum after this case. -/
theorem sout_B_0_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_0 (F := F) c i arg2 harg2 arg3 harg3 arg4 harg4 arg5 harg5 arg6 harg6 arg7 harg7 arg8 harg8 hc0 hc1 x0 x1 x2 xs0 xs1 xs2 = k2_pay3 (k2_pay10 i x0 x1 xs0) := by
  unfold sout_B_0
  rw [View.read_writes_eq_canon _ _ _ (scover_B_0 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_B_1_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_1 (F := F) c i arg2 harg2 arg3 harg3 arg4 harg4 arg5 harg5 arg6 harg6 arg7 harg7 arg8 harg8 hc0 hc1 x0 x1 x2 xs0 xs1 xs2 = k2_pay1 (k2_pay13 i x0 x1 xs0 xs0 xs1) := by
  unfold sout_B_1
  rw [View.read_writes_eq_canon _ _ _ (scover_B_1 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_B_2_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_2 (F := F) c i arg2 harg2 arg3 harg3 arg4 harg4 arg5 harg5 arg6 harg6 arg7 harg7 arg8 harg8 hc0 hc1 x0 x1 x2 xs0 xs1 xs2 = k2_pay2 (k2_pay8 x2) (k2_pay11 i x0 x1 xs0 xs0) (k2_pay12 i x0 x1 xs0) xs2 := by
  unfold sout_B_2
  rw [View.read_writes_eq_canon _ _ _ (scover_B_2 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The running maximum after this case. -/
theorem sout_C_0_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_0 (F := F) c i arg2 harg2 arg3 harg3 arg4 harg4 arg5 harg5 arg6 harg6 arg7 harg7 arg8 harg8 hc0 hc1 x0 x1 x2 xs0 xs1 xs2 = k2_pay3 (k2_pay10 i x0 x1 xs0) := by
  unfold sout_C_0
  rw [View.read_writes_eq_canon _ _ _ (scover_C_0 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_C_1_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_1 (F := F) c i arg2 harg2 arg3 harg3 arg4 harg4 arg5 harg5 arg6 harg6 arg7 harg7 arg8 harg8 hc0 hc1 x0 x1 x2 xs0 xs1 xs2 = k2_pay1 (k2_pay13 i x0 x1 xs0 xs0 xs1) := by
  unfold sout_C_1
  rw [View.read_writes_eq_canon _ _ _ (scover_C_1 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_C_2_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_2 (F := F) c i arg2 harg2 arg3 harg3 arg4 harg4 arg5 harg5 arg6 harg6 arg7 harg7 arg8 harg8 hc0 hc1 x0 x1 x2 xs0 xs1 xs2 = k2_pay2 (k2_pay8 x2) (k2_pay11 i x0 x1 xs0 xs0) (k2_pay12 i x0 x1 xs0) xs2 := by
  unfold sout_C_2
  rw [View.read_writes_eq_canon _ _ _ (scover_C_2 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The output block at the last key tile: the quotient of the unnormalized output by the normalizer. -/
theorem out_C_eq (c : Dev nD) (i : grid2.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    out_C (F := F) c i arg2 harg2 arg3 harg3 arg4 harg4 arg5 harg5 arg6 harg6 arg7 harg7 arg8 harg8 hc0 hc1 x0 x1 x2 xs0 xs1 xs2 = k2_pay4 (k2_pay2 (k2_pay8 x2) (k2_pay11 i x0 x1 xs0 xs0) (k2_pay12 i x0 x1 xs0) xs2) (k2_pay1 (k2_pay13 i x0 x1 xs0 xs0 xs1)) := by
  unfold out_C
  rw [View.read_writes_eq_canon _ _ _ (cover_C c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz3]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

end Cert.KernelIdeal.Flash2

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibWords.lean ====
/-
  Thirty-two-bit words that hold small natural numbers: below 2^31 a word read signed is the number itself, the signed
  order is the numbers' order, subtracting one is subtracting one, and distinct numbers are distinct words.
-/
import Idealize.ShloMosaic.PureOps
import Mathlib.Tactic

namespace Words

open Idealize.ShloMosaic

theorem toNat_ofNat_small {m : ℕ} (h : m < 2147483648) : (BitVec.ofNat 32 m).toNat = m := by
  rw [BitVec.toNat_ofNat]; omega

/-- A word holding a number below 2^31, read signed, is that number. -/
theorem toInt_ofNat_small {m : ℕ} (h : m < 2147483648) : (BitVec.ofNat 32 m).toInt = (m : ℤ) := by
  rw [BitVec.toInt_eq_toNat_of_lt (by rw [toNat_ofNat_small h]; omega), toNat_ofNat_small h]

/-- Words holding numbers below 2^31 are equal only when the numbers are. -/
theorem ofNat_inj_small {a b : ℕ} (ha : a < 2147483648) (hb : b < 2147483648)
    (h : BitVec.ofNat 32 a = BitVec.ofNat 32 b) : a = b := by
  have := congrArg BitVec.toNat h
  rwa [toNat_ofNat_small ha, toNat_ofNat_small hb] at this

/-- Subtracting the word one from the word of a positive number gives the word of its predecessor. -/
theorem ofNat_sub_one {c : ℕ} (h1 : 1 ≤ c) (h : c < 2147483648) : BitVec.ofNat 32 c - 1#32 = BitVec.ofNat 32 (c - 1) := by
  apply BitVec.eq_of_toNat_eq
  rw [BitVec.toNat_sub, toNat_ofNat_small h, toNat_ofNat_small (m := c - 1) (by omega)]
  have e1 : (1#32 : BitVec 32).toNat = 1 := rfl
  rw [e1]
  omega

/-- The signed comparison of two words holding numbers below 2^31 is the comparison of the numbers. -/
theorem cmpi_slt_small {a b : ℕ} (ha : a < 2147483648) (hb : b < 2147483648) :
    IntOp.cmpi .slt (BitVec.ofNat 32 a) (BitVec.ofNat 32 b) = if a < b then 1#1 else 0#1 := by
  unfold IntOp.cmpi
  show BitVec.ofBool ((BitVec.ofNat 32 a).slt (BitVec.ofNat 32 b)) = _
  rw [BitVec.slt, toInt_ofNat_small ha, toInt_ofNat_small hb]
  by_cases hab : a < b
  · rw [if_pos hab]
    have : decide ((a : ℤ) < (b : ℤ)) = true := by simpa using hab
    rw [this]; rfl
  · rw [if_neg hab]
    have : decide ((a : ℤ) < (b : ℤ)) = false := by simpa using hab
    rw [this]; rfl

/-- No word holding a number below 2^31 is below zero in the signed order. -/
theorem cmpi_slt_zero {a : ℕ} (ha : a < 2147483648) : IntOp.cmpi .slt (BitVec.ofNat 32 a) 0#32 = 0#1 := by
  have := cmpi_slt_small ha (b := 0) (by omega)
  rw [if_neg (by omega)] at this
  exact this

/-- A one-bit word is zero or one. -/
theorem bit_cases (b : BitVec 1) : b = 0#1 ∨ b = 1#1 := by
  rcases BitVec.eq_zero_or_eq_one b with h | h
  · exact Or.inl h
  · exact Or.inr h

end Words
-- ==== Proof.PayOps.lean ====
/-
  The operations of the attention and projection kernels' payloads that are not elementwise, each read at an index given
  by its coordinates: the three matrix products (a sum over the one contracted coordinate), the two lane reductions of a
  `[512, 2048]` tile (a sum and a maximum over the tile's columns), and the comparison word of the key-range mask.
-/
import proofs.«157278_j31636729102421_2_alg».proof.Proof.Gen.KernelIdeal.Skeleton
import proofs.«157278_j31636729102421_2_alg».proof.Proof.LibColumn
import proofs.«157278_j31636729102421_2_alg».proof.Proof.LibWords
import Idealize.ShloMosaic.Lib.ValueLayout
import Idealize.ShloMosaic.PureOps.Ideal.Laws

noncomputable section

open scoped BigOperators

namespace Cert.KernelIdeal.PayOps

open Idealize.ShloMosaic Idealize.ShloMosaic.ValueIdx Cert.KernelIdeal Cert.KernelIdeal.Gen

/-! ## The three matrix products read at an index

Each is the sum, over the one contracted coordinate, of the products of the operands' entries: the contraction index
is re-indexed through its one coordinate, and the operand indices are read coordinate by coordinate. -/

theorem matmul_rows_lhs_free (i : S2048x512.Idx) (q : dot_S2048x512_S512x512_S2048x512_1_0_0_1_n_n.contr.Idx) :
    (dot_S2048x512_S512x512_S2048x512_1_0_0_1_n_n.lhsIdx i q 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl

theorem matmul_rows_rhs_free (i : S2048x512.Idx) (q : dot_S2048x512_S512x512_S2048x512_1_0_0_1_n_n.contr.Idx) :
    (dot_S2048x512_S512x512_S2048x512_1_0_0_1_n_n.rhsIdx i q 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The rows-times-matrix product of the projection kernels: entry `(n, e)` is the sum over `d` of
    `x (n, d) * w (d, e)`. -/
theorem matmul_rows_apply (x : FVec Ideal S2048x512 .bf16) (w : FVec Ideal S512x512 .bf16) (n : Fin 2048) (e : Fin 512) :
    matmul dot_S2048x512_S512x512_S2048x512_1_0_0_1_n_n none x w (constant S2048x512 .f32 0x00000000#32) (ix2 n e)
      = ∑ d : Fin 512, x (ix2 n d) * w (ix2 d e) := by
  simp only [matmul]
  rw [Ideal.matmul_constant_zero_apply,
    ← Equiv.sum_comp (contrEquiv1 dot_S2048x512_S512x512_S2048x512_1_0_0_1_n_n 512 rfl rfl).symm]
  refine Finset.sum_congr rfl fun k _ => ?_
  have hk := contrEquiv1_symm_val dot_S2048x512_S512x512_S2048x512_1_0_0_1_n_n 512 rfl rfl k
  have el : dot_S2048x512_S512x512_S2048x512_1_0_0_1_n_n.lhsIdx (ix2 n e)
      ((contrEquiv1 dot_S2048x512_S512x512_S2048x512_1_0_0_1_n_n 512 rfl rfl).symm k) = ix2 n k :=
    funext fun a => Fin.ext (by
      match a with
      | ⟨0, _⟩ => exact matmul_rows_lhs_free _ _
      | ⟨1, _⟩ => exact (dot_S2048x512_S512x512_S2048x512_1_0_0_1_n_n.lhsIdx_val_of_single rfl _ _).trans hk)
  have er : dot_S2048x512_S512x512_S2048x512_1_0_0_1_n_n.rhsIdx (ix2 n e)
      ((contrEquiv1 dot_S2048x512_S512x512_S2048x512_1_0_0_1_n_n 512 rfl rfl).symm k) = ix2 k e :=
    funext fun a => Fin.ext (by
      match a with
      | ⟨0, _⟩ => exact (dot_S2048x512_S512x512_S2048x512_1_0_0_1_n_n.rhsIdx_val_of_single rfl _ _).trans hk
      | ⟨1, _⟩ => exact matmul_rows_rhs_free _ _)
  rw [el, er]

theorem matmul_logits_lhs_free (i : S512x2048.Idx) (q : dot_S512x512_S2048x512_S512x2048_1_1_0_0_n_n.contr.Idx) :
    (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl

theorem matmul_logits_rhs_free (i : S512x2048.Idx) (q : dot_S512x512_S2048x512_S512x2048_1_1_0_0_n_n.contr.Idx) :
    (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl

/-- The query-times-keys product of the attention kernels (both operands contracted along their second axis): entry
    `(r, n)` is the sum over `d` of `q (r, d) * k (n, d)`. -/
theorem matmul_logits_apply (q : FVec Ideal S512x512 .f32) (k : FVec Ideal S2048x512 .f32) (r : Fin 512) (n : Fin 2048) :
    matmul dot_S512x512_S2048x512_S512x2048_1_1_0_0_n_n none q k (constant S512x2048 .f32 0x00000000#32) (ix2 r n)
      = ∑ d : Fin 512, q (ix2 r d) * k (ix2 n d) := by
  simp only [matmul]
  rw [Ideal.matmul_constant_zero_apply,
    ← Equiv.sum_comp (contrEquiv1 dot_S512x512_S2048x512_S512x2048_1_1_0_0_n_n 512 rfl rfl).symm]
  refine Finset.sum_congr rfl fun c _ => ?_
  have hc := contrEquiv1_symm_val dot_S512x512_S2048x512_S512x2048_1_1_0_0_n_n 512 rfl rfl c
  have el : dot_S512x512_S2048x512_S512x2048_1_1_0_0_n_n.lhsIdx (ix2 r n)
      ((contrEquiv1 dot_S512x512_S2048x512_S512x2048_1_1_0_0_n_n 512 rfl rfl).symm c) = ix2 r c :=
    funext fun a => Fin.ext (by
      match a with
      | ⟨0, _⟩ => exact matmul_logits_lhs_free _ _
      | ⟨1, _⟩ => exact (dot_S512x512_S2048x512_S512x2048_1_1_0_0_n_n.lhsIdx_val_of_single rfl _ _).trans hc)
  have er : dot_S512x512_S2048x512_S512x2048_1_1_0_0_n_n.rhsIdx (ix2 r n)
      ((contrEquiv1 dot_S512x512_S2048x512_S512x2048_1_1_0_0_n_n 512 rfl rfl).symm c) = ix2 n c :=
    funext fun a => Fin.ext (by
      match a with
      | ⟨0, _⟩ => exact matmul_logits_rhs_free _ _
      | ⟨1, _⟩ => exact (dot_S512x512_S2048x512_S512x2048_1_1_0_0_n_n.rhsIdx_val_of_single rfl _ _).trans hc)
  rw [el, er]

theorem matmul_mix_lhs_free (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide),
    dif_pos (show (0 : Fin S512x2048.rank) ∈ dot_S512x2048_S2048x512_S512x512_1_0_0_1_n_n.lhsNonContracting by decide)]
  rfl

theorem matmul_mix_rhs_free (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide),
    dif_pos (show (1 : Fin S2048x512.rank) ∈ dot_S512x2048_S2048x512_S512x512_1_0_0_1_n_n.rhsNonContracting by decide)]
  rfl

/-- The weights-times-values product of the attention kernels: entry `(r, d)` is the sum over the tile's keys `n` of
    `p (r, n) * v (n, d)`. -/
theorem matmul_mix_apply (p : FVec Ideal S512x2048 .bf16) (v : FVec Ideal S2048x512 .bf16) (r : Fin 512) (d : Fin 512) :
    matmul dot_S512x2048_S2048x512_S512x512_1_0_0_1_n_n none p v (constant S512x512 .f32 0x00000000#32) (ix2 r d)
      = ∑ n : Fin 2048, p (ix2 r n) * v (ix2 n d) := by
  simp only [matmul]
  rw [Ideal.matmul_constant_zero_apply,
    ← Equiv.sum_comp (contrEquiv1 dot_S512x2048_S2048x512_S512x512_1_0_0_1_n_n 2048 rfl rfl).symm]
  refine Finset.sum_congr rfl fun c _ => ?_
  have hc := contrEquiv1_symm_val dot_S512x2048_S2048x512_S512x512_1_0_0_1_n_n 2048 rfl rfl c
  have el : dot_S512x2048_S2048x512_S512x512_1_0_0_1_n_n.lhsIdx (ix2 r d)
      ((contrEquiv1 dot_S512x2048_S2048x512_S512x512_1_0_0_1_n_n 2048 rfl rfl).symm c) = ix2 r c :=
    funext fun a => Fin.ext (by
      match a with
      | ⟨0, _⟩ => exact matmul_mix_lhs_free _ _
      | ⟨1, _⟩ => exact (dot_S512x2048_S2048x512_S512x512_1_0_0_1_n_n.lhsIdx_val_of_single rfl _ _).trans hc)
  have er : dot_S512x2048_S2048x512_S512x512_1_0_0_1_n_n.rhsIdx (ix2 r d)
      ((contrEquiv1 dot_S512x2048_S2048x512_S512x512_1_0_0_1_n_n 2048 rfl rfl).symm c) = ix2 c d :=
    funext fun a => Fin.ext (by
      match a with
      | ⟨0, _⟩ => exact (dot_S512x2048_S2048x512_S512x512_1_0_0_1_n_n.rhsIdx_val_of_single rfl _ _).trans hc
      | ⟨1, _⟩ => exact matmul_mix_rhs_free _ _)
  rw [el, er]

/-! ## The two lane reductions read at a row

The printed payloads pass the accumulator word and its evidence as literal proofs; the statements repeat them so that
they meet the printed terms as they stand. -/

/-- The index the reduction inserts the lane coordinate into is `(r, n)`. -/
theorem lift_row (r : Fin 512) (n : Fin 2048) : reduces_S512x2048_S512.lift (ix1 r) n = ix2 r n := by
  funext a
  match a with
  | ⟨0, _⟩ => rfl
  | ⟨1, _⟩ => rfl

/-- The lane sum of a `[512, 2048]` tile at row `r`: the sum over the tile's columns. -/
theorem rowsum_apply (src : FVec Ideal S512x2048 .f32) (r : Fin 512) :
    multiReduction .add [1] S512 src 0x00000000#32 reduces_S512x2048_S512 (.inl rfl) rfl (ix1 r)
      = ∑ n : Fin 2048, src (ix2 r n) := by
  refine (Ideal.multiReduction_add_single src 0x00000000#32 reduces_S512x2048_S512 (.inl rfl) rfl (ix1 r)).trans ?_
  exact Finset.sum_congr rfl fun n _ => congrArg src (lift_row r n)

/-- The word `0xFF800000` is the least extended real. -/
theorem ofBits_neg_inf_f32 : Ideal.ofBits .f32 0xFF800000#32 = ⊥ := by simp [Ideal.ofBits, Ideal.ieee]

/-- The lane maximum of a `[512, 2048]` tile at row `r`: the fold of `max` from `⊥` over the tile's columns. -/
theorem rowmax_apply (src : FVec Ideal S512x2048 .f32) (r : Fin 512) :
    multiReduction .maximumf [1] S512 src 0xFF800000#32 reduces_S512x2048_S512 (.inl rfl) rfl (ix1 r)
      = (Finset.univ : Finset (Fin 2048)).fold max ⊥ (fun n => src (ix2 r n)) := by
  refine (Ideal.multiReduction_maximumf_single src 0xFF800000#32 reduces_S512x2048_S512 (.inl rfl) rfl (ix1 r)).trans ?_
  have hb : FloatOps.ofBits (F := Ideal) .f32 0xFF800000#32 = (⊥ : EReal) := ofBits_neg_inf_f32
  have hf : (src ∘ reduces_S512x2048_S512.lift (ix1 r)) = fun n : Fin 2048 => src (ix2 r n) :=
    funext fun n => congrArg src (lift_row r n)
  rw [hb, hf]
  rfl

/-! ## The key-range mask word -/

/-- Tile `c`'s column `n` has key index `c * 2048 + n`; computed in 32-bit words and compared (signed) with the
    bound `L`, the comparison's bit is on exactly when the key index is below `L` — every number here is far below
    `2 ^ 31`. -/
theorem mask_word (c n L : ℕ) (hc : c < 1024) (hn : n < 2048) (hL : L < 2147483648) :
    IntOp.cmpi .slt (IntOp.addi (Scalar.muli (BitVec.ofNat 32 c) 2048#32) (BitVec.ofNat 32 n)) (BitVec.ofNat 32 L)
      = if c * 2048 + n < L then 1#1 else 0#1 := by
  have e : IntOp.addi (Scalar.muli (BitVec.ofNat 32 c) 2048#32) (BitVec.ofNat 32 n) = BitVec.ofNat 32 (c * 2048 + n) := by
    show BitVec.ofNat 32 c * BitVec.ofNat 32 2048 + BitVec.ofNat 32 n = _
    rw [← BitVec.ofNat_mul, ← BitVec.ofNat_add]
  rw [e]
  exact Words.cmpi_slt_small (by omega) hL

end Cert.KernelIdeal.PayOps

end
-- ==== Proof.PayFlash2.lean ====
/-
  The attention body of call 2, payload by payload, read at an index: the masked logits of a query block against one
  key tile, the new running maximum, the rescale factor, the tile's weights, the new normalizer, the new running output,
  the final division, and the initial values.
-/
import proofs.«157278_j31636729102421_2_alg».proof.Proof.PayOps

noncomputable section

open scoped BigOperators

namespace Cert.KernelIdeal.PayFlash2

open Idealize.ShloMosaic Idealize.ShloMosaic.ValueIdx Cert.KernelIdeal Cert.KernelIdeal.Gen Cert.KernelIdeal.PayOps

/-! ## The attention body of call 2, payload by payload

`i` is the grid point (its second coordinate the key tile), `v3` the query block, `v5` the key tile, `v7` / `v8` the
value tile, `v18` = `v22` the running maximum, `v28` the running normalizer, `v36` the running output. -/

/-- The masked logit of query row `r` against column `n` of key tile `(i 1)`: the inner product of the query row with
    the key row where the key's index `(i 1) * 2048 + n` is inside the bank of 200000 keys, `⊥` on the padding. -/
def slog (i : grid2.Coords) (v3 : Vec Ideal S1x512x512 .f32) (v5 : Vec Ideal S2048x512 .f32) (r : Fin 512) (n : Fin 2048) : EReal :=
  if (i 1).val * 2048 + n.val < 200000 then ∑ d : Fin 512, v3 (ix3 (0 : Fin 1) r d) * v5 (ix2 n d) else ⊥

/-- The masked logits tile at `(r, n)`: the product `q (r, d) * k (n, d)` summed over `d`, selected against the
    named constant (which denotes `⊥`) by the comparison word of the key index. -/
theorem k2_pay9_apply (i : grid2.Coords) (v3 : Vec Ideal S1x512x512 .f32) (v5 : Vec Ideal S2048x512 .f32)
    (r : Fin 512) (n : Fin 2048) : k2_pay9 i v3 v5 (ix2 r n) = slog i v3 v5 r n := by
  have hi : (i 1).val < 98 := (i 1).isLt
  have hn : n.val < 2048 := n.isLt
  have hiota : iota .tc S512x2048 32 [1] iota_S512x2048_d1_w32 (ix2 r n) = BitVec.ofNat 32 n.val :=
    iota_single_apply _ _ _ _ _ _
  have hbig : Named.named (F := Ideal) κ "neg_big" (φ := .f32) 0xFF333332#32 = (⊥ : EReal) :=
    IdealRules.named_const.ideal_named_scalar _ _ _ _ rfl
  show Scalar.select
      (IntOp.cmpi .slt (IntOp.addi (Scalar.muli (BitVec.ofNat 32 (i 1).val) 2048#32)
        (iota .tc S512x2048 32 [1] iota_S512x2048_d1_w32 (ix2 r n))) (BitVec.ofNat 32 200000))
      (matmul dot_S512x512_S2048x512_S512x2048_1_1_0_0_n_n none
        (shapeCast S512x512 v3 shapeCasts_S1x512x512_S512x512) (shapeCast S2048x512 v5 shapeCasts_S2048x512_S2048x512)
        (constant S512x2048 .f32 0x00000000#32) (ix2 r n))
      (Named.named (F := Ideal) κ "neg_big" (φ := .f32) 0xFF333332#32) = _
  rw [hiota, mask_word (i 1).val n.val 200000 (by omega) hn (by omega), hbig, matmul_logits_apply, shapeCast_self]
  unfold slog
  by_cases h : (i 1).val * 2048 + n.val < 200000
  · rw [if_pos h, if_pos h, select_one]
    exact Finset.sum_congr rfl fun d _ => by rw [shapeCast_1ab_ab_apply]
  · rw [if_neg h, if_neg h, select_zero]

/-- The new running maximum at row `r`: the larger of the old one and the largest masked logit of the tile's row. -/
theorem k2_pay10_apply (i : grid2.Coords) (v3 : Vec Ideal S1x512x512 .f32) (v5 : Vec Ideal S2048x512 .f32)
    (v18 : Vec Ideal S512x1 .f32) (r : Fin 512) :
    k2_pay10 i v3 v5 v18 (ix2 r (0 : Fin 1))
      = max (v18 (ix2 r (0 : Fin 1))) ((Finset.univ : Finset (Fin 2048)).fold max ⊥ (slog i v3 v5 r)) := by
  have hrow : (fun n : Fin 2048 => k2_pay9 i v3 v5 (ix2 r n)) = slog i v3 v5 r := funext (k2_pay9_apply i v3 v5 r)
  unfold k2_pay10
  rw [maximumf_apply, Cert.Lib.Column.shapeCast_a_a1_apply, rowmax_apply, hrow]

/-- The rescale factor at row `r`: the exponential of the old running maximum minus the new one. -/
theorem k2_pay11_apply (i : grid2.Coords) (v3 : Vec Ideal S1x512x512 .f32) (v5 : Vec Ideal S2048x512 .f32)
    (v18 v22 : Vec Ideal S512x1 .f32) (r : Fin 512) :
    k2_pay11 i v3 v5 v18 v22 (ix2 r (0 : Fin 1))
      = Ideal.exp (v22 (ix2 r (0 : Fin 1)) - k2_pay10 i v3 v5 v18 (ix2 r (0 : Fin 1))) := rfl

/-- The tile's weights at `(r, n)`: the exponential of the masked logit minus the row's new running maximum. -/
theorem k2_pay12_apply (i : grid2.Coords) (v3 : Vec Ideal S1x512x512 .f32) (v5 : Vec Ideal S2048x512 .f32)
    (v18 : Vec Ideal S512x1 .f32) (r : Fin 512) (n : Fin 2048) :
    k2_pay12 i v3 v5 v18 (ix2 r n)
      = Ideal.exp (slog i v3 v5 r n - k2_pay10 i v3 v5 v18 (ix2 r (0 : Fin 1))) := by
  show Ideal.exp (k2_pay9 i v3 v5 (ix2 r n)
      - broadcastTo S512x2048 (k2_pay10 i v3 v5 v18) broadcasts_S512x1_S512x2048 (ix2 r n)) = _
  rw [k2_pay9_apply, Cert.Lib.Column.broadcastTo_a1_ab_apply]

/-- The new normalizer at row `r`: the old one rescaled, plus the sum of the tile's weights along the row (the
    reduction starts from the zero word). -/
theorem k2_pay13_apply (i : grid2.Coords) (v3 : Vec Ideal S1x512x512 .f32) (v5 : Vec Ideal S2048x512 .f32)
    (v18 v22 v28 : Vec Ideal S512x1 .f32) (r : Fin 512) :
    k2_pay13 i v3 v5 v18 v22 v28 (ix2 r (0 : Fin 1))
      = k2_pay11 i v3 v5 v18 v22 (ix2 r (0 : Fin 1)) * v28 (ix2 r (0 : Fin 1))
        + ∑ n : Fin 2048, k2_pay12 i v3 v5 v18 (ix2 r n) := by
  show k2_pay11 i v3 v5 v18 v22 (ix2 r (0 : Fin 1)) * v28 (ix2 r (0 : Fin 1))
      + shapeCast S512x1
        (multiReduction .add [1] S512 (k2_pay12 i v3 v5 v18) 0x00000000#32 reduces_S512x2048_S512 (.inl rfl) rfl)
        shapeCasts_S512_S512x1 (ix2 r (0 : Fin 1)) = _
  rw [Cert.Lib.Column.shapeCast_a_a1_apply, rowsum_apply]

/-- The new running output at `(r, d)`: the old one rescaled by the row's factor, plus the tile's weights times the
    value tile (a product into a zero accumulator; the weights' change of format is the identity). -/
theorem k2_pay2_apply (v8 : FVec Ideal S2048x512 .bf16) (v24 : FVec Ideal S512x1 .f32) (v27 : FVec Ideal S512x2048 .f32)
    (v36 : Vec Ideal S512x512 .f32) (r : Fin 512) (d : Fin 512) :
    k2_pay2 v8 v24 v27 v36 (ix2 r d)
      = v24 (ix2 r (0 : Fin 1)) * v36 (ix2 r d) + ∑ n : Fin 2048, v27 (ix2 r n) * v8 (ix2 n d) := by
  unfold k2_pay2
  rw [shapeCast_self]
  show broadcastTo S512x512 v24 broadcasts_S512x1_S512x512 (ix2 r d) * v36 (ix2 r d)
      + matmul dot_S512x2048_S2048x512_S512x512_1_0_0_1_n_n none (truncf .bf16 v27 bitsLt_bf16_f32) v8
        (constant S512x512 .f32 0x00000000#32) (ix2 r d) = _
  rw [Cert.Lib.Column.broadcastTo_a1_ab_apply, matmul_mix_apply]
  rfl

/-- The stored normalizer is the computed one: a cast to the same shape. -/
theorem k2_pay1_eq (v32 : FVec Ideal S512x1 .f32) : k2_pay1 v32 = v32 := shapeCast_self _ _

/-- The stored running maximum is the computed one: a cast to the same shape. -/
theorem k2_pay3_eq (v21 : FVec Ideal S512x1 .f32) : k2_pay3 v21 = v21 := shapeCast_self _ _

/-- The value tile enters the product as loaded: a cast to the same shape. -/
theorem k2_pay8_eq (v7 : Vec Ideal S2048x512 .bf16) : k2_pay8 v7 = v7 := shapeCast_self _ _

/-- The result block at `(0, r, d)`: the running output divided by the row's normalizer. -/
theorem k2_pay4_apply (v51 : Vec Ideal S512x512 .f32) (v52 : Vec Ideal S512x1 .f32) (r : Fin 512) (d : Fin 512) :
    k2_pay4 v51 v52 (ix3 (0 : Fin 1) r d) = Ideal.div (v51 (ix2 r d)) (v52 (ix2 r (0 : Fin 1))) := by
  unfold k2_pay4
  rw [shapeCast_ab_1ab_apply]
  show Ideal.div (v51 (ix2 r d)) (broadcastTo S512x512 v52 broadcasts_S512x1_S512x512 (ix2 r d)) = _
  rw [Cert.Lib.Column.broadcastTo_a1_ab_apply]

/-- The running maximum starts at `⊥` in every row. -/
theorem k2_pay5_apply (j : S512x1.Idx) : k2_pay5 (F := Ideal) j = ⊥ := by
  unfold k2_pay5
  rw [shapeCast_self]
  exact ofBits_neg_inf_f32

/-- The normalizer starts at `0` in every row. -/
theorem k2_pay6_apply (j : S512x1.Idx) : k2_pay6 (F := Ideal) j = 0 := by
  unfold k2_pay6
  rw [shapeCast_self]
  exact Ideal.ofBits_zero_f32

/-- The running output starts at `0` everywhere. -/
theorem k2_pay7_apply (j : S512x512.Idx) : k2_pay7 (F := Ideal) j = 0 := by
  unfold k2_pay7
  rw [shapeCast_self]
  exact Ideal.ofBits_zero_f32

end Cert.KernelIdeal.PayFlash2

end
-- ==== Proof.LibRealValued.lean ====
/-
  Extended reals that are real numbers, and what keeps them so.

  A program read on exact numbers computes on the extended reals, where the usual laws of arithmetic hold
  only away from the infinities (a factor does not distribute over a sum that mixes the two infinities; a
  quotient is a product with the reciprocal only for a nonzero finite divisor). A proof that needs such a law
  therefore carries, through the program's operations, the fact that every quantity met on the way is the
  image of a real number. This file is that bookkeeping, free of any particular program:

    * `IsReal z`: z is the image of a real;  `IsPos z`: of a positive real;
    * reals are closed under products, sums, finite sums, cosine, sine and the absolute value `max z (-z)`;
      the exponential of a real is a POSITIVE real;
    * zero plus a sum of positive reals over a nonempty finite index type is a NONZERO real (what makes a
      normalizing sum of exponentials safe to divide by);
    * `coe_sum`: the inclusion of the reals commutes with a finite sum.
-/
import Idealize.ShloMosaic.PureOps.Ideal.Laws

noncomputable section

namespace Cert.RealValued

open Idealize.ShloMosaic

/-- The inclusion of the reals in the extended reals commutes with a finite sum. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- `z` is the image of a real number. -/
def IsReal (z : EReal) : Prop := ∃ r : ℝ, z = (r : EReal)

/-- `z` is the image of a positive real number. -/
def IsPos (z : EReal) : Prop := ∃ r : ℝ, 0 < r ∧ z = (r : EReal)

theorem IsPos.isReal {z : EReal} (h : IsPos z) : IsReal z := let ⟨r, _, e⟩ := h; ⟨r, e⟩

theorem isReal_coe (r : ℝ) : IsReal (r : EReal) := ⟨r, rfl⟩

theorem isReal_zero : IsReal (0 : EReal) := ⟨0, rfl⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.add {a b : EReal} (ha : IsReal a) (hb : IsReal b) : IsReal (a + b) := by
  obtain ⟨r, rfl⟩ := ha; obtain ⟨s, rfl⟩ := hb; exact ⟨r + s, (EReal.coe_add r s).symm⟩

/-- A finite sum of reals is a real. -/
theorem isReal_sum {ι : Type} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The cosine of a real is a real. -/
theorem IsReal.cos {a : EReal} (ha : IsReal a) : IsReal (Ideal.cos a) := by
  obtain ⟨r, rfl⟩ := ha; exact ⟨Real.cos r, Ideal.cos_coe r⟩

/-- The sine of a real is a real. -/
theorem IsReal.sin {a : EReal} (ha : IsReal a) : IsReal (Ideal.sin a) := by
  obtain ⟨r, rfl⟩ := ha; exact ⟨Real.sin r, Ideal.sin_coe r⟩

/-- The exponential of a real is a POSITIVE real. -/
theorem IsReal.exp_pos {a : EReal} (ha : IsReal a) : IsPos (Ideal.exp a) := by
  obtain ⟨r, rfl⟩ := ha; exact ⟨Real.exp r, Real.exp_pos r, Ideal.exp_coe r⟩

/-- The absolute value `max z (-z)` of a real is a real. -/
theorem IsReal.abs {a : EReal} (ha : IsReal a) : IsReal (max a (-a)) := by
  obtain ⟨r, rfl⟩ := ha
  refine ⟨max r (-r), ?_⟩
  rw [← EReal.coe_neg]
  exact (EReal.coe_strictMono.monotone.map_max).symm

/-- Zero plus a sum of positive reals over a nonempty finite index type is a NONZERO real. -/
theorem zero_add_sum_pos {ι : Type} [Fintype ι] [Nonempty ι] (f : ι → EReal) (h : ∀ i, IsPos (f i)) :
    ∃ s : ℝ, s ≠ 0 ∧ (0 : EReal) + ∑ i, f i = (s : EReal) := by
  classical
  choose r hr using h
  have e : (∑ i, f i) = ((∑ i, r i : ℝ) : EReal) := by
    rw [coe_sum]; exact Finset.sum_congr rfl fun i _ => (hr i).2
  refine ⟨∑ i, r i, ne_of_gt (Finset.sum_pos (fun i _ => (hr i).1) Finset.univ_nonempty), ?_⟩
  rw [zero_add, e]

end Cert.RealValued

end
-- ==== Proof.LibRealOrder.lean ====
/-
  More about extended reals that are real numbers: order, difference, logarithm.

  Beside products, sums and exponentials (the companion file on real-valued extended reals), a proof that carries
  "this quantity is a real number" through a program also meets negation and difference, the maximum of two reals and
  of finitely many taken from -infinity, the logarithm of a positive real, and a sum of positive reals over a nonempty
  finite index type, which is a POSITIVE real. Last, the one law of subtraction used beside them: subtracting a sum of
  two reals from ANY extended real is subtracting one and then the other (false for infinite subtrahends).
-/
import proofs.«157278_j31636729102421_2_alg».proof.Proof.LibRealValued

noncomputable section

namespace Cert.RealValued

open Idealize.ShloMosaic

theorem isReal_one : IsReal (1 : EReal) := ⟨1, rfl⟩

theorem IsReal.neg {a : EReal} (ha : IsReal a) : IsReal (-a) := by
  obtain ⟨r, rfl⟩ := ha; exact ⟨-r, (EReal.coe_neg r).symm⟩

theorem IsReal.sub {a b : EReal} (ha : IsReal a) (hb : IsReal b) : IsReal (a - b) := by
  obtain ⟨r, rfl⟩ := ha; obtain ⟨s, rfl⟩ := hb; exact ⟨r - s, (EReal.coe_sub r s).symm⟩

theorem IsReal.max {a b : EReal} (ha : IsReal a) (hb : IsReal b) : IsReal (max a b) := by
  rcases le_total a b with h | h
  · rw [max_eq_right h]; exact hb
  · rw [max_eq_left h]; exact ha

/-- The logarithm of a positive real is a real. -/
theorem IsPos.log {a : EReal} (ha : IsPos a) : IsReal (Ideal.log a) := by
  obtain ⟨r, hr, rfl⟩ := ha
  refine ⟨Real.log r, ?_⟩
  rw [Ideal.log_coe, if_neg (not_le.mpr hr)]

/-- A sum of positive reals over a nonempty finite type is a positive real. -/
theorem isPos_sum {ι : Type} [Fintype ι] [Nonempty ι] (f : ι → EReal) (h : ∀ i, IsPos (f i)) : IsPos (∑ i, f i) := by
  classical
  choose r hr using h
  refine ⟨∑ i, r i, Finset.sum_pos (fun i _ => (hr i).1) Finset.univ_nonempty, ?_⟩
  rw [coe_sum]; exact Finset.sum_congr rfl fun i _ => (hr i).2

/-- The maximum, taken from -infinity, of finitely many reals (at least one) is a real. -/
theorem isReal_fold_max {ι : Type} (s : Finset ι) (hs : s.Nonempty) (f : ι → EReal) (h : ∀ i ∈ s, IsReal (f i)) :
    IsReal (s.fold max (⊥ : EReal) f) := by
  classical
  induction hs using Finset.Nonempty.cons_induction with
  | singleton a =>
    rw [Finset.fold_singleton, max_eq_left bot_le]
    exact h a (Finset.mem_singleton_self a)
  | cons a s ha hs ih =>
    rw [Finset.fold_cons]
    exact (h a (Finset.mem_cons_self a s)).max (ih fun i hi => h i (Finset.mem_cons.mpr (Or.inr hi)))

/-- Subtracting a sum of two reals is subtracting one and then the other, from any extended real. -/
theorem sub_add_real (x : EReal) (a b : ℝ) : x - ((a : EReal) + (b : EReal)) = x - (a : EReal) - (b : EReal) := by
  induction x using EReal.rec with
  | bot => rw [EReal.bot_sub, EReal.bot_sub, EReal.bot_sub]
  | coe r =>
    rw [← EReal.coe_add, ← EReal.coe_sub, ← EReal.coe_sub, ← EReal.coe_sub]
    exact congrArg _ (by ring)
  | top => rw [← EReal.coe_add, EReal.top_sub_coe, EReal.top_sub_coe, EReal.top_sub_coe]

end Cert.RealValued

end
-- ==== Proof.LibOnlineSoftmax.lean ====
/-
  Blockwise ("online") softmax equals softmax, on the extended reals.

  Keys arrive in tiles j = 0, 1, ... and, inside a tile, are indexed by a finite type. A logit is a real number or
  -infinity (a masked key); a value is a real number. The blockwise scheme keeps three running quantities: the maximum
  of the logits seen so far, the sum of the exponentials of the logits seen so far taken relative to that maximum, and
  the sum of those exponentials weighted by the values. When a new tile raises the maximum from a to b, the two sums
  kept so far are multiplied by exp (a - b), which re-expresses them relative to b because
  exp (a - b) * exp (x - a) = exp (x - b). Before the first tile the maximum is -infinity and both sums are zero, so
  the factor exp (-infinity - b) = 0 meets a zero and nothing is lost.

  This file proves that, as soon as the first tile has one unmasked key, after T >= 1 tiles
    * the running maximum is a real number, and is the maximum of all logits of the tiles consumed;
    * the two running sums are the plain sums, over all keys of the tiles consumed, of exp (logit - maximum) and of
      exp (logit - maximum) * value;
    * the normalizing sum is a positive real, and the quotient of the two running sums is the softmax-weighted sum of
      the values, each weight being exp (logit - maximum) divided by the normalizing sum;
    * masked keys can be left out of every sum and of the maximum.
-/
import Idealize.ShloMosaic.PureOps.Ideal.Laws
import proofs.«157278_j31636729102421_2_alg».proof.Proof.LibRealValued
import proofs.«157278_j31636729102421_2_alg».proof.Proof.LibRealOrder

noncomputable section

namespace Cert.OnlineSoftmax

open Idealize.ShloMosaic Cert.RealValued

/-! ### Real extended reals: order, a real factor over a finite sum, the exponential of a difference -/

/-- An extended real is the image of a real exactly when it lies strictly between the two infinities. -/
theorem isReal_iff (z : EReal) : IsReal z ↔ ⊥ < z ∧ z < ⊤ := by
  constructor
  · rintro ⟨r, rfl⟩; exact ⟨EReal.bot_lt_coe r, EReal.coe_lt_top r⟩
  · rintro ⟨h1, h2⟩
    induction z using EReal.rec with
    | bot => exact absurd h1 (lt_irrefl _)
    | coe r => exact ⟨r, rfl⟩
    | top => exact absurd h2 (lt_irrefl _)

/-- -infinity is not the image of a real. -/
theorem not_isReal_bot : ¬ IsReal (⊥ : EReal) := fun h => lt_irrefl _ ((isReal_iff _).mp h).1

/-- A real factor distributes over a finite sum of reals. -/
theorem mul_sum_real {ι : Type} (t : Finset ι) (c : EReal) (f : ι → EReal) (hc : IsReal c)
    (hf : ∀ i ∈ t, IsReal (f i)) : c * ∑ i ∈ t, f i = ∑ i ∈ t, c * f i := by
  classical
  obtain ⟨c, rfl⟩ := hc
  induction t using Finset.induction_on with
  | empty => simp
  | insert i t hi ih =>
    rw [Finset.sum_insert hi, Finset.sum_insert hi, ← ih fun j hj => hf j (Finset.mem_insert_of_mem hj)]
    obtain ⟨a, ha⟩ := hf i (Finset.mem_insert_self i t)
    obtain ⟨b, hb⟩ := isReal_sum t f fun j hj => hf j (Finset.mem_insert_of_mem hj)
    rw [ha, hb, ← EReal.coe_add, ← EReal.coe_mul, ← EReal.coe_mul, ← EReal.coe_mul, ← EReal.coe_add, mul_add]

/-- Changing the reference point of an exponential: for reals a, b and ANY extended real x,
    exp (a - b) * exp (x - a) = exp (x - b). (At x = -infinity both sides are 0, at x = +infinity both are +infinity.) -/
theorem exp_sub_mul_exp_sub (a b : ℝ) (x : EReal) :
    Ideal.exp ((a : EReal) - (b : EReal)) * Ideal.exp (x - (a : EReal)) = Ideal.exp (x - (b : EReal)) := by
  induction x using EReal.rec with
  | bot => rw [EReal.bot_sub, EReal.bot_sub, Ideal.exp_bot, mul_zero]
  | coe r =>
    rw [← EReal.coe_sub, ← EReal.coe_sub, ← EReal.coe_sub, Ideal.exp_coe, Ideal.exp_coe, Ideal.exp_coe,
      ← EReal.coe_mul, ← Real.exp_add]
    exact congrArg (fun t : ℝ => ((Real.exp t : ℝ) : EReal)) (by ring)
  | top =>
    rw [EReal.top_sub_coe, EReal.top_sub_coe, Ideal.exp_top, ← EReal.coe_sub, Ideal.exp_coe]
    exact EReal.coe_mul_top_of_pos (Real.exp_pos _)

/-- The exponential of (a real or -infinity) minus a real is a nonnegative real, positive when the argument is real. -/
theorem exp_sub_real_witness {x : EReal} (hx : x = ⊥ ∨ IsReal x) (M : ℝ) :
    ∃ w : ℝ, 0 ≤ w ∧ (IsReal x → 0 < w) ∧ Ideal.exp (x - (M : EReal)) = (w : EReal) := by
  rcases hx with rfl | ⟨r, rfl⟩
  · exact ⟨0, le_refl 0, fun h => absurd h not_isReal_bot, by rw [EReal.bot_sub, Ideal.exp_bot, EReal.coe_zero]⟩
  · exact ⟨Real.exp (r - M), (Real.exp_pos _).le, fun _ => Real.exp_pos _, by rw [← EReal.coe_sub, Ideal.exp_coe]⟩

/-- The exponential of (a real or -infinity) minus a real is a real. -/
theorem isReal_exp_sub {x M : EReal} (hx : x = ⊥ ∨ IsReal x) (hM : IsReal M) : IsReal (Ideal.exp (x - M)) := by
  obtain ⟨M, rfl⟩ := hM
  obtain ⟨w, -, -, e⟩ := exp_sub_real_witness hx M
  exact ⟨w, e⟩

/-- Re-expressing a weighted sum of exponentials relative to another real reference point. -/
theorem rescale_sum {ι : Type} (t : Finset ι) (a b : ℝ) (x w : ι → EReal) (hx : ∀ i ∈ t, x i = ⊥ ∨ IsReal (x i))
    (hw : ∀ i ∈ t, IsReal (w i)) :
    Ideal.exp ((a : EReal) - (b : EReal)) * ∑ i ∈ t, Ideal.exp (x i - (a : EReal)) * w i
      = ∑ i ∈ t, Ideal.exp (x i - (b : EReal)) * w i := by
  rw [mul_sum_real t _ _ (isReal_exp_sub (Or.inr (isReal_coe a)) (isReal_coe b))
    fun i hi => (isReal_exp_sub (hx i hi) (isReal_coe a)).mul (hw i hi)]
  exact Finset.sum_congr rfl fun i _ => by rw [← mul_assoc, exp_sub_mul_exp_sub]

/-! ### The blockwise recursion -/

variable {κ : Type} [Fintype κ]

/-- The running maximum: -infinity before any tile; a tile contributes the maximum (from -infinity) of its logits. -/
def mrun (s : ℕ → κ → EReal) : ℕ → EReal
  | 0 => ⊥
  | j + 1 => max (mrun s j) (Finset.univ.fold max ⊥ (s j))

/-- The running normalizer: 0 before any tile; a tile rescales it to the new maximum and adds its own exponentials. -/
def lrun (s : ℕ → κ → EReal) : ℕ → EReal
  | 0 => 0
  | j + 1 => Ideal.exp (mrun s j - mrun s (j + 1)) * lrun s j + ∑ n, Ideal.exp (s j n - mrun s (j + 1))

/-- The running weighted sum of the values: 0 before any tile; a tile rescales it to the new maximum and adds its own
    exponentials times its values. -/
def accrun (s v : ℕ → κ → EReal) : ℕ → EReal
  | 0 => 0
  | j + 1 => Ideal.exp (mrun s j - mrun s (j + 1)) * accrun s v j + ∑ n, Ideal.exp (s j n - mrun s (j + 1)) * v j n

theorem mrun_zero (s : ℕ → κ → EReal) : mrun s 0 = ⊥ := rfl

theorem mrun_succ (s : ℕ → κ → EReal) (j : ℕ) :
    mrun s (j + 1) = max (mrun s j) (Finset.univ.fold max ⊥ (s j)) := rfl

theorem lrun_zero (s : ℕ → κ → EReal) : lrun s 0 = 0 := rfl

theorem lrun_succ (s : ℕ → κ → EReal) (j : ℕ) :
    lrun s (j + 1) = Ideal.exp (mrun s j - mrun s (j + 1)) * lrun s j + ∑ n, Ideal.exp (s j n - mrun s (j + 1)) := rfl

theorem accrun_zero (s v : ℕ → κ → EReal) : accrun s v 0 = 0 := rfl

theorem accrun_succ (s v : ℕ → κ → EReal) (j : ℕ) :
    accrun s v (j + 1)
      = Ideal.exp (mrun s j - mrun s (j + 1)) * accrun s v j + ∑ n, Ideal.exp (s j n - mrun s (j + 1)) * v j n := rfl

/-- The normalizer is the weighted sum with every value equal to 1. -/
theorem lrun_eq_accrun_one (s : ℕ → κ → EReal) (T : ℕ) : lrun s T = accrun s (fun _ _ => 1) T := by
  induction T with
  | zero => rfl
  | succ T ih => rw [lrun_succ, accrun_succ, ih]; simp only [mul_one]

/-! ### The running maximum -/

/-- The running maximum after T tiles is below c exactly when every logit of those tiles is. -/
theorem mrun_le_iff (s : ℕ → κ → EReal) (T : ℕ) (c : EReal) : mrun s T ≤ c ↔ ∀ j < T, ∀ n, s j n ≤ c := by
  induction T with
  | zero => simp [mrun_zero]
  | succ T ih =>
    rw [mrun_succ, max_le_iff, ih, Finset.fold_max_le]
    constructor
    · rintro ⟨h1, -, h2⟩ j hj n
      rcases Nat.lt_succ_iff_lt_or_eq.mp hj with h | rfl
      · exact h1 j h n
      · exact h2 n (Finset.mem_univ n)
    · intro h
      exact ⟨fun j hj n => h j (Nat.lt_succ_of_lt hj) n, bot_le, fun n _ => h T (Nat.lt_succ_self T) n⟩

/-- The running maximum after T tiles is the maximum, from -infinity, of all logits (tile, key) with tile < T.
    (No hypothesis on the logits.) -/
theorem mrun_eq_fold (s : ℕ → κ → EReal) (T : ℕ) :
    mrun s T = (Finset.range T ×ˢ Finset.univ).fold max ⊥ (fun p : ℕ × κ => s p.1 p.2) := by
  refine eq_of_forall_ge_iff fun c => ?_
  rw [mrun_le_iff, Finset.fold_max_le]
  constructor
  · intro h
    exact ⟨bot_le, fun p hp => h p.1 (Finset.mem_range.mp (Finset.mem_product.mp hp).1) p.2⟩
  · rintro ⟨-, h⟩ j hj n
    exact h (j, n) (Finset.mem_product.mpr ⟨Finset.mem_range.mpr hj, Finset.mem_univ n⟩)

/-- Once the first tile has an unmasked key, every later running maximum is a real number. -/
theorem mrun_isReal (s : ℕ → κ → EReal) (hs : ∀ j n, s j n = ⊥ ∨ IsReal (s j n)) (h0 : ∃ n, IsReal (s 0 n))
    {T : ℕ} (hT : 0 < T) : IsReal (mrun s T) := by
  rw [isReal_iff, mrun_eq_fold, Finset.lt_fold_max, Finset.fold_max_lt]
  obtain ⟨n0, hn0⟩ := h0
  refine ⟨Or.inr ⟨(0, n0), Finset.mem_product.mpr ⟨Finset.mem_range.mpr hT, Finset.mem_univ n0⟩,
    ((isReal_iff _).mp hn0).1⟩, bot_lt_top, fun p _ => ?_⟩
  rcases hs p.1 p.2 with h | h
  · rw [h]; exact bot_lt_top
  · exact ((isReal_iff _).mp h).2

/-! ### The running sums are the plain sums relative to the final maximum -/

/-- After T + 1 tiles the running weighted sum is the sum over all keys consumed of exp (logit - maximum) * value. -/
theorem accrun_succ_eq (s v : ℕ → κ → EReal) (hs : ∀ j n, s j n = ⊥ ∨ IsReal (s j n)) (hv : ∀ j n, IsReal (v j n))
    (h0 : ∃ n, IsReal (s 0 n)) (T : ℕ) :
    accrun s v (T + 1) = ∑ j ∈ Finset.range (T + 1), ∑ n, Ideal.exp (s j n - mrun s (T + 1)) * v j n := by
  induction T with
  | zero => rw [accrun_succ, accrun_zero, mul_zero, zero_add, Finset.sum_range_one]
  | succ T ih =>
    rw [accrun_succ, ih, Finset.sum_range_succ _ (T + 1)]
    congr 1
    obtain ⟨a, ha⟩ := mrun_isReal s hs h0 (Nat.succ_pos T)
    obtain ⟨b, hb⟩ := mrun_isReal s hs h0 (Nat.succ_pos (T + 1))
    rw [ha, hb, mul_sum_real _ _ _ (isReal_exp_sub (Or.inr (isReal_coe a)) (isReal_coe b)) fun j _ =>
      isReal_sum _ _ fun n _ => (isReal_exp_sub (hs j n) (isReal_coe a)).mul (hv j n)]
    exact Finset.sum_congr rfl fun j _ => rescale_sum _ a b _ _ (fun n _ => hs j n) (fun n _ => hv j n)

/-- After T >= 1 tiles the running weighted sum is the sum over all keys consumed of
    exp (logit - maximum) * value. -/
theorem accrun_eq (s v : ℕ → κ → EReal) (hs : ∀ j n, s j n = ⊥ ∨ IsReal (s j n)) (hv : ∀ j n, IsReal (v j n))
    (h0 : ∃ n, IsReal (s 0 n)) {T : ℕ} (hT : 0 < T) :
    accrun s v T = ∑ j ∈ Finset.range T, ∑ n, Ideal.exp (s j n - mrun s T) * v j n := by
  obtain ⟨T, rfl⟩ := Nat.exists_eq_succ_of_ne_zero hT.ne'
  exact accrun_succ_eq s v hs hv h0 T

/-- After T >= 1 tiles the running normalizer is the sum over all keys consumed of exp (logit - maximum). -/
theorem lrun_eq (s : ℕ → κ → EReal) (hs : ∀ j n, s j n = ⊥ ∨ IsReal (s j n)) (h0 : ∃ n, IsReal (s 0 n))
    {T : ℕ} (hT : 0 < T) :
    lrun s T = ∑ j ∈ Finset.range T, ∑ n, Ideal.exp (s j n - mrun s T) := by
  rw [lrun_eq_accrun_one, accrun_eq s _ hs (fun _ _ => isReal_one) h0 hT]
  simp only [mul_one]

/-! ### The normalizing sum is a positive real; the quotient is the softmax-weighted sum of the values -/

/-- After T >= 1 tiles the sum over all keys consumed of exp (logit - maximum) is a positive real: every term is a
    nonnegative real and the unmasked key of the first tile gives a positive one. -/
theorem sumexp_isPos (s : ℕ → κ → EReal) (hs : ∀ j n, s j n = ⊥ ∨ IsReal (s j n)) (h0 : ∃ n, IsReal (s 0 n))
    {T : ℕ} (hT : 0 < T) : IsPos (∑ j ∈ Finset.range T, ∑ n, Ideal.exp (s j n - mrun s T)) := by
  obtain ⟨M, hM⟩ := mrun_isReal s hs h0 hT
  rw [hM]
  choose w hw0 hwpos hwe using fun j n => exp_sub_real_witness (hs j n) M
  obtain ⟨n0, hn0⟩ := h0
  refine ⟨∑ j ∈ Finset.range T, ∑ n, w j n, ?_, ?_⟩
  · exact Finset.sum_pos' (fun j _ => Finset.sum_nonneg fun n _ => hw0 j n)
      ⟨0, Finset.mem_range.mpr hT, Finset.sum_pos' (fun n _ => hw0 0 n) ⟨n0, Finset.mem_univ n0, hwpos 0 n0 hn0⟩⟩
  · rw [coe_sum]
    refine Finset.sum_congr rfl fun j _ => ?_
    rw [coe_sum]
    exact Finset.sum_congr rfl fun n _ => hwe j n

/-- After T >= 1 tiles the running normalizer is a positive real. -/
theorem lrun_isPos (s : ℕ → κ → EReal) (hs : ∀ j n, s j n = ⊥ ∨ IsReal (s j n)) (h0 : ∃ n, IsReal (s 0 n))
    {T : ℕ} (hT : 0 < T) : IsPos (lrun s T) := by
  rw [lrun_eq s hs h0 hT]; exact sumexp_isPos s hs h0 hT

/-- Dividing a finite double sum of reals, each a real times a real value, by a nonzero real divides each term's
    first factor. -/
theorem div_sum_sum {ι : Type} (t : Finset ι) (e v : ι → κ → EReal) (he : ∀ i ∈ t, ∀ n, IsReal (e i n))
    (hv : ∀ i ∈ t, ∀ n, IsReal (v i n)) {σ : ℝ} (hσ : σ ≠ 0) :
    Ideal.div (∑ i ∈ t, ∑ n, e i n * v i n) (σ : EReal) = ∑ i ∈ t, ∑ n, Ideal.div (e i n) (σ : EReal) * v i n := by
  rw [Ideal.div_coe hσ, mul_comm, mul_sum_real _ _ _ (isReal_coe _) fun i hi =>
    isReal_sum _ _ fun n _ => (he i hi n).mul (hv i hi n)]
  refine Finset.sum_congr rfl fun i hi => ?_
  rw [mul_sum_real _ _ _ (isReal_coe _) fun n _ => (he i hi n).mul (hv i hi n)]
  exact Finset.sum_congr rfl fun n _ => by rw [Ideal.div_coe hσ, ← mul_assoc, mul_comm (e i n)]

/-- Blockwise softmax equals softmax: after T >= 1 tiles the quotient of the running weighted sum by the running
    normalizer is the sum over all keys consumed of the softmax weight
    exp (logit - maximum) / (sum of all exp (logit - maximum)) times the value. A masked key has weight 0 / sum = 0. -/
theorem div_accrun_lrun (s v : ℕ → κ → EReal) (hs : ∀ j n, s j n = ⊥ ∨ IsReal (s j n)) (hv : ∀ j n, IsReal (v j n))
    (h0 : ∃ n, IsReal (s 0 n)) {T : ℕ} (hT : 0 < T) :
    Ideal.div (accrun s v T) (lrun s T)
      = ∑ j ∈ Finset.range T, ∑ n,
          Ideal.div (Ideal.exp (s j n - mrun s T)) (∑ j ∈ Finset.range T, ∑ n, Ideal.exp (s j n - mrun s T)) * v j n := by
  rw [accrun_eq s v hs hv h0 hT, lrun_eq s hs h0 hT]
  obtain ⟨σ, hσ, hS⟩ := sumexp_isPos s hs h0 hT
  rw [hS]
  exact div_sum_sum _ _ _ (fun j _ n => isReal_exp_sub (hs j n) (mrun_isReal s hs h0 hT)) (fun j _ n => hv j n) hσ.ne'

/-! ### Masked keys can be left out -/

/-- A key whose logit is -infinity contributes 0 to a sum of exp (logit - M) * weight, whatever M is: the sum is the
    sum over the other keys. -/
theorem sum_exp_filter {ι : Type} (t : Finset ι) (ok : ι → Prop) [DecidablePred ok] (x w : ι → EReal) (M : EReal)
    (hx : ∀ i ∈ t, ¬ ok i → x i = ⊥) :
    ∑ i ∈ t, Ideal.exp (x i - M) * w i = ∑ i ∈ t.filter ok, Ideal.exp (x i - M) * w i := by
  refine (Finset.sum_filter_of_ne fun i hi hne => ?_).symm
  by_contra hok
  exact hne (by rw [hx i hi hok, EReal.bot_sub, Ideal.exp_bot, zero_mul])

/-- The same without weights. -/
theorem sum_exp_filter' {ι : Type} (t : Finset ι) (ok : ι → Prop) [DecidablePred ok] (x : ι → EReal) (M : EReal)
    (hx : ∀ i ∈ t, ¬ ok i → x i = ⊥) :
    ∑ i ∈ t, Ideal.exp (x i - M) = ∑ i ∈ t.filter ok, Ideal.exp (x i - M) := by
  have h := sum_exp_filter t ok x (fun _ => 1) M hx
  simpa only [mul_one] using h

/-- A key whose logit is -infinity does not move a maximum taken from -infinity. -/
theorem fold_max_filter {ι : Type} (t : Finset ι) (ok : ι → Prop) [DecidablePred ok] (x : ι → EReal)
    (hx : ∀ i ∈ t, ¬ ok i → x i = ⊥) : t.fold max ⊥ x = (t.filter ok).fold max ⊥ x := by
  refine eq_of_forall_ge_iff fun c => ?_
  rw [Finset.fold_max_le, Finset.fold_max_le]
  constructor
  · rintro ⟨hb, h⟩; exact ⟨hb, fun i hi => h i (Finset.mem_filter.mp hi).1⟩
  · rintro ⟨hb, h⟩
    refine ⟨hb, fun i hi => ?_⟩
    by_cases hok : ok i
    · exact h i (Finset.mem_filter.mpr ⟨hi, hok⟩)
    · rw [hx i hi hok]; exact bot_le

section Masked

variable (s v : ℕ → κ → EReal) (ok : ℕ → κ → Prop)

/-- The running maximum is the maximum, from -infinity, over the unmasked (tile, key) pairs with tile < T. -/
theorem mrun_eq_fold_filter [DecidablePred fun p : ℕ × κ => ok p.1 p.2] (hok : ∀ j n, ¬ ok j n → s j n = ⊥) (T : ℕ) :
    mrun s T = ((Finset.range T ×ˢ Finset.univ).filter fun p : ℕ × κ => ok p.1 p.2).fold max ⊥
      (fun p : ℕ × κ => s p.1 p.2) := by
  rw [mrun_eq_fold]
  exact fold_max_filter _ _ _ fun p _ h => hok p.1 p.2 h

/-- A double sum of exp (logit - M) * weight is the sum over the unmasked (tile, key) pairs. -/
theorem sum_sum_exp_mul_eq_filter [DecidablePred fun p : ℕ × κ => ok p.1 p.2] (hok : ∀ j n, ¬ ok j n → s j n = ⊥) (T : ℕ) (M : EReal) :
    ∑ j ∈ Finset.range T, ∑ n, Ideal.exp (s j n - M) * v j n
      = ∑ p ∈ (Finset.range T ×ˢ Finset.univ).filter (fun p : ℕ × κ => ok p.1 p.2),
          Ideal.exp (s p.1 p.2 - M) * v p.1 p.2 := by
  rw [← Finset.sum_product' (Finset.range T) Finset.univ fun j n => Ideal.exp (s j n - M) * v j n]
  exact sum_exp_filter _ _ (fun p : ℕ × κ => s p.1 p.2) (fun p : ℕ × κ => v p.1 p.2) M fun p _ h => hok p.1 p.2 h

/-- A double sum of exp (logit - M) is the sum over the unmasked (tile, key) pairs. -/
theorem sum_sum_exp_eq_filter [DecidablePred fun p : ℕ × κ => ok p.1 p.2] (hok : ∀ j n, ¬ ok j n → s j n = ⊥) (T : ℕ) (M : EReal) :
    ∑ j ∈ Finset.range T, ∑ n, Ideal.exp (s j n - M)
      = ∑ p ∈ (Finset.range T ×ˢ Finset.univ).filter (fun p : ℕ × κ => ok p.1 p.2), Ideal.exp (s p.1 p.2 - M) := by
  have h := sum_sum_exp_mul_eq_filter s (fun _ _ => 1) ok hok T M
  simpa only [mul_one] using h

/-- The same, tile by tile: in each tile only the unmasked keys count. -/
theorem sum_sum_exp_mul_eq_filter_tile [∀ j, DecidablePred (ok j)] (hok : ∀ j n, ¬ ok j n → s j n = ⊥) (T : ℕ) (M : EReal) :
    ∑ j ∈ Finset.range T, ∑ n, Ideal.exp (s j n - M) * v j n
      = ∑ j ∈ Finset.range T, ∑ n ∈ Finset.univ.filter (ok j), Ideal.exp (s j n - M) * v j n :=
  Finset.sum_congr rfl fun j _ => sum_exp_filter _ _ _ _ M fun n _ h => hok j n h

/-- The same without weights, tile by tile. -/
theorem sum_sum_exp_eq_filter_tile [∀ j, DecidablePred (ok j)] (hok : ∀ j n, ¬ ok j n → s j n = ⊥) (T : ℕ) (M : EReal) :
    ∑ j ∈ Finset.range T, ∑ n, Ideal.exp (s j n - M)
      = ∑ j ∈ Finset.range T, ∑ n ∈ Finset.univ.filter (ok j), Ideal.exp (s j n - M) :=
  Finset.sum_congr rfl fun j _ => sum_exp_filter' _ _ _ M fun n _ h => hok j n h

/-- Blockwise softmax equals softmax over the unmasked keys only: with M the maximum over the unmasked pairs and
    S the sum of exp (logit - M) over the unmasked pairs, the quotient of the two running sums is the sum over the
    unmasked pairs of (exp (logit - M) / S) * value. -/
theorem div_accrun_lrun_filter [DecidablePred fun p : ℕ × κ => ok p.1 p.2] (hs : ∀ j n, s j n = ⊥ ∨ IsReal (s j n)) (hv : ∀ j n, IsReal (v j n))
    (h0 : ∃ n, IsReal (s 0 n)) (hok : ∀ j n, ¬ ok j n → s j n = ⊥) {T : ℕ} (hT : 0 < T) :
    Ideal.div (accrun s v T) (lrun s T)
      = ∑ p ∈ (Finset.range T ×ˢ Finset.univ).filter (fun p : ℕ × κ => ok p.1 p.2),
          Ideal.div (Ideal.exp (s p.1 p.2 - mrun s T))
            (∑ q ∈ (Finset.range T ×ˢ Finset.univ).filter (fun p : ℕ × κ => ok p.1 p.2),
              Ideal.exp (s q.1 q.2 - mrun s T)) * v p.1 p.2 := by
  rw [div_accrun_lrun s v hs hv h0 hT, sum_sum_exp_eq_filter s ok hok T (mrun s T)]
  obtain ⟨σ, hσ, hS⟩ := sumexp_isPos s hs h0 hT
  rw [sum_sum_exp_eq_filter s ok hok T (mrun s T)] at hS
  rw [hS, ← Finset.sum_product' (Finset.range T) Finset.univ
    fun j n => Ideal.div (Ideal.exp (s j n - mrun s T)) (σ : EReal) * v j n]
  refine (Finset.sum_filter_of_ne fun p _ hne => ?_).symm
  by_contra h
  refine hne ?_
  rw [hok p.1 p.2 h, EReal.bot_sub, Ideal.exp_bot, Ideal.div_coe hσ.ne', zero_mul, zero_mul]

end Masked

end Cert.OnlineSoftmax

end
-- ==== Proof.KIFlash2Closed.lean ====
import proofs.«157278_j31636729102421_2_alg».proof.Proof.KIFlash2Val
import proofs.«157278_j31636729102421_2_alg».proof.Proof.PayFlash2
import proofs.«157278_j31636729102421_2_alg».proof.Proof.LibOnlineSoftmax
import Idealize.ShloMosaic.Lib.ValueIdx

/-! The attention call number 2 on exact numbers, in closed form. Fix a query group `g` and a query row `r`. Key tile
    `j` of the padded key array has the masked logits `s j n` (the dot product of the query row with key `2048 j + n`, or
    −∞ for a padded key) and, for an output column `d`, the values `v j n`. After the body at tile `j` of group `g` the
    three scratch buffers hold, at row `r`, the running maximum, the normalizer and the unnormalized output of the blockwise
    softmax recursion after `j + 1` tiles; at the last tile the output block holds their quotient. -/

set_option maxRecDepth 16384

noncomputable section

namespace Cert.KernelIdeal.Flash2

open Cert.KernelIdeal Cert.KernelIdeal.Gen Cert.KernelIdeal.PayFlash2
open Idealize.ShloMosaic Idealize.ShloMosaic.TcCoe Idealize.ShloMosaic.ValueIdx
open Idealize.SL Idealize.SL.Sem
open Cert.OnlineSoftmax

/-! ## One tile's step, at a row, over any loaded blocks -/

section Step
variable (i : grid2.Coords) (x0 : Vec Ideal S1x512x512 .f32) (x1 : Vec Ideal S2048x512 .f32) (x2 : Vec Ideal S2048x512 .bf16)
  (pM pL : Vec Ideal S512x1 .f32) (pA : Vec Ideal S512x512 .f32) (r : Fin 512) (s : ℕ → Fin 2048 → EReal) (j : ℕ)
  (hs : ∀ n, slog i x0 x1 r n = s j n) (hM : pM (ix2 r (0 : Fin 1)) = mrun s j)

include hs hM in
theorem step_max : k2_pay10 i x0 x1 pM (ix2 r (0 : Fin 1)) = mrun s (j + 1) := by
  rw [k2_pay10_apply, hM, show slog i x0 x1 r = s j from funext hs]; rfl

include hs hM in
theorem step_M : k2_pay3 (k2_pay10 i x0 x1 pM) (ix2 r (0 : Fin 1)) = mrun s (j + 1) := by
  rw [k2_pay3_eq]; exact step_max i x0 x1 pM r s j hs hM

include hs hM in
theorem step_L (hL : pL (ix2 r (0 : Fin 1)) = lrun s j) :
    k2_pay1 (k2_pay13 i x0 x1 pM pM pL) (ix2 r (0 : Fin 1)) = lrun s (j + 1) := by
  have h10 := step_max i x0 x1 pM r s j hs hM
  rw [k2_pay1_eq, k2_pay13_apply, k2_pay11_apply, hL, hM, h10]
  simp only [k2_pay12_apply, h10, hs]
  rfl

include hs hM in
theorem step_A (d : Fin 512) (v : ℕ → Fin 2048 → EReal) (hv : ∀ n, x2 (ix2 n d) = v j n) (hA : pA (ix2 r d) = accrun s v j) :
    k2_pay2 (k2_pay8 x2) (k2_pay11 i x0 x1 pM pM) (k2_pay12 i x0 x1 pM) pA (ix2 r d) = accrun s v (j + 1) := by
  have h10 := step_max i x0 x1 pM r s j hs hM
  rw [k2_pay2_apply, k2_pay11_apply, k2_pay8_eq, hA, hM, h10]
  simp only [k2_pay12_apply, h10, hs, hv]
  rfl
end Step

/-! ## The arrays as the region finds them, and the blocks read off them -/

variable (V : (c : Dev nD) → (b : Ref sig .tc) → Buf (Elt Ideal) ((c : Thread nD τ).loc b))

/-- Entry `(g, r, d)` of the stacked queries (0 outside the array). -/
def Qat (c : Dev nD) (g : ℕ) (r d : Fin 512) : EReal := if h : g < 2 then V c main_v26 (ix3 (⟨g, h⟩ : Fin 2) r d) else 0
/-- Entry `(k, d)` of the padded key array (0 outside). -/
def Kat (c : Dev nD) (k : ℕ) (d : Fin 512) : EReal := if h : k < 200704 then V c main_v18_0 (ix2 (⟨k, h⟩ : Fin 200704) d) else 0
/-- Entry `(k, d)` of the padded value array (0 outside). -/
def Vat (c : Dev nD) (k : ℕ) (d : Fin 512) : EReal := if h : k < 200704 then V c main_v18_1 (ix2 (⟨k, h⟩ : Fin 200704) d) else 0
/-- The masked logit of query `(g, r)` against key `n` of tile `j`. -/
def sArr (c : Dev nD) (g : ℕ) (r : Fin 512) (j : ℕ) (n : Fin 2048) : EReal :=
  if j * 2048 + n.val < 200000 then ∑ d : Fin 512, Qat V c g r d * Kat V c (j * 2048 + n.val) d else ⊥
/-- The values of tile `j` at output column `d`. -/
def vArr (c : Dev nD) (d : Fin 512) (j : ℕ) (n : Fin 2048) : EReal := Vat V c (j * 2048 + n.val) d

theorem idx_facts : ∀ t : Fin cfg2.N,
    win2_0.index t (0 : Fin 3) = t.val / 98 ∧ win2_0.index t (1 : Fin 3) = 0 ∧ win2_0.index t (2 : Fin 3) = 0
  ∧ win2_1.index t (0 : Fin 2) = t.val % 98 ∧ win2_1.index t (1 : Fin 2) = 0
  ∧ win2_2.index t (0 : Fin 2) = t.val % 98 ∧ win2_2.index t (1 : Fin 2) = 0
  ∧ win2_3.index t (0 : Fin 3) = t.val / 98 ∧ win2_3.index t (1 : Fin 3) = 0 ∧ win2_3.index t (2 : Fin 3) = 0
  ∧ ((grid2.coords t) 1).val = t.val % 98 :=
  (by decide +kernel : ∀ t : Fin grid2.N, _)

theorem iblk_0_apply (c : Dev nD) (t : Fin cfg2.N) (r d : Fin 512) :
    iblk V c 0 t (ix3 (0 : Fin 1) r d) = Qat V c (t.val / 98) r d := by
  obtain ⟨e0, e1, e2, e3, e4, e5, e6, e7, e8, e9, e10⟩ := idx_facts t
  have hN : t.val < 196 := lt_of_lt_of_eq t.isLt (show cfg2.N = 196 from N_2)
  have hg : t.val / 98 < 2 := by omega
  unfold Qat; rw [dif_pos hg]
  show V c main_v26 (((cfg2.win 0).blk t).view.emb (ix3 (0 : Fin 1) r d)) = _
  congr 1
  funext a; apply Fin.ext
  match a with
  | ⟨0, _⟩ => show win2_0.index t (0 : Fin 3) * 1 + 1 * 0 = t.val / 98; omega
  | ⟨1, _⟩ => show win2_0.index t (1 : Fin 3) * 512 + 1 * r.val = r.val; omega
  | ⟨2, _⟩ => show win2_0.index t (2 : Fin 3) * 512 + 1 * d.val = d.val; omega

theorem iblk_1_apply (c : Dev nD) (t : Fin cfg2.N) (n : Fin 2048) (d : Fin 512) :
    iblk V c 1 t (ix2 n d) = Kat V c (t.val % 98 * 2048 + n.val) d := by
  obtain ⟨e0, e1, e2, e3, e4, e5, e6, e7, e8, e9, e10⟩ := idx_facts t
  have hn : n.val < 2048 := n.isLt
  have hk : t.val % 98 * 2048 + n.val < 200704 := by omega
  unfold Kat; rw [dif_pos hk]
  show V c main_v18_0 (((cfg2.win 1).blk t).view.emb (ix2 n d)) = _
  congr 1
  funext a; apply Fin.ext
  match a with
  | ⟨0, _⟩ => show win2_1.index t (0 : Fin 2) * 2048 + 1 * n.val = t.val % 98 * 2048 + n.val; omega
  | ⟨1, _⟩ => show win2_1.index t (1 : Fin 2) * 512 + 1 * d.val = d.val; omega

theorem iblk_2_apply (c : Dev nD) (t : Fin cfg2.N) (n : Fin 2048) (d : Fin 512) :
    iblk V c 2 t (ix2 n d) = Vat V c (t.val % 98 * 2048 + n.val) d := by
  obtain ⟨e0, e1, e2, e3, e4, e5, e6, e7, e8, e9, e10⟩ := idx_facts t
  have hn : n.val < 2048 := n.isLt
  have hk : t.val % 98 * 2048 + n.val < 200704 := by omega
  unfold Vat; rw [dif_pos hk]
  show V c main_v18_1 (((cfg2.win 2).blk t).view.emb (ix2 n d)) = _
  congr 1
  funext a; apply Fin.ext
  match a with
  | ⟨0, _⟩ => show win2_2.index t (0 : Fin 2) * 2048 + 1 * n.val = t.val % 98 * 2048 + n.val; omega
  | ⟨1, _⟩ => show win2_2.index t (1 : Fin 2) * 512 + 1 * d.val = d.val; omega

/-- The body's masked logits at point `t` are the arrays' at group `t / 98`, tile `t % 98`. -/
theorem slog_blk (c : Dev nD) (t : Fin cfg2.N) (r : Fin 512) (n : Fin 2048) :
    slog (grid2.coords t) (iblk V c 0 t) (iblk V c 1 t) r n = sArr V c (t.val / 98) r (t.val % 98) n := by
  obtain ⟨e0, e1, e2, e3, e4, e5, e6, e7, e8, e9, e10⟩ := idx_facts t
  unfold slog sArr
  rw [e10]
  simp only [iblk_0_apply, iblk_1_apply]

/-! ## After every point -/

/-- After the body at position `n` the scratch buffers hold, row by row, the blockwise softmax recursion after `n % 98 + 1`
    tiles of group `n / 98`. -/
theorem outsAt_closed (c : Dev nD) : ∀ (n : ℕ) (hn : n < cfg2.N),
    (∀ r : Fin 512, (outsAt V c n hn).2.1 (ix2 r (0 : Fin 1)) = mrun (sArr V c (n / 98) r) (n % 98 + 1))
    ∧ (∀ r : Fin 512, (outsAt V c n hn).2.2.1 (ix2 r (0 : Fin 1)) = lrun (sArr V c (n / 98) r) (n % 98 + 1))
    ∧ (∀ r d : Fin 512, (outsAt V c n hn).2.2.2 (ix2 r d) = accrun (sArr V c (n / 98) r) (vArr V c d) (n % 98 + 1)) := by
  intro n
  induction n with
  | zero =>
    intro hn
    have hA := outsAt_A V c ⟨0, hn⟩ (Nat.zero_mod _) (by show ¬ (0 : ℕ) % 98 = 97; decide)
    have hs : ∀ r n, slog (grid2.coords ⟨0, hn⟩) (iblk V c 0 ⟨0, hn⟩) (iblk V c 1 ⟨0, hn⟩) r n = sArr V c (0 / 98) r (0 % 98) n := fun r n => slog_blk V c ⟨0, hn⟩ r n
    refine ⟨fun r => ?_, fun r => ?_, fun r d => ?_⟩
    · rw [show (outsAt V c 0 hn) = _ from hA]; dsimp only; rw [sout_A_0_eq]
      exact step_M _ _ _ _ r _ 0 (hs r) (k2_pay5_apply _)
    · rw [show (outsAt V c 0 hn) = _ from hA]; dsimp only; rw [sout_A_1_eq]
      exact step_L _ _ _ _ _ r _ 0 (hs r) (k2_pay5_apply _) (k2_pay6_apply _)
    · rw [show (outsAt V c 0 hn) = _ from hA]; dsimp only; rw [sout_A_2_eq]
      exact step_A _ _ _ _ _ _ r _ 0 (hs r) (k2_pay5_apply _) d (vArr V c d) (fun n => iblk_2_apply V c ⟨0, hn⟩ n d) (k2_pay7_apply _)
  | succ n ih =>
    intro hn
    have hN : n + 1 < 196 := lt_of_lt_of_eq hn (show cfg2.N = 196 from N_2)
    have hs : ∀ r m, slog (grid2.coords ⟨n + 1, hn⟩) (iblk V c 0 ⟨n + 1, hn⟩) (iblk V c 1 ⟨n + 1, hn⟩) r m = sArr V c ((n + 1) / 98) r ((n + 1) % 98) m := fun r m => slog_blk V c ⟨n + 1, hn⟩ r m
    by_cases h0 : (n + 1) % 98 = 0
    · have h1 : ¬ (n + 1) % 98 = 97 := by omega
      have hA := outsAt_A V c ⟨n + 1, hn⟩ h0 h1
      refine ⟨fun r => ?_, fun r => ?_, fun r d => ?_⟩
      · rw [show (outsAt V c (n + 1) hn) = _ from hA]; dsimp only; rw [sout_A_0_eq, h0]
        exact step_M _ _ _ _ r _ 0 (fun m => by rw [hs r m, h0]) (k2_pay5_apply _)
      · rw [show (outsAt V c (n + 1) hn) = _ from hA]; dsimp only; rw [sout_A_1_eq, h0]
        exact step_L _ _ _ _ _ r _ 0 (fun m => by rw [hs r m, h0]) (k2_pay5_apply _) (k2_pay6_apply _)
      · rw [show (outsAt V c (n + 1) hn) = _ from hA]; dsimp only; rw [sout_A_2_eq, h0]
        exact step_A _ _ _ _ _ _ r _ 0 (fun m => by rw [hs r m, h0]) (k2_pay5_apply _) d (vArr V c d) (fun m => by rw [iblk_2_apply V c ⟨n + 1, hn⟩ m d]; show Vat V c ((n + 1) % 98 * 2048 + m.val) d = _; rw [h0]; rfl) (k2_pay7_apply _)
    · obtain ⟨ihM, ihL, ihA⟩ := ih (Nat.lt_of_succ_lt hn)
      have hg : n / 98 = (n + 1) / 98 := by omega
      have hj : n % 98 + 1 = (n + 1) % 98 := by omega
      rw [hg, hj] at ihM ihL ihA
      have hv : ∀ d m, iblk V c 2 ⟨n + 1, hn⟩ (ix2 m d) = vArr V c d ((n + 1) % 98) m := fun d m => iblk_2_apply V c ⟨n + 1, hn⟩ m d
      by_cases h1 : (n + 1) % 98 = 97
      · have hC := outsAt_C V c ⟨n + 1, hn⟩ h0 h1
        refine ⟨fun r => ?_, fun r => ?_, fun r d => ?_⟩
        · rw [show (outsAt V c (n + 1) hn) = _ from hC]; dsimp only; rw [sout_C_0_eq]
          exact step_M _ _ _ _ r _ _ (hs r) (ihM r)
        · rw [show (outsAt V c (n + 1) hn) = _ from hC]; dsimp only; rw [sout_C_1_eq]
          exact step_L _ _ _ _ _ r _ _ (hs r) (ihM r) (ihL r)
        · rw [show (outsAt V c (n + 1) hn) = _ from hC]; dsimp only; rw [sout_C_2_eq]
          exact step_A _ _ _ _ _ _ r _ _ (hs r) (ihM r) d (vArr V c d) (hv d) (ihA r d)
      · have hB := outsAt_B V c ⟨n + 1, hn⟩ h0 h1
        refine ⟨fun r => ?_, fun r => ?_, fun r d => ?_⟩
        · rw [show (outsAt V c (n + 1) hn) = _ from hB]; dsimp only; rw [sout_B_0_eq]
          exact step_M _ _ _ _ r _ _ (hs r) (ihM r)
        · rw [show (outsAt V c (n + 1) hn) = _ from hB]; dsimp only; rw [sout_B_1_eq]
          exact step_L _ _ _ _ _ r _ _ (hs r) (ihM r) (ihL r)
        · rw [show (outsAt V c (n + 1) hn) = _ from hB]; dsimp only; rw [sout_B_2_eq]
          exact step_A _ _ _ _ _ _ r _ _ (hs r) (ihM r) d (vArr V c d) (hv d) (ihA r d)

/-- At the last key tile of group `g` the output block holds the quotient of the unnormalized output by the normalizer,
    both after all 98 tiles. -/
theorem out_closed (c : Dev nD) (t : Fin cfg2.N) (h1 : t.val % 98 = 97) (r d : Fin 512) :
    (outsAt V c t.val t.isLt).1 (ix3 (0 : Fin 1) r d)
      = Ideal.div (accrun (sArr V c (t.val / 98) r) (vArr V c d) 98) (lrun (sArr V c (t.val / 98) r) 98) := by
  have h0 : ¬ t.val % 98 = 0 := by omega
  obtain ⟨hM, hL, hA⟩ := outsAt_closed V c t.val t.isLt
  have hC := outsAt_C V c t h0 h1
  have e1 : (outsAt V c t.val t.isLt).1 = _ := congrArg Prod.fst hC
  have eL : (outsAt V c t.val t.isLt).2.2.1 = _ := congrArg (fun p => p.2.2.1) hC
  have eA : (outsAt V c t.val t.isLt).2.2.2 = _ := congrArg (fun p => p.2.2.2) hC
  dsimp only at e1 eL eA
  have hL' := hL r
  have hA' := hA r d
  rw [eL, sout_C_1_eq] at hL'
  rw [eA, sout_C_2_eq] at hA'
  rw [e1, out_C_eq, k2_pay4_apply, hA', hL', h1]

end Cert.KernelIdeal.Flash2

end
-- ==== Proof.KIFlash2Final.lean ====
import proofs.«157278_j31636729102421_2_alg».proof.Proof.KIFlash2Closed
import Idealize.ShloMosaic.Lib.Pipeline.Value

/-! The output array of the attention call number 2 after the region: entry `(g, r, d)` is the quotient, after all 98
    key tiles, of the blockwise recursion's unnormalized output by its normalizer for query `(g, r)` and column `d`. Each
    group's block is written back once, at the group's last key tile, and the 2 blocks cover the array. -/

set_option maxRecDepth 16384

noncomputable section

namespace Cert.KernelIdeal.Flash2

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.OnlineSoftmax

variable (V : (c : Dev nD) → (b : Ref sig .tc) → Buf (Elt Ideal) ((c : Thread nD τ).loc b))

/-- The attention output at query `(g, r)`, column `d`, as the blockwise recursion leaves it. -/
def attOut (c : Dev nD) (g : ℕ) (r d : Fin 512) : EReal :=
  Ideal.div (accrun (sArr V c g r) (vArr V c d) 98) (lrun (sArr V c g r) 98)

/-- The whole output array. -/
def Gout (c : Dev nD) : S2x512x512.Idx → EReal :=
  fun i => attOut V c (i 0).val ⟨(i 1).val, (i 1).isLt⟩ ⟨(i 2).val, (i 2).isLt⟩

theorem flushed_eq (c : Dev nD) (t : Fin cfg2.N) (hf : (cfg2.win 3).flush t = true) :
    (dat V c).flushed 3 t = ((cfg2.win 3).blk t).view.read (Elt Ideal) (Gout V c) := by
  have h1 : t.val % 98 = 97 := (flush2_3 t).mp hf
  obtain ⟨e0, e1, e2, e3, e4, e5, e6, e7, e8, e9, e10⟩ := idx_facts t
  have hN : t.val < 196 := lt_of_lt_of_eq t.isLt (show cfg2.N = 196 from N_2)
  have hg : t.val / 98 < 2 := by omega
  show (cfg2.win 3).cut (grid2.coords t) ((dat V c).after 3 t) = _
  rw [after_3]
  funext y
  obtain ⟨a, r, d, rfl⟩ : ∃ (a : Fin 1) (r d : Fin 512), y = ix3 a r d := ⟨y 0, y 1, y 2, eq_ix3 y⟩
  obtain rfl : a = 0 := Subsingleton.elim _ _
  show (outsAt V c t.val t.isLt).1 (ix3 (0 : Fin 1) r d) = Gout V c (((cfg2.win 3).blk t).view.emb (ix3 (0 : Fin 1) r d))
  rw [out_closed V c t h1 r d]
  have hi : ((cfg2.win 3).blk t).view.emb (ix3 (0 : Fin 1) r d) = (ix3 (⟨t.val / 98, hg⟩ : Fin 2) r d : S2x512x512.Idx) := by
    funext b; apply Fin.ext
    match b with
    | ⟨0, _⟩ => show win2_3.index t (0 : Fin 3) * 1 + 1 * 0 = t.val / 98; omega
    | ⟨1, _⟩ => show win2_3.index t (1 : Fin 3) * 512 + 1 * r.val = r.val; omega
    | ⟨2, _⟩ => show win2_3.index t (2 : Fin 3) * 512 + 1 * d.val = d.val; omega
  rw [hi]
  rfl

theorem mem_blk (t : Fin cfg2.N) (i : S2x512x512.Idx) :
    i ∈ ((cfg2.win 3).blk t).view.set ↔ ∀ a : Fin 3, win2_3.index t a * S1x512x512.size a ≤ (i a).val ∧ (i a).val < win2_3.index t a * S1x512x512.size a + S1x512x512.size a := by
  show i ∈ ((View.whole main_v28).slice (win2_3.rect t)).set ↔ _
  rw [View.set_slice_whole, Rect.mem_set_unit]
  exact Iff.rfl

theorem cover (i : S2x512x512.Idx) : ∃ t : Fin cfg2.N, (cfg2.win 3).flush t = true ∧ i ∈ ((cfg2.win 3).blk t).view.set := by
  have hi0 : (i 0).val < 2 := (i 0).isLt
  have hi1 : (i 1).val < 512 := (i 1).isLt
  have hi2 : (i 2).val < 512 := (i 2).isLt
  have ht : 98 * (i 0).val + 97 < cfg2.N := by rw [show cfg2.N = 196 from N_2]; omega
  refine ⟨⟨98 * (i 0).val + 97, ht⟩, (flush2_3 _).mpr (by show (98 * (i 0).val + 97) % 98 = 97; omega), ?_⟩
  obtain ⟨e0, e1, e2, e3, e4, e5, e6, e7, e8, e9, e10⟩ := idx_facts ⟨98 * (i 0).val + 97, ht⟩
  rw [mem_blk]
  intro a
  match a with
  | ⟨0, _⟩ => show win2_3.index _ (0 : Fin 3) * 1 ≤ (i 0).val ∧ (i 0).val < win2_3.index _ (0 : Fin 3) * 1 + 1; dsimp only at e7; omega
  | ⟨1, _⟩ => show win2_3.index _ (1 : Fin 3) * 512 ≤ (i 1).val ∧ (i 1).val < win2_3.index _ (1 : Fin 3) * 512 + 512; omega
  | ⟨2, _⟩ => show win2_3.index _ (2 : Fin 3) * 512 ≤ (i 2).val ∧ (i 2).val < win2_3.index _ (2 : Fin 3) * 512 + 512; omega

/-- THE OUTPUT ARRAY after the region. -/
theorem final_out (c : Dev nD) : (dat V c).arrAt 3 cfg2.N = Gout V c :=
  (dat V c).arrAt_eq_of_cover 3 (Gout V c) (fun t hf => flushed_eq V c t hf) (cover)

end Cert.KernelIdeal.Flash2

end
-- ==== Proof.LibTileIndex.lean ====
import Mathlib

/-!
  Keys laid out in tiles.

  `Nv` keys are stored in `T` tiles of `B` slots each (`Nv ≤ T * B`): key `k` sits in slot `k % B` of tile `k / B`, and the
  slots past the last key are padding. A sum, or a maximum taken from −∞, over the occupied slots — the pairs (tile, slot) with
  `tile * B + slot < Nv` — is the sum, or the maximum, over the keys themselves.
-/

namespace Cert.TileIndex

open Finset

/-- The occupied slots: pairs (tile, slot) whose key number is below `Nv`. -/
def slots (T B Nv : ℕ) : Finset (ℕ × Fin B) :=
  (range T ×ˢ (univ : Finset (Fin B))).filter fun p => p.1 * B + p.2.val < Nv

theorem slot_mem {T B Nv : ℕ} (hB : 0 < B) (hN : Nv ≤ T * B) (k : ℕ) (hk : k < Nv) :
    (k / B, (⟨k % B, Nat.mod_lt _ hB⟩ : Fin B)) ∈ slots T B Nv := by
  unfold slots
  simp only [mem_filter, mem_product, mem_range, mem_univ, and_true]
  refine ⟨?_, ?_⟩
  · exact Nat.div_lt_of_lt_mul (by rw [Nat.mul_comm]; omega)
  · show k / B * B + k % B < Nv
    rw [Nat.div_add_mod']; exact hk

/-- A sum over the occupied slots is the sum over the keys. -/
theorem sum_slots {M : Type*} [AddCommMonoid M] (T B Nv : ℕ) (hB : 0 < B) (hN : Nv ≤ T * B) (f : ℕ → M) :
    ∑ p ∈ slots T B Nv, f (p.1 * B + p.2.val) = ∑ k : Fin Nv, f k.val := by
  rw [Fin.sum_univ_eq_sum_range (fun k => f k) Nv]
  refine Finset.sum_nbij' (fun p => p.1 * B + p.2.val) (fun k => (k / B, ⟨k % B, Nat.mod_lt _ hB⟩)) ?_ ?_ ?_ ?_ ?_
  · intro p hp
    unfold slots at hp
    exact mem_range.mpr (mem_filter.mp hp).2
  · intro k hk
    exact slot_mem hB hN k (mem_range.mp hk)
  · intro p hp
    have h2 := p.2.isLt
    refine Prod.ext ?_ (Fin.ext ?_)
    · show (p.1 * B + p.2.val) / B = p.1
      rw [Nat.mul_comm, Nat.mul_add_div hB, Nat.div_eq_of_lt h2, Nat.add_zero]
    · show (p.1 * B + p.2.val) % B = p.2.val
      rw [Nat.mul_comm, Nat.mul_add_mod, Nat.mod_eq_of_lt h2]
  · intro k hk
    show k / B * B + k % B = k
    exact Nat.div_add_mod' k B
  · intro p hp
    rfl

/-- A maximum from −∞ over the occupied slots is the maximum over the keys. -/
theorem fold_max_slots (T B Nv : ℕ) (hB : 0 < B) (hN : Nv ≤ T * B) (f : ℕ → EReal) :
    (slots T B Nv).fold max ⊥ (fun p => f (p.1 * B + p.2.val)) = (univ : Finset (Fin Nv)).fold max ⊥ (fun k => f k.val) := by
  apply eq_of_forall_ge_iff
  intro c
  rw [Finset.fold_max_le, Finset.fold_max_le]
  constructor
  · rintro ⟨h, hp⟩
    refine ⟨h, fun k _ => ?_⟩
    have h1 := hp _ (slot_mem hB hN k.val k.isLt)
    have e : k.val / B * B + k.val % B = k.val := Nat.div_add_mod' k.val B
    simpa only [e] using h1
  · rintro ⟨h, hk⟩
    refine ⟨h, fun p hp => ?_⟩
    unfold slots at hp
    exact hk ⟨_, (mem_filter.mp hp).2⟩ (mem_univ _)

end Cert.TileIndex
-- ==== Proof.Spec.lean ====
import Idealize.ShloMosaic.PureOps.Ideal.Laws
import Idealize.ShloMosaic.Lib.ValueIdx

/-!
  The function both programs compute, on the extended reals, entry by entry.

  Three query matrices (subject, relation, object), each 512 × 512, go through their own linear layer
  `x Wᵀ + b`. The entity bank (200000 × 512) and the relation bank (10000 × 512) each go through a key layer and a
  value layer. Each projected query matrix attends over its bank's keys: row `r` of the output is the average of
  the bank's value rows weighted by the softmax of the row's logits `q_r · k_n`. The softmax is the usual one:
  the exponentials of the logits less their maximum, divided by their sum. The result stacks the three outputs in
  the order subject, relation, object.
-/

noncomputable section

namespace Cert.Spec

open Idealize.ShloMosaic

/-- A linear layer `x Wᵀ + b`: entry `(i, e)` is `∑ d, x i d * w e d` plus `b e`. -/
def lin {A : ℕ} (x : Fin A → Fin 512 → EReal) (w : Fin 512 → Fin 512 → EReal) (b : Fin 512 → EReal) :
    Fin A → Fin 512 → EReal :=
  fun i e => (∑ d : Fin 512, x i d * w e d) + b e

/-- The logit of query row `r` against key `n`. -/
def logit {N : ℕ} (q : Fin 512 → Fin 512 → EReal) (k : Fin N → Fin 512 → EReal) (r : Fin 512) (n : Fin N) : EReal :=
  ∑ e : Fin 512, q r e * k n e

/-- The maximum of a row of logits, taken from −∞. -/
def rowMax {N : ℕ} (s : Fin N → EReal) : EReal := Finset.univ.fold max ⊥ s

/-- Softmax attention: entry `(r, d)` is `∑ n, (exp (s n − M) / S) * v n d` with `s` the row's logits, `M` their
    maximum and `S = ∑ n, exp (s n − M)`. -/
def attend {N : ℕ} (q : Fin 512 → Fin 512 → EReal) (k v : Fin N → Fin 512 → EReal) : Fin 512 → Fin 512 → EReal :=
  fun r d =>
    ∑ n, Ideal.div (Ideal.exp (logit q k r n - rowMax (logit q k r)))
        (∑ n', Ideal.exp (logit q k r n' - rowMax (logit q k r))) * v n d

/-- The whole result, `[subject, relation, object]`. -/
def result (sq rq oq : Fin 512 → Fin 512 → EReal) (ent : Fin 200000 → Fin 512 → EReal) (rel : Fin 10000 → Fin 512 → EReal)
    (wqs : Fin 512 → Fin 512 → EReal) (bqs : Fin 512 → EReal) (wqr : Fin 512 → Fin 512 → EReal) (bqr : Fin 512 → EReal)
    (wqo : Fin 512 → Fin 512 → EReal) (bqo : Fin 512 → EReal) (wke : Fin 512 → Fin 512 → EReal) (bke : Fin 512 → EReal)
    (wve : Fin 512 → Fin 512 → EReal) (bve : Fin 512 → EReal) (wkr : Fin 512 → Fin 512 → EReal) (bkr : Fin 512 → EReal)
    (wvr : Fin 512 → Fin 512 → EReal) (bvr : Fin 512 → EReal) : Fin 3 → Fin 512 → Fin 512 → EReal :=
  fun g => match g with
    | 0 => attend (lin sq wqs bqs) (lin ent wke bke) (lin ent wve bve)
    | 1 => attend (lin rq wqr bqr) (lin rel wkr bkr) (lin rel wvr bvr)
    | 2 => attend (lin oq wqo bqo) (lin ent wke bke) (lin ent wve bve)

end Cert.Spec

end
-- ==== Proof.KIFlash2Spec.lean ====
import proofs.«157278_j31636729102421_2_alg».proof.Proof.KIFlash2Final
import proofs.«157278_j31636729102421_2_alg».proof.Proof.LibTileIndex
import proofs.«157278_j31636729102421_2_alg».proof.Proof.Spec

/-! The attention call number 2 computes softmax attention. When every entry of the stacked queries, the key array and
    the value array is a real number, the blockwise recursion's quotient for query `(g, r)` and column `d` is the softmax
    attention of the query row over the 200000 keys that are not padding: a padded key's logit is −∞, its weight
    `exp (−∞ − M) = 0`, and the occupied slots of the 98 tiles are exactly the keys. -/

set_option maxRecDepth 16384

noncomputable section

namespace Cert.KernelIdeal.Flash2

open Cert.KernelIdeal Cert.KernelIdeal.Gen
open Idealize.ShloMosaic Idealize.ShloMosaic.TcCoe Idealize.ShloMosaic.ValueIdx
open Idealize.SL Idealize.SL.Sem
open Cert.OnlineSoftmax Cert.RealValued Cert.TileIndex

variable (V : (c : Dev nD) → (b : Ref sig .tc) → Buf (Elt Ideal) ((c : Thread nD τ).loc b))

theorem attOut_eq (c : Dev nD) (g : ℕ) (r d : Fin 512) (q : Fin 512 → Fin 512 → EReal) (kk vv : Fin 200000 → Fin 512 → EReal)
    (hQ : ∀ e, Qat V c g r e = q r e) (hK : ∀ (k : Fin 200000) e, Kat V c k.val e = kk k e) (hV : ∀ k : Fin 200000, Vat V c k.val d = vv k d)
    (hQr : ∀ e, IsReal (q r e)) (hKr : ∀ k e, IsReal (Kat V c k e)) (hVr : ∀ k, IsReal (Vat V c k d)) :
    attOut V c g r d = Cert.Spec.attend q kk vv r d := by
  -- the logit of key number `k`, and its value
  let L : ℕ → EReal := fun k => if h : k < 200000 then Cert.Spec.logit q kk r ⟨k, h⟩ else ⊥
  let W : ℕ → EReal := fun k => Vat V c k d
  have hsL : ∀ j (n : Fin 2048), j * 2048 + n.val < 200000 → sArr V c g r j n = L (j * 2048 + n.val) := by
    intro j n h
    show (if j * 2048 + n.val < 200000 then _ else _) = (if h : j * 2048 + n.val < 200000 then _ else _)
    rw [if_pos h, dif_pos h]
    unfold Cert.Spec.logit
    exact Finset.sum_congr rfl fun e _ => by rw [hQ e, hK ⟨_, h⟩ e]
  have hok : ∀ j (n : Fin 2048), ¬ (j * 2048 + n.val < 200000) → sArr V c g r j n = ⊥ := by
    intro j n h
    show (if j * 2048 + n.val < 200000 then _ else _) = _
    rw [if_neg h]
  have hreal : ∀ j (n : Fin 2048), j * 2048 + n.val < 200000 → IsReal (sArr V c g r j n) := by
    intro j n h
    show IsReal (if j * 2048 + n.val < 200000 then _ else _)
    rw [if_pos h]
    exact isReal_sum _ _ fun e _ => by rw [hQ e]; exact (hQr e).mul (hKr _ e)
  have hs : ∀ j (n : Fin 2048), sArr V c g r j n = ⊥ ∨ IsReal (sArr V c g r j n) := by
    intro j n
    by_cases h : j * 2048 + n.val < 200000
    · exact Or.inr (hreal j n h)
    · exact Or.inl (hok j n h)
  have hv : ∀ j (n : Fin 2048), IsReal (vArr V c d j n) := fun j n => hVr _
  have h0 : ∃ n : Fin 2048, IsReal (sArr V c g r 0 n) := ⟨⟨0, by decide⟩, hreal 0 _ (by decide)⟩
  unfold attOut
  rw [div_accrun_lrun_filter (sArr V c g r) (vArr V c d) (fun j (n : Fin 2048) => j * 2048 + n.val < 200000) hs hv h0 hok (by decide : 0 < 98),
    mrun_eq_fold_filter (sArr V c g r) (fun j (n : Fin 2048) => j * 2048 + n.val < 200000) hok 98]
  -- on the occupied slots everything is a function of the key number
  have hmem : ∀ p ∈ slots 98 2048 200000, p.1 * 2048 + p.2.val < 200000 := fun p hp => by
    unfold slots at hp; exact (Finset.mem_filter.mp hp).2
  have eM : (slots 98 2048 200000).fold max ⊥ (fun p => sArr V c g r p.1 p.2) = (Finset.univ : Finset (Fin 200000)).fold max ⊥ (fun k => L k.val) := by
    rw [← fold_max_slots 98 2048 200000 (by decide) (by decide) L]
    exact Finset.fold_congr fun p hp => hsL p.1 p.2 (hmem p hp)
  change ∑ p ∈ slots 98 2048 200000, Ideal.div (Ideal.exp (sArr V c g r p.1 p.2 - (slots 98 2048 200000).fold max ⊥ (fun p => sArr V c g r p.1 p.2)))
      (∑ p' ∈ slots 98 2048 200000, Ideal.exp (sArr V c g r p'.1 p'.2 - (slots 98 2048 200000).fold max ⊥ (fun p => sArr V c g r p.1 p.2))) * vArr V c d p.1 p.2 = _
  rw [eM]
  have eS : ∑ p' ∈ slots 98 2048 200000, Ideal.exp (sArr V c g r p'.1 p'.2 - (Finset.univ : Finset (Fin 200000)).fold max ⊥ (fun k => L k.val))
      = ∑ k : Fin 200000, Ideal.exp (L k.val - (Finset.univ : Finset (Fin 200000)).fold max ⊥ (fun k => L k.val)) := by
    rw [← sum_slots 98 2048 200000 (by decide) (by decide) (fun k => Ideal.exp (L k - (Finset.univ : Finset (Fin 200000)).fold max ⊥ (fun k => L k.val)))]
    exact Finset.sum_congr rfl fun p hp => by rw [hsL p.1 p.2 (hmem p hp)]
  rw [eS]
  have eT : ∑ p ∈ slots 98 2048 200000, Ideal.div (Ideal.exp (sArr V c g r p.1 p.2 - (Finset.univ : Finset (Fin 200000)).fold max ⊥ (fun k => L k.val)))
        (∑ k : Fin 200000, Ideal.exp (L k.val - (Finset.univ : Finset (Fin 200000)).fold max ⊥ (fun k => L k.val))) * vArr V c d p.1 p.2
      = ∑ k : Fin 200000, Ideal.div (Ideal.exp (L k.val - (Finset.univ : Finset (Fin 200000)).fold max ⊥ (fun k => L k.val)))
        (∑ k : Fin 200000, Ideal.exp (L k.val - (Finset.univ : Finset (Fin 200000)).fold max ⊥ (fun k => L k.val))) * W k.val := by
    rw [← sum_slots 98 2048 200000 (by decide) (by decide) (fun k => Ideal.div (Ideal.exp (L k - (Finset.univ : Finset (Fin 200000)).fold max ⊥ (fun k => L k.val)))
        (∑ k : Fin 200000, Ideal.exp (L k.val - (Finset.univ : Finset (Fin 200000)).fold max ⊥ (fun k => L k.val))) * W k)]
    exact Finset.sum_congr rfl fun p hp => by rw [hsL p.1 p.2 (hmem p hp)]; exact rfl
  rw [eT]
  -- the keys' logits and values are the specification's
  have eL : ∀ k : Fin 200000, L k.val = Cert.Spec.logit q kk r k := fun k => by
    show (if h : k.val < 200000 then _ else _) = _
    rw [dif_pos k.isLt]
  unfold Cert.Spec.attend Cert.Spec.rowMax
  simp only [eL]
  exact Finset.sum_congr rfl fun k _ => by rw [show W k.val = vv k d from hV k]

end Cert.KernelIdeal.Flash2

end
-- ==== Proof.KIFlash3Val.lean ====
import proofs.«157278_j31636729102421_2_alg».proof.Proof.KIFlash3
import Idealize.ShloMosaic.Lib.Pipeline.Value

/-! What each case of the attention call number 3 leaves in the three scratch buffers and in the output block, as the
    body's own arithmetic of the blocks it loads: the new running maximum, the new normalizer, the new unnormalized
    output (at the first key tile over the reset values −∞, 0, 0), and at the last key tile the quotient stored. -/

set_option maxRecDepth 16384

noncomputable section

namespace Cert.KernelIdeal.Flash3

open Cert.KernelIdeal Cert.KernelIdeal.Gen
open Idealize.ShloMosaic Idealize.ShloMosaic.TcCoe Idealize.ShloMosaic.Tactic
open Idealize.SL Idealize.SL.Sem

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

/-- The running maximum after this case. -/
theorem sout_A_0_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_0 (F := F) c i arg2 harg2 arg3 harg3 arg4 harg4 arg5 harg5 arg6 harg6 arg7 harg7 arg8 harg8 hc0 hc1 x0 x1 x2 = k3_pay3 (k3_pay10 i x0 x1 (k3_pay5 (F := F))) := by
  unfold sout_A_0
  rw [View.read_writes_eq_canon _ _ _ (scover_A_0 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_A_1_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_1 (F := F) c i arg2 harg2 arg3 harg3 arg4 harg4 arg5 harg5 arg6 harg6 arg7 harg7 arg8 harg8 hc0 hc1 x0 x1 x2 = k3_pay1 (k3_pay13 i x0 x1 (k3_pay5 (F := F)) (k3_pay5 (F := F)) (k3_pay6 (F := F))) := by
  unfold sout_A_1
  rw [View.read_writes_eq_canon _ _ _ (scover_A_1 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_A_2_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : cond0 i) (hc1 : ¬cond1 i)
    (x0 : Vec F S1x512x512 .f32) (x1 : Vec F S2048x512 .f32) (x2 : Vec F S2048x512 .bf16) :
    sout_A_2 (F := F) c i arg2 harg2 arg3 harg3 arg4 harg4 arg5 harg5 arg6 harg6 arg7 harg7 arg8 harg8 hc0 hc1 x0 x1 x2 = k3_pay2 (k3_pay8 x2) (k3_pay11 i x0 x1 (k3_pay5 (F := F)) (k3_pay5 (F := F))) (k3_pay12 i x0 x1 (k3_pay5 (F := F))) (k3_pay7 (F := F)) := by
  unfold sout_A_2
  rw [View.read_writes_eq_canon _ _ _ (scover_A_2 c i arg2 harg2 arg3 harg3 arg4 harg4 arg5 harg5 arg6 harg6 arg7 harg7 arg8 harg8 hc0 hc1 x0 x1 x2)]
  unfold kernelRun_A
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The running maximum after this case. -/
theorem sout_B_0_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_0 (F := F) c i arg2 harg2 arg3 harg3 arg4 harg4 arg5 harg5 arg6 harg6 arg7 harg7 arg8 harg8 hc0 hc1 x0 x1 x2 xs0 xs1 xs2 = k3_pay3 (k3_pay10 i x0 x1 xs0) := by
  unfold sout_B_0
  rw [View.read_writes_eq_canon _ _ _ (scover_B_0 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_B_1_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_1 (F := F) c i arg2 harg2 arg3 harg3 arg4 harg4 arg5 harg5 arg6 harg6 arg7 harg7 arg8 harg8 hc0 hc1 x0 x1 x2 xs0 xs1 xs2 = k3_pay1 (k3_pay13 i x0 x1 xs0 xs0 xs1) := by
  unfold sout_B_1
  rw [View.read_writes_eq_canon _ _ _ (scover_B_1 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_B_2_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : ¬cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_B_2 (F := F) c i arg2 harg2 arg3 harg3 arg4 harg4 arg5 harg5 arg6 harg6 arg7 harg7 arg8 harg8 hc0 hc1 x0 x1 x2 xs0 xs1 xs2 = k3_pay2 (k3_pay8 x2) (k3_pay11 i x0 x1 xs0 xs0) (k3_pay12 i x0 x1 xs0) xs2 := by
  unfold sout_B_2
  rw [View.read_writes_eq_canon _ _ _ (scover_B_2 c i arg2 harg2 arg3 harg3 arg4 harg4 arg5 harg5 arg6 harg6 arg7 harg7 arg8 harg8 hc0 hc1 x0 x1 x2 xs0 xs1 xs2)]
  unfold kernelRun_B
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The running maximum after this case. -/
theorem sout_C_0_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_0 (F := F) c i arg2 harg2 arg3 harg3 arg4 harg4 arg5 harg5 arg6 harg6 arg7 harg7 arg8 harg8 hc0 hc1 x0 x1 x2 xs0 xs1 xs2 = k3_pay3 (k3_pay10 i x0 x1 xs0) := by
  unfold sout_C_0
  rw [View.read_writes_eq_canon _ _ _ (scover_C_0 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The normalizer after this case. -/
theorem sout_C_1_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_1 (F := F) c i arg2 harg2 arg3 harg3 arg4 harg4 arg5 harg5 arg6 harg6 arg7 harg7 arg8 harg8 hc0 hc1 x0 x1 x2 xs0 xs1 xs2 = k3_pay1 (k3_pay13 i x0 x1 xs0 xs0 xs1) := by
  unfold sout_C_1
  rw [View.read_writes_eq_canon _ _ _ (scover_C_1 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]
/-- The unnormalized output after this case. -/
theorem sout_C_2_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    sout_C_2 (F := F) c i arg2 harg2 arg3 harg3 arg4 harg4 arg5 harg5 arg6 harg6 arg7 harg7 arg8 harg8 hc0 hc1 x0 x1 x2 xs0 xs1 xs2 = k3_pay2 (k3_pay8 x2) (k3_pay11 i x0 x1 xs0 xs0) (k3_pay12 i x0 x1 xs0) xs2 := by
  unfold sout_C_2
  rw [View.read_writes_eq_canon _ _ _ (scover_C_2 c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz2]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

/-- The output block at the last key tile: the quotient of the unnormalized output by the normalizer. -/
theorem out_C_eq (c : Dev nD) (i : grid3.Coords) (arg2 : Memref sig .tc .vmem S1x512x512 .f32) (harg2 : arg2.IsWhole) (arg3 : Memref sig .tc .vmem S2048x512 .f32) (harg3 : arg3.IsWhole) (arg4 : Memref sig .tc .vmem S2048x512 .bf16) (harg4 : arg4.IsWhole) (arg5 : Memref sig .tc .vmem S1x512x512 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x512 .f32) (harg8 : arg8.IsWhole) (hc0 : ¬cond0 i) (hc1 : cond1 i)
    (x0 : Vec F S1x512x512 .f32) (x1 : Vec F S2048x512 .f32) (x2 : Vec F S2048x512 .bf16) (xs0 : Vec F S512x1 .f32) (xs1 : Vec F S512x1 .f32) (xs2 : Vec F S512x512 .f32) :
    out_C (F := F) c i arg2 harg2 arg3 harg3 arg4 harg4 arg5 harg5 arg6 harg6 arg7 harg7 arg8 harg8 hc0 hc1 x0 x1 x2 xs0 xs1 xs2 = k3_pay4 (k3_pay2 (k3_pay8 x2) (k3_pay11 i x0 x1 xs0 xs0) (k3_pay12 i x0 x1 xs0) xs2) (k3_pay1 (k3_pay13 i x0 x1 xs0 xs0 xs1)) := by
  unfold out_C
  rw [View.read_writes_eq_canon _ _ _ (cover_C c i arg2 harg2 arg3 harg3 arg4 harg4 arg5 harg5 arg6 harg6 arg7 harg7 arg8 harg8 hc0 hc1 x0 x1 x2 xs0 xs1 xs2)]
  unfold kernelRun_C
  dsimp only
  sl_unfold_words
  rw [View.canon_cons_unit_zero hz3]
  simp only [View.readAt_eq_ld, View.readCov_unit_zero (S := S512x1) arg6.view hz2, View.readCov_unit_zero (S := S512x1) arg7.view hz2, View.readCov_unit_zero (S := S512x512) arg8.view hz2, harg2.read_unread, harg3.read_unread, harg4.read_unread, harg6.read_unread, harg7.read_unread, harg8.read_unread,
    View.ld_unit_zero (S := S1x512x512) hz3, View.ld_unit_zero (S := S2048x512) hz2, View.ld_unit_zero (S := S512x1) hz2, View.ld_unit_zero (S := S512x512) hz2]

end Cert.KernelIdeal.Flash3

end
-- ==== Proof.PayFlash3.lean ====
/-
  The attention body of call 3, payload by payload, read at an index: the masked logits of a query block against one
  key tile, the new running maximum, the rescale factor, the tile's weights, the new normalizer, the new running output,
  the final division, and the initial values.
-/
import proofs.«157278_j31636729102421_2_alg».proof.Proof.PayOps

noncomputable section

open scoped BigOperators

namespace Cert.KernelIdeal.PayFlash3

open Idealize.ShloMosaic Idealize.ShloMosaic.ValueIdx Cert.KernelIdeal Cert.KernelIdeal.Gen Cert.KernelIdeal.PayOps

/-! ## The attention body of call 3, payload by payload

`i` is the grid point (its second coordinate the key tile), `v3` the query block, `v5` the key tile, `v7` / `v8` the
value tile, `v18` = `v22` the running maximum, `v28` the running normalizer, `v36` the running output. -/

/-- The masked logit of query row `r` against column `n` of key tile `(i 1)`: the inner product of the query row with
    the key row where the key's index `(i 1) * 2048 + n` is inside the bank of 10000 keys, `⊥` on the padding. -/
def slog (i : grid3.Coords) (v3 : Vec Ideal S1x512x512 .f32) (v5 : Vec Ideal S2048x512 .f32) (r : Fin 512) (n : Fin 2048) : EReal :=
  if (i 1).val * 2048 + n.val < 10000 then ∑ d : Fin 512, v3 (ix3 (0 : Fin 1) r d) * v5 (ix2 n d) else ⊥

/-- The masked logits tile at `(r, n)`: the product `q (r, d) * k (n, d)` summed over `d`, selected against the
    named constant (which denotes `⊥`) by the comparison word of the key index. -/
theorem k3_pay9_apply (i : grid3.Coords) (v3 : Vec Ideal S1x512x512 .f32) (v5 : Vec Ideal S2048x512 .f32)
    (r : Fin 512) (n : Fin 2048) : k3_pay9 i v3 v5 (ix2 r n) = slog i v3 v5 r n := by
  have hi : (i 1).val < 5 := (i 1).isLt
  have hn : n.val < 2048 := n.isLt
  have hiota : iota .tc S512x2048 32 [1] iota_S512x2048_d1_w32 (ix2 r n) = BitVec.ofNat 32 n.val :=
    iota_single_apply _ _ _ _ _ _
  have hbig : Named.named (F := Ideal) κ "neg_big" (φ := .f32) 0xFF333332#32 = (⊥ : EReal) :=
    IdealRules.named_const.ideal_named_scalar _ _ _ _ rfl
  show Scalar.select
      (IntOp.cmpi .slt (IntOp.addi (Scalar.muli (BitVec.ofNat 32 (i 1).val) 2048#32)
        (iota .tc S512x2048 32 [1] iota_S512x2048_d1_w32 (ix2 r n))) (BitVec.ofNat 32 10000))
      (matmul dot_S512x512_S2048x512_S512x2048_1_1_0_0_n_n none
        (shapeCast S512x512 v3 shapeCasts_S1x512x512_S512x512) (shapeCast S2048x512 v5 shapeCasts_S2048x512_S2048x512)
        (constant S512x2048 .f32 0x00000000#32) (ix2 r n))
      (Named.named (F := Ideal) κ "neg_big" (φ := .f32) 0xFF333332#32) = _
  rw [hiota, mask_word (i 1).val n.val 10000 (by omega) hn (by omega), hbig, matmul_logits_apply, shapeCast_self]
  unfold slog
  by_cases h : (i 1).val * 2048 + n.val < 10000
  · rw [if_pos h, if_pos h, select_one]
    exact Finset.sum_congr rfl fun d _ => by rw [shapeCast_1ab_ab_apply]
  · rw [if_neg h, if_neg h, select_zero]

/-- The new running maximum at row `r`: the larger of the old one and the largest masked logit of the tile's row. -/
theorem k3_pay10_apply (i : grid3.Coords) (v3 : Vec Ideal S1x512x512 .f32) (v5 : Vec Ideal S2048x512 .f32)
    (v18 : Vec Ideal S512x1 .f32) (r : Fin 512) :
    k3_pay10 i v3 v5 v18 (ix2 r (0 : Fin 1))
      = max (v18 (ix2 r (0 : Fin 1))) ((Finset.univ : Finset (Fin 2048)).fold max ⊥ (slog i v3 v5 r)) := by
  have hrow : (fun n : Fin 2048 => k3_pay9 i v3 v5 (ix2 r n)) = slog i v3 v5 r := funext (k3_pay9_apply i v3 v5 r)
  unfold k3_pay10
  rw [maximumf_apply, Cert.Lib.Column.shapeCast_a_a1_apply, rowmax_apply, hrow]

/-- The rescale factor at row `r`: the exponential of the old running maximum minus the new one. -/
theorem k3_pay11_apply (i : grid3.Coords) (v3 : Vec Ideal S1x512x512 .f32) (v5 : Vec Ideal S2048x512 .f32)
    (v18 v22 : Vec Ideal S512x1 .f32) (r : Fin 512) :
    k3_pay11 i v3 v5 v18 v22 (ix2 r (0 : Fin 1))
      = Ideal.exp (v22 (ix2 r (0 : Fin 1)) - k3_pay10 i v3 v5 v18 (ix2 r (0 : Fin 1))) := rfl

/-- The tile's weights at `(r, n)`: the exponential of the masked logit minus the row's new running maximum. -/
theorem k3_pay12_apply (i : grid3.Coords) (v3 : Vec Ideal S1x512x512 .f32) (v5 : Vec Ideal S2048x512 .f32)
    (v18 : Vec Ideal S512x1 .f32) (r : Fin 512) (n : Fin 2048) :
    k3_pay12 i v3 v5 v18 (ix2 r n)
      = Ideal.exp (slog i v3 v5 r n - k3_pay10 i v3 v5 v18 (ix2 r (0 : Fin 1))) := by
  show Ideal.exp (k3_pay9 i v3 v5 (ix2 r n)
      - broadcastTo S512x2048 (k3_pay10 i v3 v5 v18) broadcasts_S512x1_S512x2048 (ix2 r n)) = _
  rw [k3_pay9_apply, Cert.Lib.Column.broadcastTo_a1_ab_apply]

/-- The new normalizer at row `r`: the old one rescaled, plus the sum of the tile's weights along the row (the
    reduction starts from the zero word). -/
theorem k3_pay13_apply (i : grid3.Coords) (v3 : Vec Ideal S1x512x512 .f32) (v5 : Vec Ideal S2048x512 .f32)
    (v18 v22 v28 : Vec Ideal S512x1 .f32) (r : Fin 512) :
    k3_pay13 i v3 v5 v18 v22 v28 (ix2 r (0 : Fin 1))
      = k3_pay11 i v3 v5 v18 v22 (ix2 r (0 : Fin 1)) * v28 (ix2 r (0 : Fin 1))
        + ∑ n : Fin 2048, k3_pay12 i v3 v5 v18 (ix2 r n) := by
  show k3_pay11 i v3 v5 v18 v22 (ix2 r (0 : Fin 1)) * v28 (ix2 r (0 : Fin 1))
      + shapeCast S512x1
        (multiReduction .add [1] S512 (k3_pay12 i v3 v5 v18) 0x00000000#32 reduces_S512x2048_S512 (.inl rfl) rfl)
        shapeCasts_S512_S512x1 (ix2 r (0 : Fin 1)) = _
  rw [Cert.Lib.Column.shapeCast_a_a1_apply, rowsum_apply]

/-- The new running output at `(r, d)`: the old one rescaled by the row's factor, plus the tile's weights times the
    value tile (a product into a zero accumulator; the weights' change of format is the identity). -/
theorem k3_pay2_apply (v8 : FVec Ideal S2048x512 .bf16) (v24 : FVec Ideal S512x1 .f32) (v27 : FVec Ideal S512x2048 .f32)
    (v36 : Vec Ideal S512x512 .f32) (r : Fin 512) (d : Fin 512) :
    k3_pay2 v8 v24 v27 v36 (ix2 r d)
      = v24 (ix2 r (0 : Fin 1)) * v36 (ix2 r d) + ∑ n : Fin 2048, v27 (ix2 r n) * v8 (ix2 n d) := by
  unfold k3_pay2
  rw [shapeCast_self]
  show broadcastTo S512x512 v24 broadcasts_S512x1_S512x512 (ix2 r d) * v36 (ix2 r d)
      + matmul dot_S512x2048_S2048x512_S512x512_1_0_0_1_n_n none (truncf .bf16 v27 bitsLt_bf16_f32) v8
        (constant S512x512 .f32 0x00000000#32) (ix2 r d) = _
  rw [Cert.Lib.Column.broadcastTo_a1_ab_apply, matmul_mix_apply]
  rfl

/-- The stored normalizer is the computed one: a cast to the same shape. -/
theorem k3_pay1_eq (v32 : FVec Ideal S512x1 .f32) : k3_pay1 v32 = v32 := shapeCast_self _ _

/-- The stored running maximum is the computed one: a cast to the same shape. -/
theorem k3_pay3_eq (v21 : FVec Ideal S512x1 .f32) : k3_pay3 v21 = v21 := shapeCast_self _ _

/-- The value tile enters the product as loaded: a cast to the same shape. -/
theorem k3_pay8_eq (v7 : Vec Ideal S2048x512 .bf16) : k3_pay8 v7 = v7 := shapeCast_self _ _

/-- The result block at `(0, r, d)`: the running output divided by the row's normalizer. -/
theorem k3_pay4_apply (v51 : Vec Ideal S512x512 .f32) (v52 : Vec Ideal S512x1 .f32) (r : Fin 512) (d : Fin 512) :
    k3_pay4 v51 v52 (ix3 (0 : Fin 1) r d) = Ideal.div (v51 (ix2 r d)) (v52 (ix2 r (0 : Fin 1))) := by
  unfold k3_pay4
  rw [shapeCast_ab_1ab_apply]
  show Ideal.div (v51 (ix2 r d)) (broadcastTo S512x512 v52 broadcasts_S512x1_S512x512 (ix2 r d)) = _
  rw [Cert.Lib.Column.broadcastTo_a1_ab_apply]

/-- The running maximum starts at `⊥` in every row. -/
theorem k3_pay5_apply (j : S512x1.Idx) : k3_pay5 (F := Ideal) j = ⊥ := by
  unfold k3_pay5
  rw [shapeCast_self]
  exact ofBits_neg_inf_f32

/-- The normalizer starts at `0` in every row. -/
theorem k3_pay6_apply (j : S512x1.Idx) : k3_pay6 (F := Ideal) j = 0 := by
  unfold k3_pay6
  rw [shapeCast_self]
  exact Ideal.ofBits_zero_f32

/-- The running output starts at `0` everywhere. -/
theorem k3_pay7_apply (j : S512x512.Idx) : k3_pay7 (F := Ideal) j = 0 := by
  unfold k3_pay7
  rw [shapeCast_self]
  exact Ideal.ofBits_zero_f32

end Cert.KernelIdeal.PayFlash3

end
-- ==== Proof.KIFlash3Closed.lean ====
import proofs.«157278_j31636729102421_2_alg».proof.Proof.KIFlash3Val
import proofs.«157278_j31636729102421_2_alg».proof.Proof.PayFlash3
import proofs.«157278_j31636729102421_2_alg».proof.Proof.LibOnlineSoftmax
import Idealize.ShloMosaic.Lib.ValueIdx

/-! The attention call number 3 on exact numbers, in closed form. Fix a query group `g` and a query row `r`. Key tile
    `j` of the padded key array has the masked logits `s j n` (the dot product of the query row with key `2048 j + n`, or
    −∞ for a padded key) and, for an output column `d`, the values `v j n`. After the body at tile `j` of group `g` the
    three scratch buffers hold, at row `r`, the running maximum, the normalizer and the unnormalized output of the blockwise
    softmax recursion after `j + 1` tiles; at the last tile the output block holds their quotient. -/

set_option maxRecDepth 16384

noncomputable section

namespace Cert.KernelIdeal.Flash3

open Cert.KernelIdeal Cert.KernelIdeal.Gen Cert.KernelIdeal.PayFlash3
open Idealize.ShloMosaic Idealize.ShloMosaic.TcCoe Idealize.ShloMosaic.ValueIdx
open Idealize.SL Idealize.SL.Sem
open Cert.OnlineSoftmax

/-! ## One tile's step, at a row, over any loaded blocks -/

section Step
variable (i : grid3.Coords) (x0 : Vec Ideal S1x512x512 .f32) (x1 : Vec Ideal S2048x512 .f32) (x2 : Vec Ideal S2048x512 .bf16)
  (pM pL : Vec Ideal S512x1 .f32) (pA : Vec Ideal S512x512 .f32) (r : Fin 512) (s : ℕ → Fin 2048 → EReal) (j : ℕ)
  (hs : ∀ n, slog i x0 x1 r n = s j n) (hM : pM (ix2 r (0 : Fin 1)) = mrun s j)

include hs hM in
theorem step_max : k3_pay10 i x0 x1 pM (ix2 r (0 : Fin 1)) = mrun s (j + 1) := by
  rw [k3_pay10_apply, hM, show slog i x0 x1 r = s j from funext hs]; rfl

include hs hM in
theorem step_M : k3_pay3 (k3_pay10 i x0 x1 pM) (ix2 r (0 : Fin 1)) = mrun s (j + 1) := by
  rw [k3_pay3_eq]; exact step_max i x0 x1 pM r s j hs hM

include hs hM in
theorem step_L (hL : pL (ix2 r (0 : Fin 1)) = lrun s j) :
    k3_pay1 (k3_pay13 i x0 x1 pM pM pL) (ix2 r (0 : Fin 1)) = lrun s (j + 1) := by
  have h10 := step_max i x0 x1 pM r s j hs hM
  rw [k3_pay1_eq, k3_pay13_apply, k3_pay11_apply, hL, hM, h10]
  simp only [k3_pay12_apply, h10, hs]
  rfl

include hs hM in
theorem step_A (d : Fin 512) (v : ℕ → Fin 2048 → EReal) (hv : ∀ n, x2 (ix2 n d) = v j n) (hA : pA (ix2 r d) = accrun s v j) :
    k3_pay2 (k3_pay8 x2) (k3_pay11 i x0 x1 pM pM) (k3_pay12 i x0 x1 pM) pA (ix2 r d) = accrun s v (j + 1) := by
  have h10 := step_max i x0 x1 pM r s j hs hM
  rw [k3_pay2_apply, k3_pay11_apply, k3_pay8_eq, hA, hM, h10]
  simp only [k3_pay12_apply, h10, hs, hv]
  rfl
end Step

/-! ## The arrays as the region finds them, and the blocks read off them -/

variable (V : (c : Dev nD) → (b : Ref sig .tc) → Buf (Elt Ideal) ((c : Thread nD τ).loc b))

/-- Entry `(g, r, d)` of the stacked queries (0 outside the array). -/
def Qat (c : Dev nD) (g : ℕ) (r d : Fin 512) : EReal := if h : g < 1 then V c main_v27 (ix3 (⟨g, h⟩ : Fin 1) r d) else 0
/-- Entry `(k, d)` of the padded key array (0 outside). -/
def Kat (c : Dev nD) (k : ℕ) (d : Fin 512) : EReal := if h : k < 10240 then V c main_v23_0 (ix2 (⟨k, h⟩ : Fin 10240) d) else 0
/-- Entry `(k, d)` of the padded value array (0 outside). -/
def Vat (c : Dev nD) (k : ℕ) (d : Fin 512) : EReal := if h : k < 10240 then V c main_v23_1 (ix2 (⟨k, h⟩ : Fin 10240) d) else 0
/-- The masked logit of query `(g, r)` against key `n` of tile `j`. -/
def sArr (c : Dev nD) (g : ℕ) (r : Fin 512) (j : ℕ) (n : Fin 2048) : EReal :=
  if j * 2048 + n.val < 10000 then ∑ d : Fin 512, Qat V c g r d * Kat V c (j * 2048 + n.val) d else ⊥
/-- The values of tile `j` at output column `d`. -/
def vArr (c : Dev nD) (d : Fin 512) (j : ℕ) (n : Fin 2048) : EReal := Vat V c (j * 2048 + n.val) d

theorem idx_facts : ∀ t : Fin cfg3.N,
    win3_0.index t (0 : Fin 3) = t.val / 5 ∧ win3_0.index t (1 : Fin 3) = 0 ∧ win3_0.index t (2 : Fin 3) = 0
  ∧ win3_1.index t (0 : Fin 2) = t.val % 5 ∧ win3_1.index t (1 : Fin 2) = 0
  ∧ win3_2.index t (0 : Fin 2) = t.val % 5 ∧ win3_2.index t (1 : Fin 2) = 0
  ∧ win3_3.index t (0 : Fin 3) = t.val / 5 ∧ win3_3.index t (1 : Fin 3) = 0 ∧ win3_3.index t (2 : Fin 3) = 0
  ∧ ((grid3.coords t) 1).val = t.val % 5 :=
  (by decide +kernel : ∀ t : Fin grid3.N, _)

theorem iblk_0_apply (c : Dev nD) (t : Fin cfg3.N) (r d : Fin 512) :
    iblk V c 0 t (ix3 (0 : Fin 1) r d) = Qat V c (t.val / 5) r d := by
  obtain ⟨e0, e1, e2, e3, e4, e5, e6, e7, e8, e9, e10⟩ := idx_facts t
  have hN : t.val < 5 := lt_of_lt_of_eq t.isLt (show cfg3.N = 5 from N_3)
  have hg : t.val / 5 < 1 := by omega
  unfold Qat; rw [dif_pos hg]
  show V c main_v27 (((cfg3.win 0).blk t).view.emb (ix3 (0 : Fin 1) r d)) = _
  congr 1
  funext a; apply Fin.ext
  match a with
  | ⟨0, _⟩ => show win3_0.index t (0 : Fin 3) * 1 + 1 * 0 = t.val / 5; omega
  | ⟨1, _⟩ => show win3_0.index t (1 : Fin 3) * 512 + 1 * r.val = r.val; omega
  | ⟨2, _⟩ => show win3_0.index t (2 : Fin 3) * 512 + 1 * d.val = d.val; omega

theorem iblk_1_apply (c : Dev nD) (t : Fin cfg3.N) (n : Fin 2048) (d : Fin 512) :
    iblk V c 1 t (ix2 n d) = Kat V c (t.val % 5 * 2048 + n.val) d := by
  obtain ⟨e0, e1, e2, e3, e4, e5, e6, e7, e8, e9, e10⟩ := idx_facts t
  have hn : n.val < 2048 := n.isLt
  have hk : t.val % 5 * 2048 + n.val < 10240 := by omega
  unfold Kat; rw [dif_pos hk]
  show V c main_v23_0 (((cfg3.win 1).blk t).view.emb (ix2 n d)) = _
  congr 1
  funext a; apply Fin.ext
  match a with
  | ⟨0, _⟩ => show win3_1.index t (0 : Fin 2) * 2048 + 1 * n.val = t.val % 5 * 2048 + n.val; omega
  | ⟨1, _⟩ => show win3_1.index t (1 : Fin 2) * 512 + 1 * d.val = d.val; omega

theorem iblk_2_apply (c : Dev nD) (t : Fin cfg3.N) (n : Fin 2048) (d : Fin 512) :
    iblk V c 2 t (ix2 n d) = Vat V c (t.val % 5 * 2048 + n.val) d := by
  obtain ⟨e0, e1, e2, e3, e4, e5, e6, e7, e8, e9, e10⟩ := idx_facts t
  have hn : n.val < 2048 := n.isLt
  have hk : t.val % 5 * 2048 + n.val < 10240 := by omega
  unfold Vat; rw [dif_pos hk]
  show V c main_v23_1 (((cfg3.win 2).blk t).view.emb (ix2 n d)) = _
  congr 1
  funext a; apply Fin.ext
  match a with
  | ⟨0, _⟩ => show win3_2.index t (0 : Fin 2) * 2048 + 1 * n.val = t.val % 5 * 2048 + n.val; omega
  | ⟨1, _⟩ => show win3_2.index t (1 : Fin 2) * 512 + 1 * d.val = d.val; omega

/-- The body's masked logits at point `t` are the arrays' at group `t / 5`, tile `t % 5`. -/
theorem slog_blk (c : Dev nD) (t : Fin cfg3.N) (r : Fin 512) (n : Fin 2048) :
    slog (grid3.coords t) (iblk V c 0 t) (iblk V c 1 t) r n = sArr V c (t.val / 5) r (t.val % 5) n := by
  obtain ⟨e0, e1, e2, e3, e4, e5, e6, e7, e8, e9, e10⟩ := idx_facts t
  unfold slog sArr
  rw [e10]
  simp only [iblk_0_apply, iblk_1_apply]

/-! ## After every point -/

/-- After the body at position `n` the scratch buffers hold, row by row, the blockwise softmax recursion after `n % 5 + 1`
    tiles of group `n / 5`. -/
theorem outsAt_closed (c : Dev nD) : ∀ (n : ℕ) (hn : n < cfg3.N),
    (∀ r : Fin 512, (outsAt V c n hn).2.1 (ix2 r (0 : Fin 1)) = mrun (sArr V c (n / 5) r) (n % 5 + 1))
    ∧ (∀ r : Fin 512, (outsAt V c n hn).2.2.1 (ix2 r (0 : Fin 1)) = lrun (sArr V c (n / 5) r) (n % 5 + 1))
    ∧ (∀ r d : Fin 512, (outsAt V c n hn).2.2.2 (ix2 r d) = accrun (sArr V c (n / 5) r) (vArr V c d) (n % 5 + 1)) := by
  intro n
  induction n with
  | zero =>
    intro hn
    have hA := outsAt_A V c ⟨0, hn⟩ (Nat.zero_mod _) (by show ¬ (0 : ℕ) % 5 = 4; decide)
    have hs : ∀ r n, slog (grid3.coords ⟨0, hn⟩) (iblk V c 0 ⟨0, hn⟩) (iblk V c 1 ⟨0, hn⟩) r n = sArr V c (0 / 5) r (0 % 5) n := fun r n => slog_blk V c ⟨0, hn⟩ r n
    refine ⟨fun r => ?_, fun r => ?_, fun r d => ?_⟩
    · rw [show (outsAt V c 0 hn) = _ from hA]; dsimp only; rw [sout_A_0_eq]
      exact step_M _ _ _ _ r _ 0 (hs r) (k3_pay5_apply _)
    · rw [show (outsAt V c 0 hn) = _ from hA]; dsimp only; rw [sout_A_1_eq]
      exact step_L _ _ _ _ _ r _ 0 (hs r) (k3_pay5_apply _) (k3_pay6_apply _)
    · rw [show (outsAt V c 0 hn) = _ from hA]; dsimp only; rw [sout_A_2_eq]
      exact step_A _ _ _ _ _ _ r _ 0 (hs r) (k3_pay5_apply _) d (vArr V c d) (fun n => iblk_2_apply V c ⟨0, hn⟩ n d) (k3_pay7_apply _)
  | succ n ih =>
    intro hn
    have hN : n + 1 < 5 := lt_of_lt_of_eq hn (show cfg3.N = 5 from N_3)
    have hs : ∀ r m, slog (grid3.coords ⟨n + 1, hn⟩) (iblk V c 0 ⟨n + 1, hn⟩) (iblk V c 1 ⟨n + 1, hn⟩) r m = sArr V c ((n + 1) / 5) r ((n + 1) % 5) m := fun r m => slog_blk V c ⟨n + 1, hn⟩ r m
    by_cases h0 : (n + 1) % 5 = 0
    · have h1 : ¬ (n + 1) % 5 = 4 := by omega
      have hA := outsAt_A V c ⟨n + 1, hn⟩ h0 h1
      refine ⟨fun r => ?_, fun r => ?_, fun r d => ?_⟩
      · rw [show (outsAt V c (n + 1) hn) = _ from hA]; dsimp only; rw [sout_A_0_eq, h0]
        exact step_M _ _ _ _ r _ 0 (fun m => by rw [hs r m, h0]) (k3_pay5_apply _)
      · rw [show (outsAt V c (n + 1) hn) = _ from hA]; dsimp only; rw [sout_A_1_eq, h0]
        exact step_L _ _ _ _ _ r _ 0 (fun m => by rw [hs r m, h0]) (k3_pay5_apply _) (k3_pay6_apply _)
      · rw [show (outsAt V c (n + 1) hn) = _ from hA]; dsimp only; rw [sout_A_2_eq, h0]
        exact step_A _ _ _ _ _ _ r _ 0 (fun m => by rw [hs r m, h0]) (k3_pay5_apply _) d (vArr V c d) (fun m => by rw [iblk_2_apply V c ⟨n + 1, hn⟩ m d]; show Vat V c ((n + 1) % 5 * 2048 + m.val) d = _; rw [h0]; rfl) (k3_pay7_apply _)
    · obtain ⟨ihM, ihL, ihA⟩ := ih (Nat.lt_of_succ_lt hn)
      have hg : n / 5 = (n + 1) / 5 := by omega
      have hj : n % 5 + 1 = (n + 1) % 5 := by omega
      rw [hg, hj] at ihM ihL ihA
      have hv : ∀ d m, iblk V c 2 ⟨n + 1, hn⟩ (ix2 m d) = vArr V c d ((n + 1) % 5) m := fun d m => iblk_2_apply V c ⟨n + 1, hn⟩ m d
      by_cases h1 : (n + 1) % 5 = 4
      · have hC := outsAt_C V c ⟨n + 1, hn⟩ h0 h1
        refine ⟨fun r => ?_, fun r => ?_, fun r d => ?_⟩
        · rw [show (outsAt V c (n + 1) hn) = _ from hC]; dsimp only; rw [sout_C_0_eq]
          exact step_M _ _ _ _ r _ _ (hs r) (ihM r)
        · rw [show (outsAt V c (n + 1) hn) = _ from hC]; dsimp only; rw [sout_C_1_eq]
          exact step_L _ _ _ _ _ r _ _ (hs r) (ihM r) (ihL r)
        · rw [show (outsAt V c (n + 1) hn) = _ from hC]; dsimp only; rw [sout_C_2_eq]
          exact step_A _ _ _ _ _ _ r _ _ (hs r) (ihM r) d (vArr V c d) (hv d) (ihA r d)
      · have hB := outsAt_B V c ⟨n + 1, hn⟩ h0 h1
        refine ⟨fun r => ?_, fun r => ?_, fun r d => ?_⟩
        · rw [show (outsAt V c (n + 1) hn) = _ from hB]; dsimp only; rw [sout_B_0_eq]
          exact step_M _ _ _ _ r _ _ (hs r) (ihM r)
        · rw [show (outsAt V c (n + 1) hn) = _ from hB]; dsimp only; rw [sout_B_1_eq]
          exact step_L _ _ _ _ _ r _ _ (hs r) (ihM r) (ihL r)
        · rw [show (outsAt V c (n + 1) hn) = _ from hB]; dsimp only; rw [sout_B_2_eq]
          exact step_A _ _ _ _ _ _ r _ _ (hs r) (ihM r) d (vArr V c d) (hv d) (ihA r d)

/-- At the last key tile of group `g` the output block holds the quotient of the unnormalized output by the normalizer,
    both after all 5 tiles. -/
theorem out_closed (c : Dev nD) (t : Fin cfg3.N) (h1 : t.val % 5 = 4) (r d : Fin 512) :
    (outsAt V c t.val t.isLt).1 (ix3 (0 : Fin 1) r d)
      = Ideal.div (accrun (sArr V c (t.val / 5) r) (vArr V c d) 5) (lrun (sArr V c (t.val / 5) r) 5) := by
  have h0 : ¬ t.val % 5 = 0 := by omega
  obtain ⟨hM, hL, hA⟩ := outsAt_closed V c t.val t.isLt
  have hC := outsAt_C V c t h0 h1
  have e1 : (outsAt V c t.val t.isLt).1 = _ := congrArg Prod.fst hC
  have eL : (outsAt V c t.val t.isLt).2.2.1 = _ := congrArg (fun p => p.2.2.1) hC
  have eA : (outsAt V c t.val t.isLt).2.2.2 = _ := congrArg (fun p => p.2.2.2) hC
  dsimp only at e1 eL eA
  have hL' := hL r
  have hA' := hA r d
  rw [eL, sout_C_1_eq] at hL'
  rw [eA, sout_C_2_eq] at hA'
  rw [e1, out_C_eq, k3_pay4_apply, hA', hL', h1]

end Cert.KernelIdeal.Flash3

end
-- ==== Proof.KIFlash3Final.lean ====
import proofs.«157278_j31636729102421_2_alg».proof.Proof.KIFlash3Closed
import Idealize.ShloMosaic.Lib.Pipeline.Value

/-! The output array of the attention call number 3 after the region: entry `(g, r, d)` is the quotient, after all 5
    key tiles, of the blockwise recursion's unnormalized output by its normalizer for query `(g, r)` and column `d`. Each
    group's block is written back once, at the group's last key tile, and the 1 block cover the array. -/

set_option maxRecDepth 16384

noncomputable section

namespace Cert.KernelIdeal.Flash3

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.OnlineSoftmax

variable (V : (c : Dev nD) → (b : Ref sig .tc) → Buf (Elt Ideal) ((c : Thread nD τ).loc b))

/-- The attention output at query `(g, r)`, column `d`, as the blockwise recursion leaves it. -/
def attOut (c : Dev nD) (g : ℕ) (r d : Fin 512) : EReal :=
  Ideal.div (accrun (sArr V c g r) (vArr V c d) 5) (lrun (sArr V c g r) 5)

/-- The whole output array. -/
def Gout (c : Dev nD) : S1x512x512.Idx → EReal :=
  fun i => attOut V c (i 0).val ⟨(i 1).val, (i 1).isLt⟩ ⟨(i 2).val, (i 2).isLt⟩

theorem flushed_eq (c : Dev nD) (t : Fin cfg3.N) (hf : (cfg3.win 3).flush t = true) :
    (dat V c).flushed 3 t = ((cfg3.win 3).blk t).view.read (Elt Ideal) (Gout V c) := by
  have h1 : t.val % 5 = 4 := (flush3_3 t).mp hf
  obtain ⟨e0, e1, e2, e3, e4, e5, e6, e7, e8, e9, e10⟩ := idx_facts t
  have hN : t.val < 5 := lt_of_lt_of_eq t.isLt (show cfg3.N = 5 from N_3)
  have hg : t.val / 5 < 1 := by omega
  show (cfg3.win 3).cut (grid3.coords t) ((dat V c).after 3 t) = _
  rw [after_3]
  funext y
  obtain ⟨a, r, d, rfl⟩ : ∃ (a : Fin 1) (r d : Fin 512), y = ix3 a r d := ⟨y 0, y 1, y 2, eq_ix3 y⟩
  obtain rfl : a = 0 := Subsingleton.elim _ _
  show (outsAt V c t.val t.isLt).1 (ix3 (0 : Fin 1) r d) = Gout V c (((cfg3.win 3).blk t).view.emb (ix3 (0 : Fin 1) r d))
  rw [out_closed V c t h1 r d]
  have hi : ((cfg3.win 3).blk t).view.emb (ix3 (0 : Fin 1) r d) = (ix3 (⟨t.val / 5, hg⟩ : Fin 1) r d : S1x512x512.Idx) := by
    funext b; apply Fin.ext
    match b with
    | ⟨0, _⟩ => show win3_3.index t (0 : Fin 3) * 1 + 1 * 0 = t.val / 5; omega
    | ⟨1, _⟩ => show win3_3.index t (1 : Fin 3) * 512 + 1 * r.val = r.val; omega
    | ⟨2, _⟩ => show win3_3.index t (2 : Fin 3) * 512 + 1 * d.val = d.val; omega
  rw [hi]
  rfl

theorem mem_blk (t : Fin cfg3.N) (i : S1x512x512.Idx) :
    i ∈ ((cfg3.win 3).blk t).view.set ↔ ∀ a : Fin 3, win3_3.index t a * S1x512x512.size a ≤ (i a).val ∧ (i a).val < win3_3.index t a * S1x512x512.size a + S1x512x512.size a := by
  show i ∈ ((View.whole main_v29).slice (win3_3.rect t)).set ↔ _
  rw [View.set_slice_whole, Rect.mem_set_unit]
  exact Iff.rfl

theorem cover (i : S1x512x512.Idx) : ∃ t : Fin cfg3.N, (cfg3.win 3).flush t = true ∧ i ∈ ((cfg3.win 3).blk t).view.set := by
  have hi0 : (i 0).val < 1 := (i 0).isLt
  have hi1 : (i 1).val < 512 := (i 1).isLt
  have hi2 : (i 2).val < 512 := (i 2).isLt
  have ht : 5 * (i 0).val + 4 < cfg3.N := by rw [show cfg3.N = 5 from N_3]; omega
  refine ⟨⟨5 * (i 0).val + 4, ht⟩, (flush3_3 _).mpr (by show (5 * (i 0).val + 4) % 5 = 4; omega), ?_⟩
  obtain ⟨e0, e1, e2, e3, e4, e5, e6, e7, e8, e9, e10⟩ := idx_facts ⟨5 * (i 0).val + 4, ht⟩
  rw [mem_blk]
  intro a
  match a with
  | ⟨0, _⟩ => show win3_3.index _ (0 : Fin 3) * 1 ≤ (i 0).val ∧ (i 0).val < win3_3.index _ (0 : Fin 3) * 1 + 1; dsimp only at e7; omega
  | ⟨1, _⟩ => show win3_3.index _ (1 : Fin 3) * 512 ≤ (i 1).val ∧ (i 1).val < win3_3.index _ (1 : Fin 3) * 512 + 512; omega
  | ⟨2, _⟩ => show win3_3.index _ (2 : Fin 3) * 512 ≤ (i 2).val ∧ (i 2).val < win3_3.index _ (2 : Fin 3) * 512 + 512; omega

/-- THE OUTPUT ARRAY after the region. -/
theorem final_out (c : Dev nD) : (dat V c).arrAt 3 cfg3.N = Gout V c :=
  (dat V c).arrAt_eq_of_cover 3 (Gout V c) (fun t hf => flushed_eq V c t hf) (cover)

end Cert.KernelIdeal.Flash3

end
-- ==== Proof.KIFlash3Spec.lean ====
import proofs.«157278_j31636729102421_2_alg».proof.Proof.KIFlash3Final
import proofs.«157278_j31636729102421_2_alg».proof.Proof.LibTileIndex
import proofs.«157278_j31636729102421_2_alg».proof.Proof.Spec

/-! The attention call number 3 computes softmax attention. When every entry of the stacked queries, the key array and
    the value array is a real number, the blockwise recursion's quotient for query `(g, r)` and column `d` is the softmax
    attention of the query row over the 10000 keys that are not padding: a padded key's logit is −∞, its weight
    `exp (−∞ − M) = 0`, and the occupied slots of the 5 tiles are exactly the keys. -/

set_option maxRecDepth 16384

noncomputable section

namespace Cert.KernelIdeal.Flash3

open Cert.KernelIdeal Cert.KernelIdeal.Gen
open Idealize.ShloMosaic Idealize.ShloMosaic.TcCoe Idealize.ShloMosaic.ValueIdx
open Idealize.SL Idealize.SL.Sem
open Cert.OnlineSoftmax Cert.RealValued Cert.TileIndex

variable (V : (c : Dev nD) → (b : Ref sig .tc) → Buf (Elt Ideal) ((c : Thread nD τ).loc b))

theorem attOut_eq (c : Dev nD) (g : ℕ) (r d : Fin 512) (q : Fin 512 → Fin 512 → EReal) (kk vv : Fin 10000 → Fin 512 → EReal)
    (hQ : ∀ e, Qat V c g r e = q r e) (hK : ∀ (k : Fin 10000) e, Kat V c k.val e = kk k e) (hV : ∀ k : Fin 10000, Vat V c k.val d = vv k d)
    (hQr : ∀ e, IsReal (q r e)) (hKr : ∀ k e, IsReal (Kat V c k e)) (hVr : ∀ k, IsReal (Vat V c k d)) :
    attOut V c g r d = Cert.Spec.attend q kk vv r d := by
  -- the logit of key number `k`, and its value
  let L : ℕ → EReal := fun k => if h : k < 10000 then Cert.Spec.logit q kk r ⟨k, h⟩ else ⊥
  let W : ℕ → EReal := fun k => Vat V c k d
  have hsL : ∀ j (n : Fin 2048), j * 2048 + n.val < 10000 → sArr V c g r j n = L (j * 2048 + n.val) := by
    intro j n h
    show (if j * 2048 + n.val < 10000 then _ else _) = (if h : j * 2048 + n.val < 10000 then _ else _)
    rw [if_pos h, dif_pos h]
    unfold Cert.Spec.logit
    exact Finset.sum_congr rfl fun e _ => by rw [hQ e, hK ⟨_, h⟩ e]
  have hok : ∀ j (n : Fin 2048), ¬ (j * 2048 + n.val < 10000) → sArr V c g r j n = ⊥ := by
    intro j n h
    show (if j * 2048 + n.val < 10000 then _ else _) = _
    rw [if_neg h]
  have hreal : ∀ j (n : Fin 2048), j * 2048 + n.val < 10000 → IsReal (sArr V c g r j n) := by
    intro j n h
    show IsReal (if j * 2048 + n.val < 10000 then _ else _)
    rw [if_pos h]
    exact isReal_sum _ _ fun e _ => by rw [hQ e]; exact (hQr e).mul (hKr _ e)
  have hs : ∀ j (n : Fin 2048), sArr V c g r j n = ⊥ ∨ IsReal (sArr V c g r j n) := by
    intro j n
    by_cases h : j * 2048 + n.val < 10000
    · exact Or.inr (hreal j n h)
    · exact Or.inl (hok j n h)
  have hv : ∀ j (n : Fin 2048), IsReal (vArr V c d j n) := fun j n => hVr _
  have h0 : ∃ n : Fin 2048, IsReal (sArr V c g r 0 n) := ⟨⟨0, by decide⟩, hreal 0 _ (by decide)⟩
  unfold attOut
  rw [div_accrun_lrun_filter (sArr V c g r) (vArr V c d) (fun j (n : Fin 2048) => j * 2048 + n.val < 10000) hs hv h0 hok (by decide : 0 < 5),
    mrun_eq_fold_filter (sArr V c g r) (fun j (n : Fin 2048) => j * 2048 + n.val < 10000) hok 5]
  -- on the occupied slots everything is a function of the key number
  have hmem : ∀ p ∈ slots 5 2048 10000, p.1 * 2048 + p.2.val < 10000 := fun p hp => by
    unfold slots at hp; exact (Finset.mem_filter.mp hp).2
  have eM : (slots 5 2048 10000).fold max ⊥ (fun p => sArr V c g r p.1 p.2) = (Finset.univ : Finset (Fin 10000)).fold max ⊥ (fun k => L k.val) := by
    rw [← fold_max_slots 5 2048 10000 (by decide) (by decide) L]
    exact Finset.fold_congr fun p hp => hsL p.1 p.2 (hmem p hp)
  change ∑ p ∈ slots 5 2048 10000, Ideal.div (Ideal.exp (sArr V c g r p.1 p.2 - (slots 5 2048 10000).fold max ⊥ (fun p => sArr V c g r p.1 p.2)))
      (∑ p' ∈ slots 5 2048 10000, Ideal.exp (sArr V c g r p'.1 p'.2 - (slots 5 2048 10000).fold max ⊥ (fun p => sArr V c g r p.1 p.2))) * vArr V c d p.1 p.2 = _
  rw [eM]
  have eS : ∑ p' ∈ slots 5 2048 10000, Ideal.exp (sArr V c g r p'.1 p'.2 - (Finset.univ : Finset (Fin 10000)).fold max ⊥ (fun k => L k.val))
      = ∑ k : Fin 10000, Ideal.exp (L k.val - (Finset.univ : Finset (Fin 10000)).fold max ⊥ (fun k => L k.val)) := by
    rw [← sum_slots 5 2048 10000 (by decide) (by decide) (fun k => Ideal.exp (L k - (Finset.univ : Finset (Fin 10000)).fold max ⊥ (fun k => L k.val)))]
    exact Finset.sum_congr rfl fun p hp => by rw [hsL p.1 p.2 (hmem p hp)]
  rw [eS]
  have eT : ∑ p ∈ slots 5 2048 10000, Ideal.div (Ideal.exp (sArr V c g r p.1 p.2 - (Finset.univ : Finset (Fin 10000)).fold max ⊥ (fun k => L k.val)))
        (∑ k : Fin 10000, Ideal.exp (L k.val - (Finset.univ : Finset (Fin 10000)).fold max ⊥ (fun k => L k.val))) * vArr V c d p.1 p.2
      = ∑ k : Fin 10000, Ideal.div (Ideal.exp (L k.val - (Finset.univ : Finset (Fin 10000)).fold max ⊥ (fun k => L k.val)))
        (∑ k : Fin 10000, Ideal.exp (L k.val - (Finset.univ : Finset (Fin 10000)).fold max ⊥ (fun k => L k.val))) * W k.val := by
    rw [← sum_slots 5 2048 10000 (by decide) (by decide) (fun k => Ideal.div (Ideal.exp (L k - (Finset.univ : Finset (Fin 10000)).fold max ⊥ (fun k => L k.val)))
        (∑ k : Fin 10000, Ideal.exp (L k.val - (Finset.univ : Finset (Fin 10000)).fold max ⊥ (fun k => L k.val))) * W k)]
    exact Finset.sum_congr rfl fun p hp => by rw [hsL p.1 p.2 (hmem p hp)]; exact rfl
  rw [eT]
  -- the keys' logits and values are the specification's
  have eL : ∀ k : Fin 10000, L k.val = Cert.Spec.logit q kk r k := fun k => by
    show (if h : k.val < 10000 then _ else _) = _
    rw [dif_pos k.isLt]
  unfold Cert.Spec.attend Cert.Spec.rowMax
  simp only [eL]
  exact Finset.sum_congr rfl fun k _ => by rw [show W k.val = vv k d from hV k]

end Cert.KernelIdeal.Flash3

end
-- ==== Proof.PayProj.lean ====
/-
  The projection bodies of calls 0 and 1 read at an index: each output entry is a row of the bank block times a column of
  the weight, plus the bias entry of that column.
-/
import proofs.«157278_j31636729102421_2_alg».proof.Proof.PayOps

noncomputable section

open scoped BigOperators

namespace Cert.KernelIdeal.PayProj

open Idealize.ShloMosaic Idealize.ShloMosaic.ValueIdx Cert.KernelIdeal Cert.KernelIdeal.Gen Cert.KernelIdeal.PayOps

/-! ## The projection bodies of calls 0 and 1 -/

/-- The bank rows enter the products as loaded: a cast to the same shape and a change of format, both the identity. -/
theorem k0_pay1_apply (v0 : Vec Ideal S2048x512 .f32) (j : S2048x512.Idx) : k0_pay1 v0 j = v0 j := by
  unfold k0_pay1
  rw [shapeCast_self]
  rfl

/-- The first projection at `(n, e)`: row `n` of the bank times column `e` of the weight, plus the bias at `e`. -/
theorem k0_pay2_apply (v0 : Vec Ideal S2048x512 .f32) (v3 : Vec Ideal S512x512 .bf16) (v8 : Vec Ideal S512 .f32)
    (n : Fin 2048) (e : Fin 512) :
    k0_pay2 v0 v3 v8 (ix2 n e) = (∑ d : Fin 512, v0 (ix2 n d) * v3 (ix2 d e)) + v8 (ix1 e) := by
  unfold k0_pay2
  rw [shapeCast_self]
  show matmul dot_S2048x512_S512x512_S2048x512_1_0_0_1_n_n none (k0_pay1 v0) v3
        (constant S2048x512 .f32 0x00000000#32) (ix2 n e)
      + broadcastTo S2048x512 (shapeCast S1x512 v8 shapeCasts_S512_S1x512) broadcasts_S1x512_S2048x512 (ix2 n e) = _
  rw [matmul_rows_apply, broadcastTo_1b_ab_apply, shapeCast_a_1a_apply]
  simp only [k0_pay1_apply]

/-- The second projection at `(n, e)`, likewise (its closing change of format is the identity). -/
theorem k0_pay3_apply (v0 : Vec Ideal S2048x512 .f32) (v5 : Vec Ideal S512x512 .bf16) (v13 : Vec Ideal S512 .f32)
    (n : Fin 2048) (e : Fin 512) :
    k0_pay3 v0 v5 v13 (ix2 n e) = (∑ d : Fin 512, v0 (ix2 n d) * v5 (ix2 d e)) + v13 (ix1 e) := by
  unfold k0_pay3
  rw [shapeCast_self]
  show matmul dot_S2048x512_S512x512_S2048x512_1_0_0_1_n_n none (k0_pay1 v0) v5
        (constant S2048x512 .f32 0x00000000#32) (ix2 n e)
      + broadcastTo S2048x512 (shapeCast S1x512 v13 shapeCasts_S512_S1x512) broadcasts_S1x512_S2048x512 (ix2 n e) = _
  rw [matmul_rows_apply, broadcastTo_1b_ab_apply, shapeCast_a_1a_apply]
  simp only [k0_pay1_apply]

/-! Call 1's body is the same text. -/

/-- The bank rows enter the products as loaded: a cast to the same shape and a change of format, both the identity. -/
theorem k1_pay1_apply (v0 : Vec Ideal S2048x512 .f32) (j : S2048x512.Idx) : k1_pay1 v0 j = v0 j := by
  unfold k1_pay1
  rw [shapeCast_self]
  rfl

/-- The first projection at `(n, e)`: row `n` of the bank times column `e` of the weight, plus the bias at `e`. -/
theorem k1_pay2_apply (v0 : Vec Ideal S2048x512 .f32) (v3 : Vec Ideal S512x512 .bf16) (v8 : Vec Ideal S512 .f32)
    (n : Fin 2048) (e : Fin 512) :
    k1_pay2 v0 v3 v8 (ix2 n e) = (∑ d : Fin 512, v0 (ix2 n d) * v3 (ix2 d e)) + v8 (ix1 e) := by
  unfold k1_pay2
  rw [shapeCast_self]
  show matmul dot_S2048x512_S512x512_S2048x512_1_0_0_1_n_n none (k1_pay1 v0) v3
        (constant S2048x512 .f32 0x00000000#32) (ix2 n e)
      + broadcastTo S2048x512 (shapeCast S1x512 v8 shapeCasts_S512_S1x512) broadcasts_S1x512_S2048x512 (ix2 n e) = _
  rw [matmul_rows_apply, broadcastTo_1b_ab_apply, shapeCast_a_1a_apply]
  simp only [k1_pay1_apply]

/-- The second projection at `(n, e)`, likewise (its closing change of format is the identity). -/
theorem k1_pay3_apply (v0 : Vec Ideal S2048x512 .f32) (v5 : Vec Ideal S512x512 .bf16) (v13 : Vec Ideal S512 .f32)
    (n : Fin 2048) (e : Fin 512) :
    k1_pay3 v0 v5 v13 (ix2 n e) = (∑ d : Fin 512, v0 (ix2 n d) * v5 (ix2 d e)) + v13 (ix1 e) := by
  unfold k1_pay3
  rw [shapeCast_self]
  show matmul dot_S2048x512_S512x512_S2048x512_1_0_0_1_n_n none (k1_pay1 v0) v5
        (constant S2048x512 .f32 0x00000000#32) (ix2 n e)
      + broadcastTo S2048x512 (shapeCast S1x512 v13 shapeCasts_S512_S1x512) broadcasts_S1x512_S2048x512 (ix2 n e) = _
  rw [matmul_rows_apply, broadcastTo_1b_ab_apply, shapeCast_a_1a_apply]
  simp only [k1_pay1_apply]

end Cert.KernelIdeal.PayProj

end
-- ==== Proof.KIProj0Val.lean ====
/-
  Projection call 0, from blocks to the arrays: what each grid point writes back is its block of ONE function of the
  arrays the region is entered with — entry `(k, e)` of the key (value) array is row `k` of the padded bank times column
  `e` of the first (second) transposed weight, plus that bias at `e` — and the points' blocks cover every row, so the two
  output arrays end holding those functions.
-/
import proofs.«157278_j31636729102421_2_alg».proof.Proof.KIProj0
import proofs.«157278_j31636729102421_2_alg».proof.Proof.PayProj
import Idealize.ShloMosaic.Lib.Pipeline.Value

noncomputable section

open scoped BigOperators

namespace Cert.KernelIdeal.Proj0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 98 points. -/
theorem N0 : cfg0.N = 98 := by decide +kernel

/-- Entry `(k, e)` of a projection of the padded bank: row `k` of the bank times column `e` of the (transposed)
    weight, plus the bias at `e`. -/
def proj (a0 : S200704x512.Idx → Elt Ideal .f32) (a1 : S512x512.Idx → Elt Ideal .bf16) (a2 : S512.Idx → Elt Ideal .f32)
    (k : Fin 200704) (e : Fin 512) : EReal :=
  (∑ d : Fin 512, a0 (ix2 k d) * a1 (ix2 d e)) + a2 (ix1 e)

/-- The printed index maps, decided over the grid: the bank window and the two output windows are at row block `t`,
    column block 0; the weights and biases are whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The bank block at point `t` is rows `2048 t … 2048 t + 2047` of the padded bank. -/
theorem iblk0_apply (c : Dev nD) (t : Fin cfg0.N) (n : Fin 2048) (d : Fin 512) (k : Fin 200704)
    (hk : k.val = t.val * 2048 + n.val) :
    (iblk V c 0 t : Vec Ideal S2048x512 .f32) (ix2 n d) = (V c main_v12 : S200704x512.Idx → Elt Ideal .f32) (ix2 k d) := by
  obtain ⟨e00, e01, -⟩ := idx_facts t
  unfold iblk
  rw [View.read_apply]
  show V c main_v12 _ = V c main_v12 _
  congr 1
  funext a
  apply Fin.ext
  match a with
  | ⟨0, _⟩ => show win0_0.index t 0 * 2048 + 1 * n.val = k.val; rw [e00, hk]; omega
  | ⟨1, _⟩ => show win0_0.index t 1 * 512 + 1 * d.val = d.val; rw [e01]; omega

/-- The first weight block is the whole weight, -/
theorem iblk1_apply (c : Dev nD) (t : Fin cfg0.N) (d e : Fin 512) :
    (iblk V c 1 t : Vec Ideal S512x512 .bf16) (ix2 d e) = (V c main_v15 : S512x512.Idx → Elt Ideal .bf16) (ix2 d e) := by
  obtain ⟨-, -, e10, e11, -⟩ := idx_facts t
  unfold iblk
  rw [View.read_apply]
  show V c main_v15 _ = V c main_v15 _
  congr 1
  funext a
  apply Fin.ext
  match a with
  | ⟨0, _⟩ => show win0_1.index t 0 * 512 + 1 * d.val = d.val; rw [e10]; omega
  | ⟨1, _⟩ => show win0_1.index t 1 * 512 + 1 * e.val = e.val; rw [e11]; omega

/-- the first bias block the whole bias, -/
theorem iblk2_apply (c : Dev nD) (t : Fin cfg0.N) (e : Fin 512) :
    (iblk V c 2 t : Vec Ideal S512 .f32) (ix1 e) = (V c main_arg12 : S512.Idx → Elt Ideal .f32) (ix1 e) := by
  obtain ⟨-, -, -, -, e20, -⟩ := idx_facts t
  unfold iblk
  rw [View.read_apply]
  show V c main_arg12 _ = V c main_arg12 _
  congr 1
  funext a
  apply Fin.ext
  match a with
  | ⟨0, _⟩ => show win0_2.index t 0 * 512 + 1 * e.val = e.val; rw [e20]; omega

/-- and likewise the second weight and bias. -/
theorem iblk3_apply (c : Dev nD) (t : Fin cfg0.N) (d e : Fin 512) :
    (iblk V c 3 t : Vec Ideal S512x512 .bf16) (ix2 d e) = (V c main_v17 : S512x512.Idx → Elt Ideal .bf16) (ix2 d e) := by
  obtain ⟨-, -, -, -, -, e30, e31, -⟩ := idx_facts t
  unfold iblk
  rw [View.read_apply]
  show V c main_v17 _ = V c main_v17 _
  congr 1
  funext a
  apply Fin.ext
  match a with
  | ⟨0, _⟩ => show win0_3.index t 0 * 512 + 1 * d.val = d.val; rw [e30]; omega
  | ⟨1, _⟩ => show win0_3.index t 1 * 512 + 1 * e.val = e.val; rw [e31]; omega

theorem iblk4_apply (c : Dev nD) (t : Fin cfg0.N) (e : Fin 512) :
    (iblk V c 4 t : Vec Ideal S512 .f32) (ix1 e) = (V c main_arg14 : S512.Idx → Elt Ideal .f32) (ix1 e) := by
  obtain ⟨-, -, -, -, -, -, -, e40, -⟩ := idx_facts t
  unfold iblk
  rw [View.read_apply]
  show V c main_arg14 _ = V c main_arg14 _
  congr 1
  funext a
  apply Fin.ext
  match a with
  | ⟨0, _⟩ => show win0_4.index t 0 * 512 + 1 * e.val = e.val; rw [e40]; omega

/-- What the key array ends holding: `proj` of the padded bank, the first weight and the first bias, index by index. -/
def GK (c : Dev nD) : S200704x512.Idx → Elt Ideal .f32 := fun i =>
  proj (V c main_v12) (V c main_v15) (V c main_arg12) ⟨(i 0).val, (i 0).isLt⟩ ⟨(i 1).val, (i 1).isLt⟩

/-- What the value array ends holding: `proj` of the padded bank, the second weight and the second bias. -/
def GV (c : Dev nD) : S200704x512.Idx → Elt Ideal .bf16 := fun i =>
  proj (V c main_v12) (V c main_v17) (V c main_arg14) ⟨(i 0).val, (i 0).isLt⟩ ⟨(i 1).val, (i 1).isLt⟩

/-- What point `t` writes back to the key array is block `t` of `GK`. -/
theorem flushedK_eq (c : Dev nD) (t : Fin cfg0.N) :
    (dat V c).flushed 5 t = ((cfg0.win 5).blk t).view.read (Elt Ideal) (GK V c) := by
  show (cfg0.win 5).cut (grid0.coords t) ((dat V c).after 5 t) = _
  rw [after_5]
  unfold outK
  rw [View.canon_unit_zero hz2]
  simp only [View.ld_unit_zero (S := S2048x512) hz2, View.ld_unit_zero (S := S512x512) hz2, View.ld_unit_zero (S := S512) hz1]
  funext j
  obtain ⟨n, e, rfl⟩ : ∃ (n : Fin 2048) (e : Fin 512), j = ix2 n e := ⟨j 0, j 1, eq_ix2 j⟩
  obtain ⟨-, -, -, -, -, -, -, -, e50, e51, -⟩ := idx_facts t
  have ht : t.val < 98 := N0 ▸ t.isLt
  show k0_pay2 (iblk V c 0 t) (iblk V c 1 t) (iblk V c 2 t) (ix2 n e)
    = GK V c (((cfg0.win 5).blk t).view.emb (ix2 n e))
  have h0 : ((((cfg0.win 5).blk t).view.emb (ix2 n e)) 0).val = t.val * 2048 + n.val := by
    show win0_5.index t 0 * 2048 + 1 * n.val = _
    rw [e50]; omega
  have h1 : ((((cfg0.win 5).blk t).view.emb (ix2 n e)) 1).val = e.val := by
    show win0_5.index t 1 * 512 + 1 * e.val = _
    rw [e51]; omega
  rw [PayProj.k0_pay2_apply]
  unfold GK proj
  rw [iblk2_apply, show (⟨((((cfg0.win 5).blk t).view.emb (ix2 n e)) 1).val, (((cfg0.win 5).blk t).view.emb (ix2 n e) 1).isLt⟩ : Fin 512) = e from Fin.ext h1]
  congr 1
  refine Finset.sum_congr rfl fun d _ => ?_
  rw [iblk0_apply V c t n d ⟨((((cfg0.win 5).blk t).view.emb (ix2 n e)) 0).val, (((cfg0.win 5).blk t).view.emb (ix2 n e) 0).isLt⟩ h0, iblk1_apply]

/-- What point `t` writes back to the value array is block `t` of `GV`. -/
theorem flushedV_eq (c : Dev nD) (t : Fin cfg0.N) :
    (dat V c).flushed 6 t = ((cfg0.win 6).blk t).view.read (Elt Ideal) (GV V c) := by
  show (cfg0.win 6).cut (grid0.coords t) ((dat V c).after 6 t) = _
  rw [after_6]
  unfold outV
  rw [View.canon_unit_zero hz2]
  simp only [View.ld_unit_zero (S := S2048x512) hz2, View.ld_unit_zero (S := S512x512) hz2, View.ld_unit_zero (S := S512) hz1]
  funext j
  obtain ⟨n, e, rfl⟩ : ∃ (n : Fin 2048) (e : Fin 512), j = ix2 n e := ⟨j 0, j 1, eq_ix2 j⟩
  obtain ⟨-, -, -, -, -, -, -, -, -, -, e60, e61⟩ := idx_facts t
  have ht : t.val < 98 := N0 ▸ t.isLt
  show k0_pay3 (iblk V c 0 t) (iblk V c 3 t) (iblk V c 4 t) (ix2 n e)
    = GV V c (((cfg0.win 6).blk t).view.emb (ix2 n e))
  have h0 : ((((cfg0.win 6).blk t).view.emb (ix2 n e)) 0).val = t.val * 2048 + n.val := by
    show win0_6.index t 0 * 2048 + 1 * n.val = _
    rw [e60]; omega
  have h1 : ((((cfg0.win 6).blk t).view.emb (ix2 n e)) 1).val = e.val := by
    show win0_6.index t 1 * 512 + 1 * e.val = _
    rw [e61]; omega
  rw [PayProj.k0_pay3_apply]
  unfold GV proj
  rw [iblk4_apply, show (⟨((((cfg0.win 6).blk t).view.emb (ix2 n e)) 1).val, (((cfg0.win 6).blk t).view.emb (ix2 n e) 1).isLt⟩ : Fin 512) = e from Fin.ext h1]
  congr 1
  refine Finset.sum_congr rfl fun d _ => ?_
  rw [iblk0_apply V c t n d ⟨((((cfg0.win 6).blk t).view.emb (ix2 n e)) 0).val, (((cfg0.win 6).blk t).view.emb (ix2 n e) 0).isLt⟩ h0, iblk3_apply]

/-- An index of the key array is in point `t`'s block iff each coordinate is in the block's range on its axis. -/
theorem mem_blkK (t : Fin cfg0.N) (i : S200704x512.Idx) :
    i ∈ ((cfg0.win 5).blk t).view.set ↔ ∀ a : Fin 2, win0_5.index t a * S2048x512.size a ≤ (i a).val
      ∧ (i a).val < win0_5.index t a * S2048x512.size a + S2048x512.size a := by
  show i ∈ ((View.whole main_v18_0).slice (win0_5.rect t)).set ↔ _
  rw [View.set_slice_whole, Rect.mem_set_unit]
  exact Iff.rfl

/-- The same for the value array. -/
theorem mem_blkV (t : Fin cfg0.N) (i : S200704x512.Idx) :
    i ∈ ((cfg0.win 6).blk t).view.set ↔ ∀ a : Fin 2, win0_6.index t a * S2048x512.size a ≤ (i a).val
      ∧ (i a).val < win0_6.index t a * S2048x512.size a + S2048x512.size a := by
  show i ∈ ((View.whole main_v18_1).slice (win0_6.rect t)).set ↔ _
  rw [View.set_slice_whole, Rect.mem_set_unit]
  exact Iff.rfl

/-- Every row of the key array is in some point's block: row `r` is in block `r / 2048` (98 blocks of 2048 rows are the
    200704 rows). -/
theorem cover_K (i : S200704x512.Idx) :
    ∃ t : Fin cfg0.N, (cfg0.win 5).flush t = true ∧ i ∈ ((cfg0.win 5).blk t).view.set := by
  have hi0 : (i 0).val < 200704 := (i 0).isLt
  have hi1 : (i 1).val < 512 := (i 1).isLt
  have hq : (i 0).val / 2048 < cfg0.N := by rw [N0]; omega
  obtain ⟨-, -, -, -, -, -, -, -, e50, e51, -⟩ := idx_facts ⟨(i 0).val / 2048, hq⟩
  refine ⟨⟨(i 0).val / 2048, hq⟩, flush0_5 _, ?_⟩
  rw [mem_blkK]
  intro a
  match a with
  | ⟨0, _⟩ =>
    show win0_5.index ⟨(i 0).val / 2048, hq⟩ 0 * 2048 ≤ (i 0).val
      ∧ (i 0).val < win0_5.index ⟨(i 0).val / 2048, hq⟩ 0 * 2048 + 2048
    rw [e50]
    show (i 0).val / 2048 * 2048 ≤ (i 0).val ∧ (i 0).val < (i 0).val / 2048 * 2048 + 2048
    omega
  | ⟨1, _⟩ =>
    show win0_5.index ⟨(i 0).val / 2048, hq⟩ 1 * 512 ≤ (i 1).val
      ∧ (i 1).val < win0_5.index ⟨(i 0).val / 2048, hq⟩ 1 * 512 + 512
    rw [e51]
    omega

/-- The same for the value array. -/
theorem cover_V (i : S200704x512.Idx) :
    ∃ t : Fin cfg0.N, (cfg0.win 6).flush t = true ∧ i ∈ ((cfg0.win 6).blk t).view.set := by
  have hi0 : (i 0).val < 200704 := (i 0).isLt
  have hi1 : (i 1).val < 512 := (i 1).isLt
  have hq : (i 0).val / 2048 < cfg0.N := by rw [N0]; omega
  obtain ⟨-, -, -, -, -, -, -, -, -, -, e60, e61⟩ := idx_facts ⟨(i 0).val / 2048, hq⟩
  refine ⟨⟨(i 0).val / 2048, hq⟩, flush0_6 _, ?_⟩
  rw [mem_blkV]
  intro a
  match a with
  | ⟨0, _⟩ =>
    show win0_6.index ⟨(i 0).val / 2048, hq⟩ 0 * 2048 ≤ (i 0).val
      ∧ (i 0).val < win0_6.index ⟨(i 0).val / 2048, hq⟩ 0 * 2048 + 2048
    rw [e60]
    show (i 0).val / 2048 * 2048 ≤ (i 0).val ∧ (i 0).val < (i 0).val / 2048 * 2048 + 2048
    omega
  | ⟨1, _⟩ =>
    show win0_6.index ⟨(i 0).val / 2048, hq⟩ 1 * 512 ≤ (i 1).val
      ∧ (i 1).val < win0_6.index ⟨(i 0).val / 2048, hq⟩ 1 * 512 + 512
    rw [e61]
    omega

/-- THE KEY ARRAY after the call: at `(k, e)`, row `k` of the padded bank times column `e` of the first weight, plus
    the first bias at `e` (`proj`). -/
theorem final_K (c : Dev nD) : (dat V c).arrAt 5 cfg0.N = fun i =>
    proj (V c main_v12) (V c main_v15) (V c main_arg12) ⟨(i 0).val, (i 0).isLt⟩ ⟨(i 1).val, (i 1).isLt⟩ :=
  (dat V c).arrAt_eq_of_cover 5 (GK V c) (fun t _ => flushedK_eq V c t) cover_K

/-- THE VALUE ARRAY after the call, likewise with the second weight and bias. -/
theorem final_V (c : Dev nD) : (dat V c).arrAt 6 cfg0.N = fun i =>
    proj (V c main_v12) (V c main_v17) (V c main_arg14) ⟨(i 0).val, (i 0).isLt⟩ ⟨(i 1).val, (i 1).isLt⟩ :=
  (dat V c).arrAt_eq_of_cover 6 (GV V c) (fun t _ => flushedV_eq V c t) cover_V

end Cert.KernelIdeal.Proj0

end
-- ==== Proof.KIProj1Val.lean ====
/-
  Projection call 1, from blocks to the arrays: what each grid point writes back is its block of ONE function of the
  arrays the region is entered with — entry `(k, e)` of the key (value) array is row `k` of the padded bank times column
  `e` of the first (second) transposed weight, plus that bias at `e` — and the points' blocks cover every row, so the two
  output arrays end holding those functions.
-/
import proofs.«157278_j31636729102421_2_alg».proof.Proof.KIProj1
import proofs.«157278_j31636729102421_2_alg».proof.Proof.PayProj
import Idealize.ShloMosaic.Lib.Pipeline.Value

noncomputable section

open scoped BigOperators

namespace Cert.KernelIdeal.Proj1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The grid has 5 points. -/
theorem N1 : cfg1.N = 5 := by decide +kernel

/-- Entry `(k, e)` of a projection of the padded bank: row `k` of the bank times column `e` of the (transposed)
    weight, plus the bias at `e`. -/
def proj (a0 : S10240x512.Idx → Elt Ideal .f32) (a1 : S512x512.Idx → Elt Ideal .bf16) (a2 : S512.Idx → Elt Ideal .f32)
    (k : Fin 10240) (e : Fin 512) : EReal :=
  (∑ d : Fin 512, a0 (ix2 k d) * a1 (ix2 d e)) + a2 (ix1 e)

/-- The printed index maps, decided over the grid: the bank window and the two output windows are at row block `t`,
    column block 0; the weights and biases are whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = 0 ∧ win1_3.index t (1 : Fin 2) = 0 ∧ win1_4.index t (0 : Fin 1) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The bank block at point `t` is rows `2048 t … 2048 t + 2047` of the padded bank. -/
theorem iblk0_apply (c : Dev nD) (t : Fin cfg1.N) (n : Fin 2048) (d : Fin 512) (k : Fin 10240)
    (hk : k.val = t.val * 2048 + n.val) :
    (iblk V c 0 t : Vec Ideal S2048x512 .f32) (ix2 n d) = (V c main_v13 : S10240x512.Idx → Elt Ideal .f32) (ix2 k d) := by
  obtain ⟨e00, e01, -⟩ := idx_facts t
  unfold iblk
  rw [View.read_apply]
  show V c main_v13 _ = V c main_v13 _
  congr 1
  funext a
  apply Fin.ext
  match a with
  | ⟨0, _⟩ => show win1_0.index t 0 * 2048 + 1 * n.val = k.val; rw [e00, hk]; omega
  | ⟨1, _⟩ => show win1_0.index t 1 * 512 + 1 * d.val = d.val; rw [e01]; omega

/-- The first weight block is the whole weight, -/
theorem iblk1_apply (c : Dev nD) (t : Fin cfg1.N) (d e : Fin 512) :
    (iblk V c 1 t : Vec Ideal S512x512 .bf16) (ix2 d e) = (V c main_v20 : S512x512.Idx → Elt Ideal .bf16) (ix2 d e) := by
  obtain ⟨-, -, e10, e11, -⟩ := idx_facts t
  unfold iblk
  rw [View.read_apply]
  show V c main_v20 _ = V c main_v20 _
  congr 1
  funext a
  apply Fin.ext
  match a with
  | ⟨0, _⟩ => show win1_1.index t 0 * 512 + 1 * d.val = d.val; rw [e10]; omega
  | ⟨1, _⟩ => show win1_1.index t 1 * 512 + 1 * e.val = e.val; rw [e11]; omega

/-- the first bias block the whole bias, -/
theorem iblk2_apply (c : Dev nD) (t : Fin cfg1.N) (e : Fin 512) :
    (iblk V c 2 t : Vec Ideal S512 .f32) (ix1 e) = (V c main_arg16 : S512.Idx → Elt Ideal .f32) (ix1 e) := by
  obtain ⟨-, -, -, -, e20, -⟩ := idx_facts t
  unfold iblk
  rw [View.read_apply]
  show V c main_arg16 _ = V c main_arg16 _
  congr 1
  funext a
  apply Fin.ext
  match a with
  | ⟨0, _⟩ => show win1_2.index t 0 * 512 + 1 * e.val = e.val; rw [e20]; omega

/-- and likewise the second weight and bias. -/
theorem iblk3_apply (c : Dev nD) (t : Fin cfg1.N) (d e : Fin 512) :
    (iblk V c 3 t : Vec Ideal S512x512 .bf16) (ix2 d e) = (V c main_v22 : S512x512.Idx → Elt Ideal .bf16) (ix2 d e) := by
  obtain ⟨-, -, -, -, -, e30, e31, -⟩ := idx_facts t
  unfold iblk
  rw [View.read_apply]
  show V c main_v22 _ = V c main_v22 _
  congr 1
  funext a
  apply Fin.ext
  match a with
  | ⟨0, _⟩ => show win1_3.index t 0 * 512 + 1 * d.val = d.val; rw [e30]; omega
  | ⟨1, _⟩ => show win1_3.index t 1 * 512 + 1 * e.val = e.val; rw [e31]; omega

theorem iblk4_apply (c : Dev nD) (t : Fin cfg1.N) (e : Fin 512) :
    (iblk V c 4 t : Vec Ideal S512 .f32) (ix1 e) = (V c main_arg18 : S512.Idx → Elt Ideal .f32) (ix1 e) := by
  obtain ⟨-, -, -, -, -, -, -, e40, -⟩ := idx_facts t
  unfold iblk
  rw [View.read_apply]
  show V c main_arg18 _ = V c main_arg18 _
  congr 1
  funext a
  apply Fin.ext
  match a with
  | ⟨0, _⟩ => show win1_4.index t 0 * 512 + 1 * e.val = e.val; rw [e40]; omega

/-- What the key array ends holding: `proj` of the padded bank, the first weight and the first bias, index by index. -/
def GK (c : Dev nD) : S10240x512.Idx → Elt Ideal .f32 := fun i =>
  proj (V c main_v13) (V c main_v20) (V c main_arg16) ⟨(i 0).val, (i 0).isLt⟩ ⟨(i 1).val, (i 1).isLt⟩

/-- What the value array ends holding: `proj` of the padded bank, the second weight and the second bias. -/
def GV (c : Dev nD) : S10240x512.Idx → Elt Ideal .bf16 := fun i =>
  proj (V c main_v13) (V c main_v22) (V c main_arg18) ⟨(i 0).val, (i 0).isLt⟩ ⟨(i 1).val, (i 1).isLt⟩

/-- What point `t` writes back to the key array is block `t` of `GK`. -/
theorem flushedK_eq (c : Dev nD) (t : Fin cfg1.N) :
    (dat V c).flushed 5 t = ((cfg1.win 5).blk t).view.read (Elt Ideal) (GK V c) := by
  show (cfg1.win 5).cut (grid1.coords t) ((dat V c).after 5 t) = _
  rw [after_5]
  unfold outK
  rw [View.canon_unit_zero hz2]
  simp only [View.ld_unit_zero (S := S2048x512) hz2, View.ld_unit_zero (S := S512x512) hz2, View.ld_unit_zero (S := S512) hz1]
  funext j
  obtain ⟨n, e, rfl⟩ : ∃ (n : Fin 2048) (e : Fin 512), j = ix2 n e := ⟨j 0, j 1, eq_ix2 j⟩
  obtain ⟨-, -, -, -, -, -, -, -, e50, e51, -⟩ := idx_facts t
  have ht : t.val < 5 := N1 ▸ t.isLt
  show k1_pay2 (iblk V c 0 t) (iblk V c 1 t) (iblk V c 2 t) (ix2 n e)
    = GK V c (((cfg1.win 5).blk t).view.emb (ix2 n e))
  have h0 : ((((cfg1.win 5).blk t).view.emb (ix2 n e)) 0).val = t.val * 2048 + n.val := by
    show win1_5.index t 0 * 2048 + 1 * n.val = _
    rw [e50]; omega
  have h1 : ((((cfg1.win 5).blk t).view.emb (ix2 n e)) 1).val = e.val := by
    show win1_5.index t 1 * 512 + 1 * e.val = _
    rw [e51]; omega
  rw [PayProj.k1_pay2_apply]
  unfold GK proj
  rw [iblk2_apply, show (⟨((((cfg1.win 5).blk t).view.emb (ix2 n e)) 1).val, (((cfg1.win 5).blk t).view.emb (ix2 n e) 1).isLt⟩ : Fin 512) = e from Fin.ext h1]
  congr 1
  refine Finset.sum_congr rfl fun d _ => ?_
  rw [iblk0_apply V c t n d ⟨((((cfg1.win 5).blk t).view.emb (ix2 n e)) 0).val, (((cfg1.win 5).blk t).view.emb (ix2 n e) 0).isLt⟩ h0, iblk1_apply]

/-- What point `t` writes back to the value array is block `t` of `GV`. -/
theorem flushedV_eq (c : Dev nD) (t : Fin cfg1.N) :
    (dat V c).flushed 6 t = ((cfg1.win 6).blk t).view.read (Elt Ideal) (GV V c) := by
  show (cfg1.win 6).cut (grid1.coords t) ((dat V c).after 6 t) = _
  rw [after_6]
  unfold outV
  rw [View.canon_unit_zero hz2]
  simp only [View.ld_unit_zero (S := S2048x512) hz2, View.ld_unit_zero (S := S512x512) hz2, View.ld_unit_zero (S := S512) hz1]
  funext j
  obtain ⟨n, e, rfl⟩ : ∃ (n : Fin 2048) (e : Fin 512), j = ix2 n e := ⟨j 0, j 1, eq_ix2 j⟩
  obtain ⟨-, -, -, -, -, -, -, -, -, -, e60, e61⟩ := idx_facts t
  have ht : t.val < 5 := N1 ▸ t.isLt
  show k1_pay3 (iblk V c 0 t) (iblk V c 3 t) (iblk V c 4 t) (ix2 n e)
    = GV V c (((cfg1.win 6).blk t).view.emb (ix2 n e))
  have h0 : ((((cfg1.win 6).blk t).view.emb (ix2 n e)) 0).val = t.val * 2048 + n.val := by
    show win1_6.index t 0 * 2048 + 1 * n.val = _
    rw [e60]; omega
  have h1 : ((((cfg1.win 6).blk t).view.emb (ix2 n e)) 1).val = e.val := by
    show win1_6.index t 1 * 512 + 1 * e.val = _
    rw [e61]; omega
  rw [PayProj.k1_pay3_apply]
  unfold GV proj
  rw [iblk4_apply, show (⟨((((cfg1.win 6).blk t).view.emb (ix2 n e)) 1).val, (((cfg1.win 6).blk t).view.emb (ix2 n e) 1).isLt⟩ : Fin 512) = e from Fin.ext h1]
  congr 1
  refine Finset.sum_congr rfl fun d _ => ?_
  rw [iblk0_apply V c t n d ⟨((((cfg1.win 6).blk t).view.emb (ix2 n e)) 0).val, (((cfg1.win 6).blk t).view.emb (ix2 n e) 0).isLt⟩ h0, iblk3_apply]

/-- An index of the key array is in point `t`'s block iff each coordinate is in the block's range on its axis. -/
theorem mem_blkK (t : Fin cfg1.N) (i : S10240x512.Idx) :
    i ∈ ((cfg1.win 5).blk t).view.set ↔ ∀ a : Fin 2, win1_5.index t a * S2048x512.size a ≤ (i a).val
      ∧ (i a).val < win1_5.index t a * S2048x512.size a + S2048x512.size a := by
  show i ∈ ((View.whole main_v23_0).slice (win1_5.rect t)).set ↔ _
  rw [View.set_slice_whole, Rect.mem_set_unit]
  exact Iff.rfl

/-- The same for the value array. -/
theorem mem_blkV (t : Fin cfg1.N) (i : S10240x512.Idx) :
    i ∈ ((cfg1.win 6).blk t).view.set ↔ ∀ a : Fin 2, win1_6.index t a * S2048x512.size a ≤ (i a).val
      ∧ (i a).val < win1_6.index t a * S2048x512.size a + S2048x512.size a := by
  show i ∈ ((View.whole main_v23_1).slice (win1_6.rect t)).set ↔ _
  rw [View.set_slice_whole, Rect.mem_set_unit]
  exact Iff.rfl

/-- Every row of the key array is in some point's block: row `r` is in block `r / 2048` (5 blocks of 2048 rows are the
    10240 rows). -/
theorem cover_K (i : S10240x512.Idx) :
    ∃ t : Fin cfg1.N, (cfg1.win 5).flush t = true ∧ i ∈ ((cfg1.win 5).blk t).view.set := by
  have hi0 : (i 0).val < 10240 := (i 0).isLt
  have hi1 : (i 1).val < 512 := (i 1).isLt
  have hq : (i 0).val / 2048 < cfg1.N := by rw [N1]; omega
  obtain ⟨-, -, -, -, -, -, -, -, e50, e51, -⟩ := idx_facts ⟨(i 0).val / 2048, hq⟩
  refine ⟨⟨(i 0).val / 2048, hq⟩, flush1_5 _, ?_⟩
  rw [mem_blkK]
  intro a
  match a with
  | ⟨0, _⟩ =>
    show win1_5.index ⟨(i 0).val / 2048, hq⟩ 0 * 2048 ≤ (i 0).val
      ∧ (i 0).val < win1_5.index ⟨(i 0).val / 2048, hq⟩ 0 * 2048 + 2048
    rw [e50]
    show (i 0).val / 2048 * 2048 ≤ (i 0).val ∧ (i 0).val < (i 0).val / 2048 * 2048 + 2048
    omega
  | ⟨1, _⟩ =>
    show win1_5.index ⟨(i 0).val / 2048, hq⟩ 1 * 512 ≤ (i 1).val
      ∧ (i 1).val < win1_5.index ⟨(i 0).val / 2048, hq⟩ 1 * 512 + 512
    rw [e51]
    omega

/-- The same for the value array. -/
theorem cover_V (i : S10240x512.Idx) :
    ∃ t : Fin cfg1.N, (cfg1.win 6).flush t = true ∧ i ∈ ((cfg1.win 6).blk t).view.set := by
  have hi0 : (i 0).val < 10240 := (i 0).isLt
  have hi1 : (i 1).val < 512 := (i 1).isLt
  have hq : (i 0).val / 2048 < cfg1.N := by rw [N1]; omega
  obtain ⟨-, -, -, -, -, -, -, -, -, -, e60, e61⟩ := idx_facts ⟨(i 0).val / 2048, hq⟩
  refine ⟨⟨(i 0).val / 2048, hq⟩, flush1_6 _, ?_⟩
  rw [mem_blkV]
  intro a
  match a with
  | ⟨0, _⟩ =>
    show win1_6.index ⟨(i 0).val / 2048, hq⟩ 0 * 2048 ≤ (i 0).val
      ∧ (i 0).val < win1_6.index ⟨(i 0).val / 2048, hq⟩ 0 * 2048 + 2048
    rw [e60]
    show (i 0).val / 2048 * 2048 ≤ (i 0).val ∧ (i 0).val < (i 0).val / 2048 * 2048 + 2048
    omega
  | ⟨1, _⟩ =>
    show win1_6.index ⟨(i 0).val / 2048, hq⟩ 1 * 512 ≤ (i 1).val
      ∧ (i 1).val < win1_6.index ⟨(i 0).val / 2048, hq⟩ 1 * 512 + 512
    rw [e61]
    omega

/-- THE KEY ARRAY after the call: at `(k, e)`, row `k` of the padded bank times column `e` of the first weight, plus
    the first bias at `e` (`proj`). -/
theorem final_K (c : Dev nD) : (dat V c).arrAt 5 cfg1.N = fun i =>
    proj (V c main_v13) (V c main_v20) (V c main_arg16) ⟨(i 0).val, (i 0).isLt⟩ ⟨(i 1).val, (i 1).isLt⟩ :=
  (dat V c).arrAt_eq_of_cover 5 (GK V c) (fun t _ => flushedK_eq V c t) cover_K

/-- THE VALUE ARRAY after the call, likewise with the second weight and bias. -/
theorem final_V (c : Dev nD) : (dat V c).arrAt 6 cfg1.N = fun i =>
    proj (V c main_v13) (V c main_v22) (V c main_arg18) ⟨(i 0).val, (i 0).isLt⟩ ⟨(i 1).val, (i 1).isLt⟩ :=
  (dat V c).arrAt_eq_of_cover 6 (GV V c) (fun t _ => flushedV_eq V c t) cover_V

end Cert.KernelIdeal.Proj1

end
-- ==== Proof.KIHostA.lean ====
/-
  The host operations in front of the two projection calls, read at an index: the entity banks padded with zero rows up
  to a whole number of row blocks, the weights transposed (and changed of format, which is the identity on extended
  reals), and the biases as launched. Each is read at the boundary where its call is entered and walked back to the launch
  memory.
-/
import proofs.«157278_j31636729102421_2_alg».proof.Proof.KIRun
import Idealize.ShloMosaic.Lib.KernelVsHost
import Idealize.ShloMosaic.Lib.ValueLayout

set_option maxRecDepth 16384

noncomputable section

namespace Cert.KernelIdeal.HostA

open Cert.KernelIdeal Cert.KernelIdeal.Gen Cert.KernelIdeal.Run
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## Walking a buffer back to the launch memory -/

/-- A buffer none of the first four stretches of host operations writes holds, before the weights are transposed, what
    it held at launch. -/
theorem W4_of (c : Dev nD) (b : Ref sig .tc) (h0 : b ∉ hostOps0_W) (h1 : b ∉ hostOps0_1_W) (h2 : b ∉ hostOps0_2_W)
    (h3 : b ∉ hostOps0_3_W) : W4 m ρ c (Proc.devRef .tc b) = m ((c : Thread nD τ).loc b) :=
  (StableHlo.after_of_writes_sub hostOps0_3 _ hostOps0_3_writes h3 : W4 m ρ c (Proc.devRef .tc b) = W3 m ρ c (Proc.devRef .tc b)).trans <|
  (StableHlo.after_of_writes_sub hostOps0_2 _ hostOps0_2_writes h2 : W3 m ρ c (Proc.devRef .tc b) = W2 m ρ c (Proc.devRef .tc b)).trans <|
  (StableHlo.after_of_writes_sub hostOps0_1 _ hostOps0_1_writes h1 : W2 m ρ c (Proc.devRef .tc b) = W1 m ρ c (Proc.devRef .tc b)).trans <|
  (StableHlo.after_of_writes_sub hostOps0 _ hostOps0_writes h0 : W1 m ρ c (Proc.devRef .tc b) = W0 m ρ c (Proc.devRef .tc b)).trans <| rfl

/-- … and still does when the first projection call is entered, if the transposes do not write it either. -/
theorem W5_of (c : Dev nD) (b : Ref sig .tc) (h0 : b ∉ hostOps0_W) (h1 : b ∉ hostOps0_1_W) (h2 : b ∉ hostOps0_2_W)
    (h3 : b ∉ hostOps0_3_W) (h4 : b ∉ hostOps0_4_W) : W5 m ρ c (Proc.devRef .tc b) = m ((c : Thread nD τ).loc b) :=
  (StableHlo.after_of_writes_sub hostOps0_4 _ hostOps0_4_writes h4 : W5 m ρ c (Proc.devRef .tc b) = W4 m ρ c (Proc.devRef .tc b)).trans <|
  W4_of m ρ c b h0 h1 h2 h3

/-! ## The padded entity bank of call 0 -/

/-- The pad value's integer constant. -/
theorem W1_c (c : Dev nD) : @Eq (IVec S_ 32) (W1 m ρ c (Proc.devRef .tc main_c)) (constantI S_ 32 0#32) := by
  show StableHlo.after hostOps0 _ (Proc.devRef .tc main_c) = _
  after_results

/-- The padded bank as the pad operation of the bank and the converted constant. -/
theorem W2_v12 (c : Dev nD) : @Eq (FVec Ideal S200704x512 .f32) (W2 m ρ c (Proc.devRef .tc main_v12))
    (pad S200704x512 ![0, 0] ![704, 0] ![0, 0] (W1 m ρ c (Proc.devRef .tc main_arg3) : FVec Ideal S200000x512 .f32)
      (sitofp .f32 (W1 m ρ c (Proc.devRef .tc main_c) : IVec S_ 32) : FVec Ideal S_ .f32)
      pads_S200000x512_S200704x512_07040_000 h_S_) := by
  show StableHlo.after hostOps0_1 _ (Proc.devRef .tc main_v12) = _
  after_results
  rfl

/-- The bank at launch, read before the pad. -/
theorem W1_arg3 (c : Dev nD) : W1 m ρ c (Proc.devRef .tc main_arg3) = m ((c : Thread nD τ).loc main_arg3) :=
  (StableHlo.after_of_writes_sub hostOps0 _ hostOps0_writes (by decide) : W1 m ρ c (Proc.devRef .tc main_arg3) = W0 m ρ c (Proc.devRef .tc main_arg3)).trans rfl

/-- THE PADDED BANK as call 0 finds it: row `k` is the bank's row `k` below 200000, and zero on the 704 padding rows. -/
theorem v12_apply (c : Dev nD) (k : Fin 200704) (d : Fin 512) :
    (W5 m ρ c (Proc.devRef .tc main_v12) : FVec Ideal S200704x512 .f32) (ix2 k d)
      = if h : k.val < 200000 then (m ((c : Thread nD τ).loc main_arg3) : FVec Ideal S200000x512 .f32) (ix2 ⟨k.val, h⟩ d)
        else (0 : EReal) := by
  have hw : W5 m ρ c (Proc.devRef .tc main_v12) = W2 m ρ c (Proc.devRef .tc main_v12) :=
    (StableHlo.after_of_writes_sub hostOps0_4 _ hostOps0_4_writes (by decide) : W5 m ρ c (Proc.devRef .tc main_v12) = W4 m ρ c (Proc.devRef .tc main_v12)).trans <|
    (StableHlo.after_of_writes_sub hostOps0_3 _ hostOps0_3_writes (by decide) : W4 m ρ c (Proc.devRef .tc main_v12) = W3 m ρ c (Proc.devRef .tc main_v12)).trans <|
    (StableHlo.after_of_writes_sub hostOps0_2 _ hostOps0_2_writes (by decide) : W3 m ρ c (Proc.devRef .tc main_v12) = W2 m ρ c (Proc.devRef .tc main_v12))
  rw [hw, W2_v12]
  by_cases h : k.val < 200000
  · rw [dif_pos h]
    refine (pad_apply_of_inside _ _ _ _ _ _ _ (ix2 k d) (ix2 (⟨k.val, h⟩ : Fin 200000) d) fun a => ?_).trans ?_
    · match a with
      | ⟨0, _⟩ => show k.val = 0 + k.val * (0 + 1); omega
      | ⟨1, _⟩ => show d.val = 0 + d.val * (0 + 1); omega
    · rw [W1_arg3]
  · rw [dif_neg h]
    refine (pad_apply_of_not_inside _ _ _ _ _ _ _ (ix2 k d) (0 : Fin 2) ?_).trans ?_
    · show ¬(0 ≤ k.val ∧ (k.val - 0) % (0 + 1) = 0 ∧ (k.val - 0) / (0 + 1) < 200000)
      rintro ⟨-, -, h3⟩
      exact h (by simpa using h3)
    · rw [W1_c]
      exact sitofp_zero (φ := .f32)

/-! ## The transposed weights and the biases of call 0 -/

/-- The first weight, transposed and changed of format. -/
theorem W5_v15 (c : Dev nD) : @Eq (FVec Ideal S512x512 .bf16) (W5 m ρ c (Proc.devRef .tc main_v15))
    (truncf .bf16 (transpose S512x512 [1, 0] (W4 m ρ c (Proc.devRef .tc main_arg11) : FVec Ideal S512x512 .f32)
      transposes_S512x512_S512x512_1_0) bitsLt_bf16_f32) := by
  show StableHlo.after hostOps0_4 _ (Proc.devRef .tc main_v15) = _
  after_results

/-- The second weight likewise. -/
theorem W5_v17 (c : Dev nD) : @Eq (FVec Ideal S512x512 .bf16) (W5 m ρ c (Proc.devRef .tc main_v17))
    (truncf .bf16 (transpose S512x512 [1, 0] (W4 m ρ c (Proc.devRef .tc main_arg13) : FVec Ideal S512x512 .f32)
      transposes_S512x512_S512x512_1_0) bitsLt_bf16_f32) := by
  show StableHlo.after hostOps0_4 _ (Proc.devRef .tc main_v17) = _
  after_results

/-- THE FIRST WEIGHT as call 0 finds it: entry `(d, e)` is the launch weight's entry `(e, d)` (the change of format is
    the identity on extended reals). -/
theorem v15_apply (c : Dev nD) (d e : Fin 512) :
    (W5 m ρ c (Proc.devRef .tc main_v15) : FVec Ideal S512x512 .bf16) (ix2 d e)
      = (m ((c : Thread nD τ).loc main_arg11) : FVec Ideal S512x512 .f32) (ix2 e d) := by
  rw [W5_v15]
  show transpose S512x512 [1, 0] (W4 m ρ c (Proc.devRef .tc main_arg11) : FVec Ideal S512x512 .f32)
    transposes_S512x512_S512x512_1_0 (ix2 d e) = _
  rw [transpose_ix2_apply, W4_of m ρ c main_arg11 (by decide) (by decide) (by decide) (by decide)]

/-- THE SECOND WEIGHT likewise. -/
theorem v17_apply (c : Dev nD) (d e : Fin 512) :
    (W5 m ρ c (Proc.devRef .tc main_v17) : FVec Ideal S512x512 .bf16) (ix2 d e)
      = (m ((c : Thread nD τ).loc main_arg13) : FVec Ideal S512x512 .f32) (ix2 e d) := by
  rw [W5_v17]
  show transpose S512x512 [1, 0] (W4 m ρ c (Proc.devRef .tc main_arg13) : FVec Ideal S512x512 .f32)
    transposes_S512x512_S512x512_1_0 (ix2 d e) = _
  rw [transpose_ix2_apply, W4_of m ρ c main_arg13 (by decide) (by decide) (by decide) (by decide)]

/-- The two biases are as launched. -/
theorem arg12_eq (c : Dev nD) : W5 m ρ c (Proc.devRef .tc main_arg12) = m ((c : Thread nD τ).loc main_arg12) :=
  W5_of m ρ c main_arg12 (by decide) (by decide) (by decide) (by decide) (by decide)
theorem arg14_eq (c : Dev nD) : W5 m ρ c (Proc.devRef .tc main_arg14) = m ((c : Thread nD τ).loc main_arg14) :=
  W5_of m ρ c main_arg14 (by decide) (by decide) (by decide) (by decide) (by decide)

/-! ## Call 1: the same at the boundary where the second projection call is entered -/

/-- A buffer that is none of call 0's arrays and that no stretch of host operations so far writes holds, when call 1
    is entered, what it held at launch. -/
theorem W7_of (c : Dev nD) (b : Ref sig .tc) (h0 : b ∉ hostOps0_W) (h1 : b ∉ hostOps0_1_W) (h2 : b ∉ hostOps0_2_W)
    (h3 : b ∉ hostOps0_3_W) (h4 : b ∉ hostOps0_4_W) (h5 : ∀ w, Pipeline.arrRef spec0 w ≠ b) (h6 : b ∉ hostOps1_W) :
    W7 m ρ c (Proc.devRef .tc b) = m ((c : Thread nD τ).loc b) :=
  (StableHlo.after_of_writes_sub hostOps1 _ hostOps1_writes h6 : W7 m ρ c (Proc.devRef .tc b) = W6 m ρ c (Proc.devRef .tc b)).trans <|
  (W6_of_ne m ρ c b h5).trans <|
  W5_of m ρ c b h0 h1 h2 h3 h4

/-- The same one boundary earlier (before call 1's weights are transposed). -/
theorem W6_of (c : Dev nD) (b : Ref sig .tc) (h0 : b ∉ hostOps0_W) (h1 : b ∉ hostOps0_1_W) (h2 : b ∉ hostOps0_2_W)
    (h3 : b ∉ hostOps0_3_W) (h4 : b ∉ hostOps0_4_W) (h5 : ∀ w, Pipeline.arrRef spec0 w ≠ b) :
    W6 m ρ c (Proc.devRef .tc b) = m ((c : Thread nD τ).loc b) :=
  (W6_of_ne m ρ c b h5).trans <| W5_of m ρ c b h0 h1 h2 h3 h4

/-- The second pad value's integer constant. -/
theorem W3_c_0 (c : Dev nD) : @Eq (IVec S_ 32) (W3 m ρ c (Proc.devRef .tc main_c_0)) (constantI S_ 32 0#32) := by
  show StableHlo.after hostOps0_2 _ (Proc.devRef .tc main_c_0) = _
  after_results

/-- The second padded bank as the pad operation of the bank and the converted constant. -/
theorem W4_v13 (c : Dev nD) : @Eq (FVec Ideal S10240x512 .f32) (W4 m ρ c (Proc.devRef .tc main_v13))
    (pad S10240x512 ![0, 0] ![240, 0] ![0, 0] (W3 m ρ c (Proc.devRef .tc main_arg4) : FVec Ideal S10000x512 .f32)
      (sitofp .f32 (W3 m ρ c (Proc.devRef .tc main_c_0) : IVec S_ 32) : FVec Ideal S_ .f32)
      pads_S10000x512_S10240x512_02400_000 h_S_) := by
  show StableHlo.after hostOps0_3 _ (Proc.devRef .tc main_v13) = _
  after_results
  rfl

/-- The second bank at launch, read before its pad. -/
theorem W3_arg4 (c : Dev nD) : W3 m ρ c (Proc.devRef .tc main_arg4) = m ((c : Thread nD τ).loc main_arg4) :=
  (StableHlo.after_of_writes_sub hostOps0_2 _ hostOps0_2_writes (by decide) : W3 m ρ c (Proc.devRef .tc main_arg4) = W2 m ρ c (Proc.devRef .tc main_arg4)).trans <|
  (StableHlo.after_of_writes_sub hostOps0_1 _ hostOps0_1_writes (by decide) : W2 m ρ c (Proc.devRef .tc main_arg4) = W1 m ρ c (Proc.devRef .tc main_arg4)).trans <|
  (StableHlo.after_of_writes_sub hostOps0 _ hostOps0_writes (by decide) : W1 m ρ c (Proc.devRef .tc main_arg4) = W0 m ρ c (Proc.devRef .tc main_arg4)).trans rfl

/-- THE SECOND PADDED BANK as call 1 finds it: row `k` is the bank's row `k` below 10000, and zero on the 240 padding
    rows. -/
theorem v13_apply (c : Dev nD) (k : Fin 10240) (d : Fin 512) :
    (W7 m ρ c (Proc.devRef .tc main_v13) : FVec Ideal S10240x512 .f32) (ix2 k d)
      = if h : k.val < 10000 then (m ((c : Thread nD τ).loc main_arg4) : FVec Ideal S10000x512 .f32) (ix2 ⟨k.val, h⟩ d)
        else (0 : EReal) := by
  have hw : W7 m ρ c (Proc.devRef .tc main_v13) = W4 m ρ c (Proc.devRef .tc main_v13) :=
    (StableHlo.after_of_writes_sub hostOps1 _ hostOps1_writes (by decide) : W7 m ρ c (Proc.devRef .tc main_v13) = W6 m ρ c (Proc.devRef .tc main_v13)).trans <|
    (W6_of_ne m ρ c main_v13 (by decide)).trans <|
    (StableHlo.after_of_writes_sub hostOps0_4 _ hostOps0_4_writes (by decide) : W5 m ρ c (Proc.devRef .tc main_v13) = W4 m ρ c (Proc.devRef .tc main_v13))
  rw [hw, W4_v13]
  by_cases h : k.val < 10000
  · rw [dif_pos h]
    refine (pad_apply_of_inside _ _ _ _ _ _ _ (ix2 k d) (ix2 (⟨k.val, h⟩ : Fin 10000) d) fun a => ?_).trans ?_
    · match a with
      | ⟨0, _⟩ => show k.val = 0 + k.val * (0 + 1); omega
      | ⟨1, _⟩ => show d.val = 0 + d.val * (0 + 1); omega
    · rw [W3_arg4]
  · rw [dif_neg h]
    refine (pad_apply_of_not_inside _ _ _ _ _ _ _ (ix2 k d) (0 : Fin 2) ?_).trans ?_
    · show ¬(0 ≤ k.val ∧ (k.val - 0) % (0 + 1) = 0 ∧ (k.val - 0) / (0 + 1) < 10000)
      rintro ⟨-, -, h3⟩
      exact h (by simpa using h3)
    · rw [W3_c_0]
      exact sitofp_zero (φ := .f32)

/-- Call 1's first weight, transposed and changed of format. -/
theorem W7_v20 (c : Dev nD) : @Eq (FVec Ideal S512x512 .bf16) (W7 m ρ c (Proc.devRef .tc main_v20))
    (truncf .bf16 (transpose S512x512 [1, 0] (W6 m ρ c (Proc.devRef .tc main_arg15) : FVec Ideal S512x512 .f32)
      transposes_S512x512_S512x512_1_0) bitsLt_bf16_f32) := by
  show StableHlo.after hostOps1 _ (Proc.devRef .tc main_v20) = _
  after_results

/-- Its second weight likewise. -/
theorem W7_v22 (c : Dev nD) : @Eq (FVec Ideal S512x512 .bf16) (W7 m ρ c (Proc.devRef .tc main_v22))
    (truncf .bf16 (transpose S512x512 [1, 0] (W6 m ρ c (Proc.devRef .tc main_arg17) : FVec Ideal S512x512 .f32)
      transposes_S512x512_S512x512_1_0) bitsLt_bf16_f32) := by
  show StableHlo.after hostOps1 _ (Proc.devRef .tc main_v22) = _
  after_results

/-- CALL 1'S FIRST WEIGHT as the call finds it: entry `(d, e)` is the launch weight's entry `(e, d)`. -/
theorem v20_apply (c : Dev nD) (d e : Fin 512) :
    (W7 m ρ c (Proc.devRef .tc main_v20) : FVec Ideal S512x512 .bf16) (ix2 d e)
      = (m ((c : Thread nD τ).loc main_arg15) : FVec Ideal S512x512 .f32) (ix2 e d) := by
  rw [W7_v20]
  show transpose S512x512 [1, 0] (W6 m ρ c (Proc.devRef .tc main_arg15) : FVec Ideal S512x512 .f32)
    transposes_S512x512_S512x512_1_0 (ix2 d e) = _
  rw [transpose_ix2_apply, W6_of m ρ c main_arg15 (by decide) (by decide) (by decide) (by decide) (by decide) (by decide)]

/-- CALL 1'S SECOND WEIGHT likewise. -/
theorem v22_apply (c : Dev nD) (d e : Fin 512) :
    (W7 m ρ c (Proc.devRef .tc main_v22) : FVec Ideal S512x512 .bf16) (ix2 d e)
      = (m ((c : Thread nD τ).loc main_arg17) : FVec Ideal S512x512 .f32) (ix2 e d) := by
  rw [W7_v22]
  show transpose S512x512 [1, 0] (W6 m ρ c (Proc.devRef .tc main_arg17) : FVec Ideal S512x512 .f32)
    transposes_S512x512_S512x512_1_0 (ix2 d e) = _
  rw [transpose_ix2_apply, W6_of m ρ c main_arg17 (by decide) (by decide) (by decide) (by decide) (by decide) (by decide)]

/-- Call 1's two biases are as launched. -/
theorem arg16_eq (c : Dev nD) : W7 m ρ c (Proc.devRef .tc main_arg16) = m ((c : Thread nD τ).loc main_arg16) :=
  W7_of m ρ c main_arg16 (by decide) (by decide) (by decide) (by decide) (by decide) (by decide) (by decide)
theorem arg18_eq (c : Dev nD) : W7 m ρ c (Proc.devRef .tc main_arg18) = m ((c : Thread nD τ).loc main_arg18) :=
  W7_of m ρ c main_arg18 (by decide) (by decide) (by decide) (by decide) (by decide) (by decide) (by decide)

end Cert.KernelIdeal.HostA

end
-- ==== Proof.RefStages.lean ====
/-
  The reference's host operations, read as mathematics.

  The reference program computes its result by a chain of whole-array operations: a contraction over the last axis of
  both operands, a bias row broadcast down the rows and added, a maximum along the rows taken from -infinity, the
  difference from that maximum, the exponential, a row sum taken from 0, a division by the broadcast row sum and a last
  contraction against the value rows. Each operation, read at one index, is one step of elementary arithmetic on the
  extended reals. This file composes those steps, for arrays of any number N of key rows, into the two closed formulas
  of the specification: the linear layer  (sum over d of x i d * w e d) + b e,  and softmax attention
  sum over n of (exp (s n - M) / S) * v n d  with s the row's logits, M their maximum and S the sum of the exp (s n - M).
  Nothing here mentions a program: the arrays, the index maps of the operations and the equations that read each
  operation at an index are hypotheses, stated in the form in which a program's operations provide them.
-/
import Idealize.ShloMosaic.PureOps.Ideal.Laws
import Idealize.ShloMosaic.Lib.ValueIdx
import Idealize.ShloMosaic.Lib.Pipeline.Value

noncomputable section

namespace Cert.RefStages

open Idealize.ShloMosaic Idealize.ShloMosaic.ValueIdx

/-- The word of the float -infinity denotes the bottom of the extended reals. -/
theorem ofBits_neg_inf : Ideal.ofBits .f32 0xFF800000#32 = (⊥ : EReal) := by
  simp [Ideal.ofBits, Ideal.ieee]

/-- Putting the column coordinate k back into a row index r of a two-axis array gives the index (r, k). -/
theorem lift_row {M N : Nat} (h : (⟨2, ![M, N]⟩ : Shape).Reduces [1] (⟨1, ![M]⟩ : Shape)) (r : Fin M)
    (k : Fin ((⟨2, ![M, N]⟩ : Shape).size 1)) : h.lift (ix1 r) k = ix2 r (⟨k.val, k.isLt⟩ : Fin N) := by
  funext c; apply Fin.ext
  fin_cases c <;> rfl

/-- A maximum-reduce of a two-axis array along its rows, started from the float -infinity, is at row r the maximum,
    taken from -infinity, of the row's entries. -/
theorem reduce_max_row {M N : Nat} (x : FVec Ideal ⟨2, ![M, N]⟩ .f32)
    (h' : (⟨2, ![M, N]⟩ : Shape).ReducesTo [1] (⟨1, ![M]⟩ : Shape))
    (h : (⟨2, ![M, N]⟩ : Shape).Reduces [1] (⟨1, ![M]⟩ : Shape)) (hu : 0 < (⟨0, ![]⟩ : Shape).numel) (r : Fin M) :
    Host.reduce FloatOps.maximumf x (constant (F := Ideal) (⟨0, ![]⟩ : Shape) .f32 0xFF800000#32) h' hu (ix1 r)
      = (Finset.univ : Finset (Fin N)).fold max (⊥ : EReal) (fun n => x (ix2 r n)) := by
  rw [Host.reduce_eq_fold_single FloatOps.maximumf x _ h' h hu]
  have hf : (x ∘ h.lift (ix1 r)) = fun k : Fin N => x (ix2 r k) := funext fun k => congrArg x (lift_row h r k)
  have hi : (constant (F := Ideal) (⟨0, ![]⟩ : Shape) .f32 0xFF800000#32) (Shape.Idx.first hu) = (⊥ : EReal) := ofBits_neg_inf
  rw [hi]
  exact congrArg (fun f => Finset.fold max (⊥ : EReal) f (Finset.univ : Finset (Fin N))) hf

/-! ### Arrays of rank one and two, and their indices -/

/-- A two-axis array of extended reals. -/
abbrev Arr2 (a b : Nat) : Type := FVec Ideal ⟨2, ![a, b]⟩ .f32
/-- A one-axis array of extended reals. -/
abbrev Arr1 (a : Nat) : Type := FVec Ideal ⟨1, ![a]⟩ .f32
/-- The index type of a two-axis array. -/
abbrev I2 (a b : Nat) : Type := (⟨2, ![a, b]⟩ : Shape).Idx
/-- The index type of a one-axis array. -/
abbrev I1 (a : Nat) : Type := (⟨1, ![a]⟩ : Shape).Idx

/-- The linear layer. Y0 contracts x and w over their last axes, Y1 lays the bias b out as a row, Y2 repeats that row
    down the rows, Y3 adds: entry (p, e) of Y3 is (sum over d of x p d * w e d) + b e. -/
theorem lin_of {A : Nat} (x : Arr2 A 512) (w : Arr2 512 512) (b : Arr1 512)
    (Y0 Y2 Y3 : Arr2 A 512) (Y1 : Arr2 1 512)
    (li : I2 A 512 → Fin 512 → I2 A 512) (ri : I2 A 512 → Fin 512 → I2 512 512)
    (i1 : I2 1 512 → I1 512) (i2 : I2 A 512 → I2 1 512)
    (h0 : ∀ i, Y0 i = ∑ k : Fin 512, x (li i k) * w (ri i k))
    (h1 : ∀ i, Y1 i = b (i1 i)) (h2 : ∀ i, Y2 i = Y1 (i2 i))
    (h3 : ∀ i, Y3 i = FloatOps.addf (F := Ideal) (φ := .f32) (Y0 i) (Y2 i))
    (eli : ∀ p e k, li (ix2 p e) k = ix2 p k) (eri : ∀ p e k, ri (ix2 p e) k = ix2 e k)
    (ei : ∀ p e, i1 (i2 (ix2 p e)) = ix1 e) (p : Fin A) (e : Fin 512) :
    Y3 (ix2 p e) = (∑ d : Fin 512, x (ix2 p d) * w (ix2 e d)) + b (ix1 e) := by
  rw [h3, h0, h2, h1, ei, Ideal.addf_def]
  simp only [eli, eri]

/-- The index type of a scalar. -/
abbrev I0 : Type := (⟨0, ![]⟩ : Shape).Idx
/-- A scalar, as an array of rank zero. -/
abbrev Arr0 : Type := FVec Ideal ⟨0, ![]⟩ .f32

/-- Softmax attention, operation by operation. Y20 holds the logits (the contraction of the query rows Yq with the key
    rows Yk); Y21 their row maxima taken from -infinity; C0 is the scalar -infinity, Y22 its copy along the rows, Y23 the
    larger of Y22 and Y21 (so Y21 again); Y24, Y25 lay Y23 out as a column and repeat it along the rows; Y26 is the
    difference, Y27 its exponential; C1 is the scalar 0, Y28 the row sums of Y27 started from C1; Y29, Y30 lay Y28 out and
    repeat it; Y31 is the quotient Y27 / Y30; Y32 contracts Y31 with the value rows Yv. Entry (r, d) of Y32 is the
    softmax-weighted sum of column d of the values:
    sum over n of (exp (s n - M) / S) * v n d, with s n = sum over e of q r e * k n e, M the maximum of the s n from
    -infinity and S the sum of the exp (s n - M). -/
theorem attend_of {N : Nat} (Yq : Arr2 512 512) (Yk Yv : Arr2 N 512) (Y20 Y25 Y26 Y27 Y30 Y31 : Arr2 512 N)
    (Y21 Y22 Y23 Y28 : Arr1 512) (Y24 Y29 : Arr2 512 1) (C0 C1 : Arr0) (Y32 : Arr2 512 512)
    (li20 : I2 512 N → Fin 512 → I2 512 512) (ri20 : I2 512 N → Fin 512 → I2 N 512)
    (i22 : I1 512 → I0) (i24 : I2 512 1 → I1 512) (i25 : I2 512 N → I2 512 1)
    (i28 : I1 512 → Fin N → I2 512 N) (j0 : I0) (i29 : I2 512 1 → I1 512) (i30 : I2 512 N → I2 512 1)
    (li32 : I2 512 512 → Fin N → I2 512 N) (ri32 : I2 512 512 → Fin N → I2 N 512)
    (q : Fin 512 → Fin 512 → EReal) (k v : Fin N → Fin 512 → EReal)
    (hq : ∀ r e, Yq (ix2 r e) = q r e) (hk : ∀ n e, Yk (ix2 n e) = k n e) (hv : ∀ n d, Yv (ix2 n d) = v n d)
    (h20 : ∀ i, Y20 i = ∑ t : Fin 512, Yq (li20 i t) * Yk (ri20 i t))
    (h21 : ∀ r, Y21 (ix1 r) = (Finset.univ : Finset (Fin N)).fold max (⊥ : EReal) (fun n => Y20 (ix2 r n)))
    (hc0 : ∀ i, C0 i = FloatOps.ofBits (F := Ideal) .f32 0xFF800000#32)
    (h22 : ∀ i, Y22 i = C0 (i22 i))
    (h23 : ∀ i, Y23 i = FloatOps.maximumf (F := Ideal) (φ := .f32) (Y22 i) (Y21 i))
    (h24 : ∀ i, Y24 i = Y23 (i24 i)) (h25 : ∀ i, Y25 i = Y24 (i25 i))
    (h26 : ∀ i, Y26 i = FloatOps.subf (F := Ideal) (φ := .f32) (Y20 i) (Y25 i))
    (h27 : ∀ i, Y27 i = FloatOps.hostUnary (F := Ideal) (φ := .f32) .exp (Y26 i))
    (hc1 : ∀ i, C1 i = FloatOps.ofBits (F := Ideal) .f32 0x00000000#32)
    (h28 : ∀ i, Y28 i = C1 j0 + ∑ t : Fin N, Y27 (i28 i t))
    (h29 : ∀ i, Y29 i = Y28 (i29 i)) (h30 : ∀ i, Y30 i = Y29 (i30 i))
    (h31 : ∀ i, Y31 i = FloatOps.hostDivf (F := Ideal) (φ := .f32) (Y27 i) (Y30 i))
    (h32 : ∀ i, Y32 i = ∑ t : Fin N, Y31 (li32 i t) * Yv (ri32 i t))
    (e1 : ∀ r n t, li20 (ix2 r n) t = ix2 r t) (e2 : ∀ r n t, ri20 (ix2 r n) t = ix2 n t)
    (e24 : ∀ r n, i24 (i25 (ix2 r n)) = ix1 r) (e28 : ∀ r t, i28 (ix1 r) t = ix2 r t)
    (e29 : ∀ r n, i29 (i30 (ix2 r n)) = ix1 r)
    (e5 : ∀ r d t, li32 (ix2 r d) t = ix2 r t) (e6 : ∀ r d t, ri32 (ix2 r d) t = ix2 t d)
    (r d : Fin 512) :
    Y32 (ix2 r d)
      = ∑ n, Ideal.div
            (Ideal.exp ((∑ e, q r e * k n e) - Finset.univ.fold max (⊥ : EReal) (fun n' => ∑ e, q r e * k n' e)))
            (∑ n', Ideal.exp ((∑ e, q r e * k n' e) - Finset.univ.fold max (⊥ : EReal) (fun n'' => ∑ e, q r e * k n'' e)))
          * v n d := by
  have hs : ∀ r n, Y20 (ix2 r n) = ∑ e, q r e * k n e := fun r n => by
    rw [h20]; simp only [e1, e2, hq, hk]
  have hM : ∀ r, Y23 (ix1 r) = Finset.univ.fold max (⊥ : EReal) (fun n' => ∑ e, q r e * k n' e) := fun r => by
    rw [h23, h22, hc0, h21, Ideal.maximumf_def, Ideal.ofBits_def, ofBits_neg_inf, max_eq_right bot_le]
    simp only [hs]
  have hE : ∀ r n, Y27 (ix2 r n)
      = Ideal.exp ((∑ e, q r e * k n e) - Finset.univ.fold max (⊥ : EReal) (fun n' => ∑ e, q r e * k n' e)) :=
    fun r n => by
      rw [h27, h26, h25, h24, e24, hs, hM, Ideal.hostUnary_exp_def, Ideal.subf_def]
  have hS : ∀ r, Y28 (ix1 r)
      = ∑ n', Ideal.exp ((∑ e, q r e * k n' e) - Finset.univ.fold max (⊥ : EReal) (fun n'' => ∑ e, q r e * k n'' e)) :=
    fun r => by
      rw [h28, hc1, Ideal.ofBits_def, Ideal.ofBits_zero_f32, zero_add]
      simp only [e28, hE]
  rw [h32]
  refine Finset.sum_congr rfl fun n _ => ?_
  rw [e5, e6, hv, h31, h30, h29, e29, hE, hS, Ideal.hostDivf_def]

/-! ### Pieces with a leading axis of extent one, laid one after the other along that axis -/

/-- The shape [n, A, B]. -/
abbrev S3 (n A B : Nat) : Shape := ⟨3, ![n, A, B]⟩

/-- Off the leading axis, the index (0, r, d) of a piece has the coordinates of the index (g, r, d) of the whole. -/
theorem piece_coords {n A B : Nat} (g : Fin n) (r : Fin A) (d : Fin B) (b : Fin (S3 1 A B).rank)
    (hb : b.cast (rfl : (S3 1 A B).rank = (S3 n A B).rank) ≠ 0) :
    ((ix3 (0 : Fin 1) r d : (S3 1 A B).Idx) b).val = ((ix3 g r d : (S3 n A B).Idx) (b.cast rfl)).val := by
  match b with
  | ⟨0, _⟩ => exact absurd rfl hb
  | ⟨1, _⟩ => rfl
  | ⟨2, _⟩ => rfl

/-- Three pieces of shape [1, A, B] laid along the leading axis: the entry (0, r, d) is the first piece's (0, r, d). -/
theorem concat3_apply_0 {A B : Nat} (p0 p1 p2 : (S3 1 A B).Idx → EReal)
    (h : Shape.Concatenates (([⟨S3 1 A B, p0⟩, ⟨S3 1 A B, p1⟩, ⟨S3 1 A B, p2⟩] : List ((s : Shape) × (s.Idx → EReal))).map (·.1))
      (S3 3 A B) 0) (r : Fin A) (d : Fin B) :
    concatenate (S3 3 A B) 0 [⟨S3 1 A B, p0⟩, ⟨S3 1 A B, p1⟩, ⟨S3 1 A B, p2⟩] h (ix3 (0 : Fin 3) r d)
      = p0 (ix3 (0 : Fin 1) r d) :=
  concatenate_apply_piece (0 : Fin (S3 3 A B).rank) _ h (ix3 (0 : Fin 3) r d) 0 (show 0 < 3 by decide) (S3 1 A B) p0 rfl rfl 0 rfl
    (ix3 (0 : Fin 1) r d) (piece_coords (0 : Fin 3) r d) rfl

/-- … the entry (1, r, d) is the second piece's (0, r, d). -/
theorem concat3_apply_1 {A B : Nat} (p0 p1 p2 : (S3 1 A B).Idx → EReal)
    (h : Shape.Concatenates (([⟨S3 1 A B, p0⟩, ⟨S3 1 A B, p1⟩, ⟨S3 1 A B, p2⟩] : List ((s : Shape) × (s.Idx → EReal))).map (·.1))
      (S3 3 A B) 0) (r : Fin A) (d : Fin B) :
    concatenate (S3 3 A B) 0 [⟨S3 1 A B, p0⟩, ⟨S3 1 A B, p1⟩, ⟨S3 1 A B, p2⟩] h (ix3 (1 : Fin 3) r d)
      = p1 (ix3 (0 : Fin 1) r d) :=
  concatenate_apply_piece (0 : Fin (S3 3 A B).rank) _ h (ix3 (1 : Fin 3) r d) 1 (show 1 < 3 by decide) (S3 1 A B) p1 rfl rfl 1 rfl
    (ix3 (0 : Fin 1) r d) (piece_coords (1 : Fin 3) r d) rfl

/-- … the entry (2, r, d) is the third piece's (0, r, d). -/
theorem concat3_apply_2 {A B : Nat} (p0 p1 p2 : (S3 1 A B).Idx → EReal)
    (h : Shape.Concatenates (([⟨S3 1 A B, p0⟩, ⟨S3 1 A B, p1⟩, ⟨S3 1 A B, p2⟩] : List ((s : Shape) × (s.Idx → EReal))).map (·.1))
      (S3 3 A B) 0) (r : Fin A) (d : Fin B) :
    concatenate (S3 3 A B) 0 [⟨S3 1 A B, p0⟩, ⟨S3 1 A B, p1⟩, ⟨S3 1 A B, p2⟩] h (ix3 (2 : Fin 3) r d)
      = p2 (ix3 (0 : Fin 1) r d) :=
  concatenate_apply_piece (0 : Fin (S3 3 A B).rank) _ h (ix3 (2 : Fin 3) r d) 2 (show 2 < 3 by decide) (S3 1 A B) p2 rfl rfl 2 rfl
    (ix3 (0 : Fin 1) r d) (piece_coords (2 : Fin 3) r d) rfl

/-- Two pieces of shape [1, A, B] laid along the leading axis: the entry (0, r, d) is the first piece's (0, r, d). -/
theorem concat2_apply_0 {A B : Nat} (p0 p1 : (S3 1 A B).Idx → EReal)
    (h : Shape.Concatenates (([⟨S3 1 A B, p0⟩, ⟨S3 1 A B, p1⟩] : List ((s : Shape) × (s.Idx → EReal))).map (·.1)) (S3 2 A B) 0)
    (r : Fin A) (d : Fin B) :
    concatenate (S3 2 A B) 0 [⟨S3 1 A B, p0⟩, ⟨S3 1 A B, p1⟩] h (ix3 (0 : Fin 2) r d) = p0 (ix3 (0 : Fin 1) r d) :=
  concatenate_apply_piece (0 : Fin (S3 2 A B).rank) _ h (ix3 (0 : Fin 2) r d) 0 (show 0 < 2 by decide) (S3 1 A B) p0 rfl rfl 0 rfl
    (ix3 (0 : Fin 1) r d) (piece_coords (0 : Fin 2) r d) rfl

/-- … the entry (1, r, d) is the second piece's (0, r, d). -/
theorem concat2_apply_1 {A B : Nat} (p0 p1 : (S3 1 A B).Idx → EReal)
    (h : Shape.Concatenates (([⟨S3 1 A B, p0⟩, ⟨S3 1 A B, p1⟩] : List ((s : Shape) × (s.Idx → EReal))).map (·.1)) (S3 2 A B) 0)
    (r : Fin A) (d : Fin B) :
    concatenate (S3 2 A B) 0 [⟨S3 1 A B, p0⟩, ⟨S3 1 A B, p1⟩] h (ix3 (1 : Fin 2) r d) = p1 (ix3 (0 : Fin 1) r d) :=
  concatenate_apply_piece (0 : Fin (S3 2 A B).rank) _ h (ix3 (1 : Fin 2) r d) 1 (show 1 < 2 by decide) (S3 1 A B) p1 rfl rfl 1 rfl
    (ix3 (0 : Fin 1) r d) (piece_coords (1 : Fin 2) r d) rfl

end Cert.RefStages

end
-- ==== Proof.KIHostB.lean ====
/-
  The host operations around the two attention calls, read at an index: the three query layers (a contraction over the
  feature axis, the bias row broadcast down the rows, a sum) as the linear layer of the specification; the subject and
  object queries stacked for call 2 and the relation query block for call 3; and the result, which stacks member 0 of
  call 2's output, call 3's output and member 1 of call 2's output.
-/
import proofs.«157278_j31636729102421_2_alg».proof.Proof.KIRun
import proofs.«157278_j31636729102421_2_alg».proof.Proof.Spec
import proofs.«157278_j31636729102421_2_alg».proof.Proof.RefStages
import Idealize.ShloMosaic.Lib.ValueLayout
import Idealize.ShloMosaic.PureOps.Ideal.Laws

set_option maxRecDepth 16384

noncomputable section

open scoped BigOperators

namespace Cert.KernelIdeal.HostB

open Cert.KernelIdeal Cert.KernelIdeal.Gen Cert.KernelIdeal.Run
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-! ## The query layers: a contraction, a bias row broadcast down the rows, a sum -/

theorem dotQ_lhs_free (i : S512x512.Idx) (q : dot_S512x512_S512x512_S512x512_1_1_0_0_n_n.contr.Idx) :
    (dot_S512x512_S512x512_S512x512_1_1_0_0_n_n.lhsIdx i q 0).val = (i 0).val := by
  unfold DotDims.lhsIdx
  rw [dif_neg (show ¬(0 : Fin S512x512.rank) ∈ dot_S512x512_S512x512_S512x512_1_1_0_0_n_n.lhsBatch by decide),
    dif_pos (show (0 : Fin S512x512.rank) ∈ dot_S512x512_S512x512_S512x512_1_1_0_0_n_n.lhsNonContracting by decide)]
  rfl

theorem dotQ_rhs_free (i : S512x512.Idx) (q : dot_S512x512_S512x512_S512x512_1_1_0_0_n_n.contr.Idx) :
    (dot_S512x512_S512x512_S512x512_1_1_0_0_n_n.rhsIdx i q 0).val = (i 1).val := by
  unfold DotDims.rhsIdx
  rw [dif_neg (show ¬(0 : Fin S512x512.rank) ∈ dot_S512x512_S512x512_S512x512_1_1_0_0_n_n.rhsBatch by decide),
    dif_pos (show (0 : Fin S512x512.rank) ∈ dot_S512x512_S512x512_S512x512_1_1_0_0_n_n.rhsNonContracting by decide)]
  rfl

/-- The host's contraction of two `[512, 512]` matrices over their second axes: entry `(r, e)` is the sum over `d` of
    `x (r, d) * w (e, d)`. -/
theorem dotQ_apply (x w : FVec Ideal S512x512 .f32) (r e : Fin 512) :
    Host.dotGeneral dot_S512x512_S512x512_S512x512_1_1_0_0_n_n none x w (ix2 r e)
      = ∑ d : Fin 512, x (ix2 r d) * w (ix2 e d) := by
  simp only [Host.dotGeneral]
  rw [Ideal.dotGeneral_apply,
    ← Equiv.sum_comp (contrEquiv1 dot_S512x512_S512x512_S512x512_1_1_0_0_n_n 512 rfl rfl).symm]
  refine Finset.sum_congr rfl fun k _ => ?_
  have hk := contrEquiv1_symm_val dot_S512x512_S512x512_S512x512_1_1_0_0_n_n 512 rfl rfl k
  have el : dot_S512x512_S512x512_S512x512_1_1_0_0_n_n.lhsIdx (ix2 r e)
      ((contrEquiv1 dot_S512x512_S512x512_S512x512_1_1_0_0_n_n 512 rfl rfl).symm k) = ix2 r k :=
    funext fun a => Fin.ext (by
      match a with
      | ⟨0, _⟩ => exact dotQ_lhs_free _ _
      | ⟨1, _⟩ => exact (dot_S512x512_S512x512_S512x512_1_1_0_0_n_n.lhsIdx_val_of_single rfl _ _).trans hk)
  have er : dot_S512x512_S512x512_S512x512_1_1_0_0_n_n.rhsIdx (ix2 r e)
      ((contrEquiv1 dot_S512x512_S512x512_S512x512_1_1_0_0_n_n 512 rfl rfl).symm k) = ix2 e k :=
    funext fun a => Fin.ext (by
      match a with
      | ⟨0, _⟩ => exact dotQ_rhs_free _ _
      | ⟨1, _⟩ => exact (dot_S512x512_S512x512_S512x512_1_1_0_0_n_n.rhsIdx_val_of_single rfl _ _).trans hk)
  rw [el, er]

/-- One query layer as the host computes it. -/
def linTerm (x w : FVec Ideal S512x512 .f32) (b : FVec Ideal S512 .f32) : FVec Ideal S512x512 .f32 :=
  addf (Host.dotGeneral dot_S512x512_S512x512_S512x512_1_1_0_0_n_n none x w)
    (broadcastInDim S512x512 ![0, 1] bcast_S1x512_S512x512_0_1 (broadcastInDim S1x512 ![1] bcast_S512_S1x512_1 b))

/-- … is the linear layer of the specification, entry by entry. -/
theorem linTerm_apply (x w : FVec Ideal S512x512 .f32) (b : FVec Ideal S512 .f32) (r e : Fin 512) :
    linTerm x w b (ix2 r e)
      = Cert.Spec.lin (fun p q => x (ix2 p q)) (fun p q => w (ix2 p q)) (fun j => b (ix1 j)) r e := by
  unfold linTerm Cert.Spec.lin
  rw [addf_apply, dotQ_apply]
  congr 1
  refine (broadcastInDim_apply _ _ _ (ix2 r e) (ix2 (0 : Fin 1) e) fun a => ?_).trans ?_
  · match a with
    | ⟨0, _⟩ => rfl
    | ⟨1, _⟩ => rfl
  · exact broadcastInDim_apply _ _ _ (ix2 (0 : Fin 1) e) (ix1 e) fun a => match a with | ⟨0, _⟩ => rfl

/-- A `[512, 512]` matrix given a leading unit axis reads, at `(0, r, e)`, its entry `(r, e)`. -/
theorem lead_apply (x : FVec Ideal S512x512 .f32) (r e : Fin 512) :
    broadcastInDim S1x512x512 ![1, 2] bcast_S512x512_S1x512x512_1_2 x (ix3 (0 : Fin 1) r e) = x (ix2 r e) :=
  broadcastInDim_apply _ _ _ (ix3 (0 : Fin 1) r e) (ix2 r e) fun a => match a with | ⟨0, _⟩ => rfl | ⟨1, _⟩ => rfl

/-! ## The three projected queries after the first stretch of host operations -/

theorem W1_v3 (c : Dev nD) : @Eq (FVec Ideal S512x512 .f32) (W1 m ρ c (Proc.devRef .tc main_v3))
    (linTerm (m ((c : Thread nD τ).loc main_arg0)) (m ((c : Thread nD τ).loc main_arg5)) (m ((c : Thread nD τ).loc main_arg6))) := by
  show StableHlo.after hostOps0 _ (Proc.devRef .tc main_v3) = _
  after_results
  rfl

theorem W1_v7 (c : Dev nD) : @Eq (FVec Ideal S512x512 .f32) (W1 m ρ c (Proc.devRef .tc main_v7))
    (linTerm (m ((c : Thread nD τ).loc main_arg1)) (m ((c : Thread nD τ).loc main_arg7)) (m ((c : Thread nD τ).loc main_arg8))) := by
  show StableHlo.after hostOps0 _ (Proc.devRef .tc main_v7) = _
  after_results
  rfl

theorem W1_v11 (c : Dev nD) : @Eq (FVec Ideal S512x512 .f32) (W1 m ρ c (Proc.devRef .tc main_v11))
    (linTerm (m ((c : Thread nD τ).loc main_arg2)) (m ((c : Thread nD τ).loc main_arg9)) (m ((c : Thread nD τ).loc main_arg10))) := by
  show StableHlo.after hostOps0 _ (Proc.devRef .tc main_v11) = _
  after_results
  rfl

/-- A buffer that neither projection call nor any stretch of host operations after the first writes holds, when the
    queries are stacked, what the first stretch left. -/
theorem W8_to_W1 (c : Dev nD) (b : Ref sig .tc) (h1 : b ∉ hostOps0_1_W) (h2 : b ∉ hostOps0_2_W) (h3 : b ∉ hostOps0_3_W)
    (h4 : b ∉ hostOps0_4_W) (h5 : ∀ w, Pipeline.arrRef spec0 w ≠ b) (h6 : b ∉ hostOps1_W)
    (h7 : ∀ w, Pipeline.arrRef spec1 w ≠ b) : W8 m ρ c (Proc.devRef .tc b) = W1 m ρ c (Proc.devRef .tc b) :=
  (W8_of_ne m ρ c b h7).trans <|
  (StableHlo.after_of_writes_sub hostOps1 _ hostOps1_writes h6 : W7 m ρ c (Proc.devRef .tc b) = W6 m ρ c (Proc.devRef .tc b)).trans <|
  (W6_of_ne m ρ c b h5).trans <|
  (StableHlo.after_of_writes_sub hostOps0_4 _ hostOps0_4_writes h4 : W5 m ρ c (Proc.devRef .tc b) = W4 m ρ c (Proc.devRef .tc b)).trans <|
  (StableHlo.after_of_writes_sub hostOps0_3 _ hostOps0_3_writes h3 : W4 m ρ c (Proc.devRef .tc b) = W3 m ρ c (Proc.devRef .tc b)).trans <|
  (StableHlo.after_of_writes_sub hostOps0_2 _ hostOps0_2_writes h2 : W3 m ρ c (Proc.devRef .tc b) = W2 m ρ c (Proc.devRef .tc b)).trans <|
  (StableHlo.after_of_writes_sub hostOps0_1 _ hostOps0_1_writes h1 : W2 m ρ c (Proc.devRef .tc b) = W1 m ρ c (Proc.devRef .tc b))

/-! ## The stacked queries of call 2 and the query block of call 3 -/

/-- The two-query stack as the concatenation of the subject and object queries, each given a leading unit axis. -/
theorem W9_v26 (c : Dev nD) : @Eq (FVec Ideal S2x512x512 .f32) (W9 m ρ c (Proc.devRef .tc main_v26))
    (concatenate S2x512x512 0
      [⟨S1x512x512, broadcastInDim S1x512x512 ![1, 2] bcast_S512x512_S1x512x512_1_2
          (W8 m ρ c (Proc.devRef .tc main_v3) : FVec Ideal S512x512 .f32)⟩,
       ⟨S1x512x512, broadcastInDim S1x512x512 ![1, 2] bcast_S512x512_S1x512x512_1_2
          (W8 m ρ c (Proc.devRef .tc main_v11) : FVec Ideal S512x512 .f32)⟩]
      concatenates_S1x512x512_S1x512x512_S2x512x512_d0) := by
  show StableHlo.after hostOps2 _ (Proc.devRef .tc main_v26) = _
  after_results

/-- The relation query block. -/
theorem W9_v27 (c : Dev nD) : @Eq (FVec Ideal S1x512x512 .f32) (W9 m ρ c (Proc.devRef .tc main_v27))
    (broadcastInDim S1x512x512 ![1, 2] bcast_S512x512_S1x512x512_1_2
      (W8 m ρ c (Proc.devRef .tc main_v7) : FVec Ideal S512x512 .f32)) := by
  show StableHlo.after hostOps2 _ (Proc.devRef .tc main_v27) = _
  after_results

/-- MEMBER 0 OF THE STACK call 2 reads: the subject query layer. -/
theorem q26_0 (c : Dev nD) (r e : Fin 512) :
    (W9 m ρ c (Proc.devRef .tc main_v26) : FVec Ideal S2x512x512 .f32) (ix3 (0 : Fin 2) r e)
      = Cert.Spec.lin (fun p q => (m ((c : Thread nD τ).loc main_arg0) : FVec Ideal S512x512 .f32) (ix2 p q))
          (fun p q => (m ((c : Thread nD τ).loc main_arg5) : FVec Ideal S512x512 .f32) (ix2 p q))
          (fun j => (m ((c : Thread nD τ).loc main_arg6) : FVec Ideal S512 .f32) (ix1 j)) r e := by
  rw [W9_v26, Cert.RefStages.concat2_apply_0, lead_apply,
    W8_to_W1 m ρ c main_v3 (by decide) (by decide) (by decide) (by decide) (by decide) (by decide) (by decide),
    W1_v3, linTerm_apply]

/-- MEMBER 1 OF THE STACK: the object query layer. -/
theorem q26_1 (c : Dev nD) (r e : Fin 512) :
    (W9 m ρ c (Proc.devRef .tc main_v26) : FVec Ideal S2x512x512 .f32) (ix3 (1 : Fin 2) r e)
      = Cert.Spec.lin (fun p q => (m ((c : Thread nD τ).loc main_arg2) : FVec Ideal S512x512 .f32) (ix2 p q))
          (fun p q => (m ((c : Thread nD τ).loc main_arg9) : FVec Ideal S512x512 .f32) (ix2 p q))
          (fun j => (m ((c : Thread nD τ).loc main_arg10) : FVec Ideal S512 .f32) (ix1 j)) r e := by
  rw [W9_v26, Cert.RefStages.concat2_apply_1, lead_apply,
    W8_to_W1 m ρ c main_v11 (by decide) (by decide) (by decide) (by decide) (by decide) (by decide) (by decide),
    W1_v11, linTerm_apply]

/-- THE QUERY BLOCK call 3 reads: the relation query layer. -/
theorem q27 (c : Dev nD) (r e : Fin 512) :
    (W10 m ρ c (Proc.devRef .tc main_v27) : FVec Ideal S1x512x512 .f32) (ix3 (0 : Fin 1) r e)
      = Cert.Spec.lin (fun p q => (m ((c : Thread nD τ).loc main_arg1) : FVec Ideal S512x512 .f32) (ix2 p q))
          (fun p q => (m ((c : Thread nD τ).loc main_arg7) : FVec Ideal S512x512 .f32) (ix2 p q))
          (fun j => (m ((c : Thread nD τ).loc main_arg8) : FVec Ideal S512 .f32) (ix1 j)) r e := by
  rw [W10_of_ne m ρ c main_v27 (by decide), W9_v27, lead_apply,
    W8_to_W1 m ρ c main_v7 (by decide) (by decide) (by decide) (by decide) (by decide) (by decide) (by decide),
    W1_v7, linTerm_apply]

/-! ## The result: the three calls' outputs stacked -/

/-- The result of an operation reading three buffers, when its function reads them as its three arguments: the function
    at the three buffers' contents. -/
theorem nary3_result_g {sig' : RefSig} {τ' : Topo} {Val : EltTy → Type} {x a b y : Ref sig' .tc}
    (g : x.ty.Contents Val → a.ty.Contents Val → b.ty.Contents Val → y.ty.Contents Val) (hxs hy)
    (G : Valuation τ' sig' Val) :
    (StableHlo.nary (τ := τ') ![x, a, b] y (fun u => g (u 0) (u 1) (u 2)) hxs hy).result G (Proc.devRef .tc y)
      = g (G (Proc.devRef .tc x)) (G (Proc.devRef .tc a)) (G (Proc.devRef .tc b)) := by
  rw [StableHlo.nary_result]; rfl

/-- Three pieces of one shape laid along an axis: equal pieces give equal results. -/
theorem concat3_congr {α : Type} {t s : Shape} (a : Fin t.rank) {p p' q q' r r' : s.Idx → α}
    (h : Shape.Concatenates (([⟨s, p⟩, ⟨s, q⟩, ⟨s, r⟩] : List ((s : Shape) × (s.Idx → α))).map (·.1)) t a)
    (hp : p = p') (hq : q = q') (hr : r = r') :
    concatenate t a [⟨s, p⟩, ⟨s, q⟩, ⟨s, r⟩] h = concatenate t a [⟨s, p'⟩, ⟨s, q'⟩, ⟨s, r'⟩] h := by
  subst hp hq hr; rfl

/-- Member `g` of a two-member stack, cut out, flattened to a matrix and given a leading unit axis again. -/
def member (g : Nat) (X : FVec Ideal S2x512x512 .f32) (h : S2x512x512.Slices ![g, 0, 0] S1x512x512) : FVec Ideal S1x512x512 .f32 :=
  broadcastInDim S1x512x512 ![1, 2] bcast_S512x512_S1x512x512_1_2
    (shapeCast S512x512 (extractStridedSlice S1x512x512 ![g, 0, 0] X h) shapeCasts_S1x512x512_S512x512)

/-- … reads, at `(0, r, d)`, the stack's entry `(g, r, d)`. -/
theorem member_apply (g : Nat) (X : FVec Ideal S2x512x512 .f32) (h : S2x512x512.Slices ![g, 0, 0] S1x512x512)
    (k : Fin 2) (hk : k.val = g) (r d : Fin 512) : member g X h (ix3 (0 : Fin 1) r d) = X (ix3 k r d) := by
  unfold member
  rw [lead_apply, shapeCast_1ab_ab_apply]
  refine extractStridedSlice_apply _ _ _ (ix3 (0 : Fin 1) r d) (ix3 k r d) fun a => ?_
  match a with
  | ⟨0, _⟩ => show k.val = g + 0; omega
  | ⟨1, _⟩ => show r.val = 0 + r.val; omega
  | ⟨2, _⟩ => show d.val = 0 + d.val; omega

/-- The one-member block of call 3, flattened to a matrix and given a leading unit axis again. -/
def single (X : FVec Ideal S1x512x512 .f32) : FVec Ideal S1x512x512 .f32 :=
  broadcastInDim S1x512x512 ![1, 2] bcast_S512x512_S1x512x512_1_2 (shapeCast S512x512 X shapeCasts_S1x512x512_S512x512)

/-- … reads the block itself. -/
theorem single_apply (X : FVec Ideal S1x512x512 .f32) (r d : Fin 512) : single X (ix3 (0 : Fin 1) r d) = X (ix3 (0 : Fin 1) r d) := by
  unfold single
  rw [lead_apply, shapeCast_1ab_ab_apply]

/-- The result array as the concatenation of: member 0 of call 2's output, call 3's output, member 1 of call 2's
    output. -/
theorem W12_v38 (c : Dev nD) : @Eq (FVec Ideal S3x512x512 .f32) (W12 m ρ c (Proc.devRef .tc main_v38))
    (concatenate S3x512x512 0
      [⟨S1x512x512, member 0 (W11 m ρ c (Proc.devRef .tc main_v28)) slices_S2x512x512_S1x512x512_0_0_0⟩,
       ⟨S1x512x512, single (W11 m ρ c (Proc.devRef .tc main_v29))⟩,
       ⟨S1x512x512, member 1 (W11 m ρ c (Proc.devRef .tc main_v28)) slices_S2x512x512_S1x512x512_1_0_0⟩]
      concatenates_S1x512x512_S1x512x512_S1x512x512_S3x512x512_d0) := by
  show StableHlo.after hostOps4 _ (Proc.devRef .tc main_v38) = _
  simp only [StableHlo.after_cons, StableHlo.after_nil]
  refine (nary3_result_g (τ' := τ) (x := main_v35) (a := main_v36) (b := main_v37) (y := main_v38) (Val := Elt Ideal)
    (fun p q r => concatenate S3x512x512 0 [⟨S1x512x512, p⟩, ⟨S1x512x512, q⟩, ⟨S1x512x512, r⟩]
      concatenates_S1x512x512_S1x512x512_S1x512x512_S3x512x512_d0) _ _ _).trans ?_
  refine concat3_congr _ _ ?_ ?_ ?_ <;>
    (simp (disch := decide) only [StableHlo.unary_result', StableHlo.reshape_result', StableHlo.unary_result_ne',
      StableHlo.reshape_result_ne']) <;> rfl

/-- MEMBER 0 OF THE RESULT is member 0 of call 2's output, -/
theorem tail_0 (c : Dev nD) (r d : Fin 512) :
    (W12 m ρ c (Proc.devRef .tc main_v38) : FVec Ideal S3x512x512 .f32) (ix3 (0 : Fin 3) r d)
      = (W11 m ρ c (Proc.devRef .tc main_v28) : FVec Ideal S2x512x512 .f32) (ix3 (0 : Fin 2) r d) := by
  rw [W12_v38, Cert.RefStages.concat3_apply_0]
  exact member_apply 0 _ _ (0 : Fin 2) rfl r d

/-- MEMBER 1 is call 3's output, -/
theorem tail_1 (c : Dev nD) (r d : Fin 512) :
    (W12 m ρ c (Proc.devRef .tc main_v38) : FVec Ideal S3x512x512 .f32) (ix3 (1 : Fin 3) r d)
      = (W11 m ρ c (Proc.devRef .tc main_v29) : FVec Ideal S1x512x512 .f32) (ix3 (0 : Fin 1) r d) := by
  rw [W12_v38, Cert.RefStages.concat3_apply_1]
  exact single_apply _ r d

/-- MEMBER 2 is member 1 of call 2's output. -/
theorem tail_2 (c : Dev nD) (r d : Fin 512) :
    (W12 m ρ c (Proc.devRef .tc main_v38) : FVec Ideal S3x512x512 .f32) (ix3 (2 : Fin 3) r d)
      = (W11 m ρ c (Proc.devRef .tc main_v28) : FVec Ideal S2x512x512 .f32) (ix3 (1 : Fin 2) r d) := by
  rw [W12_v38, Cert.RefStages.concat3_apply_2]
  exact member_apply 1 _ _ (1 : Fin 2) rfl r d

end Cert.KernelIdeal.HostB

end
-- ==== Proof.KIValue.lean ====
import proofs.«157278_j31636729102421_2_alg».proof.Proof.KIRun
import proofs.«157278_j31636729102421_2_alg».proof.Proof.KIFlash2Spec
import proofs.«157278_j31636729102421_2_alg».proof.Proof.KIFlash3Spec
import proofs.«157278_j31636729102421_2_alg».proof.Proof.KIProj0Val
import proofs.«157278_j31636729102421_2_alg».proof.Proof.KIProj1Val
import proofs.«157278_j31636729102421_2_alg».proof.Proof.KIHostA
import proofs.«157278_j31636729102421_2_alg».proof.Proof.KIHostB

/-! The idealized kernel's result on exact numbers. Walking the buffer contents from the end of the main function back to its
    launch: the result stacks the two attention calls' outputs; each attention call's output is softmax attention of its
    stacked queries over its key and value arrays (when these hold real numbers); the key and value arrays are the two
    projection calls' outputs, row `k` being `x_k Wᵀ + b` of the padded bank's row `k`; the queries are the host's three
    linear layers. So, when every input holds real numbers, the result is the specification's function of the inputs. -/

set_option maxRecDepth 16384

noncomputable section

namespace Cert.KernelIdeal.Val

open Cert.KernelIdeal Cert.KernelIdeal.Gen Cert.KernelIdeal.Run
open Idealize.ShloMosaic Idealize.ShloMosaic.TcCoe Idealize.ShloMosaic.ValueIdx
open Idealize.SL Idealize.SL.Sem
open Cert.RealValued

/-- A rank-2 array as a function of its two coordinates. -/
abbrev mat {A B : ℕ} (x : (⟨2, ![A, B]⟩ : Shape).Idx → EReal) : Fin A → Fin B → EReal := fun p q => x (ix2 p q)
/-- A rank-1 array as a function of its coordinate. -/
abbrev vec {A : ℕ} (x : (⟨1, ![A]⟩ : Shape).Idx → EReal) : Fin A → EReal := fun j => x (ix1 j)

/-- Row `k` of a bank padded with zero rows, through a linear layer `x Wᵀ + b` (a padded row gives the bias). -/
def padlin {NV : ℕ} (x : Fin NV → Fin 512 → EReal) (w : Fin 512 → Fin 512 → EReal) (b : Fin 512 → EReal) (k : ℕ) (e : Fin 512) : EReal :=
  (∑ d : Fin 512, (if h : k < NV then x ⟨k, h⟩ d else (0 : EReal)) * w e d) + b e

theorem padlin_lt {NV : ℕ} (x : Fin NV → Fin 512 → EReal) (w : Fin 512 → Fin 512 → EReal) (b : Fin 512 → EReal) (k : Fin NV) (e : Fin 512) :
    padlin x w b k.val e = Cert.Spec.lin x w b k e := by
  unfold padlin Cert.Spec.lin
  congr 1
  exact Finset.sum_congr rfl fun d _ => by rw [dif_pos k.isLt]

theorem padlin_real {NV : ℕ} (x : Fin NV → Fin 512 → EReal) (w : Fin 512 → Fin 512 → EReal) (b : Fin 512 → EReal)
    (hx : ∀ i d, IsReal (x i d)) (hw : ∀ e d, IsReal (w e d)) (hb : ∀ e, IsReal (b e)) (k : ℕ) (e : Fin 512) : IsReal (padlin x w b k e) := by
  unfold padlin
  refine (isReal_sum _ _ fun d _ => IsReal.mul ?_ (hw e d)).add (hb e)
  by_cases h : k < NV
  · rw [dif_pos h]; exact hx _ d
  · rw [dif_neg h]; exact isReal_zero

theorem lin_isReal {A : ℕ} (x : Fin A → Fin 512 → EReal) (w : Fin 512 → Fin 512 → EReal) (b : Fin 512 → EReal)
    (hx : ∀ i d, IsReal (x i d)) (hw : ∀ e d, IsReal (w e d)) (hb : ∀ e, IsReal (b e)) (i : Fin A) (e : Fin 512) :
    IsReal (Cert.Spec.lin x w b i e) :=
  (isReal_sum _ _ fun d _ => (hx i d).mul (hw e d)).add (hb e)

variable (m : (ℓ : Loc nD τ sig) → Buf (Elt Ideal) ℓ) (ρ : Dev nD → PrngReg) (c : Dev nD)

/-- Every input array holds real numbers. -/
structure AllReal : Prop where
  h0 : ∀ i, IsReal ((m ((c : Thread nD τ).loc main_arg0)) i : EReal)
  h1 : ∀ i, IsReal ((m ((c : Thread nD τ).loc main_arg1)) i : EReal)
  h2 : ∀ i, IsReal ((m ((c : Thread nD τ).loc main_arg2)) i : EReal)
  h3 : ∀ i, IsReal ((m ((c : Thread nD τ).loc main_arg3)) i : EReal)
  h4 : ∀ i, IsReal ((m ((c : Thread nD τ).loc main_arg4)) i : EReal)
  h5 : ∀ i, IsReal ((m ((c : Thread nD τ).loc main_arg5)) i : EReal)
  h6 : ∀ i, IsReal ((m ((c : Thread nD τ).loc main_arg6)) i : EReal)
  h7 : ∀ i, IsReal ((m ((c : Thread nD τ).loc main_arg7)) i : EReal)
  h8 : ∀ i, IsReal ((m ((c : Thread nD τ).loc main_arg8)) i : EReal)
  h9 : ∀ i, IsReal ((m ((c : Thread nD τ).loc main_arg9)) i : EReal)
  h10 : ∀ i, IsReal ((m ((c : Thread nD τ).loc main_arg10)) i : EReal)
  h11 : ∀ i, IsReal ((m ((c : Thread nD τ).loc main_arg11)) i : EReal)
  h12 : ∀ i, IsReal ((m ((c : Thread nD τ).loc main_arg12)) i : EReal)
  h13 : ∀ i, IsReal ((m ((c : Thread nD τ).loc main_arg13)) i : EReal)
  h14 : ∀ i, IsReal ((m ((c : Thread nD τ).loc main_arg14)) i : EReal)
  h15 : ∀ i, IsReal ((m ((c : Thread nD τ).loc main_arg15)) i : EReal)
  h16 : ∀ i, IsReal ((m ((c : Thread nD τ).loc main_arg16)) i : EReal)
  h17 : ∀ i, IsReal ((m ((c : Thread nD τ).loc main_arg17)) i : EReal)
  h18 : ∀ i, IsReal ((m ((c : Thread nD τ).loc main_arg18)) i : EReal)

/-- The projection call's row, over any arrays read as the padded bank, the transposed weight and the bias. -/
theorem proj_E (a0 : S200704x512.Idx → Elt Ideal .f32) (a1 : S512x512.Idx → Elt Ideal .bf16) (a2 : S512.Idx → Elt Ideal .f32)
    (x : S200000x512.Idx → Elt Ideal .f32) (w : S512x512.Idx → Elt Ideal .f32) (b : S512.Idx → Elt Ideal .f32)
    (h0 : ∀ (k : Fin 200704) (d : Fin 512), a0 (ix2 k d) = if h : k.val < 200000 then x (ix2 ⟨k.val, h⟩ d) else (0 : EReal))
    (h1 : ∀ d e : Fin 512, a1 (ix2 d e) = w (ix2 e d)) (h2 : a2 = b) (k : Fin 200704) (e : Fin 512) :
    Proj0.proj a0 a1 a2 k e = padlin (fun p q => x (ix2 p q)) (fun p q => w (ix2 p q)) (fun j => b (ix1 j)) k.val e := by
  unfold Proj0.proj padlin
  rw [h2]
  congr 1
  exact Finset.sum_congr rfl fun d _ => by rw [h0, h1]

theorem Karr_E : W9 m ρ c (Proc.devRef .tc main_v18_0) = (Proj0.dat (Vr5 m ρ) c).arrAt 5 cfg0.N :=
  (StableHlo.after_of_writes_sub hostOps2 _ hostOps2_writes (by decide) : W9 m ρ c (Proc.devRef .tc main_v18_0) = W8 m ρ c (Proc.devRef .tc main_v18_0)).trans <| (W8_of_ne m ρ c main_v18_0 (by decide)).trans <| (StableHlo.after_of_writes_sub hostOps1 _ hostOps1_writes (by decide) : W7 m ρ c (Proc.devRef .tc main_v18_0) = W6 m ρ c (Proc.devRef .tc main_v18_0)).trans (W6_arr m ρ c 5)

/-- Row `k` of the key array the attention call finds: the padded bank's row through the linear layer. -/
theorem Kat_E (k : ℕ) (hk : k < 200704) (e : Fin 512) :
    Flash2.Kat (Vr9 m ρ) c k e = padlin (mat (A := 200000) (B := 512) (m ((c : Thread nD τ).loc main_arg3))) (mat (A := 512) (B := 512) (m ((c : Thread nD τ).loc main_arg11))) (vec (A := 512) (m ((c : Thread nD τ).loc main_arg12))) k e := by
  unfold Flash2.Kat
  rw [dif_pos hk]
  have e1 : Vr9 m ρ c main_v18_0 = (Proj0.dat (Vr5 m ρ) c).arrAt 5 cfg0.N := Karr_E m ρ c
  rw [e1, Proj0.final_K]
  exact proj_E _ _ _ _ _ _ (HostA.v12_apply m ρ c) (HostA.v15_apply m ρ c) (HostA.arg12_eq m ρ c) ⟨k, hk⟩ e

theorem Kat_E_spec (k : Fin 200000) (e : Fin 512) :
    Flash2.Kat (Vr9 m ρ) c k.val e = Cert.Spec.lin (mat (A := 200000) (B := 512) (m ((c : Thread nD τ).loc main_arg3))) (mat (A := 512) (B := 512) (m ((c : Thread nD τ).loc main_arg11))) (vec (A := 512) (m ((c : Thread nD τ).loc main_arg12))) k e := by
  rw [Kat_E m ρ c k.val (by have := k.isLt; omega) e]
  exact padlin_lt _ _ _ k e

theorem Kat_E_real (hr : AllReal m c) (k : ℕ) (e : Fin 512) : IsReal (Flash2.Kat (Vr9 m ρ) c k e) := by
  by_cases hk : k < 200704
  · rw [Kat_E m ρ c k hk e]
    exact padlin_real _ _ _ (fun i d => hr.h3 _) (fun e d => hr.h11 _) (fun e => hr.h12 _) k e
  · unfold Flash2.Kat; rw [dif_neg hk]; exact isReal_zero

theorem Varr_E : W9 m ρ c (Proc.devRef .tc main_v18_1) = (Proj0.dat (Vr5 m ρ) c).arrAt 6 cfg0.N :=
  (StableHlo.after_of_writes_sub hostOps2 _ hostOps2_writes (by decide) : W9 m ρ c (Proc.devRef .tc main_v18_1) = W8 m ρ c (Proc.devRef .tc main_v18_1)).trans <| (W8_of_ne m ρ c main_v18_1 (by decide)).trans <| (StableHlo.after_of_writes_sub hostOps1 _ hostOps1_writes (by decide) : W7 m ρ c (Proc.devRef .tc main_v18_1) = W6 m ρ c (Proc.devRef .tc main_v18_1)).trans (W6_arr m ρ c 6)

/-- Row `k` of the value array the attention call finds: the padded bank's row through the linear layer. -/
theorem Vat_E (k : ℕ) (hk : k < 200704) (e : Fin 512) :
    Flash2.Vat (Vr9 m ρ) c k e = padlin (mat (A := 200000) (B := 512) (m ((c : Thread nD τ).loc main_arg3))) (mat (A := 512) (B := 512) (m ((c : Thread nD τ).loc main_arg13))) (vec (A := 512) (m ((c : Thread nD τ).loc main_arg14))) k e := by
  unfold Flash2.Vat
  rw [dif_pos hk]
  have e1 : Vr9 m ρ c main_v18_1 = (Proj0.dat (Vr5 m ρ) c).arrAt 6 cfg0.N := Varr_E m ρ c
  rw [e1, Proj0.final_V]
  exact proj_E _ _ _ _ _ _ (HostA.v12_apply m ρ c) (HostA.v17_apply m ρ c) (HostA.arg14_eq m ρ c) ⟨k, hk⟩ e

theorem Vat_E_spec (k : Fin 200000) (e : Fin 512) :
    Flash2.Vat (Vr9 m ρ) c k.val e = Cert.Spec.lin (mat (A := 200000) (B := 512) (m ((c : Thread nD τ).loc main_arg3))) (mat (A := 512) (B := 512) (m ((c : Thread nD τ).loc main_arg13))) (vec (A := 512) (m ((c : Thread nD τ).loc main_arg14))) k e := by
  rw [Vat_E m ρ c k.val (by have := k.isLt; omega) e]
  exact padlin_lt _ _ _ k e

theorem Vat_E_real (hr : AllReal m c) (k : ℕ) (e : Fin 512) : IsReal (Flash2.Vat (Vr9 m ρ) c k e) := by
  by_cases hk : k < 200704
  · rw [Vat_E m ρ c k hk e]
    exact padlin_real _ _ _ (fun i d => hr.h3 _) (fun e d => hr.h13 _) (fun e => hr.h14 _) k e
  · unfold Flash2.Vat; rw [dif_neg hk]; exact isReal_zero

/-- The projection call's row, over any arrays read as the padded bank, the transposed weight and the bias. -/
theorem proj_R (a0 : S10240x512.Idx → Elt Ideal .f32) (a1 : S512x512.Idx → Elt Ideal .bf16) (a2 : S512.Idx → Elt Ideal .f32)
    (x : S10000x512.Idx → Elt Ideal .f32) (w : S512x512.Idx → Elt Ideal .f32) (b : S512.Idx → Elt Ideal .f32)
    (h0 : ∀ (k : Fin 10240) (d : Fin 512), a0 (ix2 k d) = if h : k.val < 10000 then x (ix2 ⟨k.val, h⟩ d) else (0 : EReal))
    (h1 : ∀ d e : Fin 512, a1 (ix2 d e) = w (ix2 e d)) (h2 : a2 = b) (k : Fin 10240) (e : Fin 512) :
    Proj1.proj a0 a1 a2 k e = padlin (fun p q => x (ix2 p q)) (fun p q => w (ix2 p q)) (fun j => b (ix1 j)) k.val e := by
  unfold Proj1.proj padlin
  rw [h2]
  congr 1
  exact Finset.sum_congr rfl fun d _ => by rw [h0, h1]

theorem Karr_R : W10 m ρ c (Proc.devRef .tc main_v23_0) = (Proj1.dat (Vr7 m ρ) c).arrAt 5 cfg1.N :=
  (W10_of_ne m ρ c main_v23_0 (by decide)).trans <| (StableHlo.after_of_writes_sub hostOps2 _ hostOps2_writes (by decide) : W9 m ρ c (Proc.devRef .tc main_v23_0) = W8 m ρ c (Proc.devRef .tc main_v23_0)).trans (W8_arr m ρ c 5)

/-- Row `k` of the key array the attention call finds: the padded bank's row through the linear layer. -/
theorem Kat_R (k : ℕ) (hk : k < 10240) (e : Fin 512) :
    Flash3.Kat (Vr10 m ρ) c k e = padlin (mat (A := 10000) (B := 512) (m ((c : Thread nD τ).loc main_arg4))) (mat (A := 512) (B := 512) (m ((c : Thread nD τ).loc main_arg15))) (vec (A := 512) (m ((c : Thread nD τ).loc main_arg16))) k e := by
  unfold Flash3.Kat
  rw [dif_pos hk]
  have e1 : Vr10 m ρ c main_v23_0 = (Proj1.dat (Vr7 m ρ) c).arrAt 5 cfg1.N := Karr_R m ρ c
  rw [e1, Proj1.final_K]
  exact proj_R _ _ _ _ _ _ (HostA.v13_apply m ρ c) (HostA.v20_apply m ρ c) (HostA.arg16_eq m ρ c) ⟨k, hk⟩ e

theorem Kat_R_spec (k : Fin 10000) (e : Fin 512) :
    Flash3.Kat (Vr10 m ρ) c k.val e = Cert.Spec.lin (mat (A := 10000) (B := 512) (m ((c : Thread nD τ).loc main_arg4))) (mat (A := 512) (B := 512) (m ((c : Thread nD τ).loc main_arg15))) (vec (A := 512) (m ((c : Thread nD τ).loc main_arg16))) k e := by
  rw [Kat_R m ρ c k.val (by have := k.isLt; omega) e]
  exact padlin_lt _ _ _ k e

theorem Kat_R_real (hr : AllReal m c) (k : ℕ) (e : Fin 512) : IsReal (Flash3.Kat (Vr10 m ρ) c k e) := by
  by_cases hk : k < 10240
  · rw [Kat_R m ρ c k hk e]
    exact padlin_real _ _ _ (fun i d => hr.h4 _) (fun e d => hr.h15 _) (fun e => hr.h16 _) k e
  · unfold Flash3.Kat; rw [dif_neg hk]; exact isReal_zero

theorem Varr_R : W10 m ρ c (Proc.devRef .tc main_v23_1) = (Proj1.dat (Vr7 m ρ) c).arrAt 6 cfg1.N :=
  (W10_of_ne m ρ c main_v23_1 (by decide)).trans <| (StableHlo.after_of_writes_sub hostOps2 _ hostOps2_writes (by decide) : W9 m ρ c (Proc.devRef .tc main_v23_1) = W8 m ρ c (Proc.devRef .tc main_v23_1)).trans (W8_arr m ρ c 6)

/-- Row `k` of the value array the attention call finds: the padded bank's row through the linear layer. -/
theorem Vat_R (k : ℕ) (hk : k < 10240) (e : Fin 512) :
    Flash3.Vat (Vr10 m ρ) c k e = padlin (mat (A := 10000) (B := 512) (m ((c : Thread nD τ).loc main_arg4))) (mat (A := 512) (B := 512) (m ((c : Thread nD τ).loc main_arg17))) (vec (A := 512) (m ((c : Thread nD τ).loc main_arg18))) k e := by
  unfold Flash3.Vat
  rw [dif_pos hk]
  have e1 : Vr10 m ρ c main_v23_1 = (Proj1.dat (Vr7 m ρ) c).arrAt 6 cfg1.N := Varr_R m ρ c
  rw [e1, Proj1.final_V]
  exact proj_R _ _ _ _ _ _ (HostA.v13_apply m ρ c) (HostA.v22_apply m ρ c) (HostA.arg18_eq m ρ c) ⟨k, hk⟩ e

theorem Vat_R_spec (k : Fin 10000) (e : Fin 512) :
    Flash3.Vat (Vr10 m ρ) c k.val e = Cert.Spec.lin (mat (A := 10000) (B := 512) (m ((c : Thread nD τ).loc main_arg4))) (mat (A := 512) (B := 512) (m ((c : Thread nD τ).loc main_arg17))) (vec (A := 512) (m ((c : Thread nD τ).loc main_arg18))) k e := by
  rw [Vat_R m ρ c k.val (by have := k.isLt; omega) e]
  exact padlin_lt _ _ _ k e

theorem Vat_R_real (hr : AllReal m c) (k : ℕ) (e : Fin 512) : IsReal (Flash3.Vat (Vr10 m ρ) c k e) := by
  by_cases hk : k < 10240
  · rw [Vat_R m ρ c k hk e]
    exact padlin_real _ _ _ (fun i d => hr.h4 _) (fun e d => hr.h17 _) (fun e => hr.h18 _) k e
  · unfold Flash3.Vat; rw [dif_neg hk]; exact isReal_zero

/-- What the kernel returns: the specification's function of the input arrays. -/
def G : Buf (Elt Ideal) ((c : Thread nD τ).loc main_v38) := fun i : S3x512x512.Idx =>
  Cert.Spec.result (mat (A := 512) (B := 512) (m ((c : Thread nD τ).loc main_arg0))) (mat (A := 512) (B := 512) (m ((c : Thread nD τ).loc main_arg1))) (mat (A := 512) (B := 512) (m ((c : Thread nD τ).loc main_arg2))) (mat (A := 200000) (B := 512) (m ((c : Thread nD τ).loc main_arg3))) (mat (A := 10000) (B := 512) (m ((c : Thread nD τ).loc main_arg4))) (mat (A := 512) (B := 512) (m ((c : Thread nD τ).loc main_arg5))) (vec (A := 512) (m ((c : Thread nD τ).loc main_arg6))) (mat (A := 512) (B := 512) (m ((c : Thread nD τ).loc main_arg7))) (vec (A := 512) (m ((c : Thread nD τ).loc main_arg8))) (mat (A := 512) (B := 512) (m ((c : Thread nD τ).loc main_arg9))) (vec (A := 512) (m ((c : Thread nD τ).loc main_arg10))) (mat (A := 512) (B := 512) (m ((c : Thread nD τ).loc main_arg11))) (vec (A := 512) (m ((c : Thread nD τ).loc main_arg12))) (mat (A := 512) (B := 512) (m ((c : Thread nD τ).loc main_arg13))) (vec (A := 512) (m ((c : Thread nD τ).loc main_arg14))) (mat (A := 512) (B := 512) (m ((c : Thread nD τ).loc main_arg15))) (vec (A := 512) (m ((c : Thread nD τ).loc main_arg16))) (mat (A := 512) (B := 512) (m ((c : Thread nD τ).loc main_arg17))) (vec (A := 512) (m ((c : Thread nD τ).loc main_arg18))) (i 0) (i 1) (i 2)

/-- The entity-bank attention output, group `g`: softmax attention of the group's projected queries. -/
theorem out_E (hr : AllReal m c) (g : Fin 2) (r d : Fin 512) (q : Fin 512 → Fin 512 → EReal)
    (hq : ∀ e, (W9 m ρ c (Proc.devRef .tc main_v26) : FVec Ideal S2x512x512 .f32) (ix3 g r e) = q r e) (hqr : ∀ e, IsReal (q r e)) :
    (W11 m ρ c (Proc.devRef .tc main_v28) : FVec Ideal S2x512x512 .f32) (ix3 g r d)
      = Cert.Spec.attend q (Cert.Spec.lin (mat (A := 200000) (B := 512) (m ((c : Thread nD τ).loc main_arg3))) (mat (A := 512) (B := 512) (m ((c : Thread nD τ).loc main_arg11))) (vec (A := 512) (m ((c : Thread nD τ).loc main_arg12)))) (Cert.Spec.lin (mat (A := 200000) (B := 512) (m ((c : Thread nD τ).loc main_arg3))) (mat (A := 512) (B := 512) (m ((c : Thread nD τ).loc main_arg13))) (vec (A := 512) (m ((c : Thread nD τ).loc main_arg14)))) r d := by
  rw [show W11 m ρ c (Proc.devRef .tc main_v28) = W10 m ρ c (Proc.devRef .tc main_v28) from W11_of_ne m ρ c main_v28 (by decide),
    show W10 m ρ c (Proc.devRef .tc main_v28) = (Flash2.dat (Vr9 m ρ) c).arrAt 3 cfg2.N from W10_arr m ρ c 3, Flash2.final_out]
  show Flash2.attOut (Vr9 m ρ) c g.val r d = _
  refine Flash2.attOut_eq (Vr9 m ρ) c g.val r d q _ _ (fun e => ?_) (fun k e => Kat_E_spec m ρ c k e) (fun k => Vat_E_spec m ρ c k d) hqr
    (fun k e => Kat_E_real m ρ c hr k e) (fun k => Vat_E_real m ρ c hr k d)
  unfold Flash2.Qat; rw [dif_pos g.isLt]; exact hq e

/-- The relation-bank attention output. -/
theorem out_R (hr : AllReal m c) (r d : Fin 512) (q : Fin 512 → Fin 512 → EReal)
    (hq : ∀ e, (W10 m ρ c (Proc.devRef .tc main_v27) : FVec Ideal S1x512x512 .f32) (ix3 (0 : Fin 1) r e) = q r e) (hqr : ∀ e, IsReal (q r e)) :
    (W11 m ρ c (Proc.devRef .tc main_v29) : FVec Ideal S1x512x512 .f32) (ix3 (0 : Fin 1) r d)
      = Cert.Spec.attend q (Cert.Spec.lin (mat (A := 10000) (B := 512) (m ((c : Thread nD τ).loc main_arg4))) (mat (A := 512) (B := 512) (m ((c : Thread nD τ).loc main_arg15))) (vec (A := 512) (m ((c : Thread nD τ).loc main_arg16)))) (Cert.Spec.lin (mat (A := 10000) (B := 512) (m ((c : Thread nD τ).loc main_arg4))) (mat (A := 512) (B := 512) (m ((c : Thread nD τ).loc main_arg17))) (vec (A := 512) (m ((c : Thread nD τ).loc main_arg18)))) r d := by
  rw [show W11 m ρ c (Proc.devRef .tc main_v29) = (Flash3.dat (Vr10 m ρ) c).arrAt 3 cfg3.N from W11_arr m ρ c 3, Flash3.final_out]
  show Flash3.attOut (Vr10 m ρ) c 0 r d = _
  refine Flash3.attOut_eq (Vr10 m ρ) c 0 r d q _ _ (fun e => ?_) (fun k e => Kat_R_spec m ρ c k e) (fun k => Vat_R_spec m ρ c k d) hqr
    (fun k e => Kat_R_real m ρ c hr k e) (fun k => Vat_R_real m ρ c hr k d)
  unfold Flash3.Qat; rw [dif_pos (by decide : 0 < 1)]; exact hq e

/-- THE KERNEL'S VALUE: when every input holds real numbers, the result buffer ends at the specification's function. -/
theorem kernel_value (hr : AllReal m c) : W12 m ρ c (Proc.devRef .tc main_v38) = G m c := by
  funext i
  obtain ⟨g, r, d, rfl⟩ : ∃ (g : Fin 3) (r d : Fin 512), i = ix3 g r d := ⟨i 0, i 1, i 2, eq_ix3 i⟩
  show (W12 m ρ c (Proc.devRef .tc main_v38) : FVec Ideal S3x512x512 .f32) (ix3 g r d) = Cert.Spec.result _ _ _ _ _ _ _ _ _ _ _ _ _ _ _ _ _ _ _ g r d
  match g with
  | ⟨0, _⟩ =>
    rw [show (⟨0, _⟩ : Fin 3) = (0 : Fin 3) from rfl, HostB.tail_0 m ρ c r d]
    exact out_E m ρ c hr 0 r d _ (fun e => HostB.q26_0 m ρ c r e) (fun e => lin_isReal _ _ _ (fun i d => hr.h0 _) (fun e d => hr.h5 _) (fun e => hr.h6 _) r e)
  | ⟨1, _⟩ =>
    rw [show (⟨1, _⟩ : Fin 3) = (1 : Fin 3) from rfl, HostB.tail_1 m ρ c r d]
    exact out_R m ρ c hr r d _ (fun e => HostB.q27 m ρ c r e) (fun e => lin_isReal _ _ _ (fun i d => hr.h1 _) (fun e d => hr.h7 _) (fun e => hr.h8 _) r e)
  | ⟨2, _⟩ =>
    rw [show (⟨2, _⟩ : Fin 3) = (2 : Fin 3) from rfl, HostB.tail_2 m ρ c r d]
    exact out_E m ρ c hr 1 r d _ (fun e => HostB.q26_1 m ρ c r e) (fun e => lin_isReal _ _ _ (fun i d => hr.h2 _) (fun e d => hr.h9 _) (fun e => hr.h10 _) r e)

end Cert.KernelIdeal.Val

end
-- ==== Proof.RefSpec.lean ====
/-
  The reference program computes the specification.

  Read one operation at a time at an index, the reference's nine linear layers are the specification's x W^T + b, its
  three attention branches (logits, row maximum from -infinity, exponential of the difference, row sum, quotient,
  contraction with the values) are the specification's softmax attention, and its result stacks the three outputs along a
  new leading axis in the order subject, relation, object. The arithmetic of a branch is composed once, for any number
  of key rows, in the companion file on the operations read as mathematics; here each branch hands that file its own
  operations, in the form in which the program's stage-by-stage reading provides them, and the index maps of those
  operations are identified with coordinates. The last theorems state the reference's run with its result buffer at the
  specification's function of the launch memory, and the reference's frame.
-/
import proofs.«157278_j31636729102421_2_alg».proof.Defs
import proofs.«157278_j31636729102421_2_alg».proof.Proof.Gen.Pre_finite_inputs
import proofs.«157278_j31636729102421_2_alg».proof.Proof.RefReadP
import proofs.«157278_j31636729102421_2_alg».proof.Proof.RefStages
import proofs.«157278_j31636729102421_2_alg».proof.Proof.Spec

noncomputable section

namespace Cert.RefSpec

open Idealize.ShloMosaic Idealize.ShloMosaic.ValueIdx Idealize.ShloMosaic.TcCoe Idealize.SL.Sem Idealize.ShloMosaic.StableHlo
open Cert.ReferenceIdeal Cert.ReferenceIdeal.Gen Cert.ReferenceIdeal.ReadP Cert.RefStages

/-- Closes an equation between two rank-one indices whose coordinates agree by computation. -/
local macro "idx1" : tactic =>
  `(tactic| exact funext fun a => Fin.ext (by match a with | ⟨0, _⟩ => rfl))
/-- Closes an equation between two rank-two indices whose coordinates agree by computation. -/
local macro "idx2" : tactic =>
  `(tactic| exact funext fun a => Fin.ext (by match a with | ⟨0, _⟩ => rfl | ⟨1, _⟩ => rfl))

/-- A two-axis array as a function of its two coordinates. -/
abbrev m2 {a b : Nat} (x : Arr2 a b) : Fin a → Fin b → EReal := fun p q => x (ix2 p q)
/-- A one-axis array as a function of its coordinate. -/
abbrev m1 {a : Nat} (x : Arr1 a) : Fin a → EReal := fun p => x (ix1 p)

/-! ### The nine linear layers

Each is the same four operations (contraction, bias laid out as a row, the row repeated down the rows, sum) on its own
operands; the program computes the entity bank's key and value layers twice, once for the subject branch and once for
the object branch. -/

/-- The subject queries' layer. -/
theorem q_subj (x0 x5 : Arr2 512 512) (x6 : Arr1 512) (r e : Fin 512) :
    val_main_v3 (F := Ideal) x0 x5 x6 (ix2 r e) = Spec.lin (m2 x0) (m2 x5) (m1 x6) r e :=
  lin_of x0 x5 x6 (val_main_v0 (F := Ideal) x0 x5) (val_main_v2 (F := Ideal) x6) (val_main_v3 (F := Ideal) x0 x5 x6)
    (val_main_v1 (F := Ideal) x6) lidx_main_v0 ridx_main_v0 idx_main_v1 idx_main_v2
    (val_main_v0_apply x0 x5) (val_main_v1_apply (F := Ideal) x6) (val_main_v2_apply (F := Ideal) x6)
    (val_main_v3_apply (F := Ideal) x0 x5 x6)
    (fun _ _ _ => by idx2) (fun _ _ _ => by idx2) (fun _ _ => by idx1) r e

/-- The relation queries' layer. -/
theorem q_rel (x1 x7 : Arr2 512 512) (x8 : Arr1 512) (r e : Fin 512) :
    val_main_v7 (F := Ideal) x1 x7 x8 (ix2 r e) = Spec.lin (m2 x1) (m2 x7) (m1 x8) r e :=
  lin_of x1 x7 x8 (val_main_v4 (F := Ideal) x1 x7) (val_main_v6 (F := Ideal) x8) (val_main_v7 (F := Ideal) x1 x7 x8)
    (val_main_v5 (F := Ideal) x8) lidx_main_v4 ridx_main_v4 idx_main_v5 idx_main_v6
    (val_main_v4_apply x1 x7) (val_main_v5_apply (F := Ideal) x8) (val_main_v6_apply (F := Ideal) x8)
    (val_main_v7_apply (F := Ideal) x1 x7 x8)
    (fun _ _ _ => by idx2) (fun _ _ _ => by idx2) (fun _ _ => by idx1) r e

/-- The object queries' layer. -/
theorem q_obj (x2 x9 : Arr2 512 512) (x10 : Arr1 512) (r e : Fin 512) :
    val_main_v11 (F := Ideal) x2 x9 x10 (ix2 r e) = Spec.lin (m2 x2) (m2 x9) (m1 x10) r e :=
  lin_of x2 x9 x10 (val_main_v8 (F := Ideal) x2 x9) (val_main_v10 (F := Ideal) x10) (val_main_v11 (F := Ideal) x2 x9 x10)
    (val_main_v9 (F := Ideal) x10) lidx_main_v8 ridx_main_v8 idx_main_v9 idx_main_v10
    (val_main_v8_apply x2 x9) (val_main_v9_apply (F := Ideal) x10) (val_main_v10_apply (F := Ideal) x10)
    (val_main_v11_apply (F := Ideal) x2 x9 x10)
    (fun _ _ _ => by idx2) (fun _ _ _ => by idx2) (fun _ _ => by idx1) r e

/-- The entity keys' layer, as the subject branch computes it. -/
theorem k_ent (x3 : Arr2 200000 512) (x11 : Arr2 512 512) (x12 : Arr1 512) (n : Fin 200000) (e : Fin 512) :
    val_main_v15 (F := Ideal) x3 x11 x12 (ix2 n e) = Spec.lin (m2 x3) (m2 x11) (m1 x12) n e :=
  lin_of x3 x11 x12 (val_main_v12 (F := Ideal) x3 x11) (val_main_v14 (F := Ideal) x12) (val_main_v15 (F := Ideal) x3 x11 x12)
    (val_main_v13 (F := Ideal) x12) lidx_main_v12 ridx_main_v12 idx_main_v13 idx_main_v14
    (val_main_v12_apply x3 x11) (val_main_v13_apply (F := Ideal) x12) (val_main_v14_apply (F := Ideal) x12)
    (val_main_v15_apply (F := Ideal) x3 x11 x12)
    (fun _ _ _ => by idx2) (fun _ _ _ => by idx2) (fun _ _ => by idx1) n e

/-- The entity values' layer, as the subject branch computes it. -/
theorem v_ent (x3 : Arr2 200000 512) (x13 : Arr2 512 512) (x14 : Arr1 512) (n : Fin 200000) (e : Fin 512) :
    val_main_v19 (F := Ideal) x3 x13 x14 (ix2 n e) = Spec.lin (m2 x3) (m2 x13) (m1 x14) n e :=
  lin_of x3 x13 x14 (val_main_v16 (F := Ideal) x3 x13) (val_main_v18 (F := Ideal) x14) (val_main_v19 (F := Ideal) x3 x13 x14)
    (val_main_v17 (F := Ideal) x14) lidx_main_v16 ridx_main_v16 idx_main_v17 idx_main_v18
    (val_main_v16_apply x3 x13) (val_main_v17_apply (F := Ideal) x14) (val_main_v18_apply (F := Ideal) x14)
    (val_main_v19_apply (F := Ideal) x3 x13 x14)
    (fun _ _ _ => by idx2) (fun _ _ _ => by idx2) (fun _ _ => by idx1) n e

/-- The entity keys' layer, as the object branch computes it. -/
theorem k_ent' (x3 : Arr2 200000 512) (x11 : Arr2 512 512) (x12 : Arr1 512) (n : Fin 200000) (e : Fin 512) :
    val_main_v36 (F := Ideal) x3 x11 x12 (ix2 n e) = Spec.lin (m2 x3) (m2 x11) (m1 x12) n e :=
  lin_of x3 x11 x12 (val_main_v33 (F := Ideal) x3 x11) (val_main_v35 (F := Ideal) x12) (val_main_v36 (F := Ideal) x3 x11 x12)
    (val_main_v34 (F := Ideal) x12) lidx_main_v33 ridx_main_v33 idx_main_v34 idx_main_v35
    (val_main_v33_apply x3 x11) (val_main_v34_apply (F := Ideal) x12) (val_main_v35_apply (F := Ideal) x12)
    (val_main_v36_apply (F := Ideal) x3 x11 x12)
    (fun _ _ _ => by idx2) (fun _ _ _ => by idx2) (fun _ _ => by idx1) n e

/-- The entity values' layer, as the object branch computes it. -/
theorem v_ent' (x3 : Arr2 200000 512) (x13 : Arr2 512 512) (x14 : Arr1 512) (n : Fin 200000) (e : Fin 512) :
    val_main_v40 (F := Ideal) x3 x13 x14 (ix2 n e) = Spec.lin (m2 x3) (m2 x13) (m1 x14) n e :=
  lin_of x3 x13 x14 (val_main_v37 (F := Ideal) x3 x13) (val_main_v39 (F := Ideal) x14) (val_main_v40 (F := Ideal) x3 x13 x14)
    (val_main_v38 (F := Ideal) x14) lidx_main_v37 ridx_main_v37 idx_main_v38 idx_main_v39
    (val_main_v37_apply x3 x13) (val_main_v38_apply (F := Ideal) x14) (val_main_v39_apply (F := Ideal) x14)
    (val_main_v40_apply (F := Ideal) x3 x13 x14)
    (fun _ _ _ => by idx2) (fun _ _ _ => by idx2) (fun _ _ => by idx1) n e

/-- The relation keys' layer. -/
theorem k_rel (x4 : Arr2 10000 512) (x15 : Arr2 512 512) (x16 : Arr1 512) (n : Fin 10000) (e : Fin 512) :
    val_main_v57 (F := Ideal) x4 x15 x16 (ix2 n e) = Spec.lin (m2 x4) (m2 x15) (m1 x16) n e :=
  lin_of x4 x15 x16 (val_main_v54 (F := Ideal) x4 x15) (val_main_v56 (F := Ideal) x16) (val_main_v57 (F := Ideal) x4 x15 x16)
    (val_main_v55 (F := Ideal) x16) lidx_main_v54 ridx_main_v54 idx_main_v55 idx_main_v56
    (val_main_v54_apply x4 x15) (val_main_v55_apply (F := Ideal) x16) (val_main_v56_apply (F := Ideal) x16)
    (val_main_v57_apply (F := Ideal) x4 x15 x16)
    (fun _ _ _ => by idx2) (fun _ _ _ => by idx2) (fun _ _ => by idx1) n e

/-- The relation values' layer. -/
theorem v_rel (x4 : Arr2 10000 512) (x17 : Arr2 512 512) (x18 : Arr1 512) (n : Fin 10000) (e : Fin 512) :
    val_main_v61 (F := Ideal) x4 x17 x18 (ix2 n e) = Spec.lin (m2 x4) (m2 x17) (m1 x18) n e :=
  lin_of x4 x17 x18 (val_main_v58 (F := Ideal) x4 x17) (val_main_v60 (F := Ideal) x18) (val_main_v61 (F := Ideal) x4 x17 x18)
    (val_main_v59 (F := Ideal) x18) lidx_main_v58 ridx_main_v58 idx_main_v59 idx_main_v60
    (val_main_v58_apply x4 x17) (val_main_v59_apply (F := Ideal) x18) (val_main_v60_apply (F := Ideal) x18)
    (val_main_v61_apply (F := Ideal) x4 x17 x18)
    (fun _ _ _ => by idx2) (fun _ _ _ => by idx2) (fun _ _ => by idx1) n e

/-! ### The three attention branches

Each is the same chain of operations (logits, row maximum, the maximum compared once more with -infinity, difference,
exponential, row sum from 0, quotient, contraction with the values) on its own operands. -/

/-- The subject branch: the subject queries attend over the entity bank. -/
theorem out_subj (x0 : Arr2 512 512) (x3 : Arr2 200000 512) (x5 : Arr2 512 512) (x6 : Arr1 512) (x11 : Arr2 512 512)
    (x12 : Arr1 512) (x13 : Arr2 512 512) (x14 : Arr1 512) (r d : Fin 512) :
    val_main_v32 (F := Ideal) x0 x3 x5 x6 x11 x12 x13 x14 (ix2 r d)
      = Spec.attend (Spec.lin (m2 x0) (m2 x5) (m1 x6)) (Spec.lin (m2 x3) (m2 x11) (m1 x12))
          (Spec.lin (m2 x3) (m2 x13) (m1 x14)) r d :=
  attend_of (val_main_v3 (F := Ideal) x0 x5 x6) (val_main_v15 (F := Ideal) x3 x11 x12) (val_main_v19 (F := Ideal) x3 x13 x14)
    (val_main_v20 (F := Ideal) x0 x3 x5 x6 x11 x12) (val_main_v25 (F := Ideal) x0 x3 x5 x6 x11 x12)
    (val_main_v26 (F := Ideal) x0 x3 x5 x6 x11 x12) (val_main_v27 (F := Ideal) x0 x3 x5 x6 x11 x12)
    (val_main_v30 (F := Ideal) x0 x3 x5 x6 x11 x12) (val_main_v31 (F := Ideal) x0 x3 x5 x6 x11 x12)
    (val_main_v21 (F := Ideal) x0 x3 x5 x6 x11 x12) (val_main_v22 (F := Ideal))
    (val_main_v23 (F := Ideal) x0 x3 x5 x6 x11 x12) (val_main_v28 (F := Ideal) x0 x3 x5 x6 x11 x12)
    (val_main_v24 (F := Ideal) x0 x3 x5 x6 x11 x12) (val_main_v29 (F := Ideal) x0 x3 x5 x6 x11 x12)
    (val_main_cst_0 (F := Ideal)) (val_main_cst_1 (F := Ideal)) (val_main_v32 (F := Ideal) x0 x3 x5 x6 x11 x12 x13 x14)
    lidx_main_v20 ridx_main_v20 idx_main_v22 idx_main_v24 idx_main_v25 idx_main_v28 (Shape.Idx.first h_S_)
    idx_main_v29 idx_main_v30 lidx_main_v32 ridx_main_v32
    _ _ _ (q_subj x0 x5 x6) (k_ent x3 x11 x12) (v_ent x3 x13 x14)
    (val_main_v20_apply x0 x3 x5 x6 x11 x12)
    (fun r => reduce_max_row (val_main_v20 (F := Ideal) x0 x3 x5 x6 x11 x12) reducesTo_S512x200000_S512_d1 (by decide) h_S_ r)
    (val_main_cst_0_apply (F := Ideal)) (val_main_v22_apply (F := Ideal))
    (val_main_v23_apply (F := Ideal) x0 x3 x5 x6 x11 x12) (val_main_v24_apply (F := Ideal) x0 x3 x5 x6 x11 x12)
    (val_main_v25_apply (F := Ideal) x0 x3 x5 x6 x11 x12) (val_main_v26_apply (F := Ideal) x0 x3 x5 x6 x11 x12)
    (val_main_v27_apply (F := Ideal) x0 x3 x5 x6 x11 x12) (val_main_cst_1_apply (F := Ideal))
    (val_main_v28_apply x0 x3 x5 x6 x11 x12) (val_main_v29_apply (F := Ideal) x0 x3 x5 x6 x11 x12)
    (val_main_v30_apply (F := Ideal) x0 x3 x5 x6 x11 x12) (val_main_v31_apply (F := Ideal) x0 x3 x5 x6 x11 x12)
    (val_main_v32_apply x0 x3 x5 x6 x11 x12 x13 x14)
    (fun _ _ _ => by idx2) (fun _ _ _ => by idx2) (fun _ _ => by idx1) (fun _ _ => by idx2) (fun _ _ => by idx1)
    (fun _ _ _ => by idx2) (fun _ _ _ => by idx2) r d

/-- The object branch: the object queries attend over the entity bank. -/
theorem out_obj (x2 : Arr2 512 512) (x3 : Arr2 200000 512) (x9 : Arr2 512 512) (x10 : Arr1 512) (x11 : Arr2 512 512)
    (x12 : Arr1 512) (x13 : Arr2 512 512) (x14 : Arr1 512) (r d : Fin 512) :
    val_main_v53 (F := Ideal) x2 x3 x9 x10 x11 x12 x13 x14 (ix2 r d)
      = Spec.attend (Spec.lin (m2 x2) (m2 x9) (m1 x10)) (Spec.lin (m2 x3) (m2 x11) (m1 x12))
          (Spec.lin (m2 x3) (m2 x13) (m1 x14)) r d :=
  attend_of (val_main_v11 (F := Ideal) x2 x9 x10) (val_main_v36 (F := Ideal) x3 x11 x12) (val_main_v40 (F := Ideal) x3 x13 x14)
    (val_main_v41 (F := Ideal) x2 x3 x9 x10 x11 x12) (val_main_v46 (F := Ideal) x2 x3 x9 x10 x11 x12)
    (val_main_v47 (F := Ideal) x2 x3 x9 x10 x11 x12) (val_main_v48 (F := Ideal) x2 x3 x9 x10 x11 x12)
    (val_main_v51 (F := Ideal) x2 x3 x9 x10 x11 x12) (val_main_v52 (F := Ideal) x2 x3 x9 x10 x11 x12)
    (val_main_v42 (F := Ideal) x2 x3 x9 x10 x11 x12) (val_main_v43 (F := Ideal))
    (val_main_v44 (F := Ideal) x2 x3 x9 x10 x11 x12) (val_main_v49 (F := Ideal) x2 x3 x9 x10 x11 x12)
    (val_main_v45 (F := Ideal) x2 x3 x9 x10 x11 x12) (val_main_v50 (F := Ideal) x2 x3 x9 x10 x11 x12)
    (val_main_cst_3 (F := Ideal)) (val_main_cst_4 (F := Ideal)) (val_main_v53 (F := Ideal) x2 x3 x9 x10 x11 x12 x13 x14)
    lidx_main_v41 ridx_main_v41 idx_main_v43 idx_main_v45 idx_main_v46 idx_main_v49 (Shape.Idx.first h_S_)
    idx_main_v50 idx_main_v51 lidx_main_v53 ridx_main_v53
    _ _ _ (q_obj x2 x9 x10) (k_ent' x3 x11 x12) (v_ent' x3 x13 x14)
    (val_main_v41_apply x2 x3 x9 x10 x11 x12)
    (fun r => reduce_max_row (val_main_v41 (F := Ideal) x2 x3 x9 x10 x11 x12) reducesTo_S512x200000_S512_d1 (by decide) h_S_ r)
    (val_main_cst_3_apply (F := Ideal)) (val_main_v43_apply (F := Ideal))
    (val_main_v44_apply (F := Ideal) x2 x3 x9 x10 x11 x12) (val_main_v45_apply (F := Ideal) x2 x3 x9 x10 x11 x12)
    (val_main_v46_apply (F := Ideal) x2 x3 x9 x10 x11 x12) (val_main_v47_apply (F := Ideal) x2 x3 x9 x10 x11 x12)
    (val_main_v48_apply (F := Ideal) x2 x3 x9 x10 x11 x12) (val_main_cst_4_apply (F := Ideal))
    (val_main_v49_apply x2 x3 x9 x10 x11 x12) (val_main_v50_apply (F := Ideal) x2 x3 x9 x10 x11 x12)
    (val_main_v51_apply (F := Ideal) x2 x3 x9 x10 x11 x12) (val_main_v52_apply (F := Ideal) x2 x3 x9 x10 x11 x12)
    (val_main_v53_apply x2 x3 x9 x10 x11 x12 x13 x14)
    (fun _ _ _ => by idx2) (fun _ _ _ => by idx2) (fun _ _ => by idx1) (fun _ _ => by idx2) (fun _ _ => by idx1)
    (fun _ _ _ => by idx2) (fun _ _ _ => by idx2) r d

/-- The relation branch: the relation queries attend over the relation bank. -/
theorem out_rel (x1 : Arr2 512 512) (x4 : Arr2 10000 512) (x7 : Arr2 512 512) (x8 : Arr1 512) (x15 : Arr2 512 512)
    (x16 : Arr1 512) (x17 : Arr2 512 512) (x18 : Arr1 512) (r d : Fin 512) :
    val_main_v74 (F := Ideal) x1 x4 x7 x8 x15 x16 x17 x18 (ix2 r d)
      = Spec.attend (Spec.lin (m2 x1) (m2 x7) (m1 x8)) (Spec.lin (m2 x4) (m2 x15) (m1 x16))
          (Spec.lin (m2 x4) (m2 x17) (m1 x18)) r d :=
  attend_of (val_main_v7 (F := Ideal) x1 x7 x8) (val_main_v57 (F := Ideal) x4 x15 x16) (val_main_v61 (F := Ideal) x4 x17 x18)
    (val_main_v62 (F := Ideal) x1 x4 x7 x8 x15 x16) (val_main_v67 (F := Ideal) x1 x4 x7 x8 x15 x16)
    (val_main_v68 (F := Ideal) x1 x4 x7 x8 x15 x16) (val_main_v69 (F := Ideal) x1 x4 x7 x8 x15 x16)
    (val_main_v72 (F := Ideal) x1 x4 x7 x8 x15 x16) (val_main_v73 (F := Ideal) x1 x4 x7 x8 x15 x16)
    (val_main_v63 (F := Ideal) x1 x4 x7 x8 x15 x16) (val_main_v64 (F := Ideal))
    (val_main_v65 (F := Ideal) x1 x4 x7 x8 x15 x16) (val_main_v70 (F := Ideal) x1 x4 x7 x8 x15 x16)
    (val_main_v66 (F := Ideal) x1 x4 x7 x8 x15 x16) (val_main_v71 (F := Ideal) x1 x4 x7 x8 x15 x16)
    (val_main_cst_6 (F := Ideal)) (val_main_cst_7 (F := Ideal)) (val_main_v74 (F := Ideal) x1 x4 x7 x8 x15 x16 x17 x18)
    lidx_main_v62 ridx_main_v62 idx_main_v64 idx_main_v66 idx_main_v67 idx_main_v70 (Shape.Idx.first h_S_)
    idx_main_v71 idx_main_v72 lidx_main_v74 ridx_main_v74
    _ _ _ (q_rel x1 x7 x8) (k_rel x4 x15 x16) (v_rel x4 x17 x18)
    (val_main_v62_apply x1 x4 x7 x8 x15 x16)
    (fun r => reduce_max_row (val_main_v62 (F := Ideal) x1 x4 x7 x8 x15 x16) reducesTo_S512x10000_S512_d1 (by decide) h_S_ r)
    (val_main_cst_6_apply (F := Ideal)) (val_main_v64_apply (F := Ideal))
    (val_main_v65_apply (F := Ideal) x1 x4 x7 x8 x15 x16) (val_main_v66_apply (F := Ideal) x1 x4 x7 x8 x15 x16)
    (val_main_v67_apply (F := Ideal) x1 x4 x7 x8 x15 x16) (val_main_v68_apply (F := Ideal) x1 x4 x7 x8 x15 x16)
    (val_main_v69_apply (F := Ideal) x1 x4 x7 x8 x15 x16) (val_main_cst_7_apply (F := Ideal))
    (val_main_v70_apply x1 x4 x7 x8 x15 x16) (val_main_v71_apply (F := Ideal) x1 x4 x7 x8 x15 x16)
    (val_main_v72_apply (F := Ideal) x1 x4 x7 x8 x15 x16) (val_main_v73_apply (F := Ideal) x1 x4 x7 x8 x15 x16)
    (val_main_v74_apply x1 x4 x7 x8 x15 x16 x17 x18)
    (fun _ _ _ => by idx2) (fun _ _ _ => by idx2) (fun _ _ => by idx1) (fun _ _ => by idx2) (fun _ _ => by idx1)
    (fun _ _ _ => by idx2) (fun _ _ _ => by idx2) r d

/-! ### The stacked result -/

/-- The reference's result, entry by entry, is the specification's function of the nineteen argument arrays: the three
    attention outputs, each given a leading axis of extent one, laid one after the other along that axis in the order
    subject, relation, object. -/
theorem result_eq (a0 a1 a2 : Arr2 512 512) (a3 : Arr2 200000 512) (a4 : Arr2 10000 512) (a5 : Arr2 512 512)
    (a6 : Arr1 512) (a7 : Arr2 512 512) (a8 : Arr1 512) (a9 : Arr2 512 512) (a10 : Arr1 512) (a11 : Arr2 512 512)
    (a12 : Arr1 512) (a13 : Arr2 512 512) (a14 : Arr1 512) (a15 : Arr2 512 512) (a16 : Arr1 512) (a17 : Arr2 512 512)
    (a18 : Arr1 512) :
    val_main_v78 (F := Ideal) a0 a1 a2 a3 a4 a5 a6 a7 a8 a9 a10 a11 a12 a13 a14 a15 a16 a17 a18
      = fun i : S3x512x512.Idx =>
          Spec.result (m2 a0) (m2 a1) (m2 a2) (m2 a3) (m2 a4) (m2 a5) (m1 a6) (m2 a7) (m1 a8) (m2 a9) (m1 a10) (m2 a11)
            (m1 a12) (m2 a13) (m1 a14) (m2 a15) (m1 a16) (m2 a17) (m1 a18) (i 0) (i 1) (i 2) := by
  funext i
  obtain ⟨g, r, d, rfl⟩ : ∃ (g : Fin 3) (r d : Fin 512), i = ix3 g r d := ⟨i 0, i 1, i 2, eq_ix3 i⟩
  show val_main_v78 (F := Ideal) a0 a1 a2 a3 a4 a5 a6 a7 a8 a9 a10 a11 a12 a13 a14 a15 a16 a17 a18 (ix3 g r d)
      = Spec.result (m2 a0) (m2 a1) (m2 a2) (m2 a3) (m2 a4) (m2 a5) (m1 a6) (m2 a7) (m1 a8) (m2 a9) (m1 a10) (m2 a11)
          (m1 a12) (m2 a13) (m1 a14) (m2 a15) (m1 a16) (m2 a17) (m1 a18) g r d
  unfold val_main_v78
  match g with
  | ⟨0, _⟩ =>
    refine (concat3_apply_0 (val_main_v75 (F := Ideal) a0 a3 a5 a6 a11 a12 a13 a14)
      (val_main_v76 (F := Ideal) a1 a4 a7 a8 a15 a16 a17 a18) (val_main_v77 (F := Ideal) a2 a3 a9 a10 a11 a12 a13 a14)
      concatenates_S1x512x512_S1x512x512_S1x512x512_S3x512x512_d0 r d).trans ?_
    rw [val_main_v75_apply]
    exact (congrArg _ (by idx2)).trans (out_subj a0 a3 a5 a6 a11 a12 a13 a14 r d)
  | ⟨1, _⟩ =>
    refine (concat3_apply_1 (val_main_v75 (F := Ideal) a0 a3 a5 a6 a11 a12 a13 a14)
      (val_main_v76 (F := Ideal) a1 a4 a7 a8 a15 a16 a17 a18) (val_main_v77 (F := Ideal) a2 a3 a9 a10 a11 a12 a13 a14)
      concatenates_S1x512x512_S1x512x512_S1x512x512_S3x512x512_d0 r d).trans ?_
    rw [val_main_v76_apply]
    exact (congrArg _ (by idx2)).trans (out_rel a1 a4 a7 a8 a15 a16 a17 a18 r d)
  | ⟨2, _⟩ =>
    refine (concat3_apply_2 (val_main_v75 (F := Ideal) a0 a3 a5 a6 a11 a12 a13 a14)
      (val_main_v76 (F := Ideal) a1 a4 a7 a8 a15 a16 a17 a18) (val_main_v77 (F := Ideal) a2 a3 a9 a10 a11 a12 a13 a14)
      concatenates_S1x512x512_S1x512x512_S1x512x512_S3x512x512_d0 r d).trans ?_
    rw [val_main_v77_apply]
    exact (congrArg _ (by idx2)).trans (out_obj a2 a3 a9 a10 a11 a12 a13 a14 r d)

/-! ### The run, with its result read as the specification -/

/-- The specification's result as a function of a launch memory's argument arrays on core c. -/
def specOf (m : (ℓ : Loc nD τ sig) → Buf (Elt Ideal) ℓ) (c : Dev nD) : Buf (Elt Ideal) ((c.tc : Thread nD τ).loc main_v78) :=
  fun i : S3x512x512.Idx =>
    Spec.result (m2 (m ((c.tc : Thread nD τ).loc main_arg0))) (m2 (m ((c.tc : Thread nD τ).loc main_arg1)))
      (m2 (m ((c.tc : Thread nD τ).loc main_arg2))) (m2 (m ((c.tc : Thread nD τ).loc main_arg3)))
      (m2 (m ((c.tc : Thread nD τ).loc main_arg4))) (m2 (m ((c.tc : Thread nD τ).loc main_arg5)))
      (m1 (m ((c.tc : Thread nD τ).loc main_arg6))) (m2 (m ((c.tc : Thread nD τ).loc main_arg7)))
      (m1 (m ((c.tc : Thread nD τ).loc main_arg8))) (m2 (m ((c.tc : Thread nD τ).loc main_arg9)))
      (m1 (m ((c.tc : Thread nD τ).loc main_arg10))) (m2 (m ((c.tc : Thread nD τ).loc main_arg11)))
      (m1 (m ((c.tc : Thread nD τ).loc main_arg12))) (m2 (m ((c.tc : Thread nD τ).loc main_arg13)))
      (m1 (m ((c.tc : Thread nD τ).loc main_arg14))) (m2 (m ((c.tc : Thread nD τ).loc main_arg15)))
      (m1 (m ((c.tc : Thread nD τ).loc main_arg16))) (m2 (m ((c.tc : Thread nD τ).loc main_arg17)))
      (m1 (m ((c.tc : Thread nD τ).loc main_arg18))) (i 0) (i 1) (i 2)

/-- The composed term the run states for the result buffer is the specification's function of the launch memory. -/
theorem res_eq_spec (m : (ℓ : Loc nD τ sig) → Buf (Elt Ideal) ℓ) (c : Dev nD) :
    Cert.ReferenceIdeal.ValueP.res_main_v78 m c = specOf m c :=
  (val_main_v78_eq m c).trans (result_eq _ _ _ _ _ _ _ _ _ _ _ _ _ _ _ _ _ _ _)

/-- Every weakly fair execution of the reference terminates with the result buffer at the specification's function of
    the launch memory's argument arrays, and the nineteen argument arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v78) = specOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run (defs (F := Ideal)) _ _).mono (fun _ h c => ⟨(h c).1.trans (res_eq_spec m c), (h c).2⟩)
    (Cert.ReferenceIdeal.ValueP.run (F := Ideal) m ρ)

/-- The reference's frame: its run with the result dropped. -/
theorem frame_ref : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.ValueP.run (F := Ideal) m ρ)

end Cert.RefSpec

end
-- ==== Proof.Finite.lean ====
import proofs.«157278_j31636729102421_2_alg».proof.Pre_finite_inputs
import proofs.«157278_j31636729102421_2_alg».proof.Proof.Gen.Pre_finite_inputs
import proofs.«157278_j31636729102421_2_alg».proof.Proof.LibRealValued
import Idealize.ShloMosaic.Lib.ReduceAll
import Idealize.ShloMosaic.Lib.ValueIdx
import Idealize.ShloMosaic.Lib.Affine

/-! The precondition, decoded. It says, array by array, that every entry's absolute value is below +∞, as one conjunction of
    nineteen "all" reductions. On the extended reals an entry whose absolute value is below +∞ is a real number (−∞ and +∞
    both have absolute value +∞). So under the precondition every entry of every input array is a real number. -/

noncomputable section

namespace Cert.Finite

open Idealize.ShloMosaic Cert.RealValued Cert.Pre_finite_inputs Cert.Pre_finite_inputs.Facts

instance : Subsingleton S_.Idx := ⟨fun a b => funext fun d => d.elim0⟩

/-- An extended real whose absolute value compares below +∞ is a real number. -/
theorem elem_real (x : EReal) (h : FloatOps.cmpf (F := Ideal) (φ := .f32) .olt (FloatOps.hostAbsf (F := Ideal) (φ := .f32) x) (Ideal.ofBits .f32 0x7F800000#32) = 1#1) : IsReal x := by
  induction x using EReal.rec with
  | bot =>
    exfalso
    simp only [Ideal.ofBits, Ideal.ieee] at h
    change Ideal.cmp .olt (max (⊥ : EReal) (-⊥)) _ = 1#1 at h
    simp [Ideal.cmp] at h
  | coe r => exact ⟨r, rfl⟩
  | top =>
    exfalso
    simp only [Ideal.ofBits, Ideal.ieee] at h
    change Ideal.cmp .olt (max (⊤ : EReal) (-⊤)) _ = 1#1 at h
    simp [Ideal.cmp] at h

/-- One "all" reduction of the precondition says every entry of its array is a real number. -/
theorem all_real {S : Shape} {axes : List (Fin S.rank)} (x : FVec Ideal S .f32) (red : S.ReducesTo axes S_) (bc : S_.BroadcastsInDim S (![] : Fin 0 → Fin S.rank)) (hu : 0 < S_.numel)
    (h : Host.reduce IntOp.andi (cmpf .olt (Host.absf x) (broadcastInDim S ![] bc (constant (F := Ideal) S_ .f32 0x7F800000#32))) (constantI S_ 1 1#1) red hu ValueIdx.ix0 = 1#1)
    (i : S.Idx) : IsReal (x i) := by
  have e := Host.reduce_andi_all _ _ red hu ValueIdx.ix0 h i
  exact elem_real _ e

/-- A conjunction word that is 1 has both its conjuncts 1. -/
theorem andi_split (a b : IVec S_ 1) (h : andi a b ValueIdx.ix0 = 1#1) : a ValueIdx.ix0 = 1#1 ∧ b ValueIdx.ix0 = 1#1 :=
  IntOp.andi_eq_one.mp h

/-- Every entry of every one of the nineteen arrays is a real number. -/
structure AllReal (a0 : FVec Ideal S512x512 .f32) (a1 : FVec Ideal S512x512 .f32) (a2 : FVec Ideal S512x512 .f32) (a3 : FVec Ideal S200000x512 .f32) (a4 : FVec Ideal S10000x512 .f32) (a5 : FVec Ideal S512x512 .f32) (a6 : FVec Ideal S512 .f32) (a7 : FVec Ideal S512x512 .f32) (a8 : FVec Ideal S512 .f32) (a9 : FVec Ideal S512x512 .f32) (a10 : FVec Ideal S512 .f32) (a11 : FVec Ideal S512x512 .f32) (a12 : FVec Ideal S512 .f32) (a13 : FVec Ideal S512x512 .f32) (a14 : FVec Ideal S512 .f32) (a15 : FVec Ideal S512x512 .f32) (a16 : FVec Ideal S512 .f32) (a17 : FVec Ideal S512x512 .f32) (a18 : FVec Ideal S512 .f32) : Prop where
  h0 : ∀ i, IsReal (a0 i)
  h1 : ∀ i, IsReal (a1 i)
  h2 : ∀ i, IsReal (a2 i)
  h3 : ∀ i, IsReal (a3 i)
  h4 : ∀ i, IsReal (a4 i)
  h5 : ∀ i, IsReal (a5 i)
  h6 : ∀ i, IsReal (a6 i)
  h7 : ∀ i, IsReal (a7 i)
  h8 : ∀ i, IsReal (a8 i)
  h9 : ∀ i, IsReal (a9 i)
  h10 : ∀ i, IsReal (a10 i)
  h11 : ∀ i, IsReal (a11 i)
  h12 : ∀ i, IsReal (a12 i)
  h13 : ∀ i, IsReal (a13 i)
  h14 : ∀ i, IsReal (a14 i)
  h15 : ∀ i, IsReal (a15 i)
  h16 : ∀ i, IsReal (a16 i)
  h17 : ∀ i, IsReal (a17 i)
  h18 : ∀ i, IsReal (a18 i)

theorem allReal_of_fn (a0 : FVec Ideal S512x512 .f32) (a1 : FVec Ideal S512x512 .f32) (a2 : FVec Ideal S512x512 .f32) (a3 : FVec Ideal S200000x512 .f32) (a4 : FVec Ideal S10000x512 .f32) (a5 : FVec Ideal S512x512 .f32) (a6 : FVec Ideal S512 .f32) (a7 : FVec Ideal S512x512 .f32) (a8 : FVec Ideal S512 .f32) (a9 : FVec Ideal S512x512 .f32) (a10 : FVec Ideal S512 .f32) (a11 : FVec Ideal S512x512 .f32) (a12 : FVec Ideal S512 .f32) (a13 : FVec Ideal S512x512 .f32) (a14 : FVec Ideal S512 .f32) (a15 : FVec Ideal S512x512 .f32) (a16 : FVec Ideal S512 .f32) (a17 : FVec Ideal S512x512 .f32) (a18 : FVec Ideal S512 .f32)
    (H : Cert.Pre_finite_inputs.fn (F := Ideal) a0 a1 a2 a3 a4 a5 a6 a7 a8 a9 a10 a11 a12 a13 a14 a15 a16 a17 a18 = fun _ => 1#1) : AllReal a0 a1 a2 a3 a4 a5 a6 a7 a8 a9 a10 a11 a12 a13 a14 a15 a16 a17 a18 := by
  have h := congrFun H ValueIdx.ix0
  dsimp only [fn, fn_part1, fn_part2, fn_part3, fn_part4, fn_part5] at h
  obtain ⟨h, h18⟩ := andi_split _ _ h
  obtain ⟨h, h17⟩ := andi_split _ _ h
  obtain ⟨h, h16⟩ := andi_split _ _ h
  obtain ⟨h, h15⟩ := andi_split _ _ h
  obtain ⟨h, h14⟩ := andi_split _ _ h
  obtain ⟨h, h13⟩ := andi_split _ _ h
  obtain ⟨h, h12⟩ := andi_split _ _ h
  obtain ⟨h, h11⟩ := andi_split _ _ h
  obtain ⟨h, h10⟩ := andi_split _ _ h
  obtain ⟨h, h9⟩ := andi_split _ _ h
  obtain ⟨h, h8⟩ := andi_split _ _ h
  obtain ⟨h, h7⟩ := andi_split _ _ h
  obtain ⟨h, h6⟩ := andi_split _ _ h
  obtain ⟨h, h5⟩ := andi_split _ _ h
  obtain ⟨h, h4⟩ := andi_split _ _ h
  obtain ⟨h, h3⟩ := andi_split _ _ h
  obtain ⟨h, h2⟩ := andi_split _ _ h
  obtain ⟨h0, h1⟩ := andi_split _ _ h
  exact ⟨all_real a0 _ _ _ h0, all_real a1 _ _ _ h1, all_real a2 _ _ _ h2, all_real a3 _ _ _ h3, all_real a4 _ _ _ h4, all_real a5 _ _ _ h5, all_real a6 _ _ _ h6, all_real a7 _ _ _ h7, all_real a8 _ _ _ h8, all_real a9 _ _ _ h9, all_real a10 _ _ _ h10, all_real a11 _ _ _ h11, all_real a12 _ _ _ h12, all_real a13 _ _ _ h13, all_real a14 _ _ _ h14, all_real a15 _ _ _ h15, all_real a16 _ _ _ h16, all_real a17 _ _ _ h17, all_real a18 _ _ _ h18⟩

end Cert.Finite

end
-- ==== Proof.lean ====
/- The proof of `Cert.Claim`: the three frames, the idealization's ledger, and the equality of the idealized kernel's and the
   idealized reference's results on the extended reals.

   The program projects three 512 × 512 query matrices through linear layers, projects an entity bank (200000 rows) and a
   relation bank (10000 rows) into keys and values, and returns, stacked, the softmax attention of each projected query
   matrix over its bank. The kernel pads each bank with zero rows to a multiple of a 2048-key tile, projects the padded bank
   in one kernel call, and computes the attention in another by the blockwise ("online") softmax recursion over the key tiles,
   the padded keys' logits replaced by a constant the certificate's table names −∞. On exact numbers a padded key then has
   weight exp (−∞ − M) = 0, the recursion's quotient is the softmax-weighted average over the real keys (distributing the
   normalizer over a finite sum of real numbers: this is where the inputs' finiteness is used), and the two programs return
   the same function of their inputs.

   Frames. Each kernel call's body is run on whole staging buffers (the attention call in its three cases: first, middle and
   last key tile of a query group, its three scratch buffers carried from point to point by the region's invariant), the four
   calls are segments of the main function between stretches of host operations, and every argument array walks back through
   the buffer contents at the segments' boundaries to the launch memory. The reference is a host program; its frame is its run
   with the result dropped. -/
import proofs.«157278_j31636729102421_2_alg».proof.Defs
import proofs.«157278_j31636729102421_2_alg».proof.Proof.Gen.Kernel
import proofs.«157278_j31636729102421_2_alg».proof.Proof.Gen.KernelIdeal
import proofs.«157278_j31636729102421_2_alg».proof.Proof.Gen.ReferenceIdeal
import proofs.«157278_j31636729102421_2_alg».proof.Proof.Gen.Pre_finite_inputs
import proofs.«157278_j31636729102421_2_alg».proof.Proof.KRun
import proofs.«157278_j31636729102421_2_alg».proof.Proof.KIRun
import proofs.«157278_j31636729102421_2_alg».proof.Proof.KIValue
import proofs.«157278_j31636729102421_2_alg».proof.Proof.RefSpec
import proofs.«157278_j31636729102421_2_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-- The word-level kernel's frame. -/
theorem frame_k : Cert.frame_Kernel := fun m ρ _ => Cert.Kernel.Run.frame (F := Bits) m ρ

/-- The idealized kernel's frame. -/
theorem frame_ki : Cert.frame_KernelIdeal := fun m ρ _ => Cert.KernelIdeal.Run.frame (F := Ideal) m ρ

/-- The ledger's two entries (the masked logits' fill in each attention call): the table gives "neg_big" the value −∞, and the
    printed constant is that value on the extended reals. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Under the precondition every entry of every input array is a real number. -/
theorem allReal (m : (ℓ : Loc Cert.KernelIdeal.nD Cert.KernelIdeal.τ Cert.KernelIdeal.sig) → Buf (Elt Ideal) ℓ) (hpre : Cert.Pre_KernelIdeal m)
    (c : Dev Cert.KernelIdeal.nD) : Cert.KernelIdeal.Val.AllReal m c := by
  have F := Cert.Finite.allReal_of_fn _ _ _ _ _ _ _ _ _ _ _ _ _ _ _ _ _ _ _ (hpre c)
  exact ⟨F.h0, F.h1, F.h2, F.h3, F.h4, F.h5, F.h6, F.h7, F.h8, F.h9, F.h10, F.h11, F.h12, F.h13, F.h14, F.h15, F.h16, F.h17, F.h18⟩

/-- The specification's result as a function of the nineteen input arrays. -/
def specR (a0 : FVec Ideal Cert.KernelIdeal.S512x512 .f32) (a1 : FVec Ideal Cert.KernelIdeal.S512x512 .f32) (a2 : FVec Ideal Cert.KernelIdeal.S512x512 .f32) (a3 : FVec Ideal Cert.KernelIdeal.S200000x512 .f32) (a4 : FVec Ideal Cert.KernelIdeal.S10000x512 .f32) (a5 : FVec Ideal Cert.KernelIdeal.S512x512 .f32) (a6 : FVec Ideal Cert.KernelIdeal.S512 .f32) (a7 : FVec Ideal Cert.KernelIdeal.S512x512 .f32) (a8 : FVec Ideal Cert.KernelIdeal.S512 .f32) (a9 : FVec Ideal Cert.KernelIdeal.S512x512 .f32) (a10 : FVec Ideal Cert.KernelIdeal.S512 .f32) (a11 : FVec Ideal Cert.KernelIdeal.S512x512 .f32) (a12 : FVec Ideal Cert.KernelIdeal.S512 .f32) (a13 : FVec Ideal Cert.KernelIdeal.S512x512 .f32) (a14 : FVec Ideal Cert.KernelIdeal.S512 .f32) (a15 : FVec Ideal Cert.KernelIdeal.S512x512 .f32) (a16 : FVec Ideal Cert.KernelIdeal.S512 .f32) (a17 : FVec Ideal Cert.KernelIdeal.S512x512 .f32) (a18 : FVec Ideal Cert.KernelIdeal.S512 .f32) : Cert.KernelIdeal.S3x512x512.Idx → EReal :=
  fun i => Cert.Spec.result (Cert.KernelIdeal.Val.mat (A := 512) (B := 512) a0) (Cert.KernelIdeal.Val.mat (A := 512) (B := 512) a1) (Cert.KernelIdeal.Val.mat (A := 512) (B := 512) a2) (Cert.KernelIdeal.Val.mat (A := 200000) (B := 512) a3) (Cert.KernelIdeal.Val.mat (A := 10000) (B := 512) a4) (Cert.KernelIdeal.Val.mat (A := 512) (B := 512) a5) (Cert.KernelIdeal.Val.vec (A := 512) a6) (Cert.KernelIdeal.Val.mat (A := 512) (B := 512) a7) (Cert.KernelIdeal.Val.vec (A := 512) a8) (Cert.KernelIdeal.Val.mat (A := 512) (B := 512) a9) (Cert.KernelIdeal.Val.vec (A := 512) a10) (Cert.KernelIdeal.Val.mat (A := 512) (B := 512) a11) (Cert.KernelIdeal.Val.vec (A := 512) a12) (Cert.KernelIdeal.Val.mat (A := 512) (B := 512) a13) (Cert.KernelIdeal.Val.vec (A := 512) a14) (Cert.KernelIdeal.Val.mat (A := 512) (B := 512) a15) (Cert.KernelIdeal.Val.vec (A := 512) a16) (Cert.KernelIdeal.Val.mat (A := 512) (B := 512) a17) (Cert.KernelIdeal.Val.vec (A := 512) a18) (i 0) (i 1) (i 2)

set_option maxHeartbeats 8000000 in
open Cert.KernelIdeal Cert.KernelIdeal.Run in
/-- On exact numbers the idealized kernel's result array ends at the specification's function of the inputs (its run, its
    value) and so does the reference's (its generated run, read operation by operation), from memories agreeing on the inputs. -/
theorem algebraic : Cert.algebraic_KernelIdeal_ReferenceIdeal := by
  intro m ρ m' ρ' hpre hagree
  refine ⟨fun c => Cert.KernelIdeal.Val.G m c, ?_, ?_⟩
  · exact (θ_run (Cert.KernelIdeal.defs (F := Ideal)) _ _).mono (fun r h c =>
      ⟨(h c _ (mem_uc main_v38 (by decide))).trans (Cert.KernelIdeal.Val.kernel_value m ρ c (allReal m hpre c)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)
      (run_all (F := Ideal) m ρ)
  · refine (θ_run (Cert.ReferenceIdeal.defs (F := Ideal)) _ _).mono (fun r h c => ⟨(h c).1.trans ?_, (h c).2⟩) (Cert.RefSpec.run_spec m' ρ')
    obtain ⟨e0, e1, e2, e3, e4, e5, e6, e7, e8, e9, e10, e11, e12, e13, e14, e15, e16, e17, e18⟩ := hagree c
    show specR (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = specR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
    rw [e0, e1, e2, e3, e4, e5, e6, e7, e8, e9, e10, e11, e12, e13, e14, e15, e16, e17, e18]

theorem claim : Cert.Claim :=
  ⟨Cert.Kernel.Gen.facts, Cert.KernelIdeal.Gen.facts, Cert.ReferenceIdeal.Gen.facts, Cert.Pre_finite_inputs.Gen.facts,
    frame_k, frame_ki, Cert.RefSpec.frame_ref, preserves, algebraic⟩

end Cert.Proof

end
